-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v215)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v215) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16x256 : Shape := ⟨2, ![16, 256]⟩
abbrev S256 : Shape := ⟨1, ![256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16x256 : S_.BroadcastsInDim S16x256 (![] : Fin 0 → Fin S16x256.rank)
  reducesTo_S16x256_S_d0_1 : S16x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16384x256 .f32) (main_arg1 : FVec F S16x256 .f32) (main_arg2 : FVec F S256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16384x256 : Shape := ⟨2, ![16384, 256]⟩
abbrev S16x256 : Shape := ⟨2, ![16, 256]⟩
abbrev S256 : Shape := ⟨1, ![256]⟩
abbrev S16 : Shape := ⟨1, ![16]⟩
abbrev S256x16 : Shape := ⟨2, ![256, 16]⟩
abbrev S_ : Shape := ⟨0, ![]⟩
abbrev S16x1 : Shape := ⟨2, ![16, 1]⟩
abbrev S16x16 : Shape := ⟨2, ![16, 16]⟩
abbrev S16x120 : Shape := ⟨2, ![16, 120]⟩
abbrev S1 : Shape := ⟨1, ![1]⟩
abbrev S120 : Shape := ⟨1, ![120]⟩
abbrev S1x256 : Shape := ⟨2, ![1, 256]⟩
abbrev S1x1 : Shape := ⟨2, ![1, 1]⟩
abbrev S1x16x16 : Shape := ⟨3, ![1, 16, 16]⟩
abbrev S15x16x16 : Shape := ⟨3, ![15, 16, 16]⟩
abbrev S15x256 : Shape := ⟨2, ![15, 256]⟩
abbrev S1x16 : Shape := ⟨2, ![1, 16]⟩
abbrev S15x16 : Shape := ⟨2, ![15, 16]⟩
abbrev S16384x1 : Shape := ⟨2, ![16384, 1]⟩
abbrev S2048x256 : Shape := ⟨2, ![2048, 256]⟩
abbrev S2048x1 : Shape := ⟨2, ![2048, 1]⟩
abbrev S2048x16 : Shape := ⟨2, ![2048, 16]⟩
abbrev S2048 : Shape := ⟨1, ![2048]⟩

abbrev nBuf : Space → Nat
  | .hbm => 1786
  | .vmem => 11
  | .smem => 0
  | _ => 0

abbrev hbmTy0_0 (i : Nat) : BufTy := match i % 128 with
  | 0 => ⟨S16384x256, .f32⟩
  | 1 => ⟨S16x256, .f32⟩
  | 2 => ⟨S256, .f32⟩
  | 3 => ⟨S16, .i32⟩
  | 4 => ⟨S16, .i1⟩
  | 5 => ⟨S16, .i32⟩
  | 6 => ⟨S16, .i1⟩
  | 7 => ⟨S16, .i32⟩
  | 8 => ⟨S16, .i1⟩
  | 9 => ⟨S16, .i32⟩
  | 10 => ⟨S16, .i1⟩
  | 11 => ⟨S16, .i32⟩
  | 12 => ⟨S16, .i1⟩
  | 13 => ⟨S16, .i32⟩
  | 14 => ⟨S16, .i1⟩
  | 15 => ⟨S16, .i32⟩
  | 16 => ⟨S16, .i1⟩
  | 17 => ⟨S16, .i32⟩
  | 18 => ⟨S16, .i1⟩
  | 19 => ⟨S16, .i32⟩
  | 20 => ⟨S16, .i1⟩
  | 21 => ⟨S16, .i32⟩
  | 22 => ⟨S16, .i1⟩
  | 23 => ⟨S16, .i32⟩
  | 24 => ⟨S16, .i1⟩
  | 25 => ⟨S16, .i32⟩
  | 26 => ⟨S16, .i1⟩
  | 27 => ⟨S16, .i32⟩
  | 28 => ⟨S16, .i1⟩
  | 29 => ⟨S16, .i32⟩
  | 30 => ⟨S16, .i1⟩
  | 31 => ⟨S16, .i32⟩
  | 32 => ⟨S16, .i1⟩
  | 33 => ⟨S16, .i32⟩
  | 34 => ⟨S16, .i1⟩
  | 35 => ⟨S16, .i32⟩
  | 36 => ⟨S16, .i1⟩
  | 37 => ⟨S16, .i32⟩
  | 38 => ⟨S16, .i1⟩
  | 39 => ⟨S16, .i32⟩
  | 40 => ⟨S16, .i1⟩
  | 41 => ⟨S16, .i32⟩
  | 42 => ⟨S16, .i1⟩
  | 43 => ⟨S16, .i32⟩
  | 44 => ⟨S16, .i1⟩
  | 45 => ⟨S16, .i32⟩
  | 46 => ⟨S16, .i1⟩
  | 47 => ⟨S16, .i32⟩
  | 48 => ⟨S16, .i1⟩
  | 49 => ⟨S16, .i32⟩
  | 50 => ⟨S16, .i1⟩
  | 51 => ⟨S16, .i32⟩
  | 52 => ⟨S16, .i1⟩
  | 53 => ⟨S16, .i32⟩
  | 54 => ⟨S16, .i1⟩
  | 55 => ⟨S16, .i32⟩
  | 56 => ⟨S16, .i1⟩
  | 57 => ⟨S16, .i32⟩
  | 58 => ⟨S16, .i1⟩
  | 59 => ⟨S16, .i32⟩
  | 60 => ⟨S16, .i1⟩
  | 61 => ⟨S16, .i32⟩
  | 62 => ⟨S16, .i1⟩
  | 63 => ⟨S256x16, .f32⟩
  | 64 => ⟨S_, .f32⟩
  | 65 => ⟨S16, .f32⟩
  | 66 => ⟨S_, .f32⟩
  | 67 => ⟨S16, .f32⟩
  | 68 => ⟨S16, .f32⟩
  | 69 => ⟨S16x1, .f32⟩
  | 70 => ⟨S16x256, .f32⟩
  | 71 => ⟨S16x256, .f32⟩
  | 72 => ⟨S16x256, .f32⟩
  | 73 => ⟨S_, .f32⟩
  | 74 => ⟨S16, .f32⟩
  | 75 => ⟨S16x1, .f32⟩
  | 76 => ⟨S16x256, .f32⟩
  | 77 => ⟨S16x256, .f32⟩
  | 78 => ⟨S16x16, .f32⟩
  | 79 => ⟨S16x120, .f32⟩
  | 80 => ⟨S16x120, .f32⟩
  | 81 => ⟨S_, .f32⟩
  | 82 => ⟨S_, .f32⟩
  | 83 => ⟨S_, .f32⟩
  | 84 => ⟨S_, .f32⟩
  | 85 => ⟨S1, .f32⟩
  | 86 => ⟨S256, .f32⟩
  | 87 => ⟨S256, .f32⟩
  | 88 => ⟨S256, .f32⟩
  | 89 => ⟨S_, .f32⟩
  | 90 => ⟨S_, .f32⟩
  | 91 => ⟨S1, .f32⟩
  | 92 => ⟨S256, .f32⟩
  | 93 => ⟨S256, .f32⟩
  | 94 => ⟨S16, .f32⟩
  | 95 => ⟨S120, .f32⟩
  | 96 => ⟨S120, .f32⟩
  | 97 => ⟨S1x256, .f32⟩
  | 98 => ⟨S_, .i32⟩
  | 99 => ⟨S16, .i32⟩
  | 100 => ⟨S16, .i1⟩
  | 101 => ⟨S_, .i32⟩
  | 102 => ⟨S16, .i32⟩
  | 103 => ⟨S16, .i32⟩
  | 104 => ⟨S16, .i32⟩
  | 105 => ⟨S16x1, .i32⟩
  | 106 => ⟨S1, .i32⟩
  | 107 => ⟨S_, .i32⟩
  | 108 => ⟨S16x1, .i32⟩
  | 109 => ⟨S16x1, .i1⟩
  | 110 => ⟨S1x1, .i32⟩
  | 111 => ⟨S16x1, .i32⟩
  | 112 => ⟨S16x1, .i1⟩
  | 113 => ⟨S16x1, .i1⟩
  | 114 => ⟨S_, .i1⟩
  | 115 => ⟨S16, .i1⟩
  | 116 => ⟨S16x16, .f32⟩
  | 117 => ⟨S16x16, .i1⟩
  | 118 => ⟨S_, .f32⟩
  | 119 => ⟨S16x16, .f32⟩
  | 120 => ⟨S16x16, .f32⟩
  | 121 => ⟨S_, .f32⟩
  | 122 => ⟨S_, .f32⟩
  | 123 => ⟨S16x16, .i1⟩
  | 124 => ⟨S16x16, .f32⟩
  | 125 => ⟨S16x16, .f32⟩
  | 126 => ⟨S_, .i32⟩
  | 127 => ⟨S16, .i32⟩
  | _ => ⟨S16384x256, .f32⟩

abbrev hbmTy0_1 (i : Nat) : BufTy := match i % 128 with
  | 0 => ⟨S16, .i1⟩
  | 1 => ⟨S_, .i32⟩
  | 2 => ⟨S16, .i32⟩
  | 3 => ⟨S16, .i32⟩
  | 4 => ⟨S16, .i32⟩
  | 5 => ⟨S16x1, .i32⟩
  | 6 => ⟨S1, .i32⟩
  | 7 => ⟨S_, .i32⟩
  | 8 => ⟨S16x1, .i32⟩
  | 9 => ⟨S16x1, .i1⟩
  | 10 => ⟨S1x1, .i32⟩
  | 11 => ⟨S16x1, .i32⟩
  | 12 => ⟨S16x1, .i1⟩
  | 13 => ⟨S16x1, .i1⟩
  | 14 => ⟨S_, .i1⟩
  | 15 => ⟨S16, .i1⟩
  | 16 => ⟨S16x16, .f32⟩
  | 17 => ⟨S16x16, .i1⟩
  | 18 => ⟨S_, .f32⟩
  | 19 => ⟨S16x16, .f32⟩
  | 20 => ⟨S16x16, .f32⟩
  | 21 => ⟨S_, .f32⟩
  | 22 => ⟨S_, .f32⟩
  | 23 => ⟨S16x16, .i1⟩
  | 24 => ⟨S16x16, .f32⟩
  | 25 => ⟨S16x16, .f32⟩
  | 26 => ⟨S_, .i32⟩
  | 27 => ⟨S16, .i32⟩
  | 28 => ⟨S16, .i1⟩
  | 29 => ⟨S_, .i32⟩
  | 30 => ⟨S16, .i32⟩
  | 31 => ⟨S16, .i32⟩
  | 32 => ⟨S16, .i32⟩
  | 33 => ⟨S16x1, .i32⟩
  | 34 => ⟨S1, .i32⟩
  | 35 => ⟨S_, .i32⟩
  | 36 => ⟨S16x1, .i32⟩
  | 37 => ⟨S16x1, .i1⟩
  | 38 => ⟨S1x1, .i32⟩
  | 39 => ⟨S16x1, .i32⟩
  | 40 => ⟨S16x1, .i1⟩
  | 41 => ⟨S16x1, .i1⟩
  | 42 => ⟨S_, .i1⟩
  | 43 => ⟨S16, .i1⟩
  | 44 => ⟨S16x16, .f32⟩
  | 45 => ⟨S16x16, .i1⟩
  | 46 => ⟨S_, .f32⟩
  | 47 => ⟨S16x16, .f32⟩
  | 48 => ⟨S16x16, .f32⟩
  | 49 => ⟨S_, .f32⟩
  | 50 => ⟨S_, .f32⟩
  | 51 => ⟨S16x16, .i1⟩
  | 52 => ⟨S16x16, .f32⟩
  | 53 => ⟨S16x16, .f32⟩
  | 54 => ⟨S_, .i32⟩
  | 55 => ⟨S16, .i32⟩
  | 56 => ⟨S16, .i1⟩
  | 57 => ⟨S_, .i32⟩
  | 58 => ⟨S16, .i32⟩
  | 59 => ⟨S16, .i32⟩
  | 60 => ⟨S16, .i32⟩
  | 61 => ⟨S16x1, .i32⟩
  | 62 => ⟨S1, .i32⟩
  | 63 => ⟨S_, .i32⟩
  | 64 => ⟨S16x1, .i32⟩
  | 65 => ⟨S16x1, .i1⟩
  | 66 => ⟨S1x1, .i32⟩
  | 67 => ⟨S16x1, .i32⟩
  | 68 => ⟨S16x1, .i1⟩
  | 69 => ⟨S16x1, .i1⟩
  | 70 => ⟨S_, .i1⟩
  | 71 => ⟨S16, .i1⟩
  | 72 => ⟨S16x16, .f32⟩
  | 73 => ⟨S16x16, .i1⟩
  | 74 => ⟨S_, .f32⟩
  | 75 => ⟨S16x16, .f32⟩
  | 76 => ⟨S16x16, .f32⟩
  | 77 => ⟨S_, .f32⟩
  | 78 => ⟨S_, .f32⟩
  | 79 => ⟨S16x16, .i1⟩
  | 80 => ⟨S16x16, .f32⟩
  | 81 => ⟨S16x16, .f32⟩
  | 82 => ⟨S_, .i32⟩
  | 83 => ⟨S16, .i32⟩
  | 84 => ⟨S16, .i1⟩
  | 85 => ⟨S_, .i32⟩
  | 86 => ⟨S16, .i32⟩
  | 87 => ⟨S16, .i32⟩
  | 88 => ⟨S16, .i32⟩
  | 89 => ⟨S16x1, .i32⟩
  | 90 => ⟨S1, .i32⟩
  | 91 => ⟨S_, .i32⟩
  | 92 => ⟨S16x1, .i32⟩
  | 93 => ⟨S16x1, .i1⟩
  | 94 => ⟨S1x1, .i32⟩
  | 95 => ⟨S16x1, .i32⟩
  | 96 => ⟨S16x1, .i1⟩
  | 97 => ⟨S16x1, .i1⟩
  | 98 => ⟨S_, .i1⟩
  | 99 => ⟨S16, .i1⟩
  | 100 => ⟨S16x16, .f32⟩
  | 101 => ⟨S16x16, .i1⟩
  | 102 => ⟨S_, .f32⟩
  | 103 => ⟨S16x16, .f32⟩
  | 104 => ⟨S16x16, .f32⟩
  | 105 => ⟨S_, .f32⟩
  | 106 => ⟨S_, .f32⟩
  | 107 => ⟨S16x16, .i1⟩
  | 108 => ⟨S16x16, .f32⟩
  | 109 => ⟨S16x16, .f32⟩
  | 110 => ⟨S_, .i32⟩
  | 111 => ⟨S16, .i32⟩
  | 112 => ⟨S16, .i1⟩
  | 113 => ⟨S_, .i32⟩
  | 114 => ⟨S16, .i32⟩
  | 115 => ⟨S16, .i32⟩
  | 116 => ⟨S16, .i32⟩
  | 117 => ⟨S16x1, .i32⟩
  | 118 => ⟨S1, .i32⟩
  | 119 => ⟨S_, .i32⟩
  | 120 => ⟨S16x1, .i32⟩
  | 121 => ⟨S16x1, .i1⟩
  | 122 => ⟨S1x1, .i32⟩
  | 123 => ⟨S16x1, .i32⟩
  | 124 => ⟨S16x1, .i1⟩
  | 125 => ⟨S16x1, .i1⟩
  | 126 => ⟨S_, .i1⟩
  | 127 => ⟨S16, .i1⟩
  | _ => ⟨S16384x256, .f32⟩

abbrev hbmTy0_2 (i : Nat) : BufTy := match i % 128 with
  | 0 => ⟨S16x16, .f32⟩
  | 1 => ⟨S16x16, .i1⟩
  | 2 => ⟨S_, .f32⟩
  | 3 => ⟨S16x16, .f32⟩
  | 4 => ⟨S16x16, .f32⟩
  | 5 => ⟨S_, .f32⟩
  | 6 => ⟨S_, .f32⟩
  | 7 => ⟨S16x16, .i1⟩
  | 8 => ⟨S16x16, .f32⟩
  | 9 => ⟨S16x16, .f32⟩
  | 10 => ⟨S_, .i32⟩
  | 11 => ⟨S16, .i32⟩
  | 12 => ⟨S16, .i1⟩
  | 13 => ⟨S_, .i32⟩
  | 14 => ⟨S16, .i32⟩
  | 15 => ⟨S16, .i32⟩
  | 16 => ⟨S16, .i32⟩
  | 17 => ⟨S16x1, .i32⟩
  | 18 => ⟨S1, .i32⟩
  | 19 => ⟨S_, .i32⟩
  | 20 => ⟨S16x1, .i32⟩
  | 21 => ⟨S16x1, .i1⟩
  | 22 => ⟨S1x1, .i32⟩
  | 23 => ⟨S16x1, .i32⟩
  | 24 => ⟨S16x1, .i1⟩
  | 25 => ⟨S16x1, .i1⟩
  | 26 => ⟨S_, .i1⟩
  | 27 => ⟨S16, .i1⟩
  | 28 => ⟨S16x16, .f32⟩
  | 29 => ⟨S16x16, .i1⟩
  | 30 => ⟨S_, .f32⟩
  | 31 => ⟨S16x16, .f32⟩
  | 32 => ⟨S16x16, .f32⟩
  | 33 => ⟨S_, .f32⟩
  | 34 => ⟨S_, .f32⟩
  | 35 => ⟨S16x16, .i1⟩
  | 36 => ⟨S16x16, .f32⟩
  | 37 => ⟨S16x16, .f32⟩
  | 38 => ⟨S_, .i32⟩
  | 39 => ⟨S16, .i32⟩
  | 40 => ⟨S16, .i1⟩
  | 41 => ⟨S_, .i32⟩
  | 42 => ⟨S16, .i32⟩
  | 43 => ⟨S16, .i32⟩
  | 44 => ⟨S16, .i32⟩
  | 45 => ⟨S16x1, .i32⟩
  | 46 => ⟨S1, .i32⟩
  | 47 => ⟨S_, .i32⟩
  | 48 => ⟨S16x1, .i32⟩
  | 49 => ⟨S16x1, .i1⟩
  | 50 => ⟨S1x1, .i32⟩
  | 51 => ⟨S16x1, .i32⟩
  | 52 => ⟨S16x1, .i1⟩
  | 53 => ⟨S16x1, .i1⟩
  | 54 => ⟨S_, .i1⟩
  | 55 => ⟨S16, .i1⟩
  | 56 => ⟨S16x16, .f32⟩
  | 57 => ⟨S16x16, .i1⟩
  | 58 => ⟨S_, .f32⟩
  | 59 => ⟨S16x16, .f32⟩
  | 60 => ⟨S16x16, .f32⟩
  | 61 => ⟨S_, .f32⟩
  | 62 => ⟨S_, .f32⟩
  | 63 => ⟨S16x16, .i1⟩
  | 64 => ⟨S16x16, .f32⟩
  | 65 => ⟨S16x16, .f32⟩
  | 66 => ⟨S_, .i32⟩
  | 67 => ⟨S16, .i32⟩
  | 68 => ⟨S16, .i1⟩
  | 69 => ⟨S_, .i32⟩
  | 70 => ⟨S16, .i32⟩
  | 71 => ⟨S16, .i32⟩
  | 72 => ⟨S16, .i32⟩
  | 73 => ⟨S16x1, .i32⟩
  | 74 => ⟨S1, .i32⟩
  | 75 => ⟨S_, .i32⟩
  | 76 => ⟨S16x1, .i32⟩
  | 77 => ⟨S16x1, .i1⟩
  | 78 => ⟨S1x1, .i32⟩
  | 79 => ⟨S16x1, .i32⟩
  | 80 => ⟨S16x1, .i1⟩
  | 81 => ⟨S16x1, .i1⟩
  | 82 => ⟨S_, .i1⟩
  | 83 => ⟨S16, .i1⟩
  | 84 => ⟨S16x16, .f32⟩
  | 85 => ⟨S16x16, .i1⟩
  | 86 => ⟨S_, .f32⟩
  | 87 => ⟨S16x16, .f32⟩
  | 88 => ⟨S16x16, .f32⟩
  | 89 => ⟨S_, .f32⟩
  | 90 => ⟨S_, .f32⟩
  | 91 => ⟨S16x16, .i1⟩
  | 92 => ⟨S16x16, .f32⟩
  | 93 => ⟨S16x16, .f32⟩
  | 94 => ⟨S_, .i32⟩
  | 95 => ⟨S16, .i32⟩
  | 96 => ⟨S16, .i1⟩
  | 97 => ⟨S_, .i32⟩
  | 98 => ⟨S16, .i32⟩
  | 99 => ⟨S16, .i32⟩
  | 100 => ⟨S16, .i32⟩
  | 101 => ⟨S16x1, .i32⟩
  | 102 => ⟨S1, .i32⟩
  | 103 => ⟨S_, .i32⟩
  | 104 => ⟨S16x1, .i32⟩
  | 105 => ⟨S16x1, .i1⟩
  | 106 => ⟨S1x1, .i32⟩
  | 107 => ⟨S16x1, .i32⟩
  | 108 => ⟨S16x1, .i1⟩
  | 109 => ⟨S16x1, .i1⟩
  | 110 => ⟨S_, .i1⟩
  | 111 => ⟨S16, .i1⟩
  | 112 => ⟨S16x16, .f32⟩
  | 113 => ⟨S16x16, .i1⟩
  | 114 => ⟨S_, .f32⟩
  | 115 => ⟨S16x16, .f32⟩
  | 116 => ⟨S16x16, .f32⟩
  | 117 => ⟨S_, .f32⟩
  | 118 => ⟨S_, .f32⟩
  | 119 => ⟨S16x16, .i1⟩
  | 120 => ⟨S16x16, .f32⟩
  | 121 => ⟨S16x16, .f32⟩
  | 122 => ⟨S_, .i32⟩
  | 123 => ⟨S16, .i32⟩
  | 124 => ⟨S16, .i1⟩
  | 125 => ⟨S_, .i32⟩
  | 126 => ⟨S16, .i32⟩
  | 127 => ⟨S16, .i32⟩
  | _ => ⟨S16384x256, .f32⟩

abbrev hbmTy0_3 (i : Nat) : BufTy := match i % 128 with
  | 0 => ⟨S16, .i32⟩
  | 1 => ⟨S16x1, .i32⟩
  | 2 => ⟨S1, .i32⟩
  | 3 => ⟨S_, .i32⟩
  | 4 => ⟨S16x1, .i32⟩
  | 5 => ⟨S16x1, .i1⟩
  | 6 => ⟨S1x1, .i32⟩
  | 7 => ⟨S16x1, .i32⟩
  | 8 => ⟨S16x1, .i1⟩
  | 9 => ⟨S16x1, .i1⟩
  | 10 => ⟨S_, .i1⟩
  | 11 => ⟨S16, .i1⟩
  | 12 => ⟨S16x16, .f32⟩
  | 13 => ⟨S16x16, .i1⟩
  | 14 => ⟨S_, .f32⟩
  | 15 => ⟨S16x16, .f32⟩
  | 16 => ⟨S16x16, .f32⟩
  | 17 => ⟨S_, .f32⟩
  | 18 => ⟨S_, .f32⟩
  | 19 => ⟨S16x16, .i1⟩
  | 20 => ⟨S16x16, .f32⟩
  | 21 => ⟨S16x16, .f32⟩
  | 22 => ⟨S_, .i32⟩
  | 23 => ⟨S16, .i32⟩
  | 24 => ⟨S16, .i1⟩
  | 25 => ⟨S_, .i32⟩
  | 26 => ⟨S16, .i32⟩
  | 27 => ⟨S16, .i32⟩
  | 28 => ⟨S16, .i32⟩
  | 29 => ⟨S16x1, .i32⟩
  | 30 => ⟨S1, .i32⟩
  | 31 => ⟨S_, .i32⟩
  | 32 => ⟨S16x1, .i32⟩
  | 33 => ⟨S16x1, .i1⟩
  | 34 => ⟨S1x1, .i32⟩
  | 35 => ⟨S16x1, .i32⟩
  | 36 => ⟨S16x1, .i1⟩
  | 37 => ⟨S16x1, .i1⟩
  | 38 => ⟨S_, .i1⟩
  | 39 => ⟨S16, .i1⟩
  | 40 => ⟨S16x16, .f32⟩
  | 41 => ⟨S16x16, .i1⟩
  | 42 => ⟨S_, .f32⟩
  | 43 => ⟨S16x16, .f32⟩
  | 44 => ⟨S16x16, .f32⟩
  | 45 => ⟨S_, .f32⟩
  | 46 => ⟨S_, .f32⟩
  | 47 => ⟨S16x16, .i1⟩
  | 48 => ⟨S16x16, .f32⟩
  | 49 => ⟨S16x16, .f32⟩
  | 50 => ⟨S_, .i32⟩
  | 51 => ⟨S16, .i32⟩
  | 52 => ⟨S16, .i1⟩
  | 53 => ⟨S_, .i32⟩
  | 54 => ⟨S16, .i32⟩
  | 55 => ⟨S16, .i32⟩
  | 56 => ⟨S16, .i32⟩
  | 57 => ⟨S16x1, .i32⟩
  | 58 => ⟨S1, .i32⟩
  | 59 => ⟨S_, .i32⟩
  | 60 => ⟨S16x1, .i32⟩
  | 61 => ⟨S16x1, .i1⟩
  | 62 => ⟨S1x1, .i32⟩
  | 63 => ⟨S16x1, .i32⟩
  | 64 => ⟨S16x1, .i1⟩
  | 65 => ⟨S16x1, .i1⟩
  | 66 => ⟨S_, .i1⟩
  | 67 => ⟨S16, .i1⟩
  | 68 => ⟨S16x16, .f32⟩
  | 69 => ⟨S16x16, .i1⟩
  | 70 => ⟨S_, .f32⟩
  | 71 => ⟨S16x16, .f32⟩
  | 72 => ⟨S16x16, .f32⟩
  | 73 => ⟨S_, .f32⟩
  | 74 => ⟨S_, .f32⟩
  | 75 => ⟨S16x16, .i1⟩
  | 76 => ⟨S16x16, .f32⟩
  | 77 => ⟨S16x16, .f32⟩
  | 78 => ⟨S_, .i32⟩
  | 79 => ⟨S16, .i32⟩
  | 80 => ⟨S16, .i1⟩
  | 81 => ⟨S_, .i32⟩
  | 82 => ⟨S16, .i32⟩
  | 83 => ⟨S16, .i32⟩
  | 84 => ⟨S16, .i32⟩
  | 85 => ⟨S16x1, .i32⟩
  | 86 => ⟨S1, .i32⟩
  | 87 => ⟨S_, .i32⟩
  | 88 => ⟨S16x1, .i32⟩
  | 89 => ⟨S16x1, .i1⟩
  | 90 => ⟨S1x1, .i32⟩
  | 91 => ⟨S16x1, .i32⟩
  | 92 => ⟨S16x1, .i1⟩
  | 93 => ⟨S16x1, .i1⟩
  | 94 => ⟨S_, .i1⟩
  | 95 => ⟨S16, .i1⟩
  | 96 => ⟨S16x16, .f32⟩
  | 97 => ⟨S16x16, .i1⟩
  | 98 => ⟨S_, .f32⟩
  | 99 => ⟨S16x16, .f32⟩
  | 100 => ⟨S16x16, .f32⟩
  | 101 => ⟨S_, .f32⟩
  | 102 => ⟨S_, .f32⟩
  | 103 => ⟨S16x16, .i1⟩
  | 104 => ⟨S16x16, .f32⟩
  | 105 => ⟨S16x16, .f32⟩
  | 106 => ⟨S_, .i32⟩
  | 107 => ⟨S16, .i32⟩
  | 108 => ⟨S16, .i1⟩
  | 109 => ⟨S_, .i32⟩
  | 110 => ⟨S16, .i32⟩
  | 111 => ⟨S16, .i32⟩
  | 112 => ⟨S16, .i32⟩
  | 113 => ⟨S16x1, .i32⟩
  | 114 => ⟨S1, .i32⟩
  | 115 => ⟨S_, .i32⟩
  | 116 => ⟨S16x1, .i32⟩
  | 117 => ⟨S16x1, .i1⟩
  | 118 => ⟨S1x1, .i32⟩
  | 119 => ⟨S16x1, .i32⟩
  | 120 => ⟨S16x1, .i1⟩
  | 121 => ⟨S16x1, .i1⟩
  | 122 => ⟨S_, .i1⟩
  | 123 => ⟨S16, .i1⟩
  | 124 => ⟨S16x16, .f32⟩
  | 125 => ⟨S16x16, .i1⟩
  | 126 => ⟨S_, .f32⟩
  | 127 => ⟨S16x16, .f32⟩
  | _ => ⟨S16384x256, .f32⟩

abbrev hbmTy0_4 (i : Nat) : BufTy := match i % 128 with
  | 0 => ⟨S16x16, .f32⟩
  | 1 => ⟨S_, .f32⟩
  | 2 => ⟨S_, .f32⟩
  | 3 => ⟨S16x16, .i1⟩
  | 4 => ⟨S16x16, .f32⟩
  | 5 => ⟨S16x16, .f32⟩
  | 6 => ⟨S_, .i32⟩
  | 7 => ⟨S16, .i32⟩
  | 8 => ⟨S16, .i1⟩
  | 9 => ⟨S_, .i32⟩
  | 10 => ⟨S16, .i32⟩
  | 11 => ⟨S16, .i32⟩
  | 12 => ⟨S16, .i32⟩
  | 13 => ⟨S16x1, .i32⟩
  | 14 => ⟨S1, .i32⟩
  | 15 => ⟨S_, .i32⟩
  | 16 => ⟨S16x1, .i32⟩
  | 17 => ⟨S16x1, .i1⟩
  | 18 => ⟨S1x1, .i32⟩
  | 19 => ⟨S16x1, .i32⟩
  | 20 => ⟨S16x1, .i1⟩
  | 21 => ⟨S16x1, .i1⟩
  | 22 => ⟨S_, .i1⟩
  | 23 => ⟨S16, .i1⟩
  | 24 => ⟨S16x16, .f32⟩
  | 25 => ⟨S16x16, .i1⟩
  | 26 => ⟨S_, .f32⟩
  | 27 => ⟨S16x16, .f32⟩
  | 28 => ⟨S16x16, .f32⟩
  | 29 => ⟨S_, .f32⟩
  | 30 => ⟨S_, .f32⟩
  | 31 => ⟨S16x16, .i1⟩
  | 32 => ⟨S16x16, .f32⟩
  | 33 => ⟨S16x16, .f32⟩
  | 34 => ⟨S_, .i32⟩
  | 35 => ⟨S16, .i32⟩
  | 36 => ⟨S16, .i1⟩
  | 37 => ⟨S_, .i32⟩
  | 38 => ⟨S16, .i32⟩
  | 39 => ⟨S16, .i32⟩
  | 40 => ⟨S16, .i32⟩
  | 41 => ⟨S16x1, .i32⟩
  | 42 => ⟨S1, .i32⟩
  | 43 => ⟨S_, .i32⟩
  | 44 => ⟨S16x1, .i32⟩
  | 45 => ⟨S16x1, .i1⟩
  | 46 => ⟨S1x1, .i32⟩
  | 47 => ⟨S16x1, .i32⟩
  | 48 => ⟨S16x1, .i1⟩
  | 49 => ⟨S16x1, .i1⟩
  | 50 => ⟨S_, .i1⟩
  | 51 => ⟨S16, .i1⟩
  | 52 => ⟨S16x16, .f32⟩
  | 53 => ⟨S16x16, .i1⟩
  | 54 => ⟨S_, .f32⟩
  | 55 => ⟨S16x16, .f32⟩
  | 56 => ⟨S16x16, .f32⟩
  | 57 => ⟨S_, .f32⟩
  | 58 => ⟨S_, .f32⟩
  | 59 => ⟨S16x16, .i1⟩
  | 60 => ⟨S16x16, .f32⟩
  | 61 => ⟨S16x16, .f32⟩
  | 62 => ⟨S_, .i32⟩
  | 63 => ⟨S16, .i32⟩
  | 64 => ⟨S16, .i1⟩
  | 65 => ⟨S_, .i32⟩
  | 66 => ⟨S16, .i32⟩
  | 67 => ⟨S16, .i32⟩
  | 68 => ⟨S16, .i32⟩
  | 69 => ⟨S16x1, .i32⟩
  | 70 => ⟨S1, .i32⟩
  | 71 => ⟨S_, .i32⟩
  | 72 => ⟨S16x1, .i32⟩
  | 73 => ⟨S16x1, .i1⟩
  | 74 => ⟨S1x1, .i32⟩
  | 75 => ⟨S16x1, .i32⟩
  | 76 => ⟨S16x1, .i1⟩
  | 77 => ⟨S16x1, .i1⟩
  | 78 => ⟨S_, .i1⟩
  | 79 => ⟨S16, .i1⟩
  | 80 => ⟨S16x16, .f32⟩
  | 81 => ⟨S16x16, .i1⟩
  | 82 => ⟨S_, .f32⟩
  | 83 => ⟨S16x16, .f32⟩
  | 84 => ⟨S16x16, .f32⟩
  | 85 => ⟨S_, .f32⟩
  | 86 => ⟨S_, .f32⟩
  | 87 => ⟨S16x16, .i1⟩
  | 88 => ⟨S16x16, .f32⟩
  | 89 => ⟨S16x16, .f32⟩
  | 90 => ⟨S_, .i32⟩
  | 91 => ⟨S16, .i32⟩
  | 92 => ⟨S16, .i1⟩
  | 93 => ⟨S_, .i32⟩
  | 94 => ⟨S16, .i32⟩
  | 95 => ⟨S16, .i32⟩
  | 96 => ⟨S16, .i32⟩
  | 97 => ⟨S16x1, .i32⟩
  | 98 => ⟨S1, .i32⟩
  | 99 => ⟨S_, .i32⟩
  | 100 => ⟨S16x1, .i32⟩
  | 101 => ⟨S16x1, .i1⟩
  | 102 => ⟨S1x1, .i32⟩
  | 103 => ⟨S16x1, .i32⟩
  | 104 => ⟨S16x1, .i1⟩
  | 105 => ⟨S16x1, .i1⟩
  | 106 => ⟨S_, .i1⟩
  | 107 => ⟨S16, .i1⟩
  | 108 => ⟨S16x16, .f32⟩
  | 109 => ⟨S16x16, .i1⟩
  | 110 => ⟨S_, .f32⟩
  | 111 => ⟨S16x16, .f32⟩
  | 112 => ⟨S16x16, .f32⟩
  | 113 => ⟨S_, .f32⟩
  | 114 => ⟨S_, .f32⟩
  | 115 => ⟨S16x16, .i1⟩
  | 116 => ⟨S16x16, .f32⟩
  | 117 => ⟨S16x16, .f32⟩
  | 118 => ⟨S_, .i32⟩
  | 119 => ⟨S16, .i32⟩
  | 120 => ⟨S16, .i1⟩
  | 121 => ⟨S_, .i32⟩
  | 122 => ⟨S16, .i32⟩
  | 123 => ⟨S16, .i32⟩
  | 124 => ⟨S16, .i32⟩
  | 125 => ⟨S16x1, .i32⟩
  | 126 => ⟨S1, .i32⟩
  | 127 => ⟨S_, .i32⟩
  | _ => ⟨S16384x256, .f32⟩

abbrev hbmTy0_5 (i : Nat) : BufTy := match i % 128 with
  | 0 => ⟨S16x1, .i32⟩
  | 1 => ⟨S16x1, .i1⟩
  | 2 => ⟨S1x1, .i32⟩
  | 3 => ⟨S16x1, .i32⟩
  | 4 => ⟨S16x1, .i1⟩
  | 5 => ⟨S16x1, .i1⟩
  | 6 => ⟨S_, .i1⟩
  | 7 => ⟨S16, .i1⟩
  | 8 => ⟨S16x16, .f32⟩
  | 9 => ⟨S16x16, .i1⟩
  | 10 => ⟨S_, .f32⟩
  | 11 => ⟨S16x16, .f32⟩
  | 12 => ⟨S16x16, .f32⟩
  | 13 => ⟨S_, .f32⟩
  | 14 => ⟨S_, .f32⟩
  | 15 => ⟨S16x16, .i1⟩
  | 16 => ⟨S16x16, .f32⟩
  | 17 => ⟨S16x16, .f32⟩
  | 18 => ⟨S_, .i32⟩
  | 19 => ⟨S16, .i32⟩
  | 20 => ⟨S16, .i1⟩
  | 21 => ⟨S_, .i32⟩
  | 22 => ⟨S16, .i32⟩
  | 23 => ⟨S16, .i32⟩
  | 24 => ⟨S16, .i32⟩
  | 25 => ⟨S16x1, .i32⟩
  | 26 => ⟨S1, .i32⟩
  | 27 => ⟨S_, .i32⟩
  | 28 => ⟨S16x1, .i32⟩
  | 29 => ⟨S16x1, .i1⟩
  | 30 => ⟨S1x1, .i32⟩
  | 31 => ⟨S16x1, .i32⟩
  | 32 => ⟨S16x1, .i1⟩
  | 33 => ⟨S16x1, .i1⟩
  | 34 => ⟨S_, .i1⟩
  | 35 => ⟨S16, .i1⟩
  | 36 => ⟨S16x16, .f32⟩
  | 37 => ⟨S16x16, .i1⟩
  | 38 => ⟨S_, .f32⟩
  | 39 => ⟨S16x16, .f32⟩
  | 40 => ⟨S16x16, .f32⟩
  | 41 => ⟨S_, .f32⟩
  | 42 => ⟨S_, .f32⟩
  | 43 => ⟨S16x16, .i1⟩
  | 44 => ⟨S16x16, .f32⟩
  | 45 => ⟨S16x16, .f32⟩
  | 46 => ⟨S_, .i32⟩
  | 47 => ⟨S16, .i32⟩
  | 48 => ⟨S16, .i1⟩
  | 49 => ⟨S_, .i32⟩
  | 50 => ⟨S16, .i32⟩
  | 51 => ⟨S16, .i32⟩
  | 52 => ⟨S16, .i32⟩
  | 53 => ⟨S16x1, .i32⟩
  | 54 => ⟨S1, .i32⟩
  | 55 => ⟨S_, .i32⟩
  | 56 => ⟨S16x1, .i32⟩
  | 57 => ⟨S16x1, .i1⟩
  | 58 => ⟨S1x1, .i32⟩
  | 59 => ⟨S16x1, .i32⟩
  | 60 => ⟨S16x1, .i1⟩
  | 61 => ⟨S16x1, .i1⟩
  | 62 => ⟨S_, .i1⟩
  | 63 => ⟨S16, .i1⟩
  | 64 => ⟨S16x16, .f32⟩
  | 65 => ⟨S16x16, .i1⟩
  | 66 => ⟨S_, .f32⟩
  | 67 => ⟨S16x16, .f32⟩
  | 68 => ⟨S16x16, .f32⟩
  | 69 => ⟨S_, .f32⟩
  | 70 => ⟨S_, .f32⟩
  | 71 => ⟨S16x16, .i1⟩
  | 72 => ⟨S16x16, .f32⟩
  | 73 => ⟨S16x16, .f32⟩
  | 74 => ⟨S_, .i32⟩
  | 75 => ⟨S16, .i32⟩
  | 76 => ⟨S16, .i1⟩
  | 77 => ⟨S_, .i32⟩
  | 78 => ⟨S16, .i32⟩
  | 79 => ⟨S16, .i32⟩
  | 80 => ⟨S16, .i32⟩
  | 81 => ⟨S16x1, .i32⟩
  | 82 => ⟨S1, .i32⟩
  | 83 => ⟨S_, .i32⟩
  | 84 => ⟨S16x1, .i32⟩
  | 85 => ⟨S16x1, .i1⟩
  | 86 => ⟨S1x1, .i32⟩
  | 87 => ⟨S16x1, .i32⟩
  | 88 => ⟨S16x1, .i1⟩
  | 89 => ⟨S16x1, .i1⟩
  | 90 => ⟨S_, .i1⟩
  | 91 => ⟨S16, .i1⟩
  | 92 => ⟨S16x16, .f32⟩
  | 93 => ⟨S16x16, .i1⟩
  | 94 => ⟨S_, .f32⟩
  | 95 => ⟨S16x16, .f32⟩
  | 96 => ⟨S16x16, .f32⟩
  | 97 => ⟨S_, .f32⟩
  | 98 => ⟨S_, .f32⟩
  | 99 => ⟨S16x16, .i1⟩
  | 100 => ⟨S16x16, .f32⟩
  | 101 => ⟨S16x16, .f32⟩
  | 102 => ⟨S_, .i32⟩
  | 103 => ⟨S16, .i32⟩
  | 104 => ⟨S16, .i1⟩
  | 105 => ⟨S_, .i32⟩
  | 106 => ⟨S16, .i32⟩
  | 107 => ⟨S16, .i32⟩
  | 108 => ⟨S16, .i32⟩
  | 109 => ⟨S16x1, .i32⟩
  | 110 => ⟨S1, .i32⟩
  | 111 => ⟨S_, .i32⟩
  | 112 => ⟨S16x1, .i32⟩
  | 113 => ⟨S16x1, .i1⟩
  | 114 => ⟨S1x1, .i32⟩
  | 115 => ⟨S16x1, .i32⟩
  | 116 => ⟨S16x1, .i1⟩
  | 117 => ⟨S16x1, .i1⟩
  | 118 => ⟨S_, .i1⟩
  | 119 => ⟨S16, .i1⟩
  | 120 => ⟨S16x16, .f32⟩
  | 121 => ⟨S16x16, .i1⟩
  | 122 => ⟨S_, .f32⟩
  | 123 => ⟨S16x16, .f32⟩
  | 124 => ⟨S16x16, .f32⟩
  | 125 => ⟨S_, .f32⟩
  | 126 => ⟨S_, .f32⟩
  | 127 => ⟨S16x16, .i1⟩
  | _ => ⟨S16384x256, .f32⟩

abbrev hbmTy0_6 (i : Nat) : BufTy := match i % 128 with
  | 0 => ⟨S16x16, .f32⟩
  | 1 => ⟨S16x16, .f32⟩
  | 2 => ⟨S_, .i32⟩
  | 3 => ⟨S16, .i32⟩
  | 4 => ⟨S16, .i1⟩
  | 5 => ⟨S_, .i32⟩
  | 6 => ⟨S16, .i32⟩
  | 7 => ⟨S16, .i32⟩
  | 8 => ⟨S16, .i32⟩
  | 9 => ⟨S16x1, .i32⟩
  | 10 => ⟨S1, .i32⟩
  | 11 => ⟨S_, .i32⟩
  | 12 => ⟨S16x1, .i32⟩
  | 13 => ⟨S16x1, .i1⟩
  | 14 => ⟨S1x1, .i32⟩
  | 15 => ⟨S16x1, .i32⟩
  | 16 => ⟨S16x1, .i1⟩
  | 17 => ⟨S16x1, .i1⟩
  | 18 => ⟨S_, .i1⟩
  | 19 => ⟨S16, .i1⟩
  | 20 => ⟨S16x16, .f32⟩
  | 21 => ⟨S16x16, .i1⟩
  | 22 => ⟨S_, .f32⟩
  | 23 => ⟨S16x16, .f32⟩
  | 24 => ⟨S16x16, .f32⟩
  | 25 => ⟨S_, .f32⟩
  | 26 => ⟨S_, .f32⟩
  | 27 => ⟨S16x16, .i1⟩
  | 28 => ⟨S16x16, .f32⟩
  | 29 => ⟨S16x16, .f32⟩
  | 30 => ⟨S_, .i32⟩
  | 31 => ⟨S16, .i32⟩
  | 32 => ⟨S16, .i1⟩
  | 33 => ⟨S_, .i32⟩
  | 34 => ⟨S16, .i32⟩
  | 35 => ⟨S16, .i32⟩
  | 36 => ⟨S16, .i32⟩
  | 37 => ⟨S16x1, .i32⟩
  | 38 => ⟨S1, .i32⟩
  | 39 => ⟨S_, .i32⟩
  | 40 => ⟨S16x1, .i32⟩
  | 41 => ⟨S16x1, .i1⟩
  | 42 => ⟨S1x1, .i32⟩
  | 43 => ⟨S16x1, .i32⟩
  | 44 => ⟨S16x1, .i1⟩
  | 45 => ⟨S16x1, .i1⟩
  | 46 => ⟨S_, .i1⟩
  | 47 => ⟨S16, .i1⟩
  | 48 => ⟨S16x16, .f32⟩
  | 49 => ⟨S16x16, .i1⟩
  | 50 => ⟨S_, .f32⟩
  | 51 => ⟨S16x16, .f32⟩
  | 52 => ⟨S16x16, .f32⟩
  | 53 => ⟨S_, .f32⟩
  | 54 => ⟨S_, .f32⟩
  | 55 => ⟨S16x16, .i1⟩
  | 56 => ⟨S16x16, .f32⟩
  | 57 => ⟨S16x16, .f32⟩
  | 58 => ⟨S_, .i32⟩
  | 59 => ⟨S16, .i32⟩
  | 60 => ⟨S16, .i1⟩
  | 61 => ⟨S_, .i32⟩
  | 62 => ⟨S16, .i32⟩
  | 63 => ⟨S16, .i32⟩
  | 64 => ⟨S16, .i32⟩
  | 65 => ⟨S16x1, .i32⟩
  | 66 => ⟨S1, .i32⟩
  | 67 => ⟨S_, .i32⟩
  | 68 => ⟨S16x1, .i32⟩
  | 69 => ⟨S16x1, .i1⟩
  | 70 => ⟨S1x1, .i32⟩
  | 71 => ⟨S16x1, .i32⟩
  | 72 => ⟨S16x1, .i1⟩
  | 73 => ⟨S16x1, .i1⟩
  | 74 => ⟨S_, .i1⟩
  | 75 => ⟨S16, .i1⟩
  | 76 => ⟨S16x16, .f32⟩
  | 77 => ⟨S16x16, .i1⟩
  | 78 => ⟨S_, .f32⟩
  | 79 => ⟨S16x16, .f32⟩
  | 80 => ⟨S16x16, .f32⟩
  | 81 => ⟨S_, .f32⟩
  | 82 => ⟨S_, .f32⟩
  | 83 => ⟨S16x16, .i1⟩
  | 84 => ⟨S16x16, .f32⟩
  | 85 => ⟨S16x16, .f32⟩
  | 86 => ⟨S_, .i32⟩
  | 87 => ⟨S16, .i32⟩
  | 88 => ⟨S16, .i1⟩
  | 89 => ⟨S_, .i32⟩
  | 90 => ⟨S16, .i32⟩
  | 91 => ⟨S16, .i32⟩
  | 92 => ⟨S16, .i32⟩
  | 93 => ⟨S16x1, .i32⟩
  | 94 => ⟨S1, .i32⟩
  | 95 => ⟨S_, .i32⟩
  | 96 => ⟨S16x1, .i32⟩
  | 97 => ⟨S16x1, .i1⟩
  | 98 => ⟨S1x1, .i32⟩
  | 99 => ⟨S16x1, .i32⟩
  | 100 => ⟨S16x1, .i1⟩
  | 101 => ⟨S16x1, .i1⟩
  | 102 => ⟨S_, .i1⟩
  | 103 => ⟨S16, .i1⟩
  | 104 => ⟨S16x16, .f32⟩
  | 105 => ⟨S16x16, .i1⟩
  | 106 => ⟨S_, .f32⟩
  | 107 => ⟨S16x16, .f32⟩
  | 108 => ⟨S16x16, .f32⟩
  | 109 => ⟨S_, .f32⟩
  | 110 => ⟨S_, .f32⟩
  | 111 => ⟨S16x16, .i1⟩
  | 112 => ⟨S16x16, .f32⟩
  | 113 => ⟨S16x16, .f32⟩
  | 114 => ⟨S_, .i32⟩
  | 115 => ⟨S16, .i32⟩
  | 116 => ⟨S16, .i1⟩
  | 117 => ⟨S_, .i32⟩
  | 118 => ⟨S16, .i32⟩
  | 119 => ⟨S16, .i32⟩
  | 120 => ⟨S16, .i32⟩
  | 121 => ⟨S16x1, .i32⟩
  | 122 => ⟨S1, .i32⟩
  | 123 => ⟨S_, .i32⟩
  | 124 => ⟨S16x1, .i32⟩
  | 125 => ⟨S16x1, .i1⟩
  | 126 => ⟨S1x1, .i32⟩
  | 127 => ⟨S16x1, .i32⟩
  | _ => ⟨S16384x256, .f32⟩

abbrev hbmTy0_7 (i : Nat) : BufTy := match i % 128 with
  | 0 => ⟨S16x1, .i1⟩
  | 1 => ⟨S16x1, .i1⟩
  | 2 => ⟨S_, .i1⟩
  | 3 => ⟨S16, .i1⟩
  | 4 => ⟨S16x16, .f32⟩
  | 5 => ⟨S16x16, .i1⟩
  | 6 => ⟨S_, .f32⟩
  | 7 => ⟨S16x16, .f32⟩
  | 8 => ⟨S16x16, .f32⟩
  | 9 => ⟨S_, .f32⟩
  | 10 => ⟨S_, .f32⟩
  | 11 => ⟨S16x16, .i1⟩
  | 12 => ⟨S16x16, .f32⟩
  | 13 => ⟨S16x16, .f32⟩
  | 14 => ⟨S_, .i32⟩
  | 15 => ⟨S16, .i32⟩
  | 16 => ⟨S16, .i1⟩
  | 17 => ⟨S_, .i32⟩
  | 18 => ⟨S16, .i32⟩
  | 19 => ⟨S16, .i32⟩
  | 20 => ⟨S16, .i32⟩
  | 21 => ⟨S16x1, .i32⟩
  | 22 => ⟨S1, .i32⟩
  | 23 => ⟨S_, .i32⟩
  | 24 => ⟨S16x1, .i32⟩
  | 25 => ⟨S16x1, .i1⟩
  | 26 => ⟨S1x1, .i32⟩
  | 27 => ⟨S16x1, .i32⟩
  | 28 => ⟨S16x1, .i1⟩
  | 29 => ⟨S16x1, .i1⟩
  | 30 => ⟨S_, .i1⟩
  | 31 => ⟨S16, .i1⟩
  | 32 => ⟨S16x16, .f32⟩
  | 33 => ⟨S16x16, .i1⟩
  | 34 => ⟨S_, .f32⟩
  | 35 => ⟨S16x16, .f32⟩
  | 36 => ⟨S16x16, .f32⟩
  | 37 => ⟨S_, .f32⟩
  | 38 => ⟨S_, .f32⟩
  | 39 => ⟨S16x16, .i1⟩
  | 40 => ⟨S16x16, .f32⟩
  | 41 => ⟨S16x16, .f32⟩
  | 42 => ⟨S1x16x16, .f32⟩
  | 43 => ⟨S1x16x16, .f32⟩
  | 44 => ⟨S1x16x16, .f32⟩
  | 45 => ⟨S1x16x16, .f32⟩
  | 46 => ⟨S1x16x16, .f32⟩
  | 47 => ⟨S1x16x16, .f32⟩
  | 48 => ⟨S1x16x16, .f32⟩
  | 49 => ⟨S1x16x16, .f32⟩
  | 50 => ⟨S1x16x16, .f32⟩
  | 51 => ⟨S1x16x16, .f32⟩
  | 52 => ⟨S1x16x16, .f32⟩
  | 53 => ⟨S1x16x16, .f32⟩
  | 54 => ⟨S1x16x16, .f32⟩
  | 55 => ⟨S1x16x16, .f32⟩
  | 56 => ⟨S1x16x16, .f32⟩
  | 57 => ⟨S15x16x16, .f32⟩
  | 58 => ⟨S1x16x16, .f32⟩
  | 59 => ⟨S1x16x16, .f32⟩
  | 60 => ⟨S1x16x16, .f32⟩
  | 61 => ⟨S1x16x16, .f32⟩
  | 62 => ⟨S1x16x16, .f32⟩
  | 63 => ⟨S1x16x16, .f32⟩
  | 64 => ⟨S1x16x16, .f32⟩
  | 65 => ⟨S1x16x16, .f32⟩
  | 66 => ⟨S1x16x16, .f32⟩
  | 67 => ⟨S1x16x16, .f32⟩
  | 68 => ⟨S1x16x16, .f32⟩
  | 69 => ⟨S1x16x16, .f32⟩
  | 70 => ⟨S1x16x16, .f32⟩
  | 71 => ⟨S1x16x16, .f32⟩
  | 72 => ⟨S1x16x16, .f32⟩
  | 73 => ⟨S15x16x16, .f32⟩
  | 74 => ⟨S15x256, .f32⟩
  | 75 => ⟨S15x256, .f32⟩
  | 76 => ⟨S1x16, .f32⟩
  | 77 => ⟨S_, .i32⟩
  | 78 => ⟨S16, .i32⟩
  | 79 => ⟨S16, .i1⟩
  | 80 => ⟨S_, .i32⟩
  | 81 => ⟨S16, .i32⟩
  | 82 => ⟨S16, .i32⟩
  | 83 => ⟨S16, .i32⟩
  | 84 => ⟨S16x1, .i32⟩
  | 85 => ⟨S1, .i32⟩
  | 86 => ⟨S_, .i32⟩
  | 87 => ⟨S16x1, .i32⟩
  | 88 => ⟨S16x1, .i1⟩
  | 89 => ⟨S1x1, .i32⟩
  | 90 => ⟨S16x1, .i32⟩
  | 91 => ⟨S16x1, .i1⟩
  | 92 => ⟨S16x1, .i1⟩
  | 93 => ⟨S_, .i1⟩
  | 94 => ⟨S16, .i1⟩
  | 95 => ⟨S16, .f32⟩
  | 96 => ⟨S_, .f32⟩
  | 97 => ⟨S16, .f32⟩
  | 98 => ⟨S16, .f32⟩
  | 99 => ⟨S_, .f32⟩
  | 100 => ⟨S_, .f32⟩
  | 101 => ⟨S16, .f32⟩
  | 102 => ⟨S16, .f32⟩
  | 103 => ⟨S_, .i32⟩
  | 104 => ⟨S16, .i32⟩
  | 105 => ⟨S16, .i1⟩
  | 106 => ⟨S_, .i32⟩
  | 107 => ⟨S16, .i32⟩
  | 108 => ⟨S16, .i32⟩
  | 109 => ⟨S16, .i32⟩
  | 110 => ⟨S16x1, .i32⟩
  | 111 => ⟨S1, .i32⟩
  | 112 => ⟨S_, .i32⟩
  | 113 => ⟨S16x1, .i32⟩
  | 114 => ⟨S16x1, .i1⟩
  | 115 => ⟨S1x1, .i32⟩
  | 116 => ⟨S16x1, .i32⟩
  | 117 => ⟨S16x1, .i1⟩
  | 118 => ⟨S16x1, .i1⟩
  | 119 => ⟨S_, .i1⟩
  | 120 => ⟨S16, .i1⟩
  | 121 => ⟨S16, .f32⟩
  | 122 => ⟨S_, .f32⟩
  | 123 => ⟨S16, .f32⟩
  | 124 => ⟨S16, .f32⟩
  | 125 => ⟨S_, .f32⟩
  | 126 => ⟨S_, .f32⟩
  | 127 => ⟨S16, .f32⟩
  | _ => ⟨S16384x256, .f32⟩

abbrev hbmTy0_8 (i : Nat) : BufTy := match i % 128 with
  | 0 => ⟨S16, .f32⟩
  | 1 => ⟨S_, .i32⟩
  | 2 => ⟨S16, .i32⟩
  | 3 => ⟨S16, .i1⟩
  | 4 => ⟨S_, .i32⟩
  | 5 => ⟨S16, .i32⟩
  | 6 => ⟨S16, .i32⟩
  | 7 => ⟨S16, .i32⟩
  | 8 => ⟨S16x1, .i32⟩
  | 9 => ⟨S1, .i32⟩
  | 10 => ⟨S_, .i32⟩
  | 11 => ⟨S16x1, .i32⟩
  | 12 => ⟨S16x1, .i1⟩
  | 13 => ⟨S1x1, .i32⟩
  | 14 => ⟨S16x1, .i32⟩
  | 15 => ⟨S16x1, .i1⟩
  | 16 => ⟨S16x1, .i1⟩
  | 17 => ⟨S_, .i1⟩
  | 18 => ⟨S16, .i1⟩
  | 19 => ⟨S16, .f32⟩
  | 20 => ⟨S_, .f32⟩
  | 21 => ⟨S16, .f32⟩
  | 22 => ⟨S16, .f32⟩
  | 23 => ⟨S_, .f32⟩
  | 24 => ⟨S_, .f32⟩
  | 25 => ⟨S16, .f32⟩
  | 26 => ⟨S16, .f32⟩
  | 27 => ⟨S_, .i32⟩
  | 28 => ⟨S16, .i32⟩
  | 29 => ⟨S16, .i1⟩
  | 30 => ⟨S_, .i32⟩
  | 31 => ⟨S16, .i32⟩
  | 32 => ⟨S16, .i32⟩
  | 33 => ⟨S16, .i32⟩
  | 34 => ⟨S16x1, .i32⟩
  | 35 => ⟨S1, .i32⟩
  | 36 => ⟨S_, .i32⟩
  | 37 => ⟨S16x1, .i32⟩
  | 38 => ⟨S16x1, .i1⟩
  | 39 => ⟨S1x1, .i32⟩
  | 40 => ⟨S16x1, .i32⟩
  | 41 => ⟨S16x1, .i1⟩
  | 42 => ⟨S16x1, .i1⟩
  | 43 => ⟨S_, .i1⟩
  | 44 => ⟨S16, .i1⟩
  | 45 => ⟨S16, .f32⟩
  | 46 => ⟨S_, .f32⟩
  | 47 => ⟨S16, .f32⟩
  | 48 => ⟨S16, .f32⟩
  | 49 => ⟨S_, .f32⟩
  | 50 => ⟨S_, .f32⟩
  | 51 => ⟨S16, .f32⟩
  | 52 => ⟨S16, .f32⟩
  | 53 => ⟨S_, .i32⟩
  | 54 => ⟨S16, .i32⟩
  | 55 => ⟨S16, .i1⟩
  | 56 => ⟨S_, .i32⟩
  | 57 => ⟨S16, .i32⟩
  | 58 => ⟨S16, .i32⟩
  | 59 => ⟨S16, .i32⟩
  | 60 => ⟨S16x1, .i32⟩
  | 61 => ⟨S1, .i32⟩
  | 62 => ⟨S_, .i32⟩
  | 63 => ⟨S16x1, .i32⟩
  | 64 => ⟨S16x1, .i1⟩
  | 65 => ⟨S1x1, .i32⟩
  | 66 => ⟨S16x1, .i32⟩
  | 67 => ⟨S16x1, .i1⟩
  | 68 => ⟨S16x1, .i1⟩
  | 69 => ⟨S_, .i1⟩
  | 70 => ⟨S16, .i1⟩
  | 71 => ⟨S16, .f32⟩
  | 72 => ⟨S_, .f32⟩
  | 73 => ⟨S16, .f32⟩
  | 74 => ⟨S16, .f32⟩
  | 75 => ⟨S_, .f32⟩
  | 76 => ⟨S_, .f32⟩
  | 77 => ⟨S16, .f32⟩
  | 78 => ⟨S16, .f32⟩
  | 79 => ⟨S_, .i32⟩
  | 80 => ⟨S16, .i32⟩
  | 81 => ⟨S16, .i1⟩
  | 82 => ⟨S_, .i32⟩
  | 83 => ⟨S16, .i32⟩
  | 84 => ⟨S16, .i32⟩
  | 85 => ⟨S16, .i32⟩
  | 86 => ⟨S16x1, .i32⟩
  | 87 => ⟨S1, .i32⟩
  | 88 => ⟨S_, .i32⟩
  | 89 => ⟨S16x1, .i32⟩
  | 90 => ⟨S16x1, .i1⟩
  | 91 => ⟨S1x1, .i32⟩
  | 92 => ⟨S16x1, .i32⟩
  | 93 => ⟨S16x1, .i1⟩
  | 94 => ⟨S16x1, .i1⟩
  | 95 => ⟨S_, .i1⟩
  | 96 => ⟨S16, .i1⟩
  | 97 => ⟨S16, .f32⟩
  | 98 => ⟨S_, .f32⟩
  | 99 => ⟨S16, .f32⟩
  | 100 => ⟨S16, .f32⟩
  | 101 => ⟨S_, .f32⟩
  | 102 => ⟨S_, .f32⟩
  | 103 => ⟨S16, .f32⟩
  | 104 => ⟨S16, .f32⟩
  | 105 => ⟨S_, .i32⟩
  | 106 => ⟨S16, .i32⟩
  | 107 => ⟨S16, .i1⟩
  | 108 => ⟨S_, .i32⟩
  | 109 => ⟨S16, .i32⟩
  | 110 => ⟨S16, .i32⟩
  | 111 => ⟨S16, .i32⟩
  | 112 => ⟨S16x1, .i32⟩
  | 113 => ⟨S1, .i32⟩
  | 114 => ⟨S_, .i32⟩
  | 115 => ⟨S16x1, .i32⟩
  | 116 => ⟨S16x1, .i1⟩
  | 117 => ⟨S1x1, .i32⟩
  | 118 => ⟨S16x1, .i32⟩
  | 119 => ⟨S16x1, .i1⟩
  | 120 => ⟨S16x1, .i1⟩
  | 121 => ⟨S_, .i1⟩
  | 122 => ⟨S16, .i1⟩
  | 123 => ⟨S16, .f32⟩
  | 124 => ⟨S_, .f32⟩
  | 125 => ⟨S16, .f32⟩
  | 126 => ⟨S16, .f32⟩
  | 127 => ⟨S_, .f32⟩
  | _ => ⟨S16384x256, .f32⟩

abbrev hbmTy0_9 (i : Nat) : BufTy := match i % 128 with
  | 0 => ⟨S_, .f32⟩
  | 1 => ⟨S16, .f32⟩
  | 2 => ⟨S16, .f32⟩
  | 3 => ⟨S_, .i32⟩
  | 4 => ⟨S16, .i32⟩
  | 5 => ⟨S16, .i1⟩
  | 6 => ⟨S_, .i32⟩
  | 7 => ⟨S16, .i32⟩
  | 8 => ⟨S16, .i32⟩
  | 9 => ⟨S16, .i32⟩
  | 10 => ⟨S16x1, .i32⟩
  | 11 => ⟨S1, .i32⟩
  | 12 => ⟨S_, .i32⟩
  | 13 => ⟨S16x1, .i32⟩
  | 14 => ⟨S16x1, .i1⟩
  | 15 => ⟨S1x1, .i32⟩
  | 16 => ⟨S16x1, .i32⟩
  | 17 => ⟨S16x1, .i1⟩
  | 18 => ⟨S16x1, .i1⟩
  | 19 => ⟨S_, .i1⟩
  | 20 => ⟨S16, .i1⟩
  | 21 => ⟨S16, .f32⟩
  | 22 => ⟨S_, .f32⟩
  | 23 => ⟨S16, .f32⟩
  | 24 => ⟨S16, .f32⟩
  | 25 => ⟨S_, .f32⟩
  | 26 => ⟨S_, .f32⟩
  | 27 => ⟨S16, .f32⟩
  | 28 => ⟨S16, .f32⟩
  | 29 => ⟨S_, .i32⟩
  | 30 => ⟨S16, .i32⟩
  | 31 => ⟨S16, .i1⟩
  | 32 => ⟨S_, .i32⟩
  | 33 => ⟨S16, .i32⟩
  | 34 => ⟨S16, .i32⟩
  | 35 => ⟨S16, .i32⟩
  | 36 => ⟨S16x1, .i32⟩
  | 37 => ⟨S1, .i32⟩
  | 38 => ⟨S_, .i32⟩
  | 39 => ⟨S16x1, .i32⟩
  | 40 => ⟨S16x1, .i1⟩
  | 41 => ⟨S1x1, .i32⟩
  | 42 => ⟨S16x1, .i32⟩
  | 43 => ⟨S16x1, .i1⟩
  | 44 => ⟨S16x1, .i1⟩
  | 45 => ⟨S_, .i1⟩
  | 46 => ⟨S16, .i1⟩
  | 47 => ⟨S16, .f32⟩
  | 48 => ⟨S_, .f32⟩
  | 49 => ⟨S16, .f32⟩
  | 50 => ⟨S16, .f32⟩
  | 51 => ⟨S_, .f32⟩
  | 52 => ⟨S_, .f32⟩
  | 53 => ⟨S16, .f32⟩
  | 54 => ⟨S16, .f32⟩
  | 55 => ⟨S_, .i32⟩
  | 56 => ⟨S16, .i32⟩
  | 57 => ⟨S16, .i1⟩
  | 58 => ⟨S_, .i32⟩
  | 59 => ⟨S16, .i32⟩
  | 60 => ⟨S16, .i32⟩
  | 61 => ⟨S16, .i32⟩
  | 62 => ⟨S16x1, .i32⟩
  | 63 => ⟨S1, .i32⟩
  | 64 => ⟨S_, .i32⟩
  | 65 => ⟨S16x1, .i32⟩
  | 66 => ⟨S16x1, .i1⟩
  | 67 => ⟨S1x1, .i32⟩
  | 68 => ⟨S16x1, .i32⟩
  | 69 => ⟨S16x1, .i1⟩
  | 70 => ⟨S16x1, .i1⟩
  | 71 => ⟨S_, .i1⟩
  | 72 => ⟨S16, .i1⟩
  | 73 => ⟨S16, .f32⟩
  | 74 => ⟨S_, .f32⟩
  | 75 => ⟨S16, .f32⟩
  | 76 => ⟨S16, .f32⟩
  | 77 => ⟨S_, .f32⟩
  | 78 => ⟨S_, .f32⟩
  | 79 => ⟨S16, .f32⟩
  | 80 => ⟨S16, .f32⟩
  | 81 => ⟨S_, .i32⟩
  | 82 => ⟨S16, .i32⟩
  | 83 => ⟨S16, .i1⟩
  | 84 => ⟨S_, .i32⟩
  | 85 => ⟨S16, .i32⟩
  | 86 => ⟨S16, .i32⟩
  | 87 => ⟨S16, .i32⟩
  | 88 => ⟨S16x1, .i32⟩
  | 89 => ⟨S1, .i32⟩
  | 90 => ⟨S_, .i32⟩
  | 91 => ⟨S16x1, .i32⟩
  | 92 => ⟨S16x1, .i1⟩
  | 93 => ⟨S1x1, .i32⟩
  | 94 => ⟨S16x1, .i32⟩
  | 95 => ⟨S16x1, .i1⟩
  | 96 => ⟨S16x1, .i1⟩
  | 97 => ⟨S_, .i1⟩
  | 98 => ⟨S16, .i1⟩
  | 99 => ⟨S16, .f32⟩
  | 100 => ⟨S_, .f32⟩
  | 101 => ⟨S16, .f32⟩
  | 102 => ⟨S16, .f32⟩
  | 103 => ⟨S_, .f32⟩
  | 104 => ⟨S_, .f32⟩
  | 105 => ⟨S16, .f32⟩
  | 106 => ⟨S16, .f32⟩
  | 107 => ⟨S_, .i32⟩
  | 108 => ⟨S16, .i32⟩
  | 109 => ⟨S16, .i1⟩
  | 110 => ⟨S_, .i32⟩
  | 111 => ⟨S16, .i32⟩
  | 112 => ⟨S16, .i32⟩
  | 113 => ⟨S16, .i32⟩
  | 114 => ⟨S16x1, .i32⟩
  | 115 => ⟨S1, .i32⟩
  | 116 => ⟨S_, .i32⟩
  | 117 => ⟨S16x1, .i32⟩
  | 118 => ⟨S16x1, .i1⟩
  | 119 => ⟨S1x1, .i32⟩
  | 120 => ⟨S16x1, .i32⟩
  | 121 => ⟨S16x1, .i1⟩
  | 122 => ⟨S16x1, .i1⟩
  | 123 => ⟨S_, .i1⟩
  | 124 => ⟨S16, .i1⟩
  | 125 => ⟨S16, .f32⟩
  | 126 => ⟨S_, .f32⟩
  | 127 => ⟨S16, .f32⟩
  | _ => ⟨S16384x256, .f32⟩

abbrev hbmTy0_10 (i : Nat) : BufTy := match i % 128 with
  | 0 => ⟨S16, .f32⟩
  | 1 => ⟨S_, .f32⟩
  | 2 => ⟨S_, .f32⟩
  | 3 => ⟨S16, .f32⟩
  | 4 => ⟨S16, .f32⟩
  | 5 => ⟨S_, .i32⟩
  | 6 => ⟨S16, .i32⟩
  | 7 => ⟨S16, .i1⟩
  | 8 => ⟨S_, .i32⟩
  | 9 => ⟨S16, .i32⟩
  | 10 => ⟨S16, .i32⟩
  | 11 => ⟨S16, .i32⟩
  | 12 => ⟨S16x1, .i32⟩
  | 13 => ⟨S1, .i32⟩
  | 14 => ⟨S_, .i32⟩
  | 15 => ⟨S16x1, .i32⟩
  | 16 => ⟨S16x1, .i1⟩
  | 17 => ⟨S1x1, .i32⟩
  | 18 => ⟨S16x1, .i32⟩
  | 19 => ⟨S16x1, .i1⟩
  | 20 => ⟨S16x1, .i1⟩
  | 21 => ⟨S_, .i1⟩
  | 22 => ⟨S16, .i1⟩
  | 23 => ⟨S16, .f32⟩
  | 24 => ⟨S_, .f32⟩
  | 25 => ⟨S16, .f32⟩
  | 26 => ⟨S16, .f32⟩
  | 27 => ⟨S_, .f32⟩
  | 28 => ⟨S_, .f32⟩
  | 29 => ⟨S16, .f32⟩
  | 30 => ⟨S16, .f32⟩
  | 31 => ⟨S_, .i32⟩
  | 32 => ⟨S16, .i32⟩
  | 33 => ⟨S16, .i1⟩
  | 34 => ⟨S_, .i32⟩
  | 35 => ⟨S16, .i32⟩
  | 36 => ⟨S16, .i32⟩
  | 37 => ⟨S16, .i32⟩
  | 38 => ⟨S16x1, .i32⟩
  | 39 => ⟨S1, .i32⟩
  | 40 => ⟨S_, .i32⟩
  | 41 => ⟨S16x1, .i32⟩
  | 42 => ⟨S16x1, .i1⟩
  | 43 => ⟨S1x1, .i32⟩
  | 44 => ⟨S16x1, .i32⟩
  | 45 => ⟨S16x1, .i1⟩
  | 46 => ⟨S16x1, .i1⟩
  | 47 => ⟨S_, .i1⟩
  | 48 => ⟨S16, .i1⟩
  | 49 => ⟨S16, .f32⟩
  | 50 => ⟨S_, .f32⟩
  | 51 => ⟨S16, .f32⟩
  | 52 => ⟨S16, .f32⟩
  | 53 => ⟨S_, .f32⟩
  | 54 => ⟨S_, .f32⟩
  | 55 => ⟨S16, .f32⟩
  | 56 => ⟨S16, .f32⟩
  | 57 => ⟨S_, .i32⟩
  | 58 => ⟨S16, .i32⟩
  | 59 => ⟨S16, .i1⟩
  | 60 => ⟨S_, .i32⟩
  | 61 => ⟨S16, .i32⟩
  | 62 => ⟨S16, .i32⟩
  | 63 => ⟨S16, .i32⟩
  | 64 => ⟨S16x1, .i32⟩
  | 65 => ⟨S1, .i32⟩
  | 66 => ⟨S_, .i32⟩
  | 67 => ⟨S16x1, .i32⟩
  | 68 => ⟨S16x1, .i1⟩
  | 69 => ⟨S1x1, .i32⟩
  | 70 => ⟨S16x1, .i32⟩
  | 71 => ⟨S16x1, .i1⟩
  | 72 => ⟨S16x1, .i1⟩
  | 73 => ⟨S_, .i1⟩
  | 74 => ⟨S16, .i1⟩
  | 75 => ⟨S16, .f32⟩
  | 76 => ⟨S_, .f32⟩
  | 77 => ⟨S16, .f32⟩
  | 78 => ⟨S16, .f32⟩
  | 79 => ⟨S_, .f32⟩
  | 80 => ⟨S_, .f32⟩
  | 81 => ⟨S16, .f32⟩
  | 82 => ⟨S16, .f32⟩
  | 83 => ⟨S_, .i32⟩
  | 84 => ⟨S16, .i32⟩
  | 85 => ⟨S16, .i1⟩
  | 86 => ⟨S_, .i32⟩
  | 87 => ⟨S16, .i32⟩
  | 88 => ⟨S16, .i32⟩
  | 89 => ⟨S16, .i32⟩
  | 90 => ⟨S16x1, .i32⟩
  | 91 => ⟨S1, .i32⟩
  | 92 => ⟨S_, .i32⟩
  | 93 => ⟨S16x1, .i32⟩
  | 94 => ⟨S16x1, .i1⟩
  | 95 => ⟨S1x1, .i32⟩
  | 96 => ⟨S16x1, .i32⟩
  | 97 => ⟨S16x1, .i1⟩
  | 98 => ⟨S16x1, .i1⟩
  | 99 => ⟨S_, .i1⟩
  | 100 => ⟨S16, .i1⟩
  | 101 => ⟨S16, .f32⟩
  | 102 => ⟨S_, .f32⟩
  | 103 => ⟨S16, .f32⟩
  | 104 => ⟨S16, .f32⟩
  | 105 => ⟨S_, .f32⟩
  | 106 => ⟨S_, .f32⟩
  | 107 => ⟨S16, .f32⟩
  | 108 => ⟨S16, .f32⟩
  | 109 => ⟨S_, .i32⟩
  | 110 => ⟨S16, .i32⟩
  | 111 => ⟨S16, .i1⟩
  | 112 => ⟨S_, .i32⟩
  | 113 => ⟨S16, .i32⟩
  | 114 => ⟨S16, .i32⟩
  | 115 => ⟨S16, .i32⟩
  | 116 => ⟨S16x1, .i32⟩
  | 117 => ⟨S1, .i32⟩
  | 118 => ⟨S_, .i32⟩
  | 119 => ⟨S16x1, .i32⟩
  | 120 => ⟨S16x1, .i1⟩
  | 121 => ⟨S1x1, .i32⟩
  | 122 => ⟨S16x1, .i32⟩
  | 123 => ⟨S16x1, .i1⟩
  | 124 => ⟨S16x1, .i1⟩
  | 125 => ⟨S_, .i1⟩
  | 126 => ⟨S16, .i1⟩
  | 127 => ⟨S16, .f32⟩
  | _ => ⟨S16384x256, .f32⟩

abbrev hbmTy0_11 (i : Nat) : BufTy := match i % 128 with
  | 0 => ⟨S_, .f32⟩
  | 1 => ⟨S16, .f32⟩
  | 2 => ⟨S16, .f32⟩
  | 3 => ⟨S_, .f32⟩
  | 4 => ⟨S_, .f32⟩
  | 5 => ⟨S16, .f32⟩
  | 6 => ⟨S16, .f32⟩
  | 7 => ⟨S_, .i32⟩
  | 8 => ⟨S16, .i32⟩
  | 9 => ⟨S16, .i1⟩
  | 10 => ⟨S_, .i32⟩
  | 11 => ⟨S16, .i32⟩
  | 12 => ⟨S16, .i32⟩
  | 13 => ⟨S16, .i32⟩
  | 14 => ⟨S16x1, .i32⟩
  | 15 => ⟨S1, .i32⟩
  | 16 => ⟨S_, .i32⟩
  | 17 => ⟨S16x1, .i32⟩
  | 18 => ⟨S16x1, .i1⟩
  | 19 => ⟨S1x1, .i32⟩
  | 20 => ⟨S16x1, .i32⟩
  | 21 => ⟨S16x1, .i1⟩
  | 22 => ⟨S16x1, .i1⟩
  | 23 => ⟨S_, .i1⟩
  | 24 => ⟨S16, .i1⟩
  | 25 => ⟨S16, .f32⟩
  | 26 => ⟨S_, .f32⟩
  | 27 => ⟨S16, .f32⟩
  | 28 => ⟨S16, .f32⟩
  | 29 => ⟨S_, .f32⟩
  | 30 => ⟨S_, .f32⟩
  | 31 => ⟨S16, .f32⟩
  | 32 => ⟨S16, .f32⟩
  | 33 => ⟨S_, .i32⟩
  | 34 => ⟨S16, .i32⟩
  | 35 => ⟨S16, .i1⟩
  | 36 => ⟨S_, .i32⟩
  | 37 => ⟨S16, .i32⟩
  | 38 => ⟨S16, .i32⟩
  | 39 => ⟨S16, .i32⟩
  | 40 => ⟨S16x1, .i32⟩
  | 41 => ⟨S1, .i32⟩
  | 42 => ⟨S_, .i32⟩
  | 43 => ⟨S16x1, .i32⟩
  | 44 => ⟨S16x1, .i1⟩
  | 45 => ⟨S1x1, .i32⟩
  | 46 => ⟨S16x1, .i32⟩
  | 47 => ⟨S16x1, .i1⟩
  | 48 => ⟨S16x1, .i1⟩
  | 49 => ⟨S_, .i1⟩
  | 50 => ⟨S16, .i1⟩
  | 51 => ⟨S16, .f32⟩
  | 52 => ⟨S_, .f32⟩
  | 53 => ⟨S16, .f32⟩
  | 54 => ⟨S16, .f32⟩
  | 55 => ⟨S_, .f32⟩
  | 56 => ⟨S_, .f32⟩
  | 57 => ⟨S16, .f32⟩
  | 58 => ⟨S16, .f32⟩
  | 59 => ⟨S_, .i32⟩
  | 60 => ⟨S16, .i32⟩
  | 61 => ⟨S16, .i1⟩
  | 62 => ⟨S_, .i32⟩
  | 63 => ⟨S16, .i32⟩
  | 64 => ⟨S16, .i32⟩
  | 65 => ⟨S16, .i32⟩
  | 66 => ⟨S16x1, .i32⟩
  | 67 => ⟨S1, .i32⟩
  | 68 => ⟨S_, .i32⟩
  | 69 => ⟨S16x1, .i32⟩
  | 70 => ⟨S16x1, .i1⟩
  | 71 => ⟨S1x1, .i32⟩
  | 72 => ⟨S16x1, .i32⟩
  | 73 => ⟨S16x1, .i1⟩
  | 74 => ⟨S16x1, .i1⟩
  | 75 => ⟨S_, .i1⟩
  | 76 => ⟨S16, .i1⟩
  | 77 => ⟨S16, .f32⟩
  | 78 => ⟨S_, .f32⟩
  | 79 => ⟨S16, .f32⟩
  | 80 => ⟨S16, .f32⟩
  | 81 => ⟨S_, .f32⟩
  | 82 => ⟨S_, .f32⟩
  | 83 => ⟨S16, .f32⟩
  | 84 => ⟨S16, .f32⟩
  | 85 => ⟨S_, .i32⟩
  | 86 => ⟨S16, .i32⟩
  | 87 => ⟨S16, .i1⟩
  | 88 => ⟨S_, .i32⟩
  | 89 => ⟨S16, .i32⟩
  | 90 => ⟨S16, .i32⟩
  | 91 => ⟨S16, .i32⟩
  | 92 => ⟨S16x1, .i32⟩
  | 93 => ⟨S1, .i32⟩
  | 94 => ⟨S_, .i32⟩
  | 95 => ⟨S16x1, .i32⟩
  | 96 => ⟨S16x1, .i1⟩
  | 97 => ⟨S1x1, .i32⟩
  | 98 => ⟨S16x1, .i32⟩
  | 99 => ⟨S16x1, .i1⟩
  | 100 => ⟨S16x1, .i1⟩
  | 101 => ⟨S_, .i1⟩
  | 102 => ⟨S16, .i1⟩
  | 103 => ⟨S16, .f32⟩
  | 104 => ⟨S_, .f32⟩
  | 105 => ⟨S16, .f32⟩
  | 106 => ⟨S16, .f32⟩
  | 107 => ⟨S_, .f32⟩
  | 108 => ⟨S_, .f32⟩
  | 109 => ⟨S16, .f32⟩
  | 110 => ⟨S16, .f32⟩
  | 111 => ⟨S_, .i32⟩
  | 112 => ⟨S16, .i32⟩
  | 113 => ⟨S16, .i1⟩
  | 114 => ⟨S_, .i32⟩
  | 115 => ⟨S16, .i32⟩
  | 116 => ⟨S16, .i32⟩
  | 117 => ⟨S16, .i32⟩
  | 118 => ⟨S16x1, .i32⟩
  | 119 => ⟨S1, .i32⟩
  | 120 => ⟨S_, .i32⟩
  | 121 => ⟨S16x1, .i32⟩
  | 122 => ⟨S16x1, .i1⟩
  | 123 => ⟨S1x1, .i32⟩
  | 124 => ⟨S16x1, .i32⟩
  | 125 => ⟨S16x1, .i1⟩
  | 126 => ⟨S16x1, .i1⟩
  | 127 => ⟨S_, .i1⟩
  | _ => ⟨S16384x256, .f32⟩

abbrev hbmTy0_12 (i : Nat) : BufTy := match i % 128 with
  | 0 => ⟨S16, .i1⟩
  | 1 => ⟨S16, .f32⟩
  | 2 => ⟨S_, .f32⟩
  | 3 => ⟨S16, .f32⟩
  | 4 => ⟨S16, .f32⟩
  | 5 => ⟨S_, .f32⟩
  | 6 => ⟨S_, .f32⟩
  | 7 => ⟨S16, .f32⟩
  | 8 => ⟨S16, .f32⟩
  | 9 => ⟨S_, .i32⟩
  | 10 => ⟨S16, .i32⟩
  | 11 => ⟨S16, .i1⟩
  | 12 => ⟨S_, .i32⟩
  | 13 => ⟨S16, .i32⟩
  | 14 => ⟨S16, .i32⟩
  | 15 => ⟨S16, .i32⟩
  | 16 => ⟨S16x1, .i32⟩
  | 17 => ⟨S1, .i32⟩
  | 18 => ⟨S_, .i32⟩
  | 19 => ⟨S16x1, .i32⟩
  | 20 => ⟨S16x1, .i1⟩
  | 21 => ⟨S1x1, .i32⟩
  | 22 => ⟨S16x1, .i32⟩
  | 23 => ⟨S16x1, .i1⟩
  | 24 => ⟨S16x1, .i1⟩
  | 25 => ⟨S_, .i1⟩
  | 26 => ⟨S16, .i1⟩
  | 27 => ⟨S16, .f32⟩
  | 28 => ⟨S_, .f32⟩
  | 29 => ⟨S16, .f32⟩
  | 30 => ⟨S16, .f32⟩
  | 31 => ⟨S_, .f32⟩
  | 32 => ⟨S_, .f32⟩
  | 33 => ⟨S16, .f32⟩
  | 34 => ⟨S16, .f32⟩
  | 35 => ⟨S_, .i32⟩
  | 36 => ⟨S16, .i32⟩
  | 37 => ⟨S16, .i1⟩
  | 38 => ⟨S_, .i32⟩
  | 39 => ⟨S16, .i32⟩
  | 40 => ⟨S16, .i32⟩
  | 41 => ⟨S16, .i32⟩
  | 42 => ⟨S16x1, .i32⟩
  | 43 => ⟨S1, .i32⟩
  | 44 => ⟨S_, .i32⟩
  | 45 => ⟨S16x1, .i32⟩
  | 46 => ⟨S16x1, .i1⟩
  | 47 => ⟨S1x1, .i32⟩
  | 48 => ⟨S16x1, .i32⟩
  | 49 => ⟨S16x1, .i1⟩
  | 50 => ⟨S16x1, .i1⟩
  | 51 => ⟨S_, .i1⟩
  | 52 => ⟨S16, .i1⟩
  | 53 => ⟨S16, .f32⟩
  | 54 => ⟨S_, .f32⟩
  | 55 => ⟨S16, .f32⟩
  | 56 => ⟨S16, .f32⟩
  | 57 => ⟨S_, .f32⟩
  | 58 => ⟨S_, .f32⟩
  | 59 => ⟨S16, .f32⟩
  | 60 => ⟨S16, .f32⟩
  | 61 => ⟨S_, .i32⟩
  | 62 => ⟨S16, .i32⟩
  | 63 => ⟨S16, .i1⟩
  | 64 => ⟨S_, .i32⟩
  | 65 => ⟨S16, .i32⟩
  | 66 => ⟨S16, .i32⟩
  | 67 => ⟨S16, .i32⟩
  | 68 => ⟨S16x1, .i32⟩
  | 69 => ⟨S1, .i32⟩
  | 70 => ⟨S_, .i32⟩
  | 71 => ⟨S16x1, .i32⟩
  | 72 => ⟨S16x1, .i1⟩
  | 73 => ⟨S1x1, .i32⟩
  | 74 => ⟨S16x1, .i32⟩
  | 75 => ⟨S16x1, .i1⟩
  | 76 => ⟨S16x1, .i1⟩
  | 77 => ⟨S_, .i1⟩
  | 78 => ⟨S16, .i1⟩
  | 79 => ⟨S16, .f32⟩
  | 80 => ⟨S_, .f32⟩
  | 81 => ⟨S16, .f32⟩
  | 82 => ⟨S16, .f32⟩
  | 83 => ⟨S_, .f32⟩
  | 84 => ⟨S_, .f32⟩
  | 85 => ⟨S16, .f32⟩
  | 86 => ⟨S16, .f32⟩
  | 87 => ⟨S_, .i32⟩
  | 88 => ⟨S16, .i32⟩
  | 89 => ⟨S16, .i1⟩
  | 90 => ⟨S_, .i32⟩
  | 91 => ⟨S16, .i32⟩
  | 92 => ⟨S16, .i32⟩
  | 93 => ⟨S16, .i32⟩
  | 94 => ⟨S16x1, .i32⟩
  | 95 => ⟨S1, .i32⟩
  | 96 => ⟨S_, .i32⟩
  | 97 => ⟨S16x1, .i32⟩
  | 98 => ⟨S16x1, .i1⟩
  | 99 => ⟨S1x1, .i32⟩
  | 100 => ⟨S16x1, .i32⟩
  | 101 => ⟨S16x1, .i1⟩
  | 102 => ⟨S16x1, .i1⟩
  | 103 => ⟨S_, .i1⟩
  | 104 => ⟨S16, .i1⟩
  | 105 => ⟨S16, .f32⟩
  | 106 => ⟨S_, .f32⟩
  | 107 => ⟨S16, .f32⟩
  | 108 => ⟨S16, .f32⟩
  | 109 => ⟨S_, .f32⟩
  | 110 => ⟨S_, .f32⟩
  | 111 => ⟨S16, .f32⟩
  | 112 => ⟨S16, .f32⟩
  | 113 => ⟨S_, .i32⟩
  | 114 => ⟨S16, .i32⟩
  | 115 => ⟨S16, .i1⟩
  | 116 => ⟨S_, .i32⟩
  | 117 => ⟨S16, .i32⟩
  | 118 => ⟨S16, .i32⟩
  | 119 => ⟨S16, .i32⟩
  | 120 => ⟨S16x1, .i32⟩
  | 121 => ⟨S1, .i32⟩
  | 122 => ⟨S_, .i32⟩
  | 123 => ⟨S16x1, .i32⟩
  | 124 => ⟨S16x1, .i1⟩
  | 125 => ⟨S1x1, .i32⟩
  | 126 => ⟨S16x1, .i32⟩
  | 127 => ⟨S16x1, .i1⟩
  | _ => ⟨S16384x256, .f32⟩

abbrev hbmTy0_13 (i : Nat) : BufTy := match i % 128 with
  | 0 => ⟨S16x1, .i1⟩
  | 1 => ⟨S_, .i1⟩
  | 2 => ⟨S16, .i1⟩
  | 3 => ⟨S16, .f32⟩
  | 4 => ⟨S_, .f32⟩
  | 5 => ⟨S16, .f32⟩
  | 6 => ⟨S16, .f32⟩
  | 7 => ⟨S_, .f32⟩
  | 8 => ⟨S_, .f32⟩
  | 9 => ⟨S16, .f32⟩
  | 10 => ⟨S16, .f32⟩
  | 11 => ⟨S_, .i32⟩
  | 12 => ⟨S16, .i32⟩
  | 13 => ⟨S16, .i1⟩
  | 14 => ⟨S_, .i32⟩
  | 15 => ⟨S16, .i32⟩
  | 16 => ⟨S16, .i32⟩
  | 17 => ⟨S16, .i32⟩
  | 18 => ⟨S16x1, .i32⟩
  | 19 => ⟨S1, .i32⟩
  | 20 => ⟨S_, .i32⟩
  | 21 => ⟨S16x1, .i32⟩
  | 22 => ⟨S16x1, .i1⟩
  | 23 => ⟨S1x1, .i32⟩
  | 24 => ⟨S16x1, .i32⟩
  | 25 => ⟨S16x1, .i1⟩
  | 26 => ⟨S16x1, .i1⟩
  | 27 => ⟨S_, .i1⟩
  | 28 => ⟨S16, .i1⟩
  | 29 => ⟨S16, .f32⟩
  | 30 => ⟨S_, .f32⟩
  | 31 => ⟨S16, .f32⟩
  | 32 => ⟨S16, .f32⟩
  | 33 => ⟨S_, .f32⟩
  | 34 => ⟨S_, .f32⟩
  | 35 => ⟨S16, .f32⟩
  | 36 => ⟨S16, .f32⟩
  | 37 => ⟨S_, .i32⟩
  | 38 => ⟨S16, .i32⟩
  | 39 => ⟨S16, .i1⟩
  | 40 => ⟨S_, .i32⟩
  | 41 => ⟨S16, .i32⟩
  | 42 => ⟨S16, .i32⟩
  | 43 => ⟨S16, .i32⟩
  | 44 => ⟨S16x1, .i32⟩
  | 45 => ⟨S1, .i32⟩
  | 46 => ⟨S_, .i32⟩
  | 47 => ⟨S16x1, .i32⟩
  | 48 => ⟨S16x1, .i1⟩
  | 49 => ⟨S1x1, .i32⟩
  | 50 => ⟨S16x1, .i32⟩
  | 51 => ⟨S16x1, .i1⟩
  | 52 => ⟨S16x1, .i1⟩
  | 53 => ⟨S_, .i1⟩
  | 54 => ⟨S16, .i1⟩
  | 55 => ⟨S16, .f32⟩
  | 56 => ⟨S_, .f32⟩
  | 57 => ⟨S16, .f32⟩
  | 58 => ⟨S16, .f32⟩
  | 59 => ⟨S_, .f32⟩
  | 60 => ⟨S_, .f32⟩
  | 61 => ⟨S16, .f32⟩
  | 62 => ⟨S16, .f32⟩
  | 63 => ⟨S_, .i32⟩
  | 64 => ⟨S16, .i32⟩
  | 65 => ⟨S16, .i1⟩
  | 66 => ⟨S_, .i32⟩
  | 67 => ⟨S16, .i32⟩
  | 68 => ⟨S16, .i32⟩
  | 69 => ⟨S16, .i32⟩
  | 70 => ⟨S16x1, .i32⟩
  | 71 => ⟨S1, .i32⟩
  | 72 => ⟨S_, .i32⟩
  | 73 => ⟨S16x1, .i32⟩
  | 74 => ⟨S16x1, .i1⟩
  | 75 => ⟨S1x1, .i32⟩
  | 76 => ⟨S16x1, .i32⟩
  | 77 => ⟨S16x1, .i1⟩
  | 78 => ⟨S16x1, .i1⟩
  | 79 => ⟨S_, .i1⟩
  | 80 => ⟨S16, .i1⟩
  | 81 => ⟨S16, .f32⟩
  | 82 => ⟨S_, .f32⟩
  | 83 => ⟨S16, .f32⟩
  | 84 => ⟨S16, .f32⟩
  | 85 => ⟨S_, .f32⟩
  | 86 => ⟨S_, .f32⟩
  | 87 => ⟨S16, .f32⟩
  | 88 => ⟨S16, .f32⟩
  | 89 => ⟨S1x16, .f32⟩
  | 90 => ⟨S1x16, .f32⟩
  | 91 => ⟨S1x16, .f32⟩
  | 92 => ⟨S1x16, .f32⟩
  | 93 => ⟨S1x16, .f32⟩
  | 94 => ⟨S1x16, .f32⟩
  | 95 => ⟨S1x16, .f32⟩
  | 96 => ⟨S1x16, .f32⟩
  | 97 => ⟨S1x16, .f32⟩
  | 98 => ⟨S1x16, .f32⟩
  | 99 => ⟨S1x16, .f32⟩
  | 100 => ⟨S1x16, .f32⟩
  | 101 => ⟨S1x16, .f32⟩
  | 102 => ⟨S1x16, .f32⟩
  | 103 => ⟨S1x16, .f32⟩
  | 104 => ⟨S15x16, .f32⟩
  | 105 => ⟨S1x16, .f32⟩
  | 106 => ⟨S1x16, .f32⟩
  | 107 => ⟨S1x16, .f32⟩
  | 108 => ⟨S1x16, .f32⟩
  | 109 => ⟨S1x16, .f32⟩
  | 110 => ⟨S1x16, .f32⟩
  | 111 => ⟨S1x16, .f32⟩
  | 112 => ⟨S1x16, .f32⟩
  | 113 => ⟨S1x16, .f32⟩
  | 114 => ⟨S1x16, .f32⟩
  | 115 => ⟨S1x16, .f32⟩
  | 116 => ⟨S1x16, .f32⟩
  | 117 => ⟨S1x16, .f32⟩
  | 118 => ⟨S1x16, .f32⟩
  | 119 => ⟨S1x16, .f32⟩
  | 120 => ⟨S15x16, .f32⟩
  | 121 => ⟨S16384x1, .f32⟩
  | _ => ⟨S16384x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S16384x256, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S15x256, .f32⟩
  | .local _ .vmem, ⟨4, _⟩ => ⟨S15x256, .f32⟩
  | .local _ .vmem, ⟨5, _⟩ => ⟨S256x16, .f32⟩
  | .local _ .vmem, ⟨6, _⟩ => ⟨S1x16, .f32⟩
  | .local _ .vmem, ⟨7, _⟩ => ⟨S15x16, .f32⟩
  | .local _ .vmem, ⟨8, _⟩ => ⟨S15x16, .f32⟩
  | .local _ .vmem, ⟨9, _⟩ => ⟨S2048x1, .f32⟩
  | .local _ .vmem, ⟨10, _⟩ => ⟨S2048x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_c_9 : Ref sig .tc := ⟨.hbm, 13, rfl⟩
abbrev main_c_10 : Ref sig .tc := ⟨.hbm, 14, rfl⟩
abbrev main_c_11 : Ref sig .tc := ⟨.hbm, 15, rfl⟩
abbrev main_c_12 : Ref sig .tc := ⟨.hbm, 16, rfl⟩
abbrev main_c_13 : Ref sig .tc := ⟨.hbm, 17, rfl⟩
abbrev main_c_14 : Ref sig .tc := ⟨.hbm, 18, rfl⟩
abbrev main_c_15 : Ref sig .tc := ⟨.hbm, 19, rfl⟩
abbrev main_c_16 : Ref sig .tc := ⟨.hbm, 20, rfl⟩
abbrev main_c_17 : Ref sig .tc := ⟨.hbm, 21, rfl⟩
abbrev main_c_18 : Ref sig .tc := ⟨.hbm, 22, rfl⟩
abbrev main_c_19 : Ref sig .tc := ⟨.hbm, 23, rfl⟩
abbrev main_c_20 : Ref sig .tc := ⟨.hbm, 24, rfl⟩
abbrev main_c_21 : Ref sig .tc := ⟨.hbm, 25, rfl⟩
abbrev main_c_22 : Ref sig .tc := ⟨.hbm, 26, rfl⟩
abbrev main_c_23 : Ref sig .tc := ⟨.hbm, 27, rfl⟩
abbrev main_c_24 : Ref sig .tc := ⟨.hbm, 28, rfl⟩
abbrev main_c_25 : Ref sig .tc := ⟨.hbm, 29, rfl⟩
abbrev main_c_26 : Ref sig .tc := ⟨.hbm, 30, rfl⟩
abbrev main_c_27 : Ref sig .tc := ⟨.hbm, 31, rfl⟩
abbrev main_c_28 : Ref sig .tc := ⟨.hbm, 32, rfl⟩
abbrev main_c_29 : Ref sig .tc := ⟨.hbm, 33, rfl⟩
abbrev main_c_30 : Ref sig .tc := ⟨.hbm, 34, rfl⟩
abbrev main_c_31 : Ref sig .tc := ⟨.hbm, 35, rfl⟩
abbrev main_c_32 : Ref sig .tc := ⟨.hbm, 36, rfl⟩
abbrev main_c_33 : Ref sig .tc := ⟨.hbm, 37, rfl⟩
abbrev main_c_34 : Ref sig .tc := ⟨.hbm, 38, rfl⟩
abbrev main_c_35 : Ref sig .tc := ⟨.hbm, 39, rfl⟩
abbrev main_c_36 : Ref sig .tc := ⟨.hbm, 40, rfl⟩
abbrev main_c_37 : Ref sig .tc := ⟨.hbm, 41, rfl⟩
abbrev main_c_38 : Ref sig .tc := ⟨.hbm, 42, rfl⟩
abbrev main_c_39 : Ref sig .tc := ⟨.hbm, 43, rfl⟩
abbrev main_c_40 : Ref sig .tc := ⟨.hbm, 44, rfl⟩
abbrev main_c_41 : Ref sig .tc := ⟨.hbm, 45, rfl⟩
abbrev main_c_42 : Ref sig .tc := ⟨.hbm, 46, rfl⟩
abbrev main_c_43 : Ref sig .tc := ⟨.hbm, 47, rfl⟩
abbrev main_c_44 : Ref sig .tc := ⟨.hbm, 48, rfl⟩
abbrev main_c_45 : Ref sig .tc := ⟨.hbm, 49, rfl⟩
abbrev main_c_46 : Ref sig .tc := ⟨.hbm, 50, rfl⟩
abbrev main_c_47 : Ref sig .tc := ⟨.hbm, 51, rfl⟩
abbrev main_c_48 : Ref sig .tc := ⟨.hbm, 52, rfl⟩
abbrev main_c_49 : Ref sig .tc := ⟨.hbm, 53, rfl⟩
abbrev main_c_50 : Ref sig .tc := ⟨.hbm, 54, rfl⟩
abbrev main_c_51 : Ref sig .tc := ⟨.hbm, 55, rfl⟩
abbrev main_c_52 : Ref sig .tc := ⟨.hbm, 56, rfl⟩
abbrev main_c_53 : Ref sig .tc := ⟨.hbm, 57, rfl⟩
abbrev main_c_54 : Ref sig .tc := ⟨.hbm, 58, rfl⟩
abbrev main_c_55 : Ref sig .tc := ⟨.hbm, 59, rfl⟩
abbrev main_c_56 : Ref sig .tc := ⟨.hbm, 60, rfl⟩
abbrev main_c_57 : Ref sig .tc := ⟨.hbm, 61, rfl⟩
abbrev main_c_58 : Ref sig .tc := ⟨.hbm, 62, rfl⟩
abbrev main_cst : Ref sig .tc := ⟨.hbm, 63, rfl⟩
abbrev main_cst_59 : Ref sig .tc := ⟨.hbm, 64, rfl⟩
abbrev main_v0 : Ref sig .tc := ⟨.hbm, 65, rfl⟩
abbrev main_cst_60 : Ref sig .tc := ⟨.hbm, 66, rfl⟩
abbrev main_v1 : Ref sig .tc := ⟨.hbm, 67, rfl⟩
abbrev main_v2 : Ref sig .tc := ⟨.hbm, 68, rfl⟩
abbrev main_v3 : Ref sig .tc := ⟨.hbm, 69, rfl⟩
abbrev main_v4 : Ref sig .tc := ⟨.hbm, 70, rfl⟩
abbrev main_v5 : Ref sig .tc := ⟨.hbm, 71, rfl⟩
abbrev main_v6 : Ref sig .tc := ⟨.hbm, 72, rfl⟩
abbrev main_cst_61 : Ref sig .tc := ⟨.hbm, 73, rfl⟩
abbrev main_v7 : Ref sig .tc := ⟨.hbm, 74, rfl⟩
abbrev main_v8 : Ref sig .tc := ⟨.hbm, 75, rfl⟩
abbrev main_v9 : Ref sig .tc := ⟨.hbm, 76, rfl⟩
abbrev main_v10 : Ref sig .tc := ⟨.hbm, 77, rfl⟩
abbrev main_v11 : Ref sig .tc := ⟨.hbm, 78, rfl⟩
abbrev main_v12 : Ref sig .tc := ⟨.hbm, 79, rfl⟩
abbrev main_v13 : Ref sig .tc := ⟨.hbm, 80, rfl⟩
abbrev main_cst_62 : Ref sig .tc := ⟨.hbm, 81, rfl⟩
abbrev main_v14 : Ref sig .tc := ⟨.hbm, 82, rfl⟩
abbrev main_cst_63 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_cst_64 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_call0_c : Ref sig .tc := ⟨.hbm, 98, rfl⟩
abbrev main_call0_v0 : Ref sig .tc := ⟨.hbm, 99, rfl⟩
abbrev main_call0_v1 : Ref sig .tc := ⟨.hbm, 100, rfl⟩
abbrev main_call0_c_0 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_v5 : Ref sig .tc := ⟨.hbm, 105, rfl⟩
abbrev main_call0_c_1 : Ref sig .tc := ⟨.hbm, 106, rfl⟩
abbrev main_call0_c_2 : Ref sig .tc := ⟨.hbm, 107, rfl⟩
abbrev main_call0_v6 : Ref sig .tc := ⟨.hbm, 108, rfl⟩
abbrev main_call0_v7 : Ref sig .tc := ⟨.hbm, 109, rfl⟩
abbrev main_call0_v8 : Ref sig .tc := ⟨.hbm, 110, rfl⟩
abbrev main_call0_v9 : Ref sig .tc := ⟨.hbm, 111, rfl⟩
abbrev main_call0_v10 : Ref sig .tc := ⟨.hbm, 112, rfl⟩
abbrev main_call0_v11 : Ref sig .tc := ⟨.hbm, 113, rfl⟩
abbrev main_call0_c_3 : Ref sig .tc := ⟨.hbm, 114, rfl⟩
abbrev main_call0_v12 : Ref sig .tc := ⟨.hbm, 115, rfl⟩
abbrev main_call0_v13 : Ref sig .tc := ⟨.hbm, 116, rfl⟩
abbrev main_call0_v14 : Ref sig .tc := ⟨.hbm, 117, rfl⟩
abbrev main_call0_cst : Ref sig .tc := ⟨.hbm, 118, rfl⟩
abbrev main_call0_v15 : Ref sig .tc := ⟨.hbm, 119, rfl⟩
abbrev main_v28 : Ref sig .tc := ⟨.hbm, 120, rfl⟩
abbrev main_cst_65 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_v29 : Ref sig .tc := ⟨.hbm, 125, rfl⟩
abbrev main_call2_c : Ref sig .tc := ⟨.hbm, 126, rfl⟩
abbrev main_call2_v0 : Ref sig .tc := ⟨.hbm, 127, rfl⟩
abbrev main_call2_v1 : Ref sig .tc := ⟨.hbm, 128, rfl⟩
abbrev main_call2_c_0 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_call2_v5 : Ref sig .tc := ⟨.hbm, 133, rfl⟩
abbrev main_call2_c_1 : Ref sig .tc := ⟨.hbm, 134, rfl⟩
abbrev main_call2_c_2 : Ref sig .tc := ⟨.hbm, 135, rfl⟩
abbrev main_call2_v6 : Ref sig .tc := ⟨.hbm, 136, rfl⟩
abbrev main_call2_v7 : Ref sig .tc := ⟨.hbm, 137, rfl⟩
abbrev main_call2_v8 : Ref sig .tc := ⟨.hbm, 138, rfl⟩
abbrev main_call2_v9 : Ref sig .tc := ⟨.hbm, 139, rfl⟩
abbrev main_call2_v10 : Ref sig .tc := ⟨.hbm, 140, rfl⟩
abbrev main_call2_v11 : Ref sig .tc := ⟨.hbm, 141, rfl⟩
abbrev main_call2_c_3 : Ref sig .tc := ⟨.hbm, 142, rfl⟩
abbrev main_call2_v12 : Ref sig .tc := ⟨.hbm, 143, rfl⟩
abbrev main_call2_v13 : Ref sig .tc := ⟨.hbm, 144, rfl⟩
abbrev main_call2_v14 : Ref sig .tc := ⟨.hbm, 145, rfl⟩
abbrev main_call2_cst : Ref sig .tc := ⟨.hbm, 146, rfl⟩
abbrev main_call2_v15 : Ref sig .tc := ⟨.hbm, 147, rfl⟩
abbrev main_v30 : Ref sig .tc := ⟨.hbm, 148, rfl⟩
abbrev main_cst_66 : Ref sig .tc := ⟨.hbm, 149, rfl⟩
abbrev main_call3_v0 : Ref sig .tc := ⟨.hbm, 150, rfl⟩
abbrev main_call3_v1 : Ref sig .tc := ⟨.hbm, 151, rfl⟩
abbrev main_call3_v2 : Ref sig .tc := ⟨.hbm, 152, rfl⟩
abbrev main_v31 : Ref sig .tc := ⟨.hbm, 153, rfl⟩
abbrev main_call4_c : Ref sig .tc := ⟨.hbm, 154, rfl⟩
abbrev main_call4_v0 : Ref sig .tc := ⟨.hbm, 155, rfl⟩
abbrev main_call4_v1 : Ref sig .tc := ⟨.hbm, 156, rfl⟩
abbrev main_call4_c_0 : Ref sig .tc := ⟨.hbm, 157, rfl⟩
abbrev main_call4_v2 : Ref sig .tc := ⟨.hbm, 158, rfl⟩
abbrev main_call4_v3 : Ref sig .tc := ⟨.hbm, 159, rfl⟩
abbrev main_call4_v4 : Ref sig .tc := ⟨.hbm, 160, rfl⟩
abbrev main_call4_v5 : Ref sig .tc := ⟨.hbm, 161, rfl⟩
abbrev main_call4_c_1 : Ref sig .tc := ⟨.hbm, 162, rfl⟩
abbrev main_call4_c_2 : Ref sig .tc := ⟨.hbm, 163, rfl⟩
abbrev main_call4_v6 : Ref sig .tc := ⟨.hbm, 164, rfl⟩
abbrev main_call4_v7 : Ref sig .tc := ⟨.hbm, 165, rfl⟩
abbrev main_call4_v8 : Ref sig .tc := ⟨.hbm, 166, rfl⟩
abbrev main_call4_v9 : Ref sig .tc := ⟨.hbm, 167, rfl⟩
abbrev main_call4_v10 : Ref sig .tc := ⟨.hbm, 168, rfl⟩
abbrev main_call4_v11 : Ref sig .tc := ⟨.hbm, 169, rfl⟩
abbrev main_call4_c_3 : Ref sig .tc := ⟨.hbm, 170, rfl⟩
abbrev main_call4_v12 : Ref sig .tc := ⟨.hbm, 171, rfl⟩
abbrev main_call4_v13 : Ref sig .tc := ⟨.hbm, 172, rfl⟩
abbrev main_call4_v14 : Ref sig .tc := ⟨.hbm, 173, rfl⟩
abbrev main_call4_cst : Ref sig .tc := ⟨.hbm, 174, rfl⟩
abbrev main_call4_v15 : Ref sig .tc := ⟨.hbm, 175, rfl⟩
abbrev main_v32 : Ref sig .tc := ⟨.hbm, 176, rfl⟩
abbrev main_cst_67 : Ref sig .tc := ⟨.hbm, 177, rfl⟩
abbrev main_call5_v0 : Ref sig .tc := ⟨.hbm, 178, rfl⟩
abbrev main_call5_v1 : Ref sig .tc := ⟨.hbm, 179, rfl⟩
abbrev main_call5_v2 : Ref sig .tc := ⟨.hbm, 180, rfl⟩
abbrev main_v33 : Ref sig .tc := ⟨.hbm, 181, rfl⟩
abbrev main_call6_c : Ref sig .tc := ⟨.hbm, 182, rfl⟩
abbrev main_call6_v0 : Ref sig .tc := ⟨.hbm, 183, rfl⟩
abbrev main_call6_v1 : Ref sig .tc := ⟨.hbm, 184, rfl⟩
abbrev main_call6_c_0 : Ref sig .tc := ⟨.hbm, 185, rfl⟩
abbrev main_call6_v2 : Ref sig .tc := ⟨.hbm, 186, rfl⟩
abbrev main_call6_v3 : Ref sig .tc := ⟨.hbm, 187, rfl⟩
abbrev main_call6_v4 : Ref sig .tc := ⟨.hbm, 188, rfl⟩
abbrev main_call6_v5 : Ref sig .tc := ⟨.hbm, 189, rfl⟩
abbrev main_call6_c_1 : Ref sig .tc := ⟨.hbm, 190, rfl⟩
abbrev main_call6_c_2 : Ref sig .tc := ⟨.hbm, 191, rfl⟩
abbrev main_call6_v6 : Ref sig .tc := ⟨.hbm, 192, rfl⟩
abbrev main_call6_v7 : Ref sig .tc := ⟨.hbm, 193, rfl⟩
abbrev main_call6_v8 : Ref sig .tc := ⟨.hbm, 194, rfl⟩
abbrev main_call6_v9 : Ref sig .tc := ⟨.hbm, 195, rfl⟩
abbrev main_call6_v10 : Ref sig .tc := ⟨.hbm, 196, rfl⟩
abbrev main_call6_v11 : Ref sig .tc := ⟨.hbm, 197, rfl⟩
abbrev main_call6_c_3 : Ref sig .tc := ⟨.hbm, 198, rfl⟩
abbrev main_call6_v12 : Ref sig .tc := ⟨.hbm, 199, rfl⟩
abbrev main_call6_v13 : Ref sig .tc := ⟨.hbm, 200, rfl⟩
abbrev main_call6_v14 : Ref sig .tc := ⟨.hbm, 201, rfl⟩
abbrev main_call6_cst : Ref sig .tc := ⟨.hbm, 202, rfl⟩
abbrev main_call6_v15 : Ref sig .tc := ⟨.hbm, 203, rfl⟩
abbrev main_v34 : Ref sig .tc := ⟨.hbm, 204, rfl⟩
abbrev main_cst_68 : Ref sig .tc := ⟨.hbm, 205, rfl⟩
abbrev main_call7_v0 : Ref sig .tc := ⟨.hbm, 206, rfl⟩
abbrev main_call7_v1 : Ref sig .tc := ⟨.hbm, 207, rfl⟩
abbrev main_call7_v2 : Ref sig .tc := ⟨.hbm, 208, rfl⟩
abbrev main_v35 : Ref sig .tc := ⟨.hbm, 209, rfl⟩
abbrev main_call8_c : Ref sig .tc := ⟨.hbm, 210, rfl⟩
abbrev main_call8_v0 : Ref sig .tc := ⟨.hbm, 211, rfl⟩
abbrev main_call8_v1 : Ref sig .tc := ⟨.hbm, 212, rfl⟩
abbrev main_call8_c_0 : Ref sig .tc := ⟨.hbm, 213, rfl⟩
abbrev main_call8_v2 : Ref sig .tc := ⟨.hbm, 214, rfl⟩
abbrev main_call8_v3 : Ref sig .tc := ⟨.hbm, 215, rfl⟩
abbrev main_call8_v4 : Ref sig .tc := ⟨.hbm, 216, rfl⟩
abbrev main_call8_v5 : Ref sig .tc := ⟨.hbm, 217, rfl⟩
abbrev main_call8_c_1 : Ref sig .tc := ⟨.hbm, 218, rfl⟩
abbrev main_call8_c_2 : Ref sig .tc := ⟨.hbm, 219, rfl⟩
abbrev main_call8_v6 : Ref sig .tc := ⟨.hbm, 220, rfl⟩
abbrev main_call8_v7 : Ref sig .tc := ⟨.hbm, 221, rfl⟩
abbrev main_call8_v8 : Ref sig .tc := ⟨.hbm, 222, rfl⟩
abbrev main_call8_v9 : Ref sig .tc := ⟨.hbm, 223, rfl⟩
abbrev main_call8_v10 : Ref sig .tc := ⟨.hbm, 224, rfl⟩
abbrev main_call8_v11 : Ref sig .tc := ⟨.hbm, 225, rfl⟩
abbrev main_call8_c_3 : Ref sig .tc := ⟨.hbm, 226, rfl⟩
abbrev main_call8_v12 : Ref sig .tc := ⟨.hbm, 227, rfl⟩
abbrev main_call8_v13 : Ref sig .tc := ⟨.hbm, 228, rfl⟩
abbrev main_call8_v14 : Ref sig .tc := ⟨.hbm, 229, rfl⟩
abbrev main_call8_cst : Ref sig .tc := ⟨.hbm, 230, rfl⟩
abbrev main_call8_v15 : Ref sig .tc := ⟨.hbm, 231, rfl⟩
abbrev main_v36 : Ref sig .tc := ⟨.hbm, 232, rfl⟩
abbrev main_cst_69 : Ref sig .tc := ⟨.hbm, 233, rfl⟩
abbrev main_call9_v0 : Ref sig .tc := ⟨.hbm, 234, rfl⟩
abbrev main_call9_v1 : Ref sig .tc := ⟨.hbm, 235, rfl⟩
abbrev main_call9_v2 : Ref sig .tc := ⟨.hbm, 236, rfl⟩
abbrev main_v37 : Ref sig .tc := ⟨.hbm, 237, rfl⟩
abbrev main_call10_c : Ref sig .tc := ⟨.hbm, 238, rfl⟩
abbrev main_call10_v0 : Ref sig .tc := ⟨.hbm, 239, rfl⟩
abbrev main_call10_v1 : Ref sig .tc := ⟨.hbm, 240, rfl⟩
abbrev main_call10_c_0 : Ref sig .tc := ⟨.hbm, 241, rfl⟩
abbrev main_call10_v2 : Ref sig .tc := ⟨.hbm, 242, rfl⟩
abbrev main_call10_v3 : Ref sig .tc := ⟨.hbm, 243, rfl⟩
abbrev main_call10_v4 : Ref sig .tc := ⟨.hbm, 244, rfl⟩
abbrev main_call10_v5 : Ref sig .tc := ⟨.hbm, 245, rfl⟩
abbrev main_call10_c_1 : Ref sig .tc := ⟨.hbm, 246, rfl⟩
abbrev main_call10_c_2 : Ref sig .tc := ⟨.hbm, 247, rfl⟩
abbrev main_call10_v6 : Ref sig .tc := ⟨.hbm, 248, rfl⟩
abbrev main_call10_v7 : Ref sig .tc := ⟨.hbm, 249, rfl⟩
abbrev main_call10_v8 : Ref sig .tc := ⟨.hbm, 250, rfl⟩
abbrev main_call10_v9 : Ref sig .tc := ⟨.hbm, 251, rfl⟩
abbrev main_call10_v10 : Ref sig .tc := ⟨.hbm, 252, rfl⟩
abbrev main_call10_v11 : Ref sig .tc := ⟨.hbm, 253, rfl⟩
abbrev main_call10_c_3 : Ref sig .tc := ⟨.hbm, 254, rfl⟩
abbrev main_call10_v12 : Ref sig .tc := ⟨.hbm, 255, rfl⟩
abbrev main_call10_v13 : Ref sig .tc := ⟨.hbm, 256, rfl⟩
abbrev main_call10_v14 : Ref sig .tc := ⟨.hbm, 257, rfl⟩
abbrev main_call10_cst : Ref sig .tc := ⟨.hbm, 258, rfl⟩
abbrev main_call10_v15 : Ref sig .tc := ⟨.hbm, 259, rfl⟩
abbrev main_v38 : Ref sig .tc := ⟨.hbm, 260, rfl⟩
abbrev main_cst_70 : Ref sig .tc := ⟨.hbm, 261, rfl⟩
abbrev main_call11_v0 : Ref sig .tc := ⟨.hbm, 262, rfl⟩
abbrev main_call11_v1 : Ref sig .tc := ⟨.hbm, 263, rfl⟩
abbrev main_call11_v2 : Ref sig .tc := ⟨.hbm, 264, rfl⟩
abbrev main_v39 : Ref sig .tc := ⟨.hbm, 265, rfl⟩
abbrev main_call12_c : Ref sig .tc := ⟨.hbm, 266, rfl⟩
abbrev main_call12_v0 : Ref sig .tc := ⟨.hbm, 267, rfl⟩
abbrev main_call12_v1 : Ref sig .tc := ⟨.hbm, 268, rfl⟩
abbrev main_call12_c_0 : Ref sig .tc := ⟨.hbm, 269, rfl⟩
abbrev main_call12_v2 : Ref sig .tc := ⟨.hbm, 270, rfl⟩
abbrev main_call12_v3 : Ref sig .tc := ⟨.hbm, 271, rfl⟩
abbrev main_call12_v4 : Ref sig .tc := ⟨.hbm, 272, rfl⟩
abbrev main_call12_v5 : Ref sig .tc := ⟨.hbm, 273, rfl⟩
abbrev main_call12_c_1 : Ref sig .tc := ⟨.hbm, 274, rfl⟩
abbrev main_call12_c_2 : Ref sig .tc := ⟨.hbm, 275, rfl⟩
abbrev main_call12_v6 : Ref sig .tc := ⟨.hbm, 276, rfl⟩
abbrev main_call12_v7 : Ref sig .tc := ⟨.hbm, 277, rfl⟩
abbrev main_call12_v8 : Ref sig .tc := ⟨.hbm, 278, rfl⟩
abbrev main_call12_v9 : Ref sig .tc := ⟨.hbm, 279, rfl⟩
abbrev main_call12_v10 : Ref sig .tc := ⟨.hbm, 280, rfl⟩
abbrev main_call12_v11 : Ref sig .tc := ⟨.hbm, 281, rfl⟩
abbrev main_call12_c_3 : Ref sig .tc := ⟨.hbm, 282, rfl⟩
abbrev main_call12_v12 : Ref sig .tc := ⟨.hbm, 283, rfl⟩
abbrev main_call12_v13 : Ref sig .tc := ⟨.hbm, 284, rfl⟩
abbrev main_call12_v14 : Ref sig .tc := ⟨.hbm, 285, rfl⟩
abbrev main_call12_cst : Ref sig .tc := ⟨.hbm, 286, rfl⟩
abbrev main_call12_v15 : Ref sig .tc := ⟨.hbm, 287, rfl⟩
abbrev main_v40 : Ref sig .tc := ⟨.hbm, 288, rfl⟩
abbrev main_cst_71 : Ref sig .tc := ⟨.hbm, 289, rfl⟩
abbrev main_call13_v0 : Ref sig .tc := ⟨.hbm, 290, rfl⟩
abbrev main_call13_v1 : Ref sig .tc := ⟨.hbm, 291, rfl⟩
abbrev main_call13_v2 : Ref sig .tc := ⟨.hbm, 292, rfl⟩
abbrev main_v41 : Ref sig .tc := ⟨.hbm, 293, rfl⟩
abbrev main_call14_c : Ref sig .tc := ⟨.hbm, 294, rfl⟩
abbrev main_call14_v0 : Ref sig .tc := ⟨.hbm, 295, rfl⟩
abbrev main_call14_v1 : Ref sig .tc := ⟨.hbm, 296, rfl⟩
abbrev main_call14_c_0 : Ref sig .tc := ⟨.hbm, 297, rfl⟩
abbrev main_call14_v2 : Ref sig .tc := ⟨.hbm, 298, rfl⟩
abbrev main_call14_v3 : Ref sig .tc := ⟨.hbm, 299, rfl⟩
abbrev main_call14_v4 : Ref sig .tc := ⟨.hbm, 300, rfl⟩
abbrev main_call14_v5 : Ref sig .tc := ⟨.hbm, 301, rfl⟩
abbrev main_call14_c_1 : Ref sig .tc := ⟨.hbm, 302, rfl⟩
abbrev main_call14_c_2 : Ref sig .tc := ⟨.hbm, 303, rfl⟩
abbrev main_call14_v6 : Ref sig .tc := ⟨.hbm, 304, rfl⟩
abbrev main_call14_v7 : Ref sig .tc := ⟨.hbm, 305, rfl⟩
abbrev main_call14_v8 : Ref sig .tc := ⟨.hbm, 306, rfl⟩
abbrev main_call14_v9 : Ref sig .tc := ⟨.hbm, 307, rfl⟩
abbrev main_call14_v10 : Ref sig .tc := ⟨.hbm, 308, rfl⟩
abbrev main_call14_v11 : Ref sig .tc := ⟨.hbm, 309, rfl⟩
abbrev main_call14_c_3 : Ref sig .tc := ⟨.hbm, 310, rfl⟩
abbrev main_call14_v12 : Ref sig .tc := ⟨.hbm, 311, rfl⟩
abbrev main_call14_v13 : Ref sig .tc := ⟨.hbm, 312, rfl⟩
abbrev main_call14_v14 : Ref sig .tc := ⟨.hbm, 313, rfl⟩
abbrev main_call14_cst : Ref sig .tc := ⟨.hbm, 314, rfl⟩
abbrev main_call14_v15 : Ref sig .tc := ⟨.hbm, 315, rfl⟩
abbrev main_v42 : Ref sig .tc := ⟨.hbm, 316, rfl⟩
abbrev main_cst_72 : Ref sig .tc := ⟨.hbm, 317, rfl⟩
abbrev main_call15_v0 : Ref sig .tc := ⟨.hbm, 318, rfl⟩
abbrev main_call15_v1 : Ref sig .tc := ⟨.hbm, 319, rfl⟩
abbrev main_call15_v2 : Ref sig .tc := ⟨.hbm, 320, rfl⟩
abbrev main_v43 : Ref sig .tc := ⟨.hbm, 321, rfl⟩
abbrev main_call16_c : Ref sig .tc := ⟨.hbm, 322, rfl⟩
abbrev main_call16_v0 : Ref sig .tc := ⟨.hbm, 323, rfl⟩
abbrev main_call16_v1 : Ref sig .tc := ⟨.hbm, 324, rfl⟩
abbrev main_call16_c_0 : Ref sig .tc := ⟨.hbm, 325, rfl⟩
abbrev main_call16_v2 : Ref sig .tc := ⟨.hbm, 326, rfl⟩
abbrev main_call16_v3 : Ref sig .tc := ⟨.hbm, 327, rfl⟩
abbrev main_call16_v4 : Ref sig .tc := ⟨.hbm, 328, rfl⟩
abbrev main_call16_v5 : Ref sig .tc := ⟨.hbm, 329, rfl⟩
abbrev main_call16_c_1 : Ref sig .tc := ⟨.hbm, 330, rfl⟩
abbrev main_call16_c_2 : Ref sig .tc := ⟨.hbm, 331, rfl⟩
abbrev main_call16_v6 : Ref sig .tc := ⟨.hbm, 332, rfl⟩
abbrev main_call16_v7 : Ref sig .tc := ⟨.hbm, 333, rfl⟩
abbrev main_call16_v8 : Ref sig .tc := ⟨.hbm, 334, rfl⟩
abbrev main_call16_v9 : Ref sig .tc := ⟨.hbm, 335, rfl⟩
abbrev main_call16_v10 : Ref sig .tc := ⟨.hbm, 336, rfl⟩
abbrev main_call16_v11 : Ref sig .tc := ⟨.hbm, 337, rfl⟩
abbrev main_call16_c_3 : Ref sig .tc := ⟨.hbm, 338, rfl⟩
abbrev main_call16_v12 : Ref sig .tc := ⟨.hbm, 339, rfl⟩
abbrev main_call16_v13 : Ref sig .tc := ⟨.hbm, 340, rfl⟩
abbrev main_call16_v14 : Ref sig .tc := ⟨.hbm, 341, rfl⟩
abbrev main_call16_cst : Ref sig .tc := ⟨.hbm, 342, rfl⟩
abbrev main_call16_v15 : Ref sig .tc := ⟨.hbm, 343, rfl⟩
abbrev main_v44 : Ref sig .tc := ⟨.hbm, 344, rfl⟩
abbrev main_cst_73 : Ref sig .tc := ⟨.hbm, 345, rfl⟩
abbrev main_call17_v0 : Ref sig .tc := ⟨.hbm, 346, rfl⟩
abbrev main_call17_v1 : Ref sig .tc := ⟨.hbm, 347, rfl⟩
abbrev main_call17_v2 : Ref sig .tc := ⟨.hbm, 348, rfl⟩
abbrev main_v45 : Ref sig .tc := ⟨.hbm, 349, rfl⟩
abbrev main_call18_c : Ref sig .tc := ⟨.hbm, 350, rfl⟩
abbrev main_call18_v0 : Ref sig .tc := ⟨.hbm, 351, rfl⟩
abbrev main_call18_v1 : Ref sig .tc := ⟨.hbm, 352, rfl⟩
abbrev main_call18_c_0 : Ref sig .tc := ⟨.hbm, 353, rfl⟩
abbrev main_call18_v2 : Ref sig .tc := ⟨.hbm, 354, rfl⟩
abbrev main_call18_v3 : Ref sig .tc := ⟨.hbm, 355, rfl⟩
abbrev main_call18_v4 : Ref sig .tc := ⟨.hbm, 356, rfl⟩
abbrev main_call18_v5 : Ref sig .tc := ⟨.hbm, 357, rfl⟩
abbrev main_call18_c_1 : Ref sig .tc := ⟨.hbm, 358, rfl⟩
abbrev main_call18_c_2 : Ref sig .tc := ⟨.hbm, 359, rfl⟩
abbrev main_call18_v6 : Ref sig .tc := ⟨.hbm, 360, rfl⟩
abbrev main_call18_v7 : Ref sig .tc := ⟨.hbm, 361, rfl⟩
abbrev main_call18_v8 : Ref sig .tc := ⟨.hbm, 362, rfl⟩
abbrev main_call18_v9 : Ref sig .tc := ⟨.hbm, 363, rfl⟩
abbrev main_call18_v10 : Ref sig .tc := ⟨.hbm, 364, rfl⟩
abbrev main_call18_v11 : Ref sig .tc := ⟨.hbm, 365, rfl⟩
abbrev main_call18_c_3 : Ref sig .tc := ⟨.hbm, 366, rfl⟩
abbrev main_call18_v12 : Ref sig .tc := ⟨.hbm, 367, rfl⟩
abbrev main_call18_v13 : Ref sig .tc := ⟨.hbm, 368, rfl⟩
abbrev main_call18_v14 : Ref sig .tc := ⟨.hbm, 369, rfl⟩
abbrev main_call18_cst : Ref sig .tc := ⟨.hbm, 370, rfl⟩
abbrev main_call18_v15 : Ref sig .tc := ⟨.hbm, 371, rfl⟩
abbrev main_v46 : Ref sig .tc := ⟨.hbm, 372, rfl⟩
abbrev main_cst_74 : Ref sig .tc := ⟨.hbm, 373, rfl⟩
abbrev main_call19_v0 : Ref sig .tc := ⟨.hbm, 374, rfl⟩
abbrev main_call19_v1 : Ref sig .tc := ⟨.hbm, 375, rfl⟩
abbrev main_call19_v2 : Ref sig .tc := ⟨.hbm, 376, rfl⟩
abbrev main_v47 : Ref sig .tc := ⟨.hbm, 377, rfl⟩
abbrev main_call20_c : Ref sig .tc := ⟨.hbm, 378, rfl⟩
abbrev main_call20_v0 : Ref sig .tc := ⟨.hbm, 379, rfl⟩
abbrev main_call20_v1 : Ref sig .tc := ⟨.hbm, 380, rfl⟩
abbrev main_call20_c_0 : Ref sig .tc := ⟨.hbm, 381, rfl⟩
abbrev main_call20_v2 : Ref sig .tc := ⟨.hbm, 382, rfl⟩
abbrev main_call20_v3 : Ref sig .tc := ⟨.hbm, 383, rfl⟩
abbrev main_call20_v4 : Ref sig .tc := ⟨.hbm, 384, rfl⟩
abbrev main_call20_v5 : Ref sig .tc := ⟨.hbm, 385, rfl⟩
abbrev main_call20_c_1 : Ref sig .tc := ⟨.hbm, 386, rfl⟩
abbrev main_call20_c_2 : Ref sig .tc := ⟨.hbm, 387, rfl⟩
abbrev main_call20_v6 : Ref sig .tc := ⟨.hbm, 388, rfl⟩
abbrev main_call20_v7 : Ref sig .tc := ⟨.hbm, 389, rfl⟩
abbrev main_call20_v8 : Ref sig .tc := ⟨.hbm, 390, rfl⟩
abbrev main_call20_v9 : Ref sig .tc := ⟨.hbm, 391, rfl⟩
abbrev main_call20_v10 : Ref sig .tc := ⟨.hbm, 392, rfl⟩
abbrev main_call20_v11 : Ref sig .tc := ⟨.hbm, 393, rfl⟩
abbrev main_call20_c_3 : Ref sig .tc := ⟨.hbm, 394, rfl⟩
abbrev main_call20_v12 : Ref sig .tc := ⟨.hbm, 395, rfl⟩
abbrev main_call20_v13 : Ref sig .tc := ⟨.hbm, 396, rfl⟩
abbrev main_call20_v14 : Ref sig .tc := ⟨.hbm, 397, rfl⟩
abbrev main_call20_cst : Ref sig .tc := ⟨.hbm, 398, rfl⟩
abbrev main_call20_v15 : Ref sig .tc := ⟨.hbm, 399, rfl⟩
abbrev main_v48 : Ref sig .tc := ⟨.hbm, 400, rfl⟩
abbrev main_cst_75 : Ref sig .tc := ⟨.hbm, 401, rfl⟩
abbrev main_call21_v0 : Ref sig .tc := ⟨.hbm, 402, rfl⟩
abbrev main_call21_v1 : Ref sig .tc := ⟨.hbm, 403, rfl⟩
abbrev main_call21_v2 : Ref sig .tc := ⟨.hbm, 404, rfl⟩
abbrev main_v49 : Ref sig .tc := ⟨.hbm, 405, rfl⟩
abbrev main_call22_c : Ref sig .tc := ⟨.hbm, 406, rfl⟩
abbrev main_call22_v0 : Ref sig .tc := ⟨.hbm, 407, rfl⟩
abbrev main_call22_v1 : Ref sig .tc := ⟨.hbm, 408, rfl⟩
abbrev main_call22_c_0 : Ref sig .tc := ⟨.hbm, 409, rfl⟩
abbrev main_call22_v2 : Ref sig .tc := ⟨.hbm, 410, rfl⟩
abbrev main_call22_v3 : Ref sig .tc := ⟨.hbm, 411, rfl⟩
abbrev main_call22_v4 : Ref sig .tc := ⟨.hbm, 412, rfl⟩
abbrev main_call22_v5 : Ref sig .tc := ⟨.hbm, 413, rfl⟩
abbrev main_call22_c_1 : Ref sig .tc := ⟨.hbm, 414, rfl⟩
abbrev main_call22_c_2 : Ref sig .tc := ⟨.hbm, 415, rfl⟩
abbrev main_call22_v6 : Ref sig .tc := ⟨.hbm, 416, rfl⟩
abbrev main_call22_v7 : Ref sig .tc := ⟨.hbm, 417, rfl⟩
abbrev main_call22_v8 : Ref sig .tc := ⟨.hbm, 418, rfl⟩
abbrev main_call22_v9 : Ref sig .tc := ⟨.hbm, 419, rfl⟩
abbrev main_call22_v10 : Ref sig .tc := ⟨.hbm, 420, rfl⟩
abbrev main_call22_v11 : Ref sig .tc := ⟨.hbm, 421, rfl⟩
abbrev main_call22_c_3 : Ref sig .tc := ⟨.hbm, 422, rfl⟩
abbrev main_call22_v12 : Ref sig .tc := ⟨.hbm, 423, rfl⟩
abbrev main_call22_v13 : Ref sig .tc := ⟨.hbm, 424, rfl⟩
abbrev main_call22_v14 : Ref sig .tc := ⟨.hbm, 425, rfl⟩
abbrev main_call22_cst : Ref sig .tc := ⟨.hbm, 426, rfl⟩
abbrev main_call22_v15 : Ref sig .tc := ⟨.hbm, 427, rfl⟩
abbrev main_v50 : Ref sig .tc := ⟨.hbm, 428, rfl⟩
abbrev main_cst_76 : Ref sig .tc := ⟨.hbm, 429, rfl⟩
abbrev main_call23_v0 : Ref sig .tc := ⟨.hbm, 430, rfl⟩
abbrev main_call23_v1 : Ref sig .tc := ⟨.hbm, 431, rfl⟩
abbrev main_call23_v2 : Ref sig .tc := ⟨.hbm, 432, rfl⟩
abbrev main_v51 : Ref sig .tc := ⟨.hbm, 433, rfl⟩
abbrev main_call24_c : Ref sig .tc := ⟨.hbm, 434, rfl⟩
abbrev main_call24_v0 : Ref sig .tc := ⟨.hbm, 435, rfl⟩
abbrev main_call24_v1 : Ref sig .tc := ⟨.hbm, 436, rfl⟩
abbrev main_call24_c_0 : Ref sig .tc := ⟨.hbm, 437, rfl⟩
abbrev main_call24_v2 : Ref sig .tc := ⟨.hbm, 438, rfl⟩
abbrev main_call24_v3 : Ref sig .tc := ⟨.hbm, 439, rfl⟩
abbrev main_call24_v4 : Ref sig .tc := ⟨.hbm, 440, rfl⟩
abbrev main_call24_v5 : Ref sig .tc := ⟨.hbm, 441, rfl⟩
abbrev main_call24_c_1 : Ref sig .tc := ⟨.hbm, 442, rfl⟩
abbrev main_call24_c_2 : Ref sig .tc := ⟨.hbm, 443, rfl⟩
abbrev main_call24_v6 : Ref sig .tc := ⟨.hbm, 444, rfl⟩
abbrev main_call24_v7 : Ref sig .tc := ⟨.hbm, 445, rfl⟩
abbrev main_call24_v8 : Ref sig .tc := ⟨.hbm, 446, rfl⟩
abbrev main_call24_v9 : Ref sig .tc := ⟨.hbm, 447, rfl⟩
abbrev main_call24_v10 : Ref sig .tc := ⟨.hbm, 448, rfl⟩
abbrev main_call24_v11 : Ref sig .tc := ⟨.hbm, 449, rfl⟩
abbrev main_call24_c_3 : Ref sig .tc := ⟨.hbm, 450, rfl⟩
abbrev main_call24_v12 : Ref sig .tc := ⟨.hbm, 451, rfl⟩
abbrev main_call24_v13 : Ref sig .tc := ⟨.hbm, 452, rfl⟩
abbrev main_call24_v14 : Ref sig .tc := ⟨.hbm, 453, rfl⟩
abbrev main_call24_cst : Ref sig .tc := ⟨.hbm, 454, rfl⟩
abbrev main_call24_v15 : Ref sig .tc := ⟨.hbm, 455, rfl⟩
abbrev main_v52 : Ref sig .tc := ⟨.hbm, 456, rfl⟩
abbrev main_cst_77 : Ref sig .tc := ⟨.hbm, 457, rfl⟩
abbrev main_call25_v0 : Ref sig .tc := ⟨.hbm, 458, rfl⟩
abbrev main_call25_v1 : Ref sig .tc := ⟨.hbm, 459, rfl⟩
abbrev main_call25_v2 : Ref sig .tc := ⟨.hbm, 460, rfl⟩
abbrev main_v53 : Ref sig .tc := ⟨.hbm, 461, rfl⟩
abbrev main_call26_c : Ref sig .tc := ⟨.hbm, 462, rfl⟩
abbrev main_call26_v0 : Ref sig .tc := ⟨.hbm, 463, rfl⟩
abbrev main_call26_v1 : Ref sig .tc := ⟨.hbm, 464, rfl⟩
abbrev main_call26_c_0 : Ref sig .tc := ⟨.hbm, 465, rfl⟩
abbrev main_call26_v2 : Ref sig .tc := ⟨.hbm, 466, rfl⟩
abbrev main_call26_v3 : Ref sig .tc := ⟨.hbm, 467, rfl⟩
abbrev main_call26_v4 : Ref sig .tc := ⟨.hbm, 468, rfl⟩
abbrev main_call26_v5 : Ref sig .tc := ⟨.hbm, 469, rfl⟩
abbrev main_call26_c_1 : Ref sig .tc := ⟨.hbm, 470, rfl⟩
abbrev main_call26_c_2 : Ref sig .tc := ⟨.hbm, 471, rfl⟩
abbrev main_call26_v6 : Ref sig .tc := ⟨.hbm, 472, rfl⟩
abbrev main_call26_v7 : Ref sig .tc := ⟨.hbm, 473, rfl⟩
abbrev main_call26_v8 : Ref sig .tc := ⟨.hbm, 474, rfl⟩
abbrev main_call26_v9 : Ref sig .tc := ⟨.hbm, 475, rfl⟩
abbrev main_call26_v10 : Ref sig .tc := ⟨.hbm, 476, rfl⟩
abbrev main_call26_v11 : Ref sig .tc := ⟨.hbm, 477, rfl⟩
abbrev main_call26_c_3 : Ref sig .tc := ⟨.hbm, 478, rfl⟩
abbrev main_call26_v12 : Ref sig .tc := ⟨.hbm, 479, rfl⟩
abbrev main_call26_v13 : Ref sig .tc := ⟨.hbm, 480, rfl⟩
abbrev main_call26_v14 : Ref sig .tc := ⟨.hbm, 481, rfl⟩
abbrev main_call26_cst : Ref sig .tc := ⟨.hbm, 482, rfl⟩
abbrev main_call26_v15 : Ref sig .tc := ⟨.hbm, 483, rfl⟩
abbrev main_v54 : Ref sig .tc := ⟨.hbm, 484, rfl⟩
abbrev main_cst_78 : Ref sig .tc := ⟨.hbm, 485, rfl⟩
abbrev main_call27_v0 : Ref sig .tc := ⟨.hbm, 486, rfl⟩
abbrev main_call27_v1 : Ref sig .tc := ⟨.hbm, 487, rfl⟩
abbrev main_call27_v2 : Ref sig .tc := ⟨.hbm, 488, rfl⟩
abbrev main_v55 : Ref sig .tc := ⟨.hbm, 489, rfl⟩
abbrev main_call28_c : Ref sig .tc := ⟨.hbm, 490, rfl⟩
abbrev main_call28_v0 : Ref sig .tc := ⟨.hbm, 491, rfl⟩
abbrev main_call28_v1 : Ref sig .tc := ⟨.hbm, 492, rfl⟩
abbrev main_call28_c_0 : Ref sig .tc := ⟨.hbm, 493, rfl⟩
abbrev main_call28_v2 : Ref sig .tc := ⟨.hbm, 494, rfl⟩
abbrev main_call28_v3 : Ref sig .tc := ⟨.hbm, 495, rfl⟩
abbrev main_call28_v4 : Ref sig .tc := ⟨.hbm, 496, rfl⟩
abbrev main_call28_v5 : Ref sig .tc := ⟨.hbm, 497, rfl⟩
abbrev main_call28_c_1 : Ref sig .tc := ⟨.hbm, 498, rfl⟩
abbrev main_call28_c_2 : Ref sig .tc := ⟨.hbm, 499, rfl⟩
abbrev main_call28_v6 : Ref sig .tc := ⟨.hbm, 500, rfl⟩
abbrev main_call28_v7 : Ref sig .tc := ⟨.hbm, 501, rfl⟩
abbrev main_call28_v8 : Ref sig .tc := ⟨.hbm, 502, rfl⟩
abbrev main_call28_v9 : Ref sig .tc := ⟨.hbm, 503, rfl⟩
abbrev main_call28_v10 : Ref sig .tc := ⟨.hbm, 504, rfl⟩
abbrev main_call28_v11 : Ref sig .tc := ⟨.hbm, 505, rfl⟩
abbrev main_call28_c_3 : Ref sig .tc := ⟨.hbm, 506, rfl⟩
abbrev main_call28_v12 : Ref sig .tc := ⟨.hbm, 507, rfl⟩
abbrev main_call28_v13 : Ref sig .tc := ⟨.hbm, 508, rfl⟩
abbrev main_call28_v14 : Ref sig .tc := ⟨.hbm, 509, rfl⟩
abbrev main_call28_cst : Ref sig .tc := ⟨.hbm, 510, rfl⟩
abbrev main_call28_v15 : Ref sig .tc := ⟨.hbm, 511, rfl⟩
abbrev main_v56 : Ref sig .tc := ⟨.hbm, 512, rfl⟩
abbrev main_cst_79 : Ref sig .tc := ⟨.hbm, 513, rfl⟩
abbrev main_call29_v0 : Ref sig .tc := ⟨.hbm, 514, rfl⟩
abbrev main_call29_v1 : Ref sig .tc := ⟨.hbm, 515, rfl⟩
abbrev main_call29_v2 : Ref sig .tc := ⟨.hbm, 516, rfl⟩
abbrev main_v57 : Ref sig .tc := ⟨.hbm, 517, rfl⟩
abbrev main_call30_c : Ref sig .tc := ⟨.hbm, 518, rfl⟩
abbrev main_call30_v0 : Ref sig .tc := ⟨.hbm, 519, rfl⟩
abbrev main_call30_v1 : Ref sig .tc := ⟨.hbm, 520, rfl⟩
abbrev main_call30_c_0 : Ref sig .tc := ⟨.hbm, 521, rfl⟩
abbrev main_call30_v2 : Ref sig .tc := ⟨.hbm, 522, rfl⟩
abbrev main_call30_v3 : Ref sig .tc := ⟨.hbm, 523, rfl⟩
abbrev main_call30_v4 : Ref sig .tc := ⟨.hbm, 524, rfl⟩
abbrev main_call30_v5 : Ref sig .tc := ⟨.hbm, 525, rfl⟩
abbrev main_call30_c_1 : Ref sig .tc := ⟨.hbm, 526, rfl⟩
abbrev main_call30_c_2 : Ref sig .tc := ⟨.hbm, 527, rfl⟩
abbrev main_call30_v6 : Ref sig .tc := ⟨.hbm, 528, rfl⟩
abbrev main_call30_v7 : Ref sig .tc := ⟨.hbm, 529, rfl⟩
abbrev main_call30_v8 : Ref sig .tc := ⟨.hbm, 530, rfl⟩
abbrev main_call30_v9 : Ref sig .tc := ⟨.hbm, 531, rfl⟩
abbrev main_call30_v10 : Ref sig .tc := ⟨.hbm, 532, rfl⟩
abbrev main_call30_v11 : Ref sig .tc := ⟨.hbm, 533, rfl⟩
abbrev main_call30_c_3 : Ref sig .tc := ⟨.hbm, 534, rfl⟩
abbrev main_call30_v12 : Ref sig .tc := ⟨.hbm, 535, rfl⟩
abbrev main_call30_v13 : Ref sig .tc := ⟨.hbm, 536, rfl⟩
abbrev main_call30_v14 : Ref sig .tc := ⟨.hbm, 537, rfl⟩
abbrev main_call30_cst : Ref sig .tc := ⟨.hbm, 538, rfl⟩
abbrev main_call30_v15 : Ref sig .tc := ⟨.hbm, 539, rfl⟩
abbrev main_v58 : Ref sig .tc := ⟨.hbm, 540, rfl⟩
abbrev main_cst_80 : Ref sig .tc := ⟨.hbm, 541, rfl⟩
abbrev main_call31_v0 : Ref sig .tc := ⟨.hbm, 542, rfl⟩
abbrev main_call31_v1 : Ref sig .tc := ⟨.hbm, 543, rfl⟩
abbrev main_call31_v2 : Ref sig .tc := ⟨.hbm, 544, rfl⟩
abbrev main_v59 : Ref sig .tc := ⟨.hbm, 545, rfl⟩
abbrev main_call32_c : Ref sig .tc := ⟨.hbm, 546, rfl⟩
abbrev main_call32_v0 : Ref sig .tc := ⟨.hbm, 547, rfl⟩
abbrev main_call32_v1 : Ref sig .tc := ⟨.hbm, 548, rfl⟩
abbrev main_call32_c_0 : Ref sig .tc := ⟨.hbm, 549, rfl⟩
abbrev main_call32_v2 : Ref sig .tc := ⟨.hbm, 550, rfl⟩
abbrev main_call32_v3 : Ref sig .tc := ⟨.hbm, 551, rfl⟩
abbrev main_call32_v4 : Ref sig .tc := ⟨.hbm, 552, rfl⟩
abbrev main_call32_v5 : Ref sig .tc := ⟨.hbm, 553, rfl⟩
abbrev main_call32_c_1 : Ref sig .tc := ⟨.hbm, 554, rfl⟩
abbrev main_call32_c_2 : Ref sig .tc := ⟨.hbm, 555, rfl⟩
abbrev main_call32_v6 : Ref sig .tc := ⟨.hbm, 556, rfl⟩
abbrev main_call32_v7 : Ref sig .tc := ⟨.hbm, 557, rfl⟩
abbrev main_call32_v8 : Ref sig .tc := ⟨.hbm, 558, rfl⟩
abbrev main_call32_v9 : Ref sig .tc := ⟨.hbm, 559, rfl⟩
abbrev main_call32_v10 : Ref sig .tc := ⟨.hbm, 560, rfl⟩
abbrev main_call32_v11 : Ref sig .tc := ⟨.hbm, 561, rfl⟩
abbrev main_call32_c_3 : Ref sig .tc := ⟨.hbm, 562, rfl⟩
abbrev main_call32_v12 : Ref sig .tc := ⟨.hbm, 563, rfl⟩
abbrev main_call32_v13 : Ref sig .tc := ⟨.hbm, 564, rfl⟩
abbrev main_call32_v14 : Ref sig .tc := ⟨.hbm, 565, rfl⟩
abbrev main_call32_cst : Ref sig .tc := ⟨.hbm, 566, rfl⟩
abbrev main_call32_v15 : Ref sig .tc := ⟨.hbm, 567, rfl⟩
abbrev main_v60 : Ref sig .tc := ⟨.hbm, 568, rfl⟩
abbrev main_cst_81 : Ref sig .tc := ⟨.hbm, 569, rfl⟩
abbrev main_call33_v0 : Ref sig .tc := ⟨.hbm, 570, rfl⟩
abbrev main_call33_v1 : Ref sig .tc := ⟨.hbm, 571, rfl⟩
abbrev main_call33_v2 : Ref sig .tc := ⟨.hbm, 572, rfl⟩
abbrev main_v61 : Ref sig .tc := ⟨.hbm, 573, rfl⟩
abbrev main_call34_c : Ref sig .tc := ⟨.hbm, 574, rfl⟩
abbrev main_call34_v0 : Ref sig .tc := ⟨.hbm, 575, rfl⟩
abbrev main_call34_v1 : Ref sig .tc := ⟨.hbm, 576, rfl⟩
abbrev main_call34_c_0 : Ref sig .tc := ⟨.hbm, 577, rfl⟩
abbrev main_call34_v2 : Ref sig .tc := ⟨.hbm, 578, rfl⟩
abbrev main_call34_v3 : Ref sig .tc := ⟨.hbm, 579, rfl⟩
abbrev main_call34_v4 : Ref sig .tc := ⟨.hbm, 580, rfl⟩
abbrev main_call34_v5 : Ref sig .tc := ⟨.hbm, 581, rfl⟩
abbrev main_call34_c_1 : Ref sig .tc := ⟨.hbm, 582, rfl⟩
abbrev main_call34_c_2 : Ref sig .tc := ⟨.hbm, 583, rfl⟩
abbrev main_call34_v6 : Ref sig .tc := ⟨.hbm, 584, rfl⟩
abbrev main_call34_v7 : Ref sig .tc := ⟨.hbm, 585, rfl⟩
abbrev main_call34_v8 : Ref sig .tc := ⟨.hbm, 586, rfl⟩
abbrev main_call34_v9 : Ref sig .tc := ⟨.hbm, 587, rfl⟩
abbrev main_call34_v10 : Ref sig .tc := ⟨.hbm, 588, rfl⟩
abbrev main_call34_v11 : Ref sig .tc := ⟨.hbm, 589, rfl⟩
abbrev main_call34_c_3 : Ref sig .tc := ⟨.hbm, 590, rfl⟩
abbrev main_call34_v12 : Ref sig .tc := ⟨.hbm, 591, rfl⟩
abbrev main_call34_v13 : Ref sig .tc := ⟨.hbm, 592, rfl⟩
abbrev main_call34_v14 : Ref sig .tc := ⟨.hbm, 593, rfl⟩
abbrev main_call34_cst : Ref sig .tc := ⟨.hbm, 594, rfl⟩
abbrev main_call34_v15 : Ref sig .tc := ⟨.hbm, 595, rfl⟩
abbrev main_v62 : Ref sig .tc := ⟨.hbm, 596, rfl⟩
abbrev main_cst_82 : Ref sig .tc := ⟨.hbm, 597, rfl⟩
abbrev main_call35_v0 : Ref sig .tc := ⟨.hbm, 598, rfl⟩
abbrev main_call35_v1 : Ref sig .tc := ⟨.hbm, 599, rfl⟩
abbrev main_call35_v2 : Ref sig .tc := ⟨.hbm, 600, rfl⟩
abbrev main_v63 : Ref sig .tc := ⟨.hbm, 601, rfl⟩
abbrev main_call36_c : Ref sig .tc := ⟨.hbm, 602, rfl⟩
abbrev main_call36_v0 : Ref sig .tc := ⟨.hbm, 603, rfl⟩
abbrev main_call36_v1 : Ref sig .tc := ⟨.hbm, 604, rfl⟩
abbrev main_call36_c_0 : Ref sig .tc := ⟨.hbm, 605, rfl⟩
abbrev main_call36_v2 : Ref sig .tc := ⟨.hbm, 606, rfl⟩
abbrev main_call36_v3 : Ref sig .tc := ⟨.hbm, 607, rfl⟩
abbrev main_call36_v4 : Ref sig .tc := ⟨.hbm, 608, rfl⟩
abbrev main_call36_v5 : Ref sig .tc := ⟨.hbm, 609, rfl⟩
abbrev main_call36_c_1 : Ref sig .tc := ⟨.hbm, 610, rfl⟩
abbrev main_call36_c_2 : Ref sig .tc := ⟨.hbm, 611, rfl⟩
abbrev main_call36_v6 : Ref sig .tc := ⟨.hbm, 612, rfl⟩
abbrev main_call36_v7 : Ref sig .tc := ⟨.hbm, 613, rfl⟩
abbrev main_call36_v8 : Ref sig .tc := ⟨.hbm, 614, rfl⟩
abbrev main_call36_v9 : Ref sig .tc := ⟨.hbm, 615, rfl⟩
abbrev main_call36_v10 : Ref sig .tc := ⟨.hbm, 616, rfl⟩
abbrev main_call36_v11 : Ref sig .tc := ⟨.hbm, 617, rfl⟩
abbrev main_call36_c_3 : Ref sig .tc := ⟨.hbm, 618, rfl⟩
abbrev main_call36_v12 : Ref sig .tc := ⟨.hbm, 619, rfl⟩
abbrev main_call36_v13 : Ref sig .tc := ⟨.hbm, 620, rfl⟩
abbrev main_call36_v14 : Ref sig .tc := ⟨.hbm, 621, rfl⟩
abbrev main_call36_cst : Ref sig .tc := ⟨.hbm, 622, rfl⟩
abbrev main_call36_v15 : Ref sig .tc := ⟨.hbm, 623, rfl⟩
abbrev main_v64 : Ref sig .tc := ⟨.hbm, 624, rfl⟩
abbrev main_cst_83 : Ref sig .tc := ⟨.hbm, 625, rfl⟩
abbrev main_call37_v0 : Ref sig .tc := ⟨.hbm, 626, rfl⟩
abbrev main_call37_v1 : Ref sig .tc := ⟨.hbm, 627, rfl⟩
abbrev main_call37_v2 : Ref sig .tc := ⟨.hbm, 628, rfl⟩
abbrev main_v65 : Ref sig .tc := ⟨.hbm, 629, rfl⟩
abbrev main_call38_c : Ref sig .tc := ⟨.hbm, 630, rfl⟩
abbrev main_call38_v0 : Ref sig .tc := ⟨.hbm, 631, rfl⟩
abbrev main_call38_v1 : Ref sig .tc := ⟨.hbm, 632, rfl⟩
abbrev main_call38_c_0 : Ref sig .tc := ⟨.hbm, 633, rfl⟩
abbrev main_call38_v2 : Ref sig .tc := ⟨.hbm, 634, rfl⟩
abbrev main_call38_v3 : Ref sig .tc := ⟨.hbm, 635, rfl⟩
abbrev main_call38_v4 : Ref sig .tc := ⟨.hbm, 636, rfl⟩
abbrev main_call38_v5 : Ref sig .tc := ⟨.hbm, 637, rfl⟩
abbrev main_call38_c_1 : Ref sig .tc := ⟨.hbm, 638, rfl⟩
abbrev main_call38_c_2 : Ref sig .tc := ⟨.hbm, 639, rfl⟩
abbrev main_call38_v6 : Ref sig .tc := ⟨.hbm, 640, rfl⟩
abbrev main_call38_v7 : Ref sig .tc := ⟨.hbm, 641, rfl⟩
abbrev main_call38_v8 : Ref sig .tc := ⟨.hbm, 642, rfl⟩
abbrev main_call38_v9 : Ref sig .tc := ⟨.hbm, 643, rfl⟩
abbrev main_call38_v10 : Ref sig .tc := ⟨.hbm, 644, rfl⟩
abbrev main_call38_v11 : Ref sig .tc := ⟨.hbm, 645, rfl⟩
abbrev main_call38_c_3 : Ref sig .tc := ⟨.hbm, 646, rfl⟩
abbrev main_call38_v12 : Ref sig .tc := ⟨.hbm, 647, rfl⟩
abbrev main_call38_v13 : Ref sig .tc := ⟨.hbm, 648, rfl⟩
abbrev main_call38_v14 : Ref sig .tc := ⟨.hbm, 649, rfl⟩
abbrev main_call38_cst : Ref sig .tc := ⟨.hbm, 650, rfl⟩
abbrev main_call38_v15 : Ref sig .tc := ⟨.hbm, 651, rfl⟩
abbrev main_v66 : Ref sig .tc := ⟨.hbm, 652, rfl⟩
abbrev main_cst_84 : Ref sig .tc := ⟨.hbm, 653, rfl⟩
abbrev main_call39_v0 : Ref sig .tc := ⟨.hbm, 654, rfl⟩
abbrev main_call39_v1 : Ref sig .tc := ⟨.hbm, 655, rfl⟩
abbrev main_call39_v2 : Ref sig .tc := ⟨.hbm, 656, rfl⟩
abbrev main_v67 : Ref sig .tc := ⟨.hbm, 657, rfl⟩
abbrev main_call40_c : Ref sig .tc := ⟨.hbm, 658, rfl⟩
abbrev main_call40_v0 : Ref sig .tc := ⟨.hbm, 659, rfl⟩
abbrev main_call40_v1 : Ref sig .tc := ⟨.hbm, 660, rfl⟩
abbrev main_call40_c_0 : Ref sig .tc := ⟨.hbm, 661, rfl⟩
abbrev main_call40_v2 : Ref sig .tc := ⟨.hbm, 662, rfl⟩
abbrev main_call40_v3 : Ref sig .tc := ⟨.hbm, 663, rfl⟩
abbrev main_call40_v4 : Ref sig .tc := ⟨.hbm, 664, rfl⟩
abbrev main_call40_v5 : Ref sig .tc := ⟨.hbm, 665, rfl⟩
abbrev main_call40_c_1 : Ref sig .tc := ⟨.hbm, 666, rfl⟩
abbrev main_call40_c_2 : Ref sig .tc := ⟨.hbm, 667, rfl⟩
abbrev main_call40_v6 : Ref sig .tc := ⟨.hbm, 668, rfl⟩
abbrev main_call40_v7 : Ref sig .tc := ⟨.hbm, 669, rfl⟩
abbrev main_call40_v8 : Ref sig .tc := ⟨.hbm, 670, rfl⟩
abbrev main_call40_v9 : Ref sig .tc := ⟨.hbm, 671, rfl⟩
abbrev main_call40_v10 : Ref sig .tc := ⟨.hbm, 672, rfl⟩
abbrev main_call40_v11 : Ref sig .tc := ⟨.hbm, 673, rfl⟩
abbrev main_call40_c_3 : Ref sig .tc := ⟨.hbm, 674, rfl⟩
abbrev main_call40_v12 : Ref sig .tc := ⟨.hbm, 675, rfl⟩
abbrev main_call40_v13 : Ref sig .tc := ⟨.hbm, 676, rfl⟩
abbrev main_call40_v14 : Ref sig .tc := ⟨.hbm, 677, rfl⟩
abbrev main_call40_cst : Ref sig .tc := ⟨.hbm, 678, rfl⟩
abbrev main_call40_v15 : Ref sig .tc := ⟨.hbm, 679, rfl⟩
abbrev main_v68 : Ref sig .tc := ⟨.hbm, 680, rfl⟩
abbrev main_cst_85 : Ref sig .tc := ⟨.hbm, 681, rfl⟩
abbrev main_call41_v0 : Ref sig .tc := ⟨.hbm, 682, rfl⟩
abbrev main_call41_v1 : Ref sig .tc := ⟨.hbm, 683, rfl⟩
abbrev main_call41_v2 : Ref sig .tc := ⟨.hbm, 684, rfl⟩
abbrev main_v69 : Ref sig .tc := ⟨.hbm, 685, rfl⟩
abbrev main_call42_c : Ref sig .tc := ⟨.hbm, 686, rfl⟩
abbrev main_call42_v0 : Ref sig .tc := ⟨.hbm, 687, rfl⟩
abbrev main_call42_v1 : Ref sig .tc := ⟨.hbm, 688, rfl⟩
abbrev main_call42_c_0 : Ref sig .tc := ⟨.hbm, 689, rfl⟩
abbrev main_call42_v2 : Ref sig .tc := ⟨.hbm, 690, rfl⟩
abbrev main_call42_v3 : Ref sig .tc := ⟨.hbm, 691, rfl⟩
abbrev main_call42_v4 : Ref sig .tc := ⟨.hbm, 692, rfl⟩
abbrev main_call42_v5 : Ref sig .tc := ⟨.hbm, 693, rfl⟩
abbrev main_call42_c_1 : Ref sig .tc := ⟨.hbm, 694, rfl⟩
abbrev main_call42_c_2 : Ref sig .tc := ⟨.hbm, 695, rfl⟩
abbrev main_call42_v6 : Ref sig .tc := ⟨.hbm, 696, rfl⟩
abbrev main_call42_v7 : Ref sig .tc := ⟨.hbm, 697, rfl⟩
abbrev main_call42_v8 : Ref sig .tc := ⟨.hbm, 698, rfl⟩
abbrev main_call42_v9 : Ref sig .tc := ⟨.hbm, 699, rfl⟩
abbrev main_call42_v10 : Ref sig .tc := ⟨.hbm, 700, rfl⟩
abbrev main_call42_v11 : Ref sig .tc := ⟨.hbm, 701, rfl⟩
abbrev main_call42_c_3 : Ref sig .tc := ⟨.hbm, 702, rfl⟩
abbrev main_call42_v12 : Ref sig .tc := ⟨.hbm, 703, rfl⟩
abbrev main_call42_v13 : Ref sig .tc := ⟨.hbm, 704, rfl⟩
abbrev main_call42_v14 : Ref sig .tc := ⟨.hbm, 705, rfl⟩
abbrev main_call42_cst : Ref sig .tc := ⟨.hbm, 706, rfl⟩
abbrev main_call42_v15 : Ref sig .tc := ⟨.hbm, 707, rfl⟩
abbrev main_v70 : Ref sig .tc := ⟨.hbm, 708, rfl⟩
abbrev main_cst_86 : Ref sig .tc := ⟨.hbm, 709, rfl⟩
abbrev main_call43_v0 : Ref sig .tc := ⟨.hbm, 710, rfl⟩
abbrev main_call43_v1 : Ref sig .tc := ⟨.hbm, 711, rfl⟩
abbrev main_call43_v2 : Ref sig .tc := ⟨.hbm, 712, rfl⟩
abbrev main_v71 : Ref sig .tc := ⟨.hbm, 713, rfl⟩
abbrev main_call44_c : Ref sig .tc := ⟨.hbm, 714, rfl⟩
abbrev main_call44_v0 : Ref sig .tc := ⟨.hbm, 715, rfl⟩
abbrev main_call44_v1 : Ref sig .tc := ⟨.hbm, 716, rfl⟩
abbrev main_call44_c_0 : Ref sig .tc := ⟨.hbm, 717, rfl⟩
abbrev main_call44_v2 : Ref sig .tc := ⟨.hbm, 718, rfl⟩
abbrev main_call44_v3 : Ref sig .tc := ⟨.hbm, 719, rfl⟩
abbrev main_call44_v4 : Ref sig .tc := ⟨.hbm, 720, rfl⟩
abbrev main_call44_v5 : Ref sig .tc := ⟨.hbm, 721, rfl⟩
abbrev main_call44_c_1 : Ref sig .tc := ⟨.hbm, 722, rfl⟩
abbrev main_call44_c_2 : Ref sig .tc := ⟨.hbm, 723, rfl⟩
abbrev main_call44_v6 : Ref sig .tc := ⟨.hbm, 724, rfl⟩
abbrev main_call44_v7 : Ref sig .tc := ⟨.hbm, 725, rfl⟩
abbrev main_call44_v8 : Ref sig .tc := ⟨.hbm, 726, rfl⟩
abbrev main_call44_v9 : Ref sig .tc := ⟨.hbm, 727, rfl⟩
abbrev main_call44_v10 : Ref sig .tc := ⟨.hbm, 728, rfl⟩
abbrev main_call44_v11 : Ref sig .tc := ⟨.hbm, 729, rfl⟩
abbrev main_call44_c_3 : Ref sig .tc := ⟨.hbm, 730, rfl⟩
abbrev main_call44_v12 : Ref sig .tc := ⟨.hbm, 731, rfl⟩
abbrev main_call44_v13 : Ref sig .tc := ⟨.hbm, 732, rfl⟩
abbrev main_call44_v14 : Ref sig .tc := ⟨.hbm, 733, rfl⟩
abbrev main_call44_cst : Ref sig .tc := ⟨.hbm, 734, rfl⟩
abbrev main_call44_v15 : Ref sig .tc := ⟨.hbm, 735, rfl⟩
abbrev main_v72 : Ref sig .tc := ⟨.hbm, 736, rfl⟩
abbrev main_cst_87 : Ref sig .tc := ⟨.hbm, 737, rfl⟩
abbrev main_call45_v0 : Ref sig .tc := ⟨.hbm, 738, rfl⟩
abbrev main_call45_v1 : Ref sig .tc := ⟨.hbm, 739, rfl⟩
abbrev main_call45_v2 : Ref sig .tc := ⟨.hbm, 740, rfl⟩
abbrev main_v73 : Ref sig .tc := ⟨.hbm, 741, rfl⟩
abbrev main_call46_c : Ref sig .tc := ⟨.hbm, 742, rfl⟩
abbrev main_call46_v0 : Ref sig .tc := ⟨.hbm, 743, rfl⟩
abbrev main_call46_v1 : Ref sig .tc := ⟨.hbm, 744, rfl⟩
abbrev main_call46_c_0 : Ref sig .tc := ⟨.hbm, 745, rfl⟩
abbrev main_call46_v2 : Ref sig .tc := ⟨.hbm, 746, rfl⟩
abbrev main_call46_v3 : Ref sig .tc := ⟨.hbm, 747, rfl⟩
abbrev main_call46_v4 : Ref sig .tc := ⟨.hbm, 748, rfl⟩
abbrev main_call46_v5 : Ref sig .tc := ⟨.hbm, 749, rfl⟩
abbrev main_call46_c_1 : Ref sig .tc := ⟨.hbm, 750, rfl⟩
abbrev main_call46_c_2 : Ref sig .tc := ⟨.hbm, 751, rfl⟩
abbrev main_call46_v6 : Ref sig .tc := ⟨.hbm, 752, rfl⟩
abbrev main_call46_v7 : Ref sig .tc := ⟨.hbm, 753, rfl⟩
abbrev main_call46_v8 : Ref sig .tc := ⟨.hbm, 754, rfl⟩
abbrev main_call46_v9 : Ref sig .tc := ⟨.hbm, 755, rfl⟩
abbrev main_call46_v10 : Ref sig .tc := ⟨.hbm, 756, rfl⟩
abbrev main_call46_v11 : Ref sig .tc := ⟨.hbm, 757, rfl⟩
abbrev main_call46_c_3 : Ref sig .tc := ⟨.hbm, 758, rfl⟩
abbrev main_call46_v12 : Ref sig .tc := ⟨.hbm, 759, rfl⟩
abbrev main_call46_v13 : Ref sig .tc := ⟨.hbm, 760, rfl⟩
abbrev main_call46_v14 : Ref sig .tc := ⟨.hbm, 761, rfl⟩
abbrev main_call46_cst : Ref sig .tc := ⟨.hbm, 762, rfl⟩
abbrev main_call46_v15 : Ref sig .tc := ⟨.hbm, 763, rfl⟩
abbrev main_v74 : Ref sig .tc := ⟨.hbm, 764, rfl⟩
abbrev main_cst_88 : Ref sig .tc := ⟨.hbm, 765, rfl⟩
abbrev main_call47_v0 : Ref sig .tc := ⟨.hbm, 766, rfl⟩
abbrev main_call47_v1 : Ref sig .tc := ⟨.hbm, 767, rfl⟩
abbrev main_call47_v2 : Ref sig .tc := ⟨.hbm, 768, rfl⟩
abbrev main_v75 : Ref sig .tc := ⟨.hbm, 769, rfl⟩
abbrev main_call48_c : Ref sig .tc := ⟨.hbm, 770, rfl⟩
abbrev main_call48_v0 : Ref sig .tc := ⟨.hbm, 771, rfl⟩
abbrev main_call48_v1 : Ref sig .tc := ⟨.hbm, 772, rfl⟩
abbrev main_call48_c_0 : Ref sig .tc := ⟨.hbm, 773, rfl⟩
abbrev main_call48_v2 : Ref sig .tc := ⟨.hbm, 774, rfl⟩
abbrev main_call48_v3 : Ref sig .tc := ⟨.hbm, 775, rfl⟩
abbrev main_call48_v4 : Ref sig .tc := ⟨.hbm, 776, rfl⟩
abbrev main_call48_v5 : Ref sig .tc := ⟨.hbm, 777, rfl⟩
abbrev main_call48_c_1 : Ref sig .tc := ⟨.hbm, 778, rfl⟩
abbrev main_call48_c_2 : Ref sig .tc := ⟨.hbm, 779, rfl⟩
abbrev main_call48_v6 : Ref sig .tc := ⟨.hbm, 780, rfl⟩
abbrev main_call48_v7 : Ref sig .tc := ⟨.hbm, 781, rfl⟩
abbrev main_call48_v8 : Ref sig .tc := ⟨.hbm, 782, rfl⟩
abbrev main_call48_v9 : Ref sig .tc := ⟨.hbm, 783, rfl⟩
abbrev main_call48_v10 : Ref sig .tc := ⟨.hbm, 784, rfl⟩
abbrev main_call48_v11 : Ref sig .tc := ⟨.hbm, 785, rfl⟩
abbrev main_call48_c_3 : Ref sig .tc := ⟨.hbm, 786, rfl⟩
abbrev main_call48_v12 : Ref sig .tc := ⟨.hbm, 787, rfl⟩
abbrev main_call48_v13 : Ref sig .tc := ⟨.hbm, 788, rfl⟩
abbrev main_call48_v14 : Ref sig .tc := ⟨.hbm, 789, rfl⟩
abbrev main_call48_cst : Ref sig .tc := ⟨.hbm, 790, rfl⟩
abbrev main_call48_v15 : Ref sig .tc := ⟨.hbm, 791, rfl⟩
abbrev main_v76 : Ref sig .tc := ⟨.hbm, 792, rfl⟩
abbrev main_cst_89 : Ref sig .tc := ⟨.hbm, 793, rfl⟩
abbrev main_call49_v0 : Ref sig .tc := ⟨.hbm, 794, rfl⟩
abbrev main_call49_v1 : Ref sig .tc := ⟨.hbm, 795, rfl⟩
abbrev main_call49_v2 : Ref sig .tc := ⟨.hbm, 796, rfl⟩
abbrev main_v77 : Ref sig .tc := ⟨.hbm, 797, rfl⟩
abbrev main_call50_c : Ref sig .tc := ⟨.hbm, 798, rfl⟩
abbrev main_call50_v0 : Ref sig .tc := ⟨.hbm, 799, rfl⟩
abbrev main_call50_v1 : Ref sig .tc := ⟨.hbm, 800, rfl⟩
abbrev main_call50_c_0 : Ref sig .tc := ⟨.hbm, 801, rfl⟩
abbrev main_call50_v2 : Ref sig .tc := ⟨.hbm, 802, rfl⟩
abbrev main_call50_v3 : Ref sig .tc := ⟨.hbm, 803, rfl⟩
abbrev main_call50_v4 : Ref sig .tc := ⟨.hbm, 804, rfl⟩
abbrev main_call50_v5 : Ref sig .tc := ⟨.hbm, 805, rfl⟩
abbrev main_call50_c_1 : Ref sig .tc := ⟨.hbm, 806, rfl⟩
abbrev main_call50_c_2 : Ref sig .tc := ⟨.hbm, 807, rfl⟩
abbrev main_call50_v6 : Ref sig .tc := ⟨.hbm, 808, rfl⟩
abbrev main_call50_v7 : Ref sig .tc := ⟨.hbm, 809, rfl⟩
abbrev main_call50_v8 : Ref sig .tc := ⟨.hbm, 810, rfl⟩
abbrev main_call50_v9 : Ref sig .tc := ⟨.hbm, 811, rfl⟩
abbrev main_call50_v10 : Ref sig .tc := ⟨.hbm, 812, rfl⟩
abbrev main_call50_v11 : Ref sig .tc := ⟨.hbm, 813, rfl⟩
abbrev main_call50_c_3 : Ref sig .tc := ⟨.hbm, 814, rfl⟩
abbrev main_call50_v12 : Ref sig .tc := ⟨.hbm, 815, rfl⟩
abbrev main_call50_v13 : Ref sig .tc := ⟨.hbm, 816, rfl⟩
abbrev main_call50_v14 : Ref sig .tc := ⟨.hbm, 817, rfl⟩
abbrev main_call50_cst : Ref sig .tc := ⟨.hbm, 818, rfl⟩
abbrev main_call50_v15 : Ref sig .tc := ⟨.hbm, 819, rfl⟩
abbrev main_v78 : Ref sig .tc := ⟨.hbm, 820, rfl⟩
abbrev main_cst_90 : Ref sig .tc := ⟨.hbm, 821, rfl⟩
abbrev main_call51_v0 : Ref sig .tc := ⟨.hbm, 822, rfl⟩
abbrev main_call51_v1 : Ref sig .tc := ⟨.hbm, 823, rfl⟩
abbrev main_call51_v2 : Ref sig .tc := ⟨.hbm, 824, rfl⟩
abbrev main_v79 : Ref sig .tc := ⟨.hbm, 825, rfl⟩
abbrev main_call52_c : Ref sig .tc := ⟨.hbm, 826, rfl⟩
abbrev main_call52_v0 : Ref sig .tc := ⟨.hbm, 827, rfl⟩
abbrev main_call52_v1 : Ref sig .tc := ⟨.hbm, 828, rfl⟩
abbrev main_call52_c_0 : Ref sig .tc := ⟨.hbm, 829, rfl⟩
abbrev main_call52_v2 : Ref sig .tc := ⟨.hbm, 830, rfl⟩
abbrev main_call52_v3 : Ref sig .tc := ⟨.hbm, 831, rfl⟩
abbrev main_call52_v4 : Ref sig .tc := ⟨.hbm, 832, rfl⟩
abbrev main_call52_v5 : Ref sig .tc := ⟨.hbm, 833, rfl⟩
abbrev main_call52_c_1 : Ref sig .tc := ⟨.hbm, 834, rfl⟩
abbrev main_call52_c_2 : Ref sig .tc := ⟨.hbm, 835, rfl⟩
abbrev main_call52_v6 : Ref sig .tc := ⟨.hbm, 836, rfl⟩
abbrev main_call52_v7 : Ref sig .tc := ⟨.hbm, 837, rfl⟩
abbrev main_call52_v8 : Ref sig .tc := ⟨.hbm, 838, rfl⟩
abbrev main_call52_v9 : Ref sig .tc := ⟨.hbm, 839, rfl⟩
abbrev main_call52_v10 : Ref sig .tc := ⟨.hbm, 840, rfl⟩
abbrev main_call52_v11 : Ref sig .tc := ⟨.hbm, 841, rfl⟩
abbrev main_call52_c_3 : Ref sig .tc := ⟨.hbm, 842, rfl⟩
abbrev main_call52_v12 : Ref sig .tc := ⟨.hbm, 843, rfl⟩
abbrev main_call52_v13 : Ref sig .tc := ⟨.hbm, 844, rfl⟩
abbrev main_call52_v14 : Ref sig .tc := ⟨.hbm, 845, rfl⟩
abbrev main_call52_cst : Ref sig .tc := ⟨.hbm, 846, rfl⟩
abbrev main_call52_v15 : Ref sig .tc := ⟨.hbm, 847, rfl⟩
abbrev main_v80 : Ref sig .tc := ⟨.hbm, 848, rfl⟩
abbrev main_cst_91 : Ref sig .tc := ⟨.hbm, 849, rfl⟩
abbrev main_call53_v0 : Ref sig .tc := ⟨.hbm, 850, rfl⟩
abbrev main_call53_v1 : Ref sig .tc := ⟨.hbm, 851, rfl⟩
abbrev main_call53_v2 : Ref sig .tc := ⟨.hbm, 852, rfl⟩
abbrev main_v81 : Ref sig .tc := ⟨.hbm, 853, rfl⟩
abbrev main_call54_c : Ref sig .tc := ⟨.hbm, 854, rfl⟩
abbrev main_call54_v0 : Ref sig .tc := ⟨.hbm, 855, rfl⟩
abbrev main_call54_v1 : Ref sig .tc := ⟨.hbm, 856, rfl⟩
abbrev main_call54_c_0 : Ref sig .tc := ⟨.hbm, 857, rfl⟩
abbrev main_call54_v2 : Ref sig .tc := ⟨.hbm, 858, rfl⟩
abbrev main_call54_v3 : Ref sig .tc := ⟨.hbm, 859, rfl⟩
abbrev main_call54_v4 : Ref sig .tc := ⟨.hbm, 860, rfl⟩
abbrev main_call54_v5 : Ref sig .tc := ⟨.hbm, 861, rfl⟩
abbrev main_call54_c_1 : Ref sig .tc := ⟨.hbm, 862, rfl⟩
abbrev main_call54_c_2 : Ref sig .tc := ⟨.hbm, 863, rfl⟩
abbrev main_call54_v6 : Ref sig .tc := ⟨.hbm, 864, rfl⟩
abbrev main_call54_v7 : Ref sig .tc := ⟨.hbm, 865, rfl⟩
abbrev main_call54_v8 : Ref sig .tc := ⟨.hbm, 866, rfl⟩
abbrev main_call54_v9 : Ref sig .tc := ⟨.hbm, 867, rfl⟩
abbrev main_call54_v10 : Ref sig .tc := ⟨.hbm, 868, rfl⟩
abbrev main_call54_v11 : Ref sig .tc := ⟨.hbm, 869, rfl⟩
abbrev main_call54_c_3 : Ref sig .tc := ⟨.hbm, 870, rfl⟩
abbrev main_call54_v12 : Ref sig .tc := ⟨.hbm, 871, rfl⟩
abbrev main_call54_v13 : Ref sig .tc := ⟨.hbm, 872, rfl⟩
abbrev main_call54_v14 : Ref sig .tc := ⟨.hbm, 873, rfl⟩
abbrev main_call54_cst : Ref sig .tc := ⟨.hbm, 874, rfl⟩
abbrev main_call54_v15 : Ref sig .tc := ⟨.hbm, 875, rfl⟩
abbrev main_v82 : Ref sig .tc := ⟨.hbm, 876, rfl⟩
abbrev main_cst_92 : Ref sig .tc := ⟨.hbm, 877, rfl⟩
abbrev main_call55_v0 : Ref sig .tc := ⟨.hbm, 878, rfl⟩
abbrev main_call55_v1 : Ref sig .tc := ⟨.hbm, 879, rfl⟩
abbrev main_call55_v2 : Ref sig .tc := ⟨.hbm, 880, rfl⟩
abbrev main_v83 : Ref sig .tc := ⟨.hbm, 881, rfl⟩
abbrev main_call56_c : Ref sig .tc := ⟨.hbm, 882, rfl⟩
abbrev main_call56_v0 : Ref sig .tc := ⟨.hbm, 883, rfl⟩
abbrev main_call56_v1 : Ref sig .tc := ⟨.hbm, 884, rfl⟩
abbrev main_call56_c_0 : Ref sig .tc := ⟨.hbm, 885, rfl⟩
abbrev main_call56_v2 : Ref sig .tc := ⟨.hbm, 886, rfl⟩
abbrev main_call56_v3 : Ref sig .tc := ⟨.hbm, 887, rfl⟩
abbrev main_call56_v4 : Ref sig .tc := ⟨.hbm, 888, rfl⟩
abbrev main_call56_v5 : Ref sig .tc := ⟨.hbm, 889, rfl⟩
abbrev main_call56_c_1 : Ref sig .tc := ⟨.hbm, 890, rfl⟩
abbrev main_call56_c_2 : Ref sig .tc := ⟨.hbm, 891, rfl⟩
abbrev main_call56_v6 : Ref sig .tc := ⟨.hbm, 892, rfl⟩
abbrev main_call56_v7 : Ref sig .tc := ⟨.hbm, 893, rfl⟩
abbrev main_call56_v8 : Ref sig .tc := ⟨.hbm, 894, rfl⟩
abbrev main_call56_v9 : Ref sig .tc := ⟨.hbm, 895, rfl⟩
abbrev main_call56_v10 : Ref sig .tc := ⟨.hbm, 896, rfl⟩
abbrev main_call56_v11 : Ref sig .tc := ⟨.hbm, 897, rfl⟩
abbrev main_call56_c_3 : Ref sig .tc := ⟨.hbm, 898, rfl⟩
abbrev main_call56_v12 : Ref sig .tc := ⟨.hbm, 899, rfl⟩
abbrev main_call56_v13 : Ref sig .tc := ⟨.hbm, 900, rfl⟩
abbrev main_call56_v14 : Ref sig .tc := ⟨.hbm, 901, rfl⟩
abbrev main_call56_cst : Ref sig .tc := ⟨.hbm, 902, rfl⟩
abbrev main_call56_v15 : Ref sig .tc := ⟨.hbm, 903, rfl⟩
abbrev main_v84 : Ref sig .tc := ⟨.hbm, 904, rfl⟩
abbrev main_cst_93 : Ref sig .tc := ⟨.hbm, 905, rfl⟩
abbrev main_call57_v0 : Ref sig .tc := ⟨.hbm, 906, rfl⟩
abbrev main_call57_v1 : Ref sig .tc := ⟨.hbm, 907, rfl⟩
abbrev main_call57_v2 : Ref sig .tc := ⟨.hbm, 908, rfl⟩
abbrev main_v85 : Ref sig .tc := ⟨.hbm, 909, rfl⟩
abbrev main_call58_c : Ref sig .tc := ⟨.hbm, 910, rfl⟩
abbrev main_call58_v0 : Ref sig .tc := ⟨.hbm, 911, rfl⟩
abbrev main_call58_v1 : Ref sig .tc := ⟨.hbm, 912, rfl⟩
abbrev main_call58_c_0 : Ref sig .tc := ⟨.hbm, 913, rfl⟩
abbrev main_call58_v2 : Ref sig .tc := ⟨.hbm, 914, rfl⟩
abbrev main_call58_v3 : Ref sig .tc := ⟨.hbm, 915, rfl⟩
abbrev main_call58_v4 : Ref sig .tc := ⟨.hbm, 916, rfl⟩
abbrev main_call58_v5 : Ref sig .tc := ⟨.hbm, 917, rfl⟩
abbrev main_call58_c_1 : Ref sig .tc := ⟨.hbm, 918, rfl⟩
abbrev main_call58_c_2 : Ref sig .tc := ⟨.hbm, 919, rfl⟩
abbrev main_call58_v6 : Ref sig .tc := ⟨.hbm, 920, rfl⟩
abbrev main_call58_v7 : Ref sig .tc := ⟨.hbm, 921, rfl⟩
abbrev main_call58_v8 : Ref sig .tc := ⟨.hbm, 922, rfl⟩
abbrev main_call58_v9 : Ref sig .tc := ⟨.hbm, 923, rfl⟩
abbrev main_call58_v10 : Ref sig .tc := ⟨.hbm, 924, rfl⟩
abbrev main_call58_v11 : Ref sig .tc := ⟨.hbm, 925, rfl⟩
abbrev main_call58_c_3 : Ref sig .tc := ⟨.hbm, 926, rfl⟩
abbrev main_call58_v12 : Ref sig .tc := ⟨.hbm, 927, rfl⟩
abbrev main_call58_v13 : Ref sig .tc := ⟨.hbm, 928, rfl⟩
abbrev main_call58_v14 : Ref sig .tc := ⟨.hbm, 929, rfl⟩
abbrev main_call58_cst : Ref sig .tc := ⟨.hbm, 930, rfl⟩
abbrev main_call58_v15 : Ref sig .tc := ⟨.hbm, 931, rfl⟩
abbrev main_v86 : Ref sig .tc := ⟨.hbm, 932, rfl⟩
abbrev main_cst_94 : Ref sig .tc := ⟨.hbm, 933, rfl⟩
abbrev main_call59_v0 : Ref sig .tc := ⟨.hbm, 934, rfl⟩
abbrev main_call59_v1 : Ref sig .tc := ⟨.hbm, 935, rfl⟩
abbrev main_call59_v2 : Ref sig .tc := ⟨.hbm, 936, rfl⟩
abbrev main_v87 : Ref sig .tc := ⟨.hbm, 937, rfl⟩
abbrev main_v88 : Ref sig .tc := ⟨.hbm, 938, rfl⟩
abbrev main_v89 : Ref sig .tc := ⟨.hbm, 939, rfl⟩
abbrev main_v90 : Ref sig .tc := ⟨.hbm, 940, rfl⟩
abbrev main_v91 : Ref sig .tc := ⟨.hbm, 941, rfl⟩
abbrev main_v92 : Ref sig .tc := ⟨.hbm, 942, rfl⟩
abbrev main_v93 : Ref sig .tc := ⟨.hbm, 943, rfl⟩
abbrev main_v94 : Ref sig .tc := ⟨.hbm, 944, rfl⟩
abbrev main_v95 : Ref sig .tc := ⟨.hbm, 945, rfl⟩
abbrev main_v96 : Ref sig .tc := ⟨.hbm, 946, rfl⟩
abbrev main_v97 : Ref sig .tc := ⟨.hbm, 947, rfl⟩
abbrev main_v98 : Ref sig .tc := ⟨.hbm, 948, rfl⟩
abbrev main_v99 : Ref sig .tc := ⟨.hbm, 949, rfl⟩
abbrev main_v100 : Ref sig .tc := ⟨.hbm, 950, rfl⟩
abbrev main_v101 : Ref sig .tc := ⟨.hbm, 951, rfl⟩
abbrev main_v102 : Ref sig .tc := ⟨.hbm, 952, rfl⟩
abbrev main_v103 : Ref sig .tc := ⟨.hbm, 953, rfl⟩
abbrev main_v104 : Ref sig .tc := ⟨.hbm, 954, rfl⟩
abbrev main_v105 : Ref sig .tc := ⟨.hbm, 955, rfl⟩
abbrev main_v106 : Ref sig .tc := ⟨.hbm, 956, rfl⟩
abbrev main_v107 : Ref sig .tc := ⟨.hbm, 957, rfl⟩
abbrev main_v108 : Ref sig .tc := ⟨.hbm, 958, rfl⟩
abbrev main_v109 : Ref sig .tc := ⟨.hbm, 959, rfl⟩
abbrev main_v110 : Ref sig .tc := ⟨.hbm, 960, rfl⟩
abbrev main_v111 : Ref sig .tc := ⟨.hbm, 961, rfl⟩
abbrev main_v112 : Ref sig .tc := ⟨.hbm, 962, rfl⟩
abbrev main_v113 : Ref sig .tc := ⟨.hbm, 963, rfl⟩
abbrev main_v114 : Ref sig .tc := ⟨.hbm, 964, rfl⟩
abbrev main_v115 : Ref sig .tc := ⟨.hbm, 965, rfl⟩
abbrev main_v116 : Ref sig .tc := ⟨.hbm, 966, rfl⟩
abbrev main_v117 : Ref sig .tc := ⟨.hbm, 967, rfl⟩
abbrev main_v118 : Ref sig .tc := ⟨.hbm, 968, rfl⟩
abbrev main_v119 : Ref sig .tc := ⟨.hbm, 969, rfl⟩
abbrev main_v120 : Ref sig .tc := ⟨.hbm, 970, rfl⟩
abbrev main_v121 : Ref sig .tc := ⟨.hbm, 971, rfl⟩
abbrev main_v122 : Ref sig .tc := ⟨.hbm, 972, rfl⟩
abbrev main_call60_c : Ref sig .tc := ⟨.hbm, 973, rfl⟩
abbrev main_call60_v0 : Ref sig .tc := ⟨.hbm, 974, rfl⟩
abbrev main_call60_v1 : Ref sig .tc := ⟨.hbm, 975, rfl⟩
abbrev main_call60_c_0 : Ref sig .tc := ⟨.hbm, 976, rfl⟩
abbrev main_call60_v2 : Ref sig .tc := ⟨.hbm, 977, rfl⟩
abbrev main_call60_v3 : Ref sig .tc := ⟨.hbm, 978, rfl⟩
abbrev main_call60_v4 : Ref sig .tc := ⟨.hbm, 979, rfl⟩
abbrev main_call60_v5 : Ref sig .tc := ⟨.hbm, 980, rfl⟩
abbrev main_call60_c_1 : Ref sig .tc := ⟨.hbm, 981, rfl⟩
abbrev main_call60_c_2 : Ref sig .tc := ⟨.hbm, 982, rfl⟩
abbrev main_call60_v6 : Ref sig .tc := ⟨.hbm, 983, rfl⟩
abbrev main_call60_v7 : Ref sig .tc := ⟨.hbm, 984, rfl⟩
abbrev main_call60_v8 : Ref sig .tc := ⟨.hbm, 985, rfl⟩
abbrev main_call60_v9 : Ref sig .tc := ⟨.hbm, 986, rfl⟩
abbrev main_call60_v10 : Ref sig .tc := ⟨.hbm, 987, rfl⟩
abbrev main_call60_v11 : Ref sig .tc := ⟨.hbm, 988, rfl⟩
abbrev main_call60_c_3 : Ref sig .tc := ⟨.hbm, 989, rfl⟩
abbrev main_call60_v12 : Ref sig .tc := ⟨.hbm, 990, rfl⟩
abbrev main_call60_v13 : Ref sig .tc := ⟨.hbm, 991, rfl⟩
abbrev main_call60_cst : Ref sig .tc := ⟨.hbm, 992, rfl⟩
abbrev main_call60_v14 : Ref sig .tc := ⟨.hbm, 993, rfl⟩
abbrev main_v123 : Ref sig .tc := ⟨.hbm, 994, rfl⟩
abbrev main_cst_95 : Ref sig .tc := ⟨.hbm, 995, rfl⟩
abbrev main_call61_v0 : Ref sig .tc := ⟨.hbm, 996, rfl⟩
abbrev main_call61_v1 : Ref sig .tc := ⟨.hbm, 997, rfl⟩
abbrev main_v124 : Ref sig .tc := ⟨.hbm, 998, rfl⟩
abbrev main_call62_c : Ref sig .tc := ⟨.hbm, 999, rfl⟩
abbrev main_call62_v0 : Ref sig .tc := ⟨.hbm, 1000, rfl⟩
abbrev main_call62_v1 : Ref sig .tc := ⟨.hbm, 1001, rfl⟩
abbrev main_call62_c_0 : Ref sig .tc := ⟨.hbm, 1002, rfl⟩
abbrev main_call62_v2 : Ref sig .tc := ⟨.hbm, 1003, rfl⟩
abbrev main_call62_v3 : Ref sig .tc := ⟨.hbm, 1004, rfl⟩
abbrev main_call62_v4 : Ref sig .tc := ⟨.hbm, 1005, rfl⟩
abbrev main_call62_v5 : Ref sig .tc := ⟨.hbm, 1006, rfl⟩
abbrev main_call62_c_1 : Ref sig .tc := ⟨.hbm, 1007, rfl⟩
abbrev main_call62_c_2 : Ref sig .tc := ⟨.hbm, 1008, rfl⟩
abbrev main_call62_v6 : Ref sig .tc := ⟨.hbm, 1009, rfl⟩
abbrev main_call62_v7 : Ref sig .tc := ⟨.hbm, 1010, rfl⟩
abbrev main_call62_v8 : Ref sig .tc := ⟨.hbm, 1011, rfl⟩
abbrev main_call62_v9 : Ref sig .tc := ⟨.hbm, 1012, rfl⟩
abbrev main_call62_v10 : Ref sig .tc := ⟨.hbm, 1013, rfl⟩
abbrev main_call62_v11 : Ref sig .tc := ⟨.hbm, 1014, rfl⟩
abbrev main_call62_c_3 : Ref sig .tc := ⟨.hbm, 1015, rfl⟩
abbrev main_call62_v12 : Ref sig .tc := ⟨.hbm, 1016, rfl⟩
abbrev main_call62_v13 : Ref sig .tc := ⟨.hbm, 1017, rfl⟩
abbrev main_call62_cst : Ref sig .tc := ⟨.hbm, 1018, rfl⟩
abbrev main_call62_v14 : Ref sig .tc := ⟨.hbm, 1019, rfl⟩
abbrev main_v125 : Ref sig .tc := ⟨.hbm, 1020, rfl⟩
abbrev main_cst_96 : Ref sig .tc := ⟨.hbm, 1021, rfl⟩
abbrev main_call63_v0 : Ref sig .tc := ⟨.hbm, 1022, rfl⟩
abbrev main_call63_v1 : Ref sig .tc := ⟨.hbm, 1023, rfl⟩
abbrev main_v126 : Ref sig .tc := ⟨.hbm, 1024, rfl⟩
abbrev main_call64_c : Ref sig .tc := ⟨.hbm, 1025, rfl⟩
abbrev main_call64_v0 : Ref sig .tc := ⟨.hbm, 1026, rfl⟩
abbrev main_call64_v1 : Ref sig .tc := ⟨.hbm, 1027, rfl⟩
abbrev main_call64_c_0 : Ref sig .tc := ⟨.hbm, 1028, rfl⟩
abbrev main_call64_v2 : Ref sig .tc := ⟨.hbm, 1029, rfl⟩
abbrev main_call64_v3 : Ref sig .tc := ⟨.hbm, 1030, rfl⟩
abbrev main_call64_v4 : Ref sig .tc := ⟨.hbm, 1031, rfl⟩
abbrev main_call64_v5 : Ref sig .tc := ⟨.hbm, 1032, rfl⟩
abbrev main_call64_c_1 : Ref sig .tc := ⟨.hbm, 1033, rfl⟩
abbrev main_call64_c_2 : Ref sig .tc := ⟨.hbm, 1034, rfl⟩
abbrev main_call64_v6 : Ref sig .tc := ⟨.hbm, 1035, rfl⟩
abbrev main_call64_v7 : Ref sig .tc := ⟨.hbm, 1036, rfl⟩
abbrev main_call64_v8 : Ref sig .tc := ⟨.hbm, 1037, rfl⟩
abbrev main_call64_v9 : Ref sig .tc := ⟨.hbm, 1038, rfl⟩
abbrev main_call64_v10 : Ref sig .tc := ⟨.hbm, 1039, rfl⟩
abbrev main_call64_v11 : Ref sig .tc := ⟨.hbm, 1040, rfl⟩
abbrev main_call64_c_3 : Ref sig .tc := ⟨.hbm, 1041, rfl⟩
abbrev main_call64_v12 : Ref sig .tc := ⟨.hbm, 1042, rfl⟩
abbrev main_call64_v13 : Ref sig .tc := ⟨.hbm, 1043, rfl⟩
abbrev main_call64_cst : Ref sig .tc := ⟨.hbm, 1044, rfl⟩
abbrev main_call64_v14 : Ref sig .tc := ⟨.hbm, 1045, rfl⟩
abbrev main_v127 : Ref sig .tc := ⟨.hbm, 1046, rfl⟩
abbrev main_cst_97 : Ref sig .tc := ⟨.hbm, 1047, rfl⟩
abbrev main_call65_v0 : Ref sig .tc := ⟨.hbm, 1048, rfl⟩
abbrev main_call65_v1 : Ref sig .tc := ⟨.hbm, 1049, rfl⟩
abbrev main_v128 : Ref sig .tc := ⟨.hbm, 1050, rfl⟩
abbrev main_call66_c : Ref sig .tc := ⟨.hbm, 1051, rfl⟩
abbrev main_call66_v0 : Ref sig .tc := ⟨.hbm, 1052, rfl⟩
abbrev main_call66_v1 : Ref sig .tc := ⟨.hbm, 1053, rfl⟩
abbrev main_call66_c_0 : Ref sig .tc := ⟨.hbm, 1054, rfl⟩
abbrev main_call66_v2 : Ref sig .tc := ⟨.hbm, 1055, rfl⟩
abbrev main_call66_v3 : Ref sig .tc := ⟨.hbm, 1056, rfl⟩
abbrev main_call66_v4 : Ref sig .tc := ⟨.hbm, 1057, rfl⟩
abbrev main_call66_v5 : Ref sig .tc := ⟨.hbm, 1058, rfl⟩
abbrev main_call66_c_1 : Ref sig .tc := ⟨.hbm, 1059, rfl⟩
abbrev main_call66_c_2 : Ref sig .tc := ⟨.hbm, 1060, rfl⟩
abbrev main_call66_v6 : Ref sig .tc := ⟨.hbm, 1061, rfl⟩
abbrev main_call66_v7 : Ref sig .tc := ⟨.hbm, 1062, rfl⟩
abbrev main_call66_v8 : Ref sig .tc := ⟨.hbm, 1063, rfl⟩
abbrev main_call66_v9 : Ref sig .tc := ⟨.hbm, 1064, rfl⟩
abbrev main_call66_v10 : Ref sig .tc := ⟨.hbm, 1065, rfl⟩
abbrev main_call66_v11 : Ref sig .tc := ⟨.hbm, 1066, rfl⟩
abbrev main_call66_c_3 : Ref sig .tc := ⟨.hbm, 1067, rfl⟩
abbrev main_call66_v12 : Ref sig .tc := ⟨.hbm, 1068, rfl⟩
abbrev main_call66_v13 : Ref sig .tc := ⟨.hbm, 1069, rfl⟩
abbrev main_call66_cst : Ref sig .tc := ⟨.hbm, 1070, rfl⟩
abbrev main_call66_v14 : Ref sig .tc := ⟨.hbm, 1071, rfl⟩
abbrev main_v129 : Ref sig .tc := ⟨.hbm, 1072, rfl⟩
abbrev main_cst_98 : Ref sig .tc := ⟨.hbm, 1073, rfl⟩
abbrev main_call67_v0 : Ref sig .tc := ⟨.hbm, 1074, rfl⟩
abbrev main_call67_v1 : Ref sig .tc := ⟨.hbm, 1075, rfl⟩
abbrev main_v130 : Ref sig .tc := ⟨.hbm, 1076, rfl⟩
abbrev main_call68_c : Ref sig .tc := ⟨.hbm, 1077, rfl⟩
abbrev main_call68_v0 : Ref sig .tc := ⟨.hbm, 1078, rfl⟩
abbrev main_call68_v1 : Ref sig .tc := ⟨.hbm, 1079, rfl⟩
abbrev main_call68_c_0 : Ref sig .tc := ⟨.hbm, 1080, rfl⟩
abbrev main_call68_v2 : Ref sig .tc := ⟨.hbm, 1081, rfl⟩
abbrev main_call68_v3 : Ref sig .tc := ⟨.hbm, 1082, rfl⟩
abbrev main_call68_v4 : Ref sig .tc := ⟨.hbm, 1083, rfl⟩
abbrev main_call68_v5 : Ref sig .tc := ⟨.hbm, 1084, rfl⟩
abbrev main_call68_c_1 : Ref sig .tc := ⟨.hbm, 1085, rfl⟩
abbrev main_call68_c_2 : Ref sig .tc := ⟨.hbm, 1086, rfl⟩
abbrev main_call68_v6 : Ref sig .tc := ⟨.hbm, 1087, rfl⟩
abbrev main_call68_v7 : Ref sig .tc := ⟨.hbm, 1088, rfl⟩
abbrev main_call68_v8 : Ref sig .tc := ⟨.hbm, 1089, rfl⟩
abbrev main_call68_v9 : Ref sig .tc := ⟨.hbm, 1090, rfl⟩
abbrev main_call68_v10 : Ref sig .tc := ⟨.hbm, 1091, rfl⟩
abbrev main_call68_v11 : Ref sig .tc := ⟨.hbm, 1092, rfl⟩
abbrev main_call68_c_3 : Ref sig .tc := ⟨.hbm, 1093, rfl⟩
abbrev main_call68_v12 : Ref sig .tc := ⟨.hbm, 1094, rfl⟩
abbrev main_call68_v13 : Ref sig .tc := ⟨.hbm, 1095, rfl⟩
abbrev main_call68_cst : Ref sig .tc := ⟨.hbm, 1096, rfl⟩
abbrev main_call68_v14 : Ref sig .tc := ⟨.hbm, 1097, rfl⟩
abbrev main_v131 : Ref sig .tc := ⟨.hbm, 1098, rfl⟩
abbrev main_cst_99 : Ref sig .tc := ⟨.hbm, 1099, rfl⟩
abbrev main_call69_v0 : Ref sig .tc := ⟨.hbm, 1100, rfl⟩
abbrev main_call69_v1 : Ref sig .tc := ⟨.hbm, 1101, rfl⟩
abbrev main_v132 : Ref sig .tc := ⟨.hbm, 1102, rfl⟩
abbrev main_call70_c : Ref sig .tc := ⟨.hbm, 1103, rfl⟩
abbrev main_call70_v0 : Ref sig .tc := ⟨.hbm, 1104, rfl⟩
abbrev main_call70_v1 : Ref sig .tc := ⟨.hbm, 1105, rfl⟩
abbrev main_call70_c_0 : Ref sig .tc := ⟨.hbm, 1106, rfl⟩
abbrev main_call70_v2 : Ref sig .tc := ⟨.hbm, 1107, rfl⟩
abbrev main_call70_v3 : Ref sig .tc := ⟨.hbm, 1108, rfl⟩
abbrev main_call70_v4 : Ref sig .tc := ⟨.hbm, 1109, rfl⟩
abbrev main_call70_v5 : Ref sig .tc := ⟨.hbm, 1110, rfl⟩
abbrev main_call70_c_1 : Ref sig .tc := ⟨.hbm, 1111, rfl⟩
abbrev main_call70_c_2 : Ref sig .tc := ⟨.hbm, 1112, rfl⟩
abbrev main_call70_v6 : Ref sig .tc := ⟨.hbm, 1113, rfl⟩
abbrev main_call70_v7 : Ref sig .tc := ⟨.hbm, 1114, rfl⟩
abbrev main_call70_v8 : Ref sig .tc := ⟨.hbm, 1115, rfl⟩
abbrev main_call70_v9 : Ref sig .tc := ⟨.hbm, 1116, rfl⟩
abbrev main_call70_v10 : Ref sig .tc := ⟨.hbm, 1117, rfl⟩
abbrev main_call70_v11 : Ref sig .tc := ⟨.hbm, 1118, rfl⟩
abbrev main_call70_c_3 : Ref sig .tc := ⟨.hbm, 1119, rfl⟩
abbrev main_call70_v12 : Ref sig .tc := ⟨.hbm, 1120, rfl⟩
abbrev main_call70_v13 : Ref sig .tc := ⟨.hbm, 1121, rfl⟩
abbrev main_call70_cst : Ref sig .tc := ⟨.hbm, 1122, rfl⟩
abbrev main_call70_v14 : Ref sig .tc := ⟨.hbm, 1123, rfl⟩
abbrev main_v133 : Ref sig .tc := ⟨.hbm, 1124, rfl⟩
abbrev main_cst_100 : Ref sig .tc := ⟨.hbm, 1125, rfl⟩
abbrev main_call71_v0 : Ref sig .tc := ⟨.hbm, 1126, rfl⟩
abbrev main_call71_v1 : Ref sig .tc := ⟨.hbm, 1127, rfl⟩
abbrev main_v134 : Ref sig .tc := ⟨.hbm, 1128, rfl⟩
abbrev main_call72_c : Ref sig .tc := ⟨.hbm, 1129, rfl⟩
abbrev main_call72_v0 : Ref sig .tc := ⟨.hbm, 1130, rfl⟩
abbrev main_call72_v1 : Ref sig .tc := ⟨.hbm, 1131, rfl⟩
abbrev main_call72_c_0 : Ref sig .tc := ⟨.hbm, 1132, rfl⟩
abbrev main_call72_v2 : Ref sig .tc := ⟨.hbm, 1133, rfl⟩
abbrev main_call72_v3 : Ref sig .tc := ⟨.hbm, 1134, rfl⟩
abbrev main_call72_v4 : Ref sig .tc := ⟨.hbm, 1135, rfl⟩
abbrev main_call72_v5 : Ref sig .tc := ⟨.hbm, 1136, rfl⟩
abbrev main_call72_c_1 : Ref sig .tc := ⟨.hbm, 1137, rfl⟩
abbrev main_call72_c_2 : Ref sig .tc := ⟨.hbm, 1138, rfl⟩
abbrev main_call72_v6 : Ref sig .tc := ⟨.hbm, 1139, rfl⟩
abbrev main_call72_v7 : Ref sig .tc := ⟨.hbm, 1140, rfl⟩
abbrev main_call72_v8 : Ref sig .tc := ⟨.hbm, 1141, rfl⟩
abbrev main_call72_v9 : Ref sig .tc := ⟨.hbm, 1142, rfl⟩
abbrev main_call72_v10 : Ref sig .tc := ⟨.hbm, 1143, rfl⟩
abbrev main_call72_v11 : Ref sig .tc := ⟨.hbm, 1144, rfl⟩
abbrev main_call72_c_3 : Ref sig .tc := ⟨.hbm, 1145, rfl⟩
abbrev main_call72_v12 : Ref sig .tc := ⟨.hbm, 1146, rfl⟩
abbrev main_call72_v13 : Ref sig .tc := ⟨.hbm, 1147, rfl⟩
abbrev main_call72_cst : Ref sig .tc := ⟨.hbm, 1148, rfl⟩
abbrev main_call72_v14 : Ref sig .tc := ⟨.hbm, 1149, rfl⟩
abbrev main_v135 : Ref sig .tc := ⟨.hbm, 1150, rfl⟩
abbrev main_cst_101 : Ref sig .tc := ⟨.hbm, 1151, rfl⟩
abbrev main_call73_v0 : Ref sig .tc := ⟨.hbm, 1152, rfl⟩
abbrev main_call73_v1 : Ref sig .tc := ⟨.hbm, 1153, rfl⟩
abbrev main_v136 : Ref sig .tc := ⟨.hbm, 1154, rfl⟩
abbrev main_call74_c : Ref sig .tc := ⟨.hbm, 1155, rfl⟩
abbrev main_call74_v0 : Ref sig .tc := ⟨.hbm, 1156, rfl⟩
abbrev main_call74_v1 : Ref sig .tc := ⟨.hbm, 1157, rfl⟩
abbrev main_call74_c_0 : Ref sig .tc := ⟨.hbm, 1158, rfl⟩
abbrev main_call74_v2 : Ref sig .tc := ⟨.hbm, 1159, rfl⟩
abbrev main_call74_v3 : Ref sig .tc := ⟨.hbm, 1160, rfl⟩
abbrev main_call74_v4 : Ref sig .tc := ⟨.hbm, 1161, rfl⟩
abbrev main_call74_v5 : Ref sig .tc := ⟨.hbm, 1162, rfl⟩
abbrev main_call74_c_1 : Ref sig .tc := ⟨.hbm, 1163, rfl⟩
abbrev main_call74_c_2 : Ref sig .tc := ⟨.hbm, 1164, rfl⟩
abbrev main_call74_v6 : Ref sig .tc := ⟨.hbm, 1165, rfl⟩
abbrev main_call74_v7 : Ref sig .tc := ⟨.hbm, 1166, rfl⟩
abbrev main_call74_v8 : Ref sig .tc := ⟨.hbm, 1167, rfl⟩
abbrev main_call74_v9 : Ref sig .tc := ⟨.hbm, 1168, rfl⟩
abbrev main_call74_v10 : Ref sig .tc := ⟨.hbm, 1169, rfl⟩
abbrev main_call74_v11 : Ref sig .tc := ⟨.hbm, 1170, rfl⟩
abbrev main_call74_c_3 : Ref sig .tc := ⟨.hbm, 1171, rfl⟩
abbrev main_call74_v12 : Ref sig .tc := ⟨.hbm, 1172, rfl⟩
abbrev main_call74_v13 : Ref sig .tc := ⟨.hbm, 1173, rfl⟩
abbrev main_call74_cst : Ref sig .tc := ⟨.hbm, 1174, rfl⟩
abbrev main_call74_v14 : Ref sig .tc := ⟨.hbm, 1175, rfl⟩
abbrev main_v137 : Ref sig .tc := ⟨.hbm, 1176, rfl⟩
abbrev main_cst_102 : Ref sig .tc := ⟨.hbm, 1177, rfl⟩
abbrev main_call75_v0 : Ref sig .tc := ⟨.hbm, 1178, rfl⟩
abbrev main_call75_v1 : Ref sig .tc := ⟨.hbm, 1179, rfl⟩
abbrev main_v138 : Ref sig .tc := ⟨.hbm, 1180, rfl⟩
abbrev main_call76_c : Ref sig .tc := ⟨.hbm, 1181, rfl⟩
abbrev main_call76_v0 : Ref sig .tc := ⟨.hbm, 1182, rfl⟩
abbrev main_call76_v1 : Ref sig .tc := ⟨.hbm, 1183, rfl⟩
abbrev main_call76_c_0 : Ref sig .tc := ⟨.hbm, 1184, rfl⟩
abbrev main_call76_v2 : Ref sig .tc := ⟨.hbm, 1185, rfl⟩
abbrev main_call76_v3 : Ref sig .tc := ⟨.hbm, 1186, rfl⟩
abbrev main_call76_v4 : Ref sig .tc := ⟨.hbm, 1187, rfl⟩
abbrev main_call76_v5 : Ref sig .tc := ⟨.hbm, 1188, rfl⟩
abbrev main_call76_c_1 : Ref sig .tc := ⟨.hbm, 1189, rfl⟩
abbrev main_call76_c_2 : Ref sig .tc := ⟨.hbm, 1190, rfl⟩
abbrev main_call76_v6 : Ref sig .tc := ⟨.hbm, 1191, rfl⟩
abbrev main_call76_v7 : Ref sig .tc := ⟨.hbm, 1192, rfl⟩
abbrev main_call76_v8 : Ref sig .tc := ⟨.hbm, 1193, rfl⟩
abbrev main_call76_v9 : Ref sig .tc := ⟨.hbm, 1194, rfl⟩
abbrev main_call76_v10 : Ref sig .tc := ⟨.hbm, 1195, rfl⟩
abbrev main_call76_v11 : Ref sig .tc := ⟨.hbm, 1196, rfl⟩
abbrev main_call76_c_3 : Ref sig .tc := ⟨.hbm, 1197, rfl⟩
abbrev main_call76_v12 : Ref sig .tc := ⟨.hbm, 1198, rfl⟩
abbrev main_call76_v13 : Ref sig .tc := ⟨.hbm, 1199, rfl⟩
abbrev main_call76_cst : Ref sig .tc := ⟨.hbm, 1200, rfl⟩
abbrev main_call76_v14 : Ref sig .tc := ⟨.hbm, 1201, rfl⟩
abbrev main_v139 : Ref sig .tc := ⟨.hbm, 1202, rfl⟩
abbrev main_cst_103 : Ref sig .tc := ⟨.hbm, 1203, rfl⟩
abbrev main_call77_v0 : Ref sig .tc := ⟨.hbm, 1204, rfl⟩
abbrev main_call77_v1 : Ref sig .tc := ⟨.hbm, 1205, rfl⟩
abbrev main_v140 : Ref sig .tc := ⟨.hbm, 1206, rfl⟩
abbrev main_call78_c : Ref sig .tc := ⟨.hbm, 1207, rfl⟩
abbrev main_call78_v0 : Ref sig .tc := ⟨.hbm, 1208, rfl⟩
abbrev main_call78_v1 : Ref sig .tc := ⟨.hbm, 1209, rfl⟩
abbrev main_call78_c_0 : Ref sig .tc := ⟨.hbm, 1210, rfl⟩
abbrev main_call78_v2 : Ref sig .tc := ⟨.hbm, 1211, rfl⟩
abbrev main_call78_v3 : Ref sig .tc := ⟨.hbm, 1212, rfl⟩
abbrev main_call78_v4 : Ref sig .tc := ⟨.hbm, 1213, rfl⟩
abbrev main_call78_v5 : Ref sig .tc := ⟨.hbm, 1214, rfl⟩
abbrev main_call78_c_1 : Ref sig .tc := ⟨.hbm, 1215, rfl⟩
abbrev main_call78_c_2 : Ref sig .tc := ⟨.hbm, 1216, rfl⟩
abbrev main_call78_v6 : Ref sig .tc := ⟨.hbm, 1217, rfl⟩
abbrev main_call78_v7 : Ref sig .tc := ⟨.hbm, 1218, rfl⟩
abbrev main_call78_v8 : Ref sig .tc := ⟨.hbm, 1219, rfl⟩
abbrev main_call78_v9 : Ref sig .tc := ⟨.hbm, 1220, rfl⟩
abbrev main_call78_v10 : Ref sig .tc := ⟨.hbm, 1221, rfl⟩
abbrev main_call78_v11 : Ref sig .tc := ⟨.hbm, 1222, rfl⟩
abbrev main_call78_c_3 : Ref sig .tc := ⟨.hbm, 1223, rfl⟩
abbrev main_call78_v12 : Ref sig .tc := ⟨.hbm, 1224, rfl⟩
abbrev main_call78_v13 : Ref sig .tc := ⟨.hbm, 1225, rfl⟩
abbrev main_call78_cst : Ref sig .tc := ⟨.hbm, 1226, rfl⟩
abbrev main_call78_v14 : Ref sig .tc := ⟨.hbm, 1227, rfl⟩
abbrev main_v141 : Ref sig .tc := ⟨.hbm, 1228, rfl⟩
abbrev main_cst_104 : Ref sig .tc := ⟨.hbm, 1229, rfl⟩
abbrev main_call79_v0 : Ref sig .tc := ⟨.hbm, 1230, rfl⟩
abbrev main_call79_v1 : Ref sig .tc := ⟨.hbm, 1231, rfl⟩
abbrev main_v142 : Ref sig .tc := ⟨.hbm, 1232, rfl⟩
abbrev main_call80_c : Ref sig .tc := ⟨.hbm, 1233, rfl⟩
abbrev main_call80_v0 : Ref sig .tc := ⟨.hbm, 1234, rfl⟩
abbrev main_call80_v1 : Ref sig .tc := ⟨.hbm, 1235, rfl⟩
abbrev main_call80_c_0 : Ref sig .tc := ⟨.hbm, 1236, rfl⟩
abbrev main_call80_v2 : Ref sig .tc := ⟨.hbm, 1237, rfl⟩
abbrev main_call80_v3 : Ref sig .tc := ⟨.hbm, 1238, rfl⟩
abbrev main_call80_v4 : Ref sig .tc := ⟨.hbm, 1239, rfl⟩
abbrev main_call80_v5 : Ref sig .tc := ⟨.hbm, 1240, rfl⟩
abbrev main_call80_c_1 : Ref sig .tc := ⟨.hbm, 1241, rfl⟩
abbrev main_call80_c_2 : Ref sig .tc := ⟨.hbm, 1242, rfl⟩
abbrev main_call80_v6 : Ref sig .tc := ⟨.hbm, 1243, rfl⟩
abbrev main_call80_v7 : Ref sig .tc := ⟨.hbm, 1244, rfl⟩
abbrev main_call80_v8 : Ref sig .tc := ⟨.hbm, 1245, rfl⟩
abbrev main_call80_v9 : Ref sig .tc := ⟨.hbm, 1246, rfl⟩
abbrev main_call80_v10 : Ref sig .tc := ⟨.hbm, 1247, rfl⟩
abbrev main_call80_v11 : Ref sig .tc := ⟨.hbm, 1248, rfl⟩
abbrev main_call80_c_3 : Ref sig .tc := ⟨.hbm, 1249, rfl⟩
abbrev main_call80_v12 : Ref sig .tc := ⟨.hbm, 1250, rfl⟩
abbrev main_call80_v13 : Ref sig .tc := ⟨.hbm, 1251, rfl⟩
abbrev main_call80_cst : Ref sig .tc := ⟨.hbm, 1252, rfl⟩
abbrev main_call80_v14 : Ref sig .tc := ⟨.hbm, 1253, rfl⟩
abbrev main_v143 : Ref sig .tc := ⟨.hbm, 1254, rfl⟩
abbrev main_cst_105 : Ref sig .tc := ⟨.hbm, 1255, rfl⟩
abbrev main_call81_v0 : Ref sig .tc := ⟨.hbm, 1256, rfl⟩
abbrev main_call81_v1 : Ref sig .tc := ⟨.hbm, 1257, rfl⟩
abbrev main_v144 : Ref sig .tc := ⟨.hbm, 1258, rfl⟩
abbrev main_call82_c : Ref sig .tc := ⟨.hbm, 1259, rfl⟩
abbrev main_call82_v0 : Ref sig .tc := ⟨.hbm, 1260, rfl⟩
abbrev main_call82_v1 : Ref sig .tc := ⟨.hbm, 1261, rfl⟩
abbrev main_call82_c_0 : Ref sig .tc := ⟨.hbm, 1262, rfl⟩
abbrev main_call82_v2 : Ref sig .tc := ⟨.hbm, 1263, rfl⟩
abbrev main_call82_v3 : Ref sig .tc := ⟨.hbm, 1264, rfl⟩
abbrev main_call82_v4 : Ref sig .tc := ⟨.hbm, 1265, rfl⟩
abbrev main_call82_v5 : Ref sig .tc := ⟨.hbm, 1266, rfl⟩
abbrev main_call82_c_1 : Ref sig .tc := ⟨.hbm, 1267, rfl⟩
abbrev main_call82_c_2 : Ref sig .tc := ⟨.hbm, 1268, rfl⟩
abbrev main_call82_v6 : Ref sig .tc := ⟨.hbm, 1269, rfl⟩
abbrev main_call82_v7 : Ref sig .tc := ⟨.hbm, 1270, rfl⟩
abbrev main_call82_v8 : Ref sig .tc := ⟨.hbm, 1271, rfl⟩
abbrev main_call82_v9 : Ref sig .tc := ⟨.hbm, 1272, rfl⟩
abbrev main_call82_v10 : Ref sig .tc := ⟨.hbm, 1273, rfl⟩
abbrev main_call82_v11 : Ref sig .tc := ⟨.hbm, 1274, rfl⟩
abbrev main_call82_c_3 : Ref sig .tc := ⟨.hbm, 1275, rfl⟩
abbrev main_call82_v12 : Ref sig .tc := ⟨.hbm, 1276, rfl⟩
abbrev main_call82_v13 : Ref sig .tc := ⟨.hbm, 1277, rfl⟩
abbrev main_call82_cst : Ref sig .tc := ⟨.hbm, 1278, rfl⟩
abbrev main_call82_v14 : Ref sig .tc := ⟨.hbm, 1279, rfl⟩
abbrev main_v145 : Ref sig .tc := ⟨.hbm, 1280, rfl⟩
abbrev main_cst_106 : Ref sig .tc := ⟨.hbm, 1281, rfl⟩
abbrev main_call83_v0 : Ref sig .tc := ⟨.hbm, 1282, rfl⟩
abbrev main_call83_v1 : Ref sig .tc := ⟨.hbm, 1283, rfl⟩
abbrev main_v146 : Ref sig .tc := ⟨.hbm, 1284, rfl⟩
abbrev main_call84_c : Ref sig .tc := ⟨.hbm, 1285, rfl⟩
abbrev main_call84_v0 : Ref sig .tc := ⟨.hbm, 1286, rfl⟩
abbrev main_call84_v1 : Ref sig .tc := ⟨.hbm, 1287, rfl⟩
abbrev main_call84_c_0 : Ref sig .tc := ⟨.hbm, 1288, rfl⟩
abbrev main_call84_v2 : Ref sig .tc := ⟨.hbm, 1289, rfl⟩
abbrev main_call84_v3 : Ref sig .tc := ⟨.hbm, 1290, rfl⟩
abbrev main_call84_v4 : Ref sig .tc := ⟨.hbm, 1291, rfl⟩
abbrev main_call84_v5 : Ref sig .tc := ⟨.hbm, 1292, rfl⟩
abbrev main_call84_c_1 : Ref sig .tc := ⟨.hbm, 1293, rfl⟩
abbrev main_call84_c_2 : Ref sig .tc := ⟨.hbm, 1294, rfl⟩
abbrev main_call84_v6 : Ref sig .tc := ⟨.hbm, 1295, rfl⟩
abbrev main_call84_v7 : Ref sig .tc := ⟨.hbm, 1296, rfl⟩
abbrev main_call84_v8 : Ref sig .tc := ⟨.hbm, 1297, rfl⟩
abbrev main_call84_v9 : Ref sig .tc := ⟨.hbm, 1298, rfl⟩
abbrev main_call84_v10 : Ref sig .tc := ⟨.hbm, 1299, rfl⟩
abbrev main_call84_v11 : Ref sig .tc := ⟨.hbm, 1300, rfl⟩
abbrev main_call84_c_3 : Ref sig .tc := ⟨.hbm, 1301, rfl⟩
abbrev main_call84_v12 : Ref sig .tc := ⟨.hbm, 1302, rfl⟩
abbrev main_call84_v13 : Ref sig .tc := ⟨.hbm, 1303, rfl⟩
abbrev main_call84_cst : Ref sig .tc := ⟨.hbm, 1304, rfl⟩
abbrev main_call84_v14 : Ref sig .tc := ⟨.hbm, 1305, rfl⟩
abbrev main_v147 : Ref sig .tc := ⟨.hbm, 1306, rfl⟩
abbrev main_cst_107 : Ref sig .tc := ⟨.hbm, 1307, rfl⟩
abbrev main_call85_v0 : Ref sig .tc := ⟨.hbm, 1308, rfl⟩
abbrev main_call85_v1 : Ref sig .tc := ⟨.hbm, 1309, rfl⟩
abbrev main_v148 : Ref sig .tc := ⟨.hbm, 1310, rfl⟩
abbrev main_call86_c : Ref sig .tc := ⟨.hbm, 1311, rfl⟩
abbrev main_call86_v0 : Ref sig .tc := ⟨.hbm, 1312, rfl⟩
abbrev main_call86_v1 : Ref sig .tc := ⟨.hbm, 1313, rfl⟩
abbrev main_call86_c_0 : Ref sig .tc := ⟨.hbm, 1314, rfl⟩
abbrev main_call86_v2 : Ref sig .tc := ⟨.hbm, 1315, rfl⟩
abbrev main_call86_v3 : Ref sig .tc := ⟨.hbm, 1316, rfl⟩
abbrev main_call86_v4 : Ref sig .tc := ⟨.hbm, 1317, rfl⟩
abbrev main_call86_v5 : Ref sig .tc := ⟨.hbm, 1318, rfl⟩
abbrev main_call86_c_1 : Ref sig .tc := ⟨.hbm, 1319, rfl⟩
abbrev main_call86_c_2 : Ref sig .tc := ⟨.hbm, 1320, rfl⟩
abbrev main_call86_v6 : Ref sig .tc := ⟨.hbm, 1321, rfl⟩
abbrev main_call86_v7 : Ref sig .tc := ⟨.hbm, 1322, rfl⟩
abbrev main_call86_v8 : Ref sig .tc := ⟨.hbm, 1323, rfl⟩
abbrev main_call86_v9 : Ref sig .tc := ⟨.hbm, 1324, rfl⟩
abbrev main_call86_v10 : Ref sig .tc := ⟨.hbm, 1325, rfl⟩
abbrev main_call86_v11 : Ref sig .tc := ⟨.hbm, 1326, rfl⟩
abbrev main_call86_c_3 : Ref sig .tc := ⟨.hbm, 1327, rfl⟩
abbrev main_call86_v12 : Ref sig .tc := ⟨.hbm, 1328, rfl⟩
abbrev main_call86_v13 : Ref sig .tc := ⟨.hbm, 1329, rfl⟩
abbrev main_call86_cst : Ref sig .tc := ⟨.hbm, 1330, rfl⟩
abbrev main_call86_v14 : Ref sig .tc := ⟨.hbm, 1331, rfl⟩
abbrev main_v149 : Ref sig .tc := ⟨.hbm, 1332, rfl⟩
abbrev main_cst_108 : Ref sig .tc := ⟨.hbm, 1333, rfl⟩
abbrev main_call87_v0 : Ref sig .tc := ⟨.hbm, 1334, rfl⟩
abbrev main_call87_v1 : Ref sig .tc := ⟨.hbm, 1335, rfl⟩
abbrev main_v150 : Ref sig .tc := ⟨.hbm, 1336, rfl⟩
abbrev main_call88_c : Ref sig .tc := ⟨.hbm, 1337, rfl⟩
abbrev main_call88_v0 : Ref sig .tc := ⟨.hbm, 1338, rfl⟩
abbrev main_call88_v1 : Ref sig .tc := ⟨.hbm, 1339, rfl⟩
abbrev main_call88_c_0 : Ref sig .tc := ⟨.hbm, 1340, rfl⟩
abbrev main_call88_v2 : Ref sig .tc := ⟨.hbm, 1341, rfl⟩
abbrev main_call88_v3 : Ref sig .tc := ⟨.hbm, 1342, rfl⟩
abbrev main_call88_v4 : Ref sig .tc := ⟨.hbm, 1343, rfl⟩
abbrev main_call88_v5 : Ref sig .tc := ⟨.hbm, 1344, rfl⟩
abbrev main_call88_c_1 : Ref sig .tc := ⟨.hbm, 1345, rfl⟩
abbrev main_call88_c_2 : Ref sig .tc := ⟨.hbm, 1346, rfl⟩
abbrev main_call88_v6 : Ref sig .tc := ⟨.hbm, 1347, rfl⟩
abbrev main_call88_v7 : Ref sig .tc := ⟨.hbm, 1348, rfl⟩
abbrev main_call88_v8 : Ref sig .tc := ⟨.hbm, 1349, rfl⟩
abbrev main_call88_v9 : Ref sig .tc := ⟨.hbm, 1350, rfl⟩
abbrev main_call88_v10 : Ref sig .tc := ⟨.hbm, 1351, rfl⟩
abbrev main_call88_v11 : Ref sig .tc := ⟨.hbm, 1352, rfl⟩
abbrev main_call88_c_3 : Ref sig .tc := ⟨.hbm, 1353, rfl⟩
abbrev main_call88_v12 : Ref sig .tc := ⟨.hbm, 1354, rfl⟩
abbrev main_call88_v13 : Ref sig .tc := ⟨.hbm, 1355, rfl⟩
abbrev main_call88_cst : Ref sig .tc := ⟨.hbm, 1356, rfl⟩
abbrev main_call88_v14 : Ref sig .tc := ⟨.hbm, 1357, rfl⟩
abbrev main_v151 : Ref sig .tc := ⟨.hbm, 1358, rfl⟩
abbrev main_cst_109 : Ref sig .tc := ⟨.hbm, 1359, rfl⟩
abbrev main_call89_v0 : Ref sig .tc := ⟨.hbm, 1360, rfl⟩
abbrev main_call89_v1 : Ref sig .tc := ⟨.hbm, 1361, rfl⟩
abbrev main_v152 : Ref sig .tc := ⟨.hbm, 1362, rfl⟩
abbrev main_call90_c : Ref sig .tc := ⟨.hbm, 1363, rfl⟩
abbrev main_call90_v0 : Ref sig .tc := ⟨.hbm, 1364, rfl⟩
abbrev main_call90_v1 : Ref sig .tc := ⟨.hbm, 1365, rfl⟩
abbrev main_call90_c_0 : Ref sig .tc := ⟨.hbm, 1366, rfl⟩
abbrev main_call90_v2 : Ref sig .tc := ⟨.hbm, 1367, rfl⟩
abbrev main_call90_v3 : Ref sig .tc := ⟨.hbm, 1368, rfl⟩
abbrev main_call90_v4 : Ref sig .tc := ⟨.hbm, 1369, rfl⟩
abbrev main_call90_v5 : Ref sig .tc := ⟨.hbm, 1370, rfl⟩
abbrev main_call90_c_1 : Ref sig .tc := ⟨.hbm, 1371, rfl⟩
abbrev main_call90_c_2 : Ref sig .tc := ⟨.hbm, 1372, rfl⟩
abbrev main_call90_v6 : Ref sig .tc := ⟨.hbm, 1373, rfl⟩
abbrev main_call90_v7 : Ref sig .tc := ⟨.hbm, 1374, rfl⟩
abbrev main_call90_v8 : Ref sig .tc := ⟨.hbm, 1375, rfl⟩
abbrev main_call90_v9 : Ref sig .tc := ⟨.hbm, 1376, rfl⟩
abbrev main_call90_v10 : Ref sig .tc := ⟨.hbm, 1377, rfl⟩
abbrev main_call90_v11 : Ref sig .tc := ⟨.hbm, 1378, rfl⟩
abbrev main_call90_c_3 : Ref sig .tc := ⟨.hbm, 1379, rfl⟩
abbrev main_call90_v12 : Ref sig .tc := ⟨.hbm, 1380, rfl⟩
abbrev main_call90_v13 : Ref sig .tc := ⟨.hbm, 1381, rfl⟩
abbrev main_call90_cst : Ref sig .tc := ⟨.hbm, 1382, rfl⟩
abbrev main_call90_v14 : Ref sig .tc := ⟨.hbm, 1383, rfl⟩
abbrev main_v153 : Ref sig .tc := ⟨.hbm, 1384, rfl⟩
abbrev main_cst_110 : Ref sig .tc := ⟨.hbm, 1385, rfl⟩
abbrev main_call91_v0 : Ref sig .tc := ⟨.hbm, 1386, rfl⟩
abbrev main_call91_v1 : Ref sig .tc := ⟨.hbm, 1387, rfl⟩
abbrev main_v154 : Ref sig .tc := ⟨.hbm, 1388, rfl⟩
abbrev main_call92_c : Ref sig .tc := ⟨.hbm, 1389, rfl⟩
abbrev main_call92_v0 : Ref sig .tc := ⟨.hbm, 1390, rfl⟩
abbrev main_call92_v1 : Ref sig .tc := ⟨.hbm, 1391, rfl⟩
abbrev main_call92_c_0 : Ref sig .tc := ⟨.hbm, 1392, rfl⟩
abbrev main_call92_v2 : Ref sig .tc := ⟨.hbm, 1393, rfl⟩
abbrev main_call92_v3 : Ref sig .tc := ⟨.hbm, 1394, rfl⟩
abbrev main_call92_v4 : Ref sig .tc := ⟨.hbm, 1395, rfl⟩
abbrev main_call92_v5 : Ref sig .tc := ⟨.hbm, 1396, rfl⟩
abbrev main_call92_c_1 : Ref sig .tc := ⟨.hbm, 1397, rfl⟩
abbrev main_call92_c_2 : Ref sig .tc := ⟨.hbm, 1398, rfl⟩
abbrev main_call92_v6 : Ref sig .tc := ⟨.hbm, 1399, rfl⟩
abbrev main_call92_v7 : Ref sig .tc := ⟨.hbm, 1400, rfl⟩
abbrev main_call92_v8 : Ref sig .tc := ⟨.hbm, 1401, rfl⟩
abbrev main_call92_v9 : Ref sig .tc := ⟨.hbm, 1402, rfl⟩
abbrev main_call92_v10 : Ref sig .tc := ⟨.hbm, 1403, rfl⟩
abbrev main_call92_v11 : Ref sig .tc := ⟨.hbm, 1404, rfl⟩
abbrev main_call92_c_3 : Ref sig .tc := ⟨.hbm, 1405, rfl⟩
abbrev main_call92_v12 : Ref sig .tc := ⟨.hbm, 1406, rfl⟩
abbrev main_call92_v13 : Ref sig .tc := ⟨.hbm, 1407, rfl⟩
abbrev main_call92_cst : Ref sig .tc := ⟨.hbm, 1408, rfl⟩
abbrev main_call92_v14 : Ref sig .tc := ⟨.hbm, 1409, rfl⟩
abbrev main_v155 : Ref sig .tc := ⟨.hbm, 1410, rfl⟩
abbrev main_cst_111 : Ref sig .tc := ⟨.hbm, 1411, rfl⟩
abbrev main_call93_v0 : Ref sig .tc := ⟨.hbm, 1412, rfl⟩
abbrev main_call93_v1 : Ref sig .tc := ⟨.hbm, 1413, rfl⟩
abbrev main_v156 : Ref sig .tc := ⟨.hbm, 1414, rfl⟩
abbrev main_call94_c : Ref sig .tc := ⟨.hbm, 1415, rfl⟩
abbrev main_call94_v0 : Ref sig .tc := ⟨.hbm, 1416, rfl⟩
abbrev main_call94_v1 : Ref sig .tc := ⟨.hbm, 1417, rfl⟩
abbrev main_call94_c_0 : Ref sig .tc := ⟨.hbm, 1418, rfl⟩
abbrev main_call94_v2 : Ref sig .tc := ⟨.hbm, 1419, rfl⟩
abbrev main_call94_v3 : Ref sig .tc := ⟨.hbm, 1420, rfl⟩
abbrev main_call94_v4 : Ref sig .tc := ⟨.hbm, 1421, rfl⟩
abbrev main_call94_v5 : Ref sig .tc := ⟨.hbm, 1422, rfl⟩
abbrev main_call94_c_1 : Ref sig .tc := ⟨.hbm, 1423, rfl⟩
abbrev main_call94_c_2 : Ref sig .tc := ⟨.hbm, 1424, rfl⟩
abbrev main_call94_v6 : Ref sig .tc := ⟨.hbm, 1425, rfl⟩
abbrev main_call94_v7 : Ref sig .tc := ⟨.hbm, 1426, rfl⟩
abbrev main_call94_v8 : Ref sig .tc := ⟨.hbm, 1427, rfl⟩
abbrev main_call94_v9 : Ref sig .tc := ⟨.hbm, 1428, rfl⟩
abbrev main_call94_v10 : Ref sig .tc := ⟨.hbm, 1429, rfl⟩
abbrev main_call94_v11 : Ref sig .tc := ⟨.hbm, 1430, rfl⟩
abbrev main_call94_c_3 : Ref sig .tc := ⟨.hbm, 1431, rfl⟩
abbrev main_call94_v12 : Ref sig .tc := ⟨.hbm, 1432, rfl⟩
abbrev main_call94_v13 : Ref sig .tc := ⟨.hbm, 1433, rfl⟩
abbrev main_call94_cst : Ref sig .tc := ⟨.hbm, 1434, rfl⟩
abbrev main_call94_v14 : Ref sig .tc := ⟨.hbm, 1435, rfl⟩
abbrev main_v157 : Ref sig .tc := ⟨.hbm, 1436, rfl⟩
abbrev main_cst_112 : Ref sig .tc := ⟨.hbm, 1437, rfl⟩
abbrev main_call95_v0 : Ref sig .tc := ⟨.hbm, 1438, rfl⟩
abbrev main_call95_v1 : Ref sig .tc := ⟨.hbm, 1439, rfl⟩
abbrev main_v158 : Ref sig .tc := ⟨.hbm, 1440, rfl⟩
abbrev main_call96_c : Ref sig .tc := ⟨.hbm, 1441, rfl⟩
abbrev main_call96_v0 : Ref sig .tc := ⟨.hbm, 1442, rfl⟩
abbrev main_call96_v1 : Ref sig .tc := ⟨.hbm, 1443, rfl⟩
abbrev main_call96_c_0 : Ref sig .tc := ⟨.hbm, 1444, rfl⟩
abbrev main_call96_v2 : Ref sig .tc := ⟨.hbm, 1445, rfl⟩
abbrev main_call96_v3 : Ref sig .tc := ⟨.hbm, 1446, rfl⟩
abbrev main_call96_v4 : Ref sig .tc := ⟨.hbm, 1447, rfl⟩
abbrev main_call96_v5 : Ref sig .tc := ⟨.hbm, 1448, rfl⟩
abbrev main_call96_c_1 : Ref sig .tc := ⟨.hbm, 1449, rfl⟩
abbrev main_call96_c_2 : Ref sig .tc := ⟨.hbm, 1450, rfl⟩
abbrev main_call96_v6 : Ref sig .tc := ⟨.hbm, 1451, rfl⟩
abbrev main_call96_v7 : Ref sig .tc := ⟨.hbm, 1452, rfl⟩
abbrev main_call96_v8 : Ref sig .tc := ⟨.hbm, 1453, rfl⟩
abbrev main_call96_v9 : Ref sig .tc := ⟨.hbm, 1454, rfl⟩
abbrev main_call96_v10 : Ref sig .tc := ⟨.hbm, 1455, rfl⟩
abbrev main_call96_v11 : Ref sig .tc := ⟨.hbm, 1456, rfl⟩
abbrev main_call96_c_3 : Ref sig .tc := ⟨.hbm, 1457, rfl⟩
abbrev main_call96_v12 : Ref sig .tc := ⟨.hbm, 1458, rfl⟩
abbrev main_call96_v13 : Ref sig .tc := ⟨.hbm, 1459, rfl⟩
abbrev main_call96_cst : Ref sig .tc := ⟨.hbm, 1460, rfl⟩
abbrev main_call96_v14 : Ref sig .tc := ⟨.hbm, 1461, rfl⟩
abbrev main_v159 : Ref sig .tc := ⟨.hbm, 1462, rfl⟩
abbrev main_cst_113 : Ref sig .tc := ⟨.hbm, 1463, rfl⟩
abbrev main_call97_v0 : Ref sig .tc := ⟨.hbm, 1464, rfl⟩
abbrev main_call97_v1 : Ref sig .tc := ⟨.hbm, 1465, rfl⟩
abbrev main_v160 : Ref sig .tc := ⟨.hbm, 1466, rfl⟩
abbrev main_call98_c : Ref sig .tc := ⟨.hbm, 1467, rfl⟩
abbrev main_call98_v0 : Ref sig .tc := ⟨.hbm, 1468, rfl⟩
abbrev main_call98_v1 : Ref sig .tc := ⟨.hbm, 1469, rfl⟩
abbrev main_call98_c_0 : Ref sig .tc := ⟨.hbm, 1470, rfl⟩
abbrev main_call98_v2 : Ref sig .tc := ⟨.hbm, 1471, rfl⟩
abbrev main_call98_v3 : Ref sig .tc := ⟨.hbm, 1472, rfl⟩
abbrev main_call98_v4 : Ref sig .tc := ⟨.hbm, 1473, rfl⟩
abbrev main_call98_v5 : Ref sig .tc := ⟨.hbm, 1474, rfl⟩
abbrev main_call98_c_1 : Ref sig .tc := ⟨.hbm, 1475, rfl⟩
abbrev main_call98_c_2 : Ref sig .tc := ⟨.hbm, 1476, rfl⟩
abbrev main_call98_v6 : Ref sig .tc := ⟨.hbm, 1477, rfl⟩
abbrev main_call98_v7 : Ref sig .tc := ⟨.hbm, 1478, rfl⟩
abbrev main_call98_v8 : Ref sig .tc := ⟨.hbm, 1479, rfl⟩
abbrev main_call98_v9 : Ref sig .tc := ⟨.hbm, 1480, rfl⟩
abbrev main_call98_v10 : Ref sig .tc := ⟨.hbm, 1481, rfl⟩
abbrev main_call98_v11 : Ref sig .tc := ⟨.hbm, 1482, rfl⟩
abbrev main_call98_c_3 : Ref sig .tc := ⟨.hbm, 1483, rfl⟩
abbrev main_call98_v12 : Ref sig .tc := ⟨.hbm, 1484, rfl⟩
abbrev main_call98_v13 : Ref sig .tc := ⟨.hbm, 1485, rfl⟩
abbrev main_call98_cst : Ref sig .tc := ⟨.hbm, 1486, rfl⟩
abbrev main_call98_v14 : Ref sig .tc := ⟨.hbm, 1487, rfl⟩
abbrev main_v161 : Ref sig .tc := ⟨.hbm, 1488, rfl⟩
abbrev main_cst_114 : Ref sig .tc := ⟨.hbm, 1489, rfl⟩
abbrev main_call99_v0 : Ref sig .tc := ⟨.hbm, 1490, rfl⟩
abbrev main_call99_v1 : Ref sig .tc := ⟨.hbm, 1491, rfl⟩
abbrev main_v162 : Ref sig .tc := ⟨.hbm, 1492, rfl⟩
abbrev main_call100_c : Ref sig .tc := ⟨.hbm, 1493, rfl⟩
abbrev main_call100_v0 : Ref sig .tc := ⟨.hbm, 1494, rfl⟩
abbrev main_call100_v1 : Ref sig .tc := ⟨.hbm, 1495, rfl⟩
abbrev main_call100_c_0 : Ref sig .tc := ⟨.hbm, 1496, rfl⟩
abbrev main_call100_v2 : Ref sig .tc := ⟨.hbm, 1497, rfl⟩
abbrev main_call100_v3 : Ref sig .tc := ⟨.hbm, 1498, rfl⟩
abbrev main_call100_v4 : Ref sig .tc := ⟨.hbm, 1499, rfl⟩
abbrev main_call100_v5 : Ref sig .tc := ⟨.hbm, 1500, rfl⟩
abbrev main_call100_c_1 : Ref sig .tc := ⟨.hbm, 1501, rfl⟩
abbrev main_call100_c_2 : Ref sig .tc := ⟨.hbm, 1502, rfl⟩
abbrev main_call100_v6 : Ref sig .tc := ⟨.hbm, 1503, rfl⟩
abbrev main_call100_v7 : Ref sig .tc := ⟨.hbm, 1504, rfl⟩
abbrev main_call100_v8 : Ref sig .tc := ⟨.hbm, 1505, rfl⟩
abbrev main_call100_v9 : Ref sig .tc := ⟨.hbm, 1506, rfl⟩
abbrev main_call100_v10 : Ref sig .tc := ⟨.hbm, 1507, rfl⟩
abbrev main_call100_v11 : Ref sig .tc := ⟨.hbm, 1508, rfl⟩
abbrev main_call100_c_3 : Ref sig .tc := ⟨.hbm, 1509, rfl⟩
abbrev main_call100_v12 : Ref sig .tc := ⟨.hbm, 1510, rfl⟩
abbrev main_call100_v13 : Ref sig .tc := ⟨.hbm, 1511, rfl⟩
abbrev main_call100_cst : Ref sig .tc := ⟨.hbm, 1512, rfl⟩
abbrev main_call100_v14 : Ref sig .tc := ⟨.hbm, 1513, rfl⟩
abbrev main_v163 : Ref sig .tc := ⟨.hbm, 1514, rfl⟩
abbrev main_cst_115 : Ref sig .tc := ⟨.hbm, 1515, rfl⟩
abbrev main_call101_v0 : Ref sig .tc := ⟨.hbm, 1516, rfl⟩
abbrev main_call101_v1 : Ref sig .tc := ⟨.hbm, 1517, rfl⟩
abbrev main_v164 : Ref sig .tc := ⟨.hbm, 1518, rfl⟩
abbrev main_call102_c : Ref sig .tc := ⟨.hbm, 1519, rfl⟩
abbrev main_call102_v0 : Ref sig .tc := ⟨.hbm, 1520, rfl⟩
abbrev main_call102_v1 : Ref sig .tc := ⟨.hbm, 1521, rfl⟩
abbrev main_call102_c_0 : Ref sig .tc := ⟨.hbm, 1522, rfl⟩
abbrev main_call102_v2 : Ref sig .tc := ⟨.hbm, 1523, rfl⟩
abbrev main_call102_v3 : Ref sig .tc := ⟨.hbm, 1524, rfl⟩
abbrev main_call102_v4 : Ref sig .tc := ⟨.hbm, 1525, rfl⟩
abbrev main_call102_v5 : Ref sig .tc := ⟨.hbm, 1526, rfl⟩
abbrev main_call102_c_1 : Ref sig .tc := ⟨.hbm, 1527, rfl⟩
abbrev main_call102_c_2 : Ref sig .tc := ⟨.hbm, 1528, rfl⟩
abbrev main_call102_v6 : Ref sig .tc := ⟨.hbm, 1529, rfl⟩
abbrev main_call102_v7 : Ref sig .tc := ⟨.hbm, 1530, rfl⟩
abbrev main_call102_v8 : Ref sig .tc := ⟨.hbm, 1531, rfl⟩
abbrev main_call102_v9 : Ref sig .tc := ⟨.hbm, 1532, rfl⟩
abbrev main_call102_v10 : Ref sig .tc := ⟨.hbm, 1533, rfl⟩
abbrev main_call102_v11 : Ref sig .tc := ⟨.hbm, 1534, rfl⟩
abbrev main_call102_c_3 : Ref sig .tc := ⟨.hbm, 1535, rfl⟩
abbrev main_call102_v12 : Ref sig .tc := ⟨.hbm, 1536, rfl⟩
abbrev main_call102_v13 : Ref sig .tc := ⟨.hbm, 1537, rfl⟩
abbrev main_call102_cst : Ref sig .tc := ⟨.hbm, 1538, rfl⟩
abbrev main_call102_v14 : Ref sig .tc := ⟨.hbm, 1539, rfl⟩
abbrev main_v165 : Ref sig .tc := ⟨.hbm, 1540, rfl⟩
abbrev main_cst_116 : Ref sig .tc := ⟨.hbm, 1541, rfl⟩
abbrev main_call103_v0 : Ref sig .tc := ⟨.hbm, 1542, rfl⟩
abbrev main_call103_v1 : Ref sig .tc := ⟨.hbm, 1543, rfl⟩
abbrev main_v166 : Ref sig .tc := ⟨.hbm, 1544, rfl⟩
abbrev main_call104_c : Ref sig .tc := ⟨.hbm, 1545, rfl⟩
abbrev main_call104_v0 : Ref sig .tc := ⟨.hbm, 1546, rfl⟩
abbrev main_call104_v1 : Ref sig .tc := ⟨.hbm, 1547, rfl⟩
abbrev main_call104_c_0 : Ref sig .tc := ⟨.hbm, 1548, rfl⟩
abbrev main_call104_v2 : Ref sig .tc := ⟨.hbm, 1549, rfl⟩
abbrev main_call104_v3 : Ref sig .tc := ⟨.hbm, 1550, rfl⟩
abbrev main_call104_v4 : Ref sig .tc := ⟨.hbm, 1551, rfl⟩
abbrev main_call104_v5 : Ref sig .tc := ⟨.hbm, 1552, rfl⟩
abbrev main_call104_c_1 : Ref sig .tc := ⟨.hbm, 1553, rfl⟩
abbrev main_call104_c_2 : Ref sig .tc := ⟨.hbm, 1554, rfl⟩
abbrev main_call104_v6 : Ref sig .tc := ⟨.hbm, 1555, rfl⟩
abbrev main_call104_v7 : Ref sig .tc := ⟨.hbm, 1556, rfl⟩
abbrev main_call104_v8 : Ref sig .tc := ⟨.hbm, 1557, rfl⟩
abbrev main_call104_v9 : Ref sig .tc := ⟨.hbm, 1558, rfl⟩
abbrev main_call104_v10 : Ref sig .tc := ⟨.hbm, 1559, rfl⟩
abbrev main_call104_v11 : Ref sig .tc := ⟨.hbm, 1560, rfl⟩
abbrev main_call104_c_3 : Ref sig .tc := ⟨.hbm, 1561, rfl⟩
abbrev main_call104_v12 : Ref sig .tc := ⟨.hbm, 1562, rfl⟩
abbrev main_call104_v13 : Ref sig .tc := ⟨.hbm, 1563, rfl⟩
abbrev main_call104_cst : Ref sig .tc := ⟨.hbm, 1564, rfl⟩
abbrev main_call104_v14 : Ref sig .tc := ⟨.hbm, 1565, rfl⟩
abbrev main_v167 : Ref sig .tc := ⟨.hbm, 1566, rfl⟩
abbrev main_cst_117 : Ref sig .tc := ⟨.hbm, 1567, rfl⟩
abbrev main_call105_v0 : Ref sig .tc := ⟨.hbm, 1568, rfl⟩
abbrev main_call105_v1 : Ref sig .tc := ⟨.hbm, 1569, rfl⟩
abbrev main_v168 : Ref sig .tc := ⟨.hbm, 1570, rfl⟩
abbrev main_call106_c : Ref sig .tc := ⟨.hbm, 1571, rfl⟩
abbrev main_call106_v0 : Ref sig .tc := ⟨.hbm, 1572, rfl⟩
abbrev main_call106_v1 : Ref sig .tc := ⟨.hbm, 1573, rfl⟩
abbrev main_call106_c_0 : Ref sig .tc := ⟨.hbm, 1574, rfl⟩
abbrev main_call106_v2 : Ref sig .tc := ⟨.hbm, 1575, rfl⟩
abbrev main_call106_v3 : Ref sig .tc := ⟨.hbm, 1576, rfl⟩
abbrev main_call106_v4 : Ref sig .tc := ⟨.hbm, 1577, rfl⟩
abbrev main_call106_v5 : Ref sig .tc := ⟨.hbm, 1578, rfl⟩
abbrev main_call106_c_1 : Ref sig .tc := ⟨.hbm, 1579, rfl⟩
abbrev main_call106_c_2 : Ref sig .tc := ⟨.hbm, 1580, rfl⟩
abbrev main_call106_v6 : Ref sig .tc := ⟨.hbm, 1581, rfl⟩
abbrev main_call106_v7 : Ref sig .tc := ⟨.hbm, 1582, rfl⟩
abbrev main_call106_v8 : Ref sig .tc := ⟨.hbm, 1583, rfl⟩
abbrev main_call106_v9 : Ref sig .tc := ⟨.hbm, 1584, rfl⟩
abbrev main_call106_v10 : Ref sig .tc := ⟨.hbm, 1585, rfl⟩
abbrev main_call106_v11 : Ref sig .tc := ⟨.hbm, 1586, rfl⟩
abbrev main_call106_c_3 : Ref sig .tc := ⟨.hbm, 1587, rfl⟩
abbrev main_call106_v12 : Ref sig .tc := ⟨.hbm, 1588, rfl⟩
abbrev main_call106_v13 : Ref sig .tc := ⟨.hbm, 1589, rfl⟩
abbrev main_call106_cst : Ref sig .tc := ⟨.hbm, 1590, rfl⟩
abbrev main_call106_v14 : Ref sig .tc := ⟨.hbm, 1591, rfl⟩
abbrev main_v169 : Ref sig .tc := ⟨.hbm, 1592, rfl⟩
abbrev main_cst_118 : Ref sig .tc := ⟨.hbm, 1593, rfl⟩
abbrev main_call107_v0 : Ref sig .tc := ⟨.hbm, 1594, rfl⟩
abbrev main_call107_v1 : Ref sig .tc := ⟨.hbm, 1595, rfl⟩
abbrev main_v170 : Ref sig .tc := ⟨.hbm, 1596, rfl⟩
abbrev main_call108_c : Ref sig .tc := ⟨.hbm, 1597, rfl⟩
abbrev main_call108_v0 : Ref sig .tc := ⟨.hbm, 1598, rfl⟩
abbrev main_call108_v1 : Ref sig .tc := ⟨.hbm, 1599, rfl⟩
abbrev main_call108_c_0 : Ref sig .tc := ⟨.hbm, 1600, rfl⟩
abbrev main_call108_v2 : Ref sig .tc := ⟨.hbm, 1601, rfl⟩
abbrev main_call108_v3 : Ref sig .tc := ⟨.hbm, 1602, rfl⟩
abbrev main_call108_v4 : Ref sig .tc := ⟨.hbm, 1603, rfl⟩
abbrev main_call108_v5 : Ref sig .tc := ⟨.hbm, 1604, rfl⟩
abbrev main_call108_c_1 : Ref sig .tc := ⟨.hbm, 1605, rfl⟩
abbrev main_call108_c_2 : Ref sig .tc := ⟨.hbm, 1606, rfl⟩
abbrev main_call108_v6 : Ref sig .tc := ⟨.hbm, 1607, rfl⟩
abbrev main_call108_v7 : Ref sig .tc := ⟨.hbm, 1608, rfl⟩
abbrev main_call108_v8 : Ref sig .tc := ⟨.hbm, 1609, rfl⟩
abbrev main_call108_v9 : Ref sig .tc := ⟨.hbm, 1610, rfl⟩
abbrev main_call108_v10 : Ref sig .tc := ⟨.hbm, 1611, rfl⟩
abbrev main_call108_v11 : Ref sig .tc := ⟨.hbm, 1612, rfl⟩
abbrev main_call108_c_3 : Ref sig .tc := ⟨.hbm, 1613, rfl⟩
abbrev main_call108_v12 : Ref sig .tc := ⟨.hbm, 1614, rfl⟩
abbrev main_call108_v13 : Ref sig .tc := ⟨.hbm, 1615, rfl⟩
abbrev main_call108_cst : Ref sig .tc := ⟨.hbm, 1616, rfl⟩
abbrev main_call108_v14 : Ref sig .tc := ⟨.hbm, 1617, rfl⟩
abbrev main_v171 : Ref sig .tc := ⟨.hbm, 1618, rfl⟩
abbrev main_cst_119 : Ref sig .tc := ⟨.hbm, 1619, rfl⟩
abbrev main_call109_v0 : Ref sig .tc := ⟨.hbm, 1620, rfl⟩
abbrev main_call109_v1 : Ref sig .tc := ⟨.hbm, 1621, rfl⟩
abbrev main_v172 : Ref sig .tc := ⟨.hbm, 1622, rfl⟩
abbrev main_call110_c : Ref sig .tc := ⟨.hbm, 1623, rfl⟩
abbrev main_call110_v0 : Ref sig .tc := ⟨.hbm, 1624, rfl⟩
abbrev main_call110_v1 : Ref sig .tc := ⟨.hbm, 1625, rfl⟩
abbrev main_call110_c_0 : Ref sig .tc := ⟨.hbm, 1626, rfl⟩
abbrev main_call110_v2 : Ref sig .tc := ⟨.hbm, 1627, rfl⟩
abbrev main_call110_v3 : Ref sig .tc := ⟨.hbm, 1628, rfl⟩
abbrev main_call110_v4 : Ref sig .tc := ⟨.hbm, 1629, rfl⟩
abbrev main_call110_v5 : Ref sig .tc := ⟨.hbm, 1630, rfl⟩
abbrev main_call110_c_1 : Ref sig .tc := ⟨.hbm, 1631, rfl⟩
abbrev main_call110_c_2 : Ref sig .tc := ⟨.hbm, 1632, rfl⟩
abbrev main_call110_v6 : Ref sig .tc := ⟨.hbm, 1633, rfl⟩
abbrev main_call110_v7 : Ref sig .tc := ⟨.hbm, 1634, rfl⟩
abbrev main_call110_v8 : Ref sig .tc := ⟨.hbm, 1635, rfl⟩
abbrev main_call110_v9 : Ref sig .tc := ⟨.hbm, 1636, rfl⟩
abbrev main_call110_v10 : Ref sig .tc := ⟨.hbm, 1637, rfl⟩
abbrev main_call110_v11 : Ref sig .tc := ⟨.hbm, 1638, rfl⟩
abbrev main_call110_c_3 : Ref sig .tc := ⟨.hbm, 1639, rfl⟩
abbrev main_call110_v12 : Ref sig .tc := ⟨.hbm, 1640, rfl⟩
abbrev main_call110_v13 : Ref sig .tc := ⟨.hbm, 1641, rfl⟩
abbrev main_call110_cst : Ref sig .tc := ⟨.hbm, 1642, rfl⟩
abbrev main_call110_v14 : Ref sig .tc := ⟨.hbm, 1643, rfl⟩
abbrev main_v173 : Ref sig .tc := ⟨.hbm, 1644, rfl⟩
abbrev main_cst_120 : Ref sig .tc := ⟨.hbm, 1645, rfl⟩
abbrev main_call111_v0 : Ref sig .tc := ⟨.hbm, 1646, rfl⟩
abbrev main_call111_v1 : Ref sig .tc := ⟨.hbm, 1647, rfl⟩
abbrev main_v174 : Ref sig .tc := ⟨.hbm, 1648, rfl⟩
abbrev main_call112_c : Ref sig .tc := ⟨.hbm, 1649, rfl⟩
abbrev main_call112_v0 : Ref sig .tc := ⟨.hbm, 1650, rfl⟩
abbrev main_call112_v1 : Ref sig .tc := ⟨.hbm, 1651, rfl⟩
abbrev main_call112_c_0 : Ref sig .tc := ⟨.hbm, 1652, rfl⟩
abbrev main_call112_v2 : Ref sig .tc := ⟨.hbm, 1653, rfl⟩
abbrev main_call112_v3 : Ref sig .tc := ⟨.hbm, 1654, rfl⟩
abbrev main_call112_v4 : Ref sig .tc := ⟨.hbm, 1655, rfl⟩
abbrev main_call112_v5 : Ref sig .tc := ⟨.hbm, 1656, rfl⟩
abbrev main_call112_c_1 : Ref sig .tc := ⟨.hbm, 1657, rfl⟩
abbrev main_call112_c_2 : Ref sig .tc := ⟨.hbm, 1658, rfl⟩
abbrev main_call112_v6 : Ref sig .tc := ⟨.hbm, 1659, rfl⟩
abbrev main_call112_v7 : Ref sig .tc := ⟨.hbm, 1660, rfl⟩
abbrev main_call112_v8 : Ref sig .tc := ⟨.hbm, 1661, rfl⟩
abbrev main_call112_v9 : Ref sig .tc := ⟨.hbm, 1662, rfl⟩
abbrev main_call112_v10 : Ref sig .tc := ⟨.hbm, 1663, rfl⟩
abbrev main_call112_v11 : Ref sig .tc := ⟨.hbm, 1664, rfl⟩
abbrev main_call112_c_3 : Ref sig .tc := ⟨.hbm, 1665, rfl⟩
abbrev main_call112_v12 : Ref sig .tc := ⟨.hbm, 1666, rfl⟩
abbrev main_call112_v13 : Ref sig .tc := ⟨.hbm, 1667, rfl⟩
abbrev main_call112_cst : Ref sig .tc := ⟨.hbm, 1668, rfl⟩
abbrev main_call112_v14 : Ref sig .tc := ⟨.hbm, 1669, rfl⟩
abbrev main_v175 : Ref sig .tc := ⟨.hbm, 1670, rfl⟩
abbrev main_cst_121 : Ref sig .tc := ⟨.hbm, 1671, rfl⟩
abbrev main_call113_v0 : Ref sig .tc := ⟨.hbm, 1672, rfl⟩
abbrev main_call113_v1 : Ref sig .tc := ⟨.hbm, 1673, rfl⟩
abbrev main_v176 : Ref sig .tc := ⟨.hbm, 1674, rfl⟩
abbrev main_call114_c : Ref sig .tc := ⟨.hbm, 1675, rfl⟩
abbrev main_call114_v0 : Ref sig .tc := ⟨.hbm, 1676, rfl⟩
abbrev main_call114_v1 : Ref sig .tc := ⟨.hbm, 1677, rfl⟩
abbrev main_call114_c_0 : Ref sig .tc := ⟨.hbm, 1678, rfl⟩
abbrev main_call114_v2 : Ref sig .tc := ⟨.hbm, 1679, rfl⟩
abbrev main_call114_v3 : Ref sig .tc := ⟨.hbm, 1680, rfl⟩
abbrev main_call114_v4 : Ref sig .tc := ⟨.hbm, 1681, rfl⟩
abbrev main_call114_v5 : Ref sig .tc := ⟨.hbm, 1682, rfl⟩
abbrev main_call114_c_1 : Ref sig .tc := ⟨.hbm, 1683, rfl⟩
abbrev main_call114_c_2 : Ref sig .tc := ⟨.hbm, 1684, rfl⟩
abbrev main_call114_v6 : Ref sig .tc := ⟨.hbm, 1685, rfl⟩
abbrev main_call114_v7 : Ref sig .tc := ⟨.hbm, 1686, rfl⟩
abbrev main_call114_v8 : Ref sig .tc := ⟨.hbm, 1687, rfl⟩
abbrev main_call114_v9 : Ref sig .tc := ⟨.hbm, 1688, rfl⟩
abbrev main_call114_v10 : Ref sig .tc := ⟨.hbm, 1689, rfl⟩
abbrev main_call114_v11 : Ref sig .tc := ⟨.hbm, 1690, rfl⟩
abbrev main_call114_c_3 : Ref sig .tc := ⟨.hbm, 1691, rfl⟩
abbrev main_call114_v12 : Ref sig .tc := ⟨.hbm, 1692, rfl⟩
abbrev main_call114_v13 : Ref sig .tc := ⟨.hbm, 1693, rfl⟩
abbrev main_call114_cst : Ref sig .tc := ⟨.hbm, 1694, rfl⟩
abbrev main_call114_v14 : Ref sig .tc := ⟨.hbm, 1695, rfl⟩
abbrev main_v177 : Ref sig .tc := ⟨.hbm, 1696, rfl⟩
abbrev main_cst_122 : Ref sig .tc := ⟨.hbm, 1697, rfl⟩
abbrev main_call115_v0 : Ref sig .tc := ⟨.hbm, 1698, rfl⟩
abbrev main_call115_v1 : Ref sig .tc := ⟨.hbm, 1699, rfl⟩
abbrev main_v178 : Ref sig .tc := ⟨.hbm, 1700, rfl⟩
abbrev main_call116_c : Ref sig .tc := ⟨.hbm, 1701, rfl⟩
abbrev main_call116_v0 : Ref sig .tc := ⟨.hbm, 1702, rfl⟩
abbrev main_call116_v1 : Ref sig .tc := ⟨.hbm, 1703, rfl⟩
abbrev main_call116_c_0 : Ref sig .tc := ⟨.hbm, 1704, rfl⟩
abbrev main_call116_v2 : Ref sig .tc := ⟨.hbm, 1705, rfl⟩
abbrev main_call116_v3 : Ref sig .tc := ⟨.hbm, 1706, rfl⟩
abbrev main_call116_v4 : Ref sig .tc := ⟨.hbm, 1707, rfl⟩
abbrev main_call116_v5 : Ref sig .tc := ⟨.hbm, 1708, rfl⟩
abbrev main_call116_c_1 : Ref sig .tc := ⟨.hbm, 1709, rfl⟩
abbrev main_call116_c_2 : Ref sig .tc := ⟨.hbm, 1710, rfl⟩
abbrev main_call116_v6 : Ref sig .tc := ⟨.hbm, 1711, rfl⟩
abbrev main_call116_v7 : Ref sig .tc := ⟨.hbm, 1712, rfl⟩
abbrev main_call116_v8 : Ref sig .tc := ⟨.hbm, 1713, rfl⟩
abbrev main_call116_v9 : Ref sig .tc := ⟨.hbm, 1714, rfl⟩
abbrev main_call116_v10 : Ref sig .tc := ⟨.hbm, 1715, rfl⟩
abbrev main_call116_v11 : Ref sig .tc := ⟨.hbm, 1716, rfl⟩
abbrev main_call116_c_3 : Ref sig .tc := ⟨.hbm, 1717, rfl⟩
abbrev main_call116_v12 : Ref sig .tc := ⟨.hbm, 1718, rfl⟩
abbrev main_call116_v13 : Ref sig .tc := ⟨.hbm, 1719, rfl⟩
abbrev main_call116_cst : Ref sig .tc := ⟨.hbm, 1720, rfl⟩
abbrev main_call116_v14 : Ref sig .tc := ⟨.hbm, 1721, rfl⟩
abbrev main_v179 : Ref sig .tc := ⟨.hbm, 1722, rfl⟩
abbrev main_cst_123 : Ref sig .tc := ⟨.hbm, 1723, rfl⟩
abbrev main_call117_v0 : Ref sig .tc := ⟨.hbm, 1724, rfl⟩
abbrev main_call117_v1 : Ref sig .tc := ⟨.hbm, 1725, rfl⟩
abbrev main_v180 : Ref sig .tc := ⟨.hbm, 1726, rfl⟩
abbrev main_call118_c : Ref sig .tc := ⟨.hbm, 1727, rfl⟩
abbrev main_call118_v0 : Ref sig .tc := ⟨.hbm, 1728, rfl⟩
abbrev main_call118_v1 : Ref sig .tc := ⟨.hbm, 1729, rfl⟩
abbrev main_call118_c_0 : Ref sig .tc := ⟨.hbm, 1730, rfl⟩
abbrev main_call118_v2 : Ref sig .tc := ⟨.hbm, 1731, rfl⟩
abbrev main_call118_v3 : Ref sig .tc := ⟨.hbm, 1732, rfl⟩
abbrev main_call118_v4 : Ref sig .tc := ⟨.hbm, 1733, rfl⟩
abbrev main_call118_v5 : Ref sig .tc := ⟨.hbm, 1734, rfl⟩
abbrev main_call118_c_1 : Ref sig .tc := ⟨.hbm, 1735, rfl⟩
abbrev main_call118_c_2 : Ref sig .tc := ⟨.hbm, 1736, rfl⟩
abbrev main_call118_v6 : Ref sig .tc := ⟨.hbm, 1737, rfl⟩
abbrev main_call118_v7 : Ref sig .tc := ⟨.hbm, 1738, rfl⟩
abbrev main_call118_v8 : Ref sig .tc := ⟨.hbm, 1739, rfl⟩
abbrev main_call118_v9 : Ref sig .tc := ⟨.hbm, 1740, rfl⟩
abbrev main_call118_v10 : Ref sig .tc := ⟨.hbm, 1741, rfl⟩
abbrev main_call118_v11 : Ref sig .tc := ⟨.hbm, 1742, rfl⟩
abbrev main_call118_c_3 : Ref sig .tc := ⟨.hbm, 1743, rfl⟩
abbrev main_call118_v12 : Ref sig .tc := ⟨.hbm, 1744, rfl⟩
abbrev main_call118_v13 : Ref sig .tc := ⟨.hbm, 1745, rfl⟩
abbrev main_call118_cst : Ref sig .tc := ⟨.hbm, 1746, rfl⟩
abbrev main_call118_v14 : Ref sig .tc := ⟨.hbm, 1747, rfl⟩
abbrev main_v181 : Ref sig .tc := ⟨.hbm, 1748, rfl⟩
abbrev main_cst_124 : Ref sig .tc := ⟨.hbm, 1749, rfl⟩
abbrev main_call119_v0 : Ref sig .tc := ⟨.hbm, 1750, rfl⟩
abbrev main_call119_v1 : Ref sig .tc := ⟨.hbm, 1751, rfl⟩
abbrev main_v182 : Ref sig .tc := ⟨.hbm, 1752, rfl⟩
abbrev main_v183 : Ref sig .tc := ⟨.hbm, 1753, rfl⟩
abbrev main_v184 : Ref sig .tc := ⟨.hbm, 1754, rfl⟩
abbrev main_v185 : Ref sig .tc := ⟨.hbm, 1755, rfl⟩
abbrev main_v186 : Ref sig .tc := ⟨.hbm, 1756, rfl⟩
abbrev main_v187 : Ref sig .tc := ⟨.hbm, 1757, rfl⟩
abbrev main_v188 : Ref sig .tc := ⟨.hbm, 1758, rfl⟩
abbrev main_v189 : Ref sig .tc := ⟨.hbm, 1759, rfl⟩
abbrev main_v190 : Ref sig .tc := ⟨.hbm, 1760, rfl⟩
abbrev main_v191 : Ref sig .tc := ⟨.hbm, 1761, rfl⟩
abbrev main_v192 : Ref sig .tc := ⟨.hbm, 1762, rfl⟩
abbrev main_v193 : Ref sig .tc := ⟨.hbm, 1763, rfl⟩
abbrev main_v194 : Ref sig .tc := ⟨.hbm, 1764, rfl⟩
abbrev main_v195 : Ref sig .tc := ⟨.hbm, 1765, rfl⟩
abbrev main_v196 : Ref sig .tc := ⟨.hbm, 1766, rfl⟩
abbrev main_v197 : Ref sig .tc := ⟨.hbm, 1767, rfl⟩
abbrev main_v198 : Ref sig .tc := ⟨.hbm, 1768, rfl⟩
abbrev main_v199 : Ref sig .tc := ⟨.hbm, 1769, rfl⟩
abbrev main_v200 : Ref sig .tc := ⟨.hbm, 1770, rfl⟩
abbrev main_v201 : Ref sig .tc := ⟨.hbm, 1771, rfl⟩
abbrev main_v202 : Ref sig .tc := ⟨.hbm, 1772, rfl⟩
abbrev main_v203 : Ref sig .tc := ⟨.hbm, 1773, rfl⟩
abbrev main_v204 : Ref sig .tc := ⟨.hbm, 1774, rfl⟩
abbrev main_v205 : Ref sig .tc := ⟨.hbm, 1775, rfl⟩
abbrev main_v206 : Ref sig .tc := ⟨.hbm, 1776, rfl⟩
abbrev main_v207 : Ref sig .tc := ⟨.hbm, 1777, rfl⟩
abbrev main_v208 : Ref sig .tc := ⟨.hbm, 1778, rfl⟩
abbrev main_v209 : Ref sig .tc := ⟨.hbm, 1779, rfl⟩
abbrev main_v210 : Ref sig .tc := ⟨.hbm, 1780, rfl⟩
abbrev main_v211 : Ref sig .tc := ⟨.hbm, 1781, rfl⟩
abbrev main_v212 : Ref sig .tc := ⟨.hbm, 1782, rfl⟩
abbrev main_v213 : Ref sig .tc := ⟨.hbm, 1783, rfl⟩
abbrev main_v214 : Ref sig .tc := ⟨.hbm, 1784, rfl⟩
abbrev main_v215 : Ref sig .tc := ⟨.hbm, 1785, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S15x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S15x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S15x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  reducesTo_S16x256_S16_d1 : S16x256.ReducesTo [1] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  slices_S16x256_S16x16_0_0 : S16x256.Slices ![0, 0] S16x16
  slices_S16x256_S16x120_0_16 : S16x256.Slices ![0, 16] S16x120
  slices_S16x256_S16x120_0_136 : S16x256.Slices ![0, 136] S16x120
  reducesTo_S256_S_d0 : S256.ReducesTo [0] S_
  bcast_S_S1 : S_.BroadcastsInDim S1 (![] : Fin 0 → Fin S1.rank)
  bcast_S1_S256_0 : S1.BroadcastsInDim S256 (![0] : Fin 1 → Fin S256.rank)
  slices_S256_S16_0 : S256.Slices ![0] S16
  slices_S256_S120_16 : S256.Slices ![16] S120
  slices_S256_S120_136 : S256.Slices ![136] S120
  shapeCasts_S16x16_S1x256 : S16x16.ShapeCasts S1x256
  bcast_S_S16x1 : S_.BroadcastsInDim S16x1 (![] : Fin 0 → Fin S16x1.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  reducesTo_S16x1_S16_d1 : S16x1.ReducesTo [1] S16
  bcast_S16_S16x16_1 : S16.BroadcastsInDim S16x16 (![1] : Fin 1 → Fin S16x16.rank)
  bcast_S_S16x16 : S_.BroadcastsInDim S16x16 (![] : Fin 0 → Fin S16x16.rank)
  bcast_S16x16_S1x16x16_1_2 : S16x16.BroadcastsInDim S1x16x16 (![1, 2] : Fin 2 → Fin S1x16x16.rank)
  concatenates_S1x16x16_S1x16x16_S1x16x16_S1x16x16_S1x16x16_S1x16x16_S1x16x16_S1x16x16_S1x16x16_S1x16x16_S1x16x16_S1x16x16_S1x16x16_S1x16x16_S1x16x16_S15x16x16_d0 : Shape.Concatenates [S1x16x16, S1x16x16, S1x16x16, S1x16x16, S1x16x16, S1x16x16, S1x16x16, S1x16x16, S1x16x16, S1x16x16, S1x16x16, S1x16x16, S1x16x16, S1x16x16, S1x16x16] S15x16x16 0
  shapeCasts_S15x16x16_S15x256 : S15x16x16.ShapeCasts S15x256
  shapeCasts_S16_S1x16 : S16.ShapeCasts S1x16
  bcast_S16_S1x16_1 : S16.BroadcastsInDim S1x16 (![1] : Fin 1 → Fin S1x16.rank)
  concatenates_S1x16_S1x16_S1x16_S1x16_S1x16_S1x16_S1x16_S1x16_S1x16_S1x16_S1x16_S1x16_S1x16_S1x16_S1x16_S15x16_d0 : Shape.Concatenates [S1x16, S1x16, S1x16, S1x16, S1x16, S1x16, S1x16, S1x16, S1x16, S1x16, S1x16, S1x16, S1x16, S1x16, S1x16] S15x16 0
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S15x256_S15x256_0_0 : ∀ a, (![0, 0] : Fin 2 → Nat) a + S15x256.size a ≤ S15x256.size a
  h_S15x256 : 0 < S15x256.numel
  shapeCasts_S15x256_S15x256 : S15x256.ShapeCasts S15x256
  broadcasts_S1x256_S2048x256 : S1x256.Broadcasts S2048x256
  rotates_S2048x256_d1 : S2048x256.Rotates 1 none
  slices_S15x256_o0_0_S1x256 : S15x256.Slices ![0, 0] S1x256
  shapeCasts_S1x256_S256 : S1x256.ShapeCasts S256
  shapeCasts_S256_S1x256 : S256.ShapeCasts S1x256
  slices_S15x256_o1_0_S1x256 : S15x256.Slices ![1, 0] S1x256
  slices_S15x256_o2_0_S1x256 : S15x256.Slices ![2, 0] S1x256
  slices_S15x256_o3_0_S1x256 : S15x256.Slices ![3, 0] S1x256
  slices_S15x256_o4_0_S1x256 : S15x256.Slices ![4, 0] S1x256
  slices_S15x256_o5_0_S1x256 : S15x256.Slices ![5, 0] S1x256
  slices_S15x256_o6_0_S1x256 : S15x256.Slices ![6, 0] S1x256
  slices_S15x256_o7_0_S1x256 : S15x256.Slices ![7, 0] S1x256
  slices_S15x256_o8_0_S1x256 : S15x256.Slices ![8, 0] S1x256
  slices_S15x256_o9_0_S1x256 : S15x256.Slices ![9, 0] S1x256
  slices_S15x256_o10_0_S1x256 : S15x256.Slices ![10, 0] S1x256
  slices_S15x256_o11_0_S1x256 : S15x256.Slices ![11, 0] S1x256
  slices_S15x256_o12_0_S1x256 : S15x256.Slices ![12, 0] S1x256
  slices_S15x256_o13_0_S1x256 : S15x256.Slices ![13, 0] S1x256
  slices_S15x256_o14_0_S1x256 : S15x256.Slices ![14, 0] S1x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S15x16_S15x16_0_0 : ∀ a, (![0, 0] : Fin 2 → Nat) a + S15x16.size a ≤ S15x16.size a
  h_S15x16 : 0 < S15x16.numel
  shapeCasts_S15x16_S15x16 : S15x16.ShapeCasts S15x16
  broadcasts_S1x16_S2048x16 : S1x16.Broadcasts S2048x16
  rotates_S2048x16_d1 : S2048x16.Rotates 1 none
  slices_S15x16_o0_0_S1x16 : S15x16.Slices ![0, 0] S1x16
  shapeCasts_S1x16_S16 : S1x16.ShapeCasts S16
  slices_S15x16_o1_0_S1x16 : S15x16.Slices ![1, 0] S1x16
  slices_S15x16_o2_0_S1x16 : S15x16.Slices ![2, 0] S1x16
  slices_S15x16_o3_0_S1x16 : S15x16.Slices ![3, 0] S1x16
  slices_S15x16_o4_0_S1x16 : S15x16.Slices ![4, 0] S1x16
  slices_S15x16_o5_0_S1x16 : S15x16.Slices ![5, 0] S1x16
  slices_S15x16_o6_0_S1x16 : S15x16.Slices ![6, 0] S1x16
  slices_S15x16_o7_0_S1x16 : S15x16.Slices ![7, 0] S1x16
  slices_S15x16_o8_0_S1x16 : S15x16.Slices ![8, 0] S1x16
  slices_S15x16_o9_0_S1x16 : S15x16.Slices ![9, 0] S1x16
  slices_S15x16_o10_0_S1x16 : S15x16.Slices ![10, 0] S1x16
  slices_S15x16_o11_0_S1x16 : S15x16.Slices ![11, 0] S1x16
  slices_S15x16_o12_0_S1x16 : S15x16.Slices ![12, 0] S1x16
  slices_S15x16_o13_0_S1x16 : S15x16.Slices ![13, 0] S1x16
  slices_S15x16_o14_0_S1x16 : S15x16.Slices ![14, 0] S1x16
  reduces_S2048x16_S2048 : S2048x16.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  gather_S16x120_S16x1_S16x16_0_1_n_n_1_1_161_wf : GatherDims.WF S16x120 S16x1 S16x16 [0] [1] [] [1] [] 1 ![16, 1]
  gather_S120_S16x1_S16_n_0_n_n_0_1_1_wf : GatherDims.WF S120 S16x1 S16 [] [0] [] [0] [] 1 ![1]
  dot_S2048x256_S256x16_S2048x16_1_0_0_1_n_n_wf : DotDims.WF S2048x256 S256x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S15x256.size a ≤ S15x256.size a
  hwx0_2 : ∀ i : grid0.Coords, EltTy.bits .f32 = 32 ∨ (Rect.block (s := S15x256) S15x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S15x256.size a ≤ S15x256.size a
  hwx0_3 : ∀ i : grid0.Coords, EltTy.bits .f32 = 32 ∨ (Rect.block (s := S15x256) S15x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x16.size a ≤ S256x16.size a
  hwx0_4 : ∀ i : grid0.Coords, EltTy.bits .f32 = 32 ∨ (Rect.block (s := S256x16) S256x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S15x16.size a ≤ S15x16.size a
  hwx0_6 : ∀ i : grid0.Coords, EltTy.bits .f32 = 32 ∨ (Rect.block (s := S15x16) S15x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S15x16.size a ≤ S15x16.size a
  hwx0_7 : ∀ i : grid0.Coords, EltTy.bits .f32 = 32 ∨ (Rect.block (s := S15x16) S15x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x1.size a ≤ S16384x1.size a
  hwx0_8 : ∀ i : grid0.Coords, EltTy.bits .f32 = 32 ∨ (Rect.block (s := S16384x1) S2048x1.size (cc0_transform_8 i) (hinb0_8 i)).WholeWords (EltTy.packing .f32)

variable [Facts₀]

def gather_S16x120_S16x1_S16x16_0_1_n_n_1_1_161 : GatherDims S16x120 S16x1 S16x16 where
  offsetDims := [0]
  collapsedSliceDims := [1]
  operandBatchingDims := []
  startIndicesBatchingDims := []
  startIndexMap := [1]
  indexVectorDim := 1
  sliceSizes := ![16, 1]
  wf := gather_S16x120_S16x1_S16x16_0_1_n_n_1_1_161_wf
def gather_S120_S16x1_S16_n_0_n_n_0_1_1 : GatherDims S120 S16x1 S16 where
  offsetDims := []
  collapsedSliceDims := [0]
  operandBatchingDims := []
  startIndicesBatchingDims := []
  startIndexMap := [0]
  indexVectorDim := 1
  sliceSizes := ![1]
  wf := gather_S120_S16x1_S16_n_0_n_n_0_1_1_wf
def dot_S2048x256_S256x16_S2048x16_1_0_0_1_n_n : DotDims S2048x256 S256x16 S2048x16 where
  lhsContracting := [1]
  rhsContracting := [0]
  lhsNonContracting := [0]
  rhsNonContracting := [1]
  lhsBatch := []
  rhsBatch := []
  wf := dot_S2048x256_S256x16_S2048x16_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v120) S15x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v121) S15x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_cst) S256x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v122) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v198) S15x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v214) S15x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v215) S2048x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x256 : Shape := ⟨2, ![16384, 256]⟩
abbrev S16x256 : Shape := ⟨2, ![16, 256]⟩
abbrev S256 : Shape := ⟨1, ![256]⟩
abbrev S120 : Shape := ⟨1, ![120]⟩
abbrev S16384x16x16 : Shape := ⟨3, ![16384, 16, 16]⟩
abbrev S1x16x256 : Shape := ⟨3, ![1, 16, 256]⟩
abbrev S_ : Shape := ⟨0, ![]⟩
abbrev S120x1 : Shape := ⟨2, ![120, 1]⟩
abbrev S16384x16x120 : Shape := ⟨3, ![16384, 16, 120]⟩
abbrev S16384x16x256 : Shape := ⟨3, ![16384, 16, 256]⟩
abbrev S1x16 : Shape := ⟨2, ![1, 16]⟩
abbrev S1x16x1 : Shape := ⟨3, ![1, 16, 1]⟩
abbrev S16384x16 : Shape := ⟨2, ![16384, 16]⟩
abbrev S16384x120 : Shape := ⟨2, ![16384, 120]⟩
abbrev S1 : Shape := ⟨1, ![1]⟩
abbrev S1x256 : Shape := ⟨2, ![1, 256]⟩
abbrev S16384 : Shape := ⟨1, ![16384]⟩
abbrev S16384x1 : Shape := ⟨2, ![16384, 1]⟩

abbrev nBuf : Space → Nat
  | .hbm => 78
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16x256, .f32⟩
  | .hbm, ⟨2, _⟩ => ⟨S256, .f32⟩
  | .hbm, ⟨3, _⟩ => ⟨S120, .i32⟩
  | .hbm, ⟨4, _⟩ => ⟨S120, .i1⟩
  | .hbm, ⟨5, _⟩ => ⟨S120, .i32⟩
  | .hbm, ⟨6, _⟩ => ⟨S120, .i1⟩
  | .hbm, ⟨7, _⟩ => ⟨S120, .i1⟩
  | .hbm, ⟨8, _⟩ => ⟨S120, .i1⟩
  | .hbm, ⟨9, _⟩ => ⟨S16384x16x16, .f32⟩
  | .hbm, ⟨10, _⟩ => ⟨S1x16x256, .f32⟩
  | .hbm, ⟨11, _⟩ => ⟨S_, .i32⟩
  | .hbm, ⟨12, _⟩ => ⟨S120, .i32⟩
  | .hbm, ⟨13, _⟩ => ⟨S120, .i32⟩
  | .hbm, ⟨14, _⟩ => ⟨S120, .i32⟩
  | .hbm, ⟨15, _⟩ => ⟨S120x1, .i32⟩
  | .hbm, ⟨16, _⟩ => ⟨S16384x16x120, .f32⟩
  | .hbm, ⟨17, _⟩ => ⟨S_, .i32⟩
  | .hbm, ⟨18, _⟩ => ⟨S120, .i32⟩
  | .hbm, ⟨19, _⟩ => ⟨S120, .i32⟩
  | .hbm, ⟨20, _⟩ => ⟨S120, .i32⟩
  | .hbm, ⟨21, _⟩ => ⟨S120x1, .i32⟩
  | .hbm, ⟨22, _⟩ => ⟨S16384x16x120, .f32⟩
  | .hbm, ⟨23, _⟩ => ⟨S16384x16x120, .f32⟩
  | .hbm, ⟨24, _⟩ => ⟨S16384x16x120, .f32⟩
  | .hbm, ⟨25, _⟩ => ⟨S16384x16x256, .f32⟩
  | .hbm, ⟨26, _⟩ => ⟨S_, .f32⟩
  | .hbm, ⟨27, _⟩ => ⟨S1x16, .f32⟩
  | .hbm, ⟨28, _⟩ => ⟨S_, .f32⟩
  | .hbm, ⟨29, _⟩ => ⟨S1x16, .f32⟩
  | .hbm, ⟨30, _⟩ => ⟨S1x16, .f32⟩
  | .hbm, ⟨31, _⟩ => ⟨S1x16x1, .f32⟩
  | .hbm, ⟨32, _⟩ => ⟨S1x16x256, .f32⟩
  | .hbm, ⟨33, _⟩ => ⟨S1x16x256, .f32⟩
  | .hbm, ⟨34, _⟩ => ⟨S1x16x256, .f32⟩
  | .hbm, ⟨35, _⟩ => ⟨S_, .f32⟩
  | .hbm, ⟨36, _⟩ => ⟨S1x16, .f32⟩
  | .hbm, ⟨37, _⟩ => ⟨S1x16x1, .f32⟩
  | .hbm, ⟨38, _⟩ => ⟨S1x16x256, .f32⟩
  | .hbm, ⟨39, _⟩ => ⟨S1x16x256, .f32⟩
  | .hbm, ⟨40, _⟩ => ⟨S16384x16x256, .f32⟩
  | .hbm, ⟨41, _⟩ => ⟨S16384x16x256, .f32⟩
  | .hbm, ⟨42, _⟩ => ⟨S_, .f32⟩
  | .hbm, ⟨43, _⟩ => ⟨S16384x16, .f32⟩
  | .hbm, ⟨44, _⟩ => ⟨S_, .i32⟩
  | .hbm, ⟨45, _⟩ => ⟨S120, .i32⟩
  | .hbm, ⟨46, _⟩ => ⟨S120, .i32⟩
  | .hbm, ⟨47, _⟩ => ⟨S120, .i32⟩
  | .hbm, ⟨48, _⟩ => ⟨S120x1, .i32⟩
  | .hbm, ⟨49, _⟩ => ⟨S16384x120, .f32⟩
  | .hbm, ⟨50, _⟩ => ⟨S_, .i32⟩
  | .hbm, ⟨51, _⟩ => ⟨S120, .i32⟩
  | .hbm, ⟨52, _⟩ => ⟨S120, .i32⟩
  | .hbm, ⟨53, _⟩ => ⟨S120, .i32⟩
  | .hbm, ⟨54, _⟩ => ⟨S120x1, .i32⟩
  | .hbm, ⟨55, _⟩ => ⟨S16384x120, .f32⟩
  | .hbm, ⟨56, _⟩ => ⟨S16384x120, .f32⟩
  | .hbm, ⟨57, _⟩ => ⟨S16384x120, .f32⟩
  | .hbm, ⟨58, _⟩ => ⟨S16384x256, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1, .f32⟩
  | .hbm, ⟨64, _⟩ => ⟨S256, .f32⟩
  | .hbm, ⟨65, _⟩ => ⟨S256, .f32⟩
  | .hbm, ⟨66, _⟩ => ⟨S256, .f32⟩
  | .hbm, ⟨67, _⟩ => ⟨S_, .f32⟩
  | .hbm, ⟨68, _⟩ => ⟨S_, .f32⟩
  | .hbm, ⟨69, _⟩ => ⟨S1, .f32⟩
  | .hbm, ⟨70, _⟩ => ⟨S256, .f32⟩
  | .hbm, ⟨71, _⟩ => ⟨S256, .f32⟩
  | .hbm, ⟨72, _⟩ => ⟨S1x256, .f32⟩
  | .hbm, ⟨73, _⟩ => ⟨S16384x256, .f32⟩
  | .hbm, ⟨74, _⟩ => ⟨S16384x256, .f32⟩
  | .hbm, ⟨75, _⟩ => ⟨S_, .f32⟩
  | .hbm, ⟨76, _⟩ => ⟨S16384, .f32⟩
  | .hbm, ⟨77, _⟩ => ⟨S16384x1, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v0 : Ref sig .tc := ⟨.hbm, 9, rfl⟩
abbrev main_v1 : Ref sig .tc := ⟨.hbm, 10, rfl⟩
abbrev main_c_5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_cst_7 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_c_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_11 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_12 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_14 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]

class Facts₀ : Prop where
  shapeCasts_S16384x256_S16384x16x16 : S16384x256.ShapeCasts S16384x16x16
  bcast_S16x256_S1x16x256_1_2 : S16x256.BroadcastsInDim S1x16x256 (![1, 2] : Fin 2 → Fin S1x16x256.rank)
  bcast_S_S120 : S_.BroadcastsInDim S120 (![] : Fin 0 → Fin S120.rank)
  bcast_S120_S120x1_0 : S120.BroadcastsInDim S120x1 (![0] : Fin 1 → Fin S120x1.rank)
  concatenates_S16384x16x16_S16384x16x120_S16384x16x120_S16384x16x256_d2 : Shape.Concatenates [S16384x16x16, S16384x16x120, S16384x16x120] S16384x16x256 2
  reducesTo_S1x16x256_S1x16_d2 : S1x16x256.ReducesTo [2] S1x16
  h_S_ : 0 < S_.numel
  bcast_S_S1x16 : S_.BroadcastsInDim S1x16 (![] : Fin 0 → Fin S1x16.rank)
  bcast_S1x16_S1x16x1_0_1 : S1x16.BroadcastsInDim S1x16x1 (![0, 1] : Fin 2 → Fin S1x16x1.rank)
  bcast_S1x16x1_S1x16x256_0_1_2 : S1x16x1.BroadcastsInDim S1x16x256 (![0, 1, 2] : Fin 3 → Fin S1x16x256.rank)
  bcast_S1x16x256_S16384x16x256_0_1_2 : S1x16x256.BroadcastsInDim S16384x16x256 (![0, 1, 2] : Fin 3 → Fin S16384x16x256.rank)
  reducesTo_S16384x16x256_S16384x16_d2 : S16384x16x256.ReducesTo [2] S16384x16
  concatenates_S16384x16_S16384x120_S16384x120_S16384x256_d1 : Shape.Concatenates [S16384x16, S16384x120, S16384x120] S16384x256 1
  reducesTo_S256_S_d0 : S256.ReducesTo [0] S_
  bcast_S_S1 : S_.BroadcastsInDim S1 (![] : Fin 0 → Fin S1.rank)
  bcast_S1_S256_0 : S1.BroadcastsInDim S256 (![0] : Fin 1 → Fin S256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  reducesTo_S16384x256_S16384_d1 : S16384x256.ReducesTo [1] S16384
  bcast_S16384_S16384x1_0 : S16384.BroadcastsInDim S16384x1 (![0] : Fin 1 → Fin S16384x1.rank)
  gather_S16384x16x16_S120x1_S16384x16x120_01_2_n_n_2_1_16384161_wf : GatherDims.WF S16384x16x16 S120x1 S16384x16x120 [0, 1] [2] [] [2] [] 1 ![16384, 16, 1]
  gather_S16384x16_S120x1_S16384x120_0_1_n_n_1_1_163841_wf : GatherDims.WF S16384x16 S120x1 S16384x120 [0] [1] [] [1] [] 1 ![16384, 1]

variable [Facts₀]

def gather_S16384x16x16_S120x1_S16384x16x120_01_2_n_n_2_1_16384161 : GatherDims S16384x16x16 S120x1 S16384x16x120 where
  offsetDims := [0, 1]
  collapsedSliceDims := [2]
  operandBatchingDims := []
  startIndicesBatchingDims := []
  startIndexMap := [2]
  indexVectorDim := 1
  sliceSizes := ![16384, 16, 1]
  wf := gather_S16384x16x16_S120x1_S16384x16x120_01_2_n_n_2_1_16384161_wf
def gather_S16384x16_S120x1_S16384x120_0_1_n_n_1_1_163841 : GatherDims S16384x16 S120x1 S16384x120 where
  offsetDims := [0]
  collapsedSliceDims := [1]
  operandBatchingDims := []
  startIndicesBatchingDims := []
  startIndexMap := [1]
  indexVectorDim := 1
  sliceSizes := ![16384, 1]
  wf := gather_S16384x16_S120x1_S16384x120_0_1_n_n_1_1_163841_wf

class Facts : Prop extends Facts₀ where

variable [Facts]
-- ==== Proof.KbMain.lean ====
/-
  The host prefix of the program's entry point. The entry point is a chain of 183 stretches of host operations (the two
  softmax tables, the sixty gathers that lay the pair weights out by lane shift, their masks, stacks and reshapes) followed
  by the one kernel region. This module names the buffers' contents when the region is entered (the fold of all the host
  operations over the launch memory), shows the entry point has the shape the frame run asks for, and shows the three
  argument arrays are still as launched there, because no host operation writes them.
-/
import proofs.«160799_j86620900426153_2_alg».proof.Proof.KbHostTab
import proofs.«160799_j86620900426153_2_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the kernel region is entered: the launch memory after every host operation. -/
abbrev V (c : Dev nD) (b : Ref sig .tc) : Buf (Elt F) ((c : Thread nD τ).loc b) :=
  StableHlo.after (HostTab.opss (F := F)).flatten (fun b => m (c, b)) b

/-- The entry point is its host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main HostTab.opss HostTab.opss_sub HostTab.opss_fresh main_chain

/-- A buffer that no host operation writes is found by the region as launched. -/
theorem V_of_keeps (c : Dev nD) (b : Ref sig .tc)
    (h : ∀ op ∈ (HostTab.opss (F := F)).flatten, Proc.devRef (τ := τ) .tc b ∉ op.writes) :
    V m c b = m ((c : Thread nD τ).loc b) :=
  StableHlo.after_of_forall_not_mem (b := Proc.devRef .tc b) _ _ h

theorem keeps_flat : ∀ op ∈ (HostTab.opss (F := F)).flatten, HostTab.KeepsArgs op := fun op hop => by
  obtain ⟨l, hl, hop⟩ := List.mem_flatten.mp hop
  exact List.forall_iff_forall_mem.mp (List.forall_iff_forall_mem.mp HostTab.opss_keeps l hl) op hop

theorem V_main_arg0 (c : Dev nD) : V m c main_arg0 = m ((c : Thread nD τ).loc main_arg0) :=
  V_of_keeps m c main_arg0 fun op hop => (keeps_flat op hop).1
theorem V_main_arg1 (c : Dev nD) : V m c main_arg1 = m ((c : Thread nD τ).loc main_arg1) :=
  V_of_keeps m c main_arg1 fun op hop => (keeps_flat op hop).2.1
theorem V_main_arg2 (c : Dev nD) : V m c main_arg2 = m ((c : Thread nD τ).loc main_arg2) :=
  V_of_keeps m c main_arg2 fun op hop => (keeps_flat op hop).2.2

end Cert.Kernel.Hand

end
-- ==== Proof.KbBody.lean ====
/-
  The kernel region. At each of the eight grid points the body reads eight whole blocks — a tile of 2048 rows of the leaf
  utilities and the seven weight tables, the same at every point — and stores one whole block: the 2048 root values of those
  rows. This module states what that stored block is, as one pure function of the eight blocks read (the body's arithmetic
  threaded through its eight printed parts), runs the body once symbolically against that statement, and hands the result to
  the library's frame run: the program terminates, faults nowhere, and every buffer outside the region's output is as the
  region found it. With the host prefix writing no argument array, the argument arrays end as launched.
-/
import proofs.«160799_j86620900426153_2_alg».proof.Proof.KbMain
import proofs.«160799_j86620900426153_2_alg».proof.Proof.Gen.Kernel.Skeleton
import proofs.«160799_j86620900426153_2_alg».proof.Proof.Gen.Kernel.Points

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or kept from the point before. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or kept from the point before. -/
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or kept from the point before. -/
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or kept from the point before. -/
theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or kept from the point before. -/
theorem before_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or kept from the point before. -/
theorem before_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or kept from the point before. -/
theorem before_in_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or kept from the point before. -/
theorem before_in_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- From a run to the library's frame post to the frame claim: the first argument array is the first window's array, which
    an input window never writes back; the other two are staged by no window and are read off the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's accesses: every load and the one store take a whole block -/

abbrev rX : Rect S2048x256 := Rect.unit (s := S2048x256) ![0, 0] S2048x256.size inb_S2048x256_S2048x256_0_0
abbrev rA : Rect S1x256 := Rect.unit (s := S1x256) ![0, 0] S1x256.size inb_S1x256_S1x256_0_0
abbrev rB : Rect S15x256 := Rect.unit (s := S15x256) ![0, 0] S15x256.size inb_S15x256_S15x256_0_0
abbrev rG : Rect S256x16 := Rect.unit (s := S256x16) ![0, 0] S256x16.size inb_S256x16_S256x16_0_0
abbrev rA0 : Rect S1x16 := Rect.unit (s := S1x16) ![0, 0] S1x16.size inb_S1x16_S1x16_0_0
abbrev rB0 : Rect S15x16 := Rect.unit (s := S15x16) ![0, 0] S15x16.size inb_S15x16_S15x16_0_0
abbrev rO : Rect S2048x1 := Rect.unit (s := S2048x1) ![0, 0] S2048x1.size inb_S2048x1_S2048x1_0_0

/-! ## What the body stores -/

/-- The stored value from the eight blocks read: the first level's per-lane contributions (the leaf term and fifteen
    rolled minimum and maximum terms), their sums by node (the product with the 0/1 grouping matrix), the same at the
    root level over the sixteen node values, and the sum over the sixteen lanes. The eight parts hand their values on by
    name exactly as the printed body does. -/
def bodyVal (x0 : Vec F S2048x256 .f32) (x1 : Vec F S1x256 .f32) (x2 : Vec F S15x256 .f32) (x3 : Vec F S15x256 .f32)
    (x4 : Vec F S256x16 .f32) (x5 : Vec F S1x16 .f32) (x6 : Vec F S15x16 .f32) (x7 : Vec F S15x16 .f32) : FVec F S2048x1 .f32 :=
  let v0 := View.ld x0 rX
  let v1 := View.ld x1 rA
  let v3 := View.ld x2 rB
  let v5 := View.ld x3 rB
  let v4 := k0_pay2 v3
  let v6 := k0_pay3 v5
  let v41 := k0_pay5 v0
  let v47 := k0_pay6 v0 v1 v3 v5
  let v98 := k0_pay7 v0 v4 v6 v41 v47
  let v100 := k0_pay9 v0
  let v101 := k0_pay10 v0
  let v103 := k0_pay11 v4
  let v158 := k0_pay12 v0 v4 v6 v98 v100 v101 v103
  let v159 := k0_pay13 v0
  let v206 := k0_pay15 v0
  let v212 := k0_pay16 v0 v4 v6 v158 v159
  let v216 := k0_pay17 v6
  let v234 := View.ld x4 rG
  let v236 := View.ld x5 rA0
  let v238 := View.ld x6 rB0
  let v240 := View.ld x7 rB0
  let v235 := k0_pay18 v0 v4 v6 v206 v212 v216 v234
  let v239 := k0_pay19 v238
  let v241 := k0_pay20 v240
  let v258 := k0_pay21 v0 v4 v6 v206 v212 v216 v234 v236 v238 v240
  let v260 := k0_pay23 v0 v4 v6 v206 v212 v216 v234
  let v261 := k0_pay24 v0 v4 v6 v206 v212 v216 v234
  let v264 := k0_pay25 v238
  let v318 := k0_pay26 v235 v239 v241 v258 v260 v261 v264
  let v319 := k0_pay27 v235
  let v320 := k0_pay28 v235
  let v372 := k0_pay30 v235 v239 v241 v318 v319 v320
  let v377 := k0_pay31 v235 v241
  let v426 := k0_pay33 v235
  let v432 := k0_pay34 v235 v239 v241 v372 v377
  let v433 := k0_pay35 v241
  k0_pay1 v235 v239 v241 v426 v432 v433

/-- The output window's staging buffer after the body: its one store, of the whole block. -/
def out0_8 (x0 : Vec F S2048x256 .f32) (x1 : Vec F S1x256 .f32) (x2 : Vec F S15x256 .f32) (x3 : Vec F S15x256 .f32)
    (x4 : Vec F S256x16 .f32) (x5 : Vec F S1x16 .f32) (x6 : Vec F S15x16 .f32) (x7 : Vec F S15x16 .f32) : Vec F S2048x1 .f32 :=
  View.canon [⟨rO, bodyVal x0 x1 x2 x3 x4 x5 x6 x7⟩]

/-- The one store covers the buffer. -/
theorem cover0_8 (p0 : Vec F S2048x1 .f32) (y : S2048x1.Idx) :
    ∃ pc ∈ ([⟨rO, p0⟩] : List (View.Piece (Elt F) S2048x1 .f32)), y ∈ pc.1.set :=
  View.cover_of_tiled [⟨rO, p0⟩] S2048x1.size (by rfl) y

/-! ## The body's triple -/

set_option maxHeartbeats 4000000 in
/-- The body on whole staging buffers — the inputs' holding `x0 … x7`, the output's anything — runs to a continuation that
    finds the inputs' as they were and the output's at `out0_8` of them. -/
theorem sound_kernel (c : Dev nD) (E : Set ℕ) (i : grid0.Coords)
    (arg1 : Memref sig .tc .vmem S2048x256 .f32) (harg1 : arg1.IsWhole) (arg2 : Memref sig .tc .vmem S1x256 .f32) (harg2 : arg2.IsWhole)
    (arg3 : Memref sig .tc .vmem S15x256 .f32) (harg3 : arg3.IsWhole) (arg4 : Memref sig .tc .vmem S15x256 .f32) (harg4 : arg4.IsWhole)
    (arg5 : Memref sig .tc .vmem S256x16 .f32) (harg5 : arg5.IsWhole) (arg6 : Memref sig .tc .vmem S1x16 .f32) (harg6 : arg6.IsWhole)
    (arg7 : Memref sig .tc .vmem S15x16 .f32) (harg7 : arg7.IsWhole) (arg8 : Memref sig .tc .vmem S15x16 .f32) (harg8 : arg8.IsWhole)
    (arg9 : Memref sig .tc .vmem S2048x1 .f32) (harg9 : arg9.IsWhole)
    (x0 : Vec F S2048x256 .f32) (x1 : Vec F S1x256 .f32) (x2 : Vec F S15x256 .f32) (x3 : Vec F S15x256 .f32)
    (x4 : Vec F S256x16 .f32) (x5 : Vec F S1x16 .f32) (x6 : Vec F S15x16 .f32) (x7 : Vec F S15x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9) K := by
  simp only [cc0__kernel_eq_skeleton]; unfold cc0__kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-! ## The pipeline's proof data -/

/-- The arrays as the region finds them; after the body each input's buffer at its block and the output's at the stored
    block; the region's own invariant (the scoped rest and the generator register) untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out0_8 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before_in_0 m (dats m 0 c) (A_eq m c 0) (after0_0 m c) t d
theorem before0_1 (c : Dev nD) (t : Fin cfg0.N) (d) : (dats m 0 c).before 1 t d = iblk m c 1 t :=
  before_in_1 m (dats m 0 c) (A_eq m c 1) (after0_1 m c) t d
theorem before0_2 (c : Dev nD) (t : Fin cfg0.N) (d) : (dats m 0 c).before 2 t d = iblk m c 2 t :=
  before_in_2 m (dats m 0 c) (A_eq m c 2) (after0_2 m c) t d
theorem before0_3 (c : Dev nD) (t : Fin cfg0.N) (d) : (dats m 0 c).before 3 t d = iblk m c 3 t :=
  before_in_3 m (dats m 0 c) (A_eq m c 3) (after0_3 m c) t d
theorem before0_4 (c : Dev nD) (t : Fin cfg0.N) (d) : (dats m 0 c).before 4 t d = iblk m c 4 t :=
  before_in_4 m (dats m 0 c) (A_eq m c 4) (after0_4 m c) t d
theorem before0_5 (c : Dev nD) (t : Fin cfg0.N) (d) : (dats m 0 c).before 5 t d = iblk m c 5 t :=
  before_in_5 m (dats m 0 c) (A_eq m c 5) (after0_5 m c) t d
theorem before0_6 (c : Dev nD) (t : Fin cfg0.N) (d) : (dats m 0 c).before 6 t d = iblk m c 6 t :=
  before_in_6 m (dats m 0 c) (A_eq m c 6) (after0_6 m c) t d
theorem before0_7 (c : Dev nD) (t : Fin cfg0.N) (d) : (dats m 0 c).before 7 t d = iblk m c 7 t :=
  before_in_7 m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the entry point terminates, and the final state has
    every array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame run with the output array named: after the run the result buffer holds what the library computes from the
    proof data by writing back every point's stored block, and the arguments are as launched. -/
theorem run_blocks : θ_run defs (onTc (τ := τ) (main (F := F))) ⟨m, fun _ => 0, ρ⟩ fun r => ∀ c : Dev nD,
      r.2.mem ((c.tc : Thread nD τ).loc main_v215) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1 8,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel.Hand

end
-- ==== Proof.KiMain.lean ====
/-
  The host prefix of the program's entry point. The entry point is a chain of 183 stretches of host operations (the two
  softmax tables, the sixty gathers that lay the pair weights out by lane shift, their masks, stacks and reshapes) followed
  by the one kernel region. This module names the buffers' contents when the region is entered (the fold of all the host
  operations over the launch memory), shows the entry point has the shape the frame run asks for, and shows the three
  argument arrays are still as launched there, because no host operation writes them.
-/
import proofs.«160799_j86620900426153_2_alg».proof.Proof.KiHostTab
import proofs.«160799_j86620900426153_2_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the kernel region is entered: the launch memory after every host operation. -/
abbrev V (c : Dev nD) (b : Ref sig .tc) : Buf (Elt F) ((c : Thread nD τ).loc b) :=
  StableHlo.after (HostTab.opss (F := F)).flatten (fun b => m (c, b)) b

/-- The entry point is its host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main HostTab.opss HostTab.opss_sub HostTab.opss_fresh main_chain

/-- A buffer that no host operation writes is found by the region as launched. -/
theorem V_of_keeps (c : Dev nD) (b : Ref sig .tc)
    (h : ∀ op ∈ (HostTab.opss (F := F)).flatten, Proc.devRef (τ := τ) .tc b ∉ op.writes) :
    V m c b = m ((c : Thread nD τ).loc b) :=
  StableHlo.after_of_forall_not_mem (b := Proc.devRef .tc b) _ _ h

theorem keeps_flat : ∀ op ∈ (HostTab.opss (F := F)).flatten, HostTab.KeepsArgs op := fun op hop => by
  obtain ⟨l, hl, hop⟩ := List.mem_flatten.mp hop
  exact List.forall_iff_forall_mem.mp (List.forall_iff_forall_mem.mp HostTab.opss_keeps l hl) op hop

theorem V_main_arg0 (c : Dev nD) : V m c main_arg0 = m ((c : Thread nD τ).loc main_arg0) :=
  V_of_keeps m c main_arg0 fun op hop => (keeps_flat op hop).1
theorem V_main_arg1 (c : Dev nD) : V m c main_arg1 = m ((c : Thread nD τ).loc main_arg1) :=
  V_of_keeps m c main_arg1 fun op hop => (keeps_flat op hop).2.1
theorem V_main_arg2 (c : Dev nD) : V m c main_arg2 = m ((c : Thread nD τ).loc main_arg2) :=
  V_of_keeps m c main_arg2 fun op hop => (keeps_flat op hop).2.2

end Cert.KernelIdeal.Hand

end
-- ==== Proof.KiBody.lean ====
/-
  The kernel region. At each of the eight grid points the body reads eight whole blocks — a tile of 2048 rows of the leaf
  utilities and the seven weight tables, the same at every point — and stores one whole block: the 2048 root values of those
  rows. This module states what that stored block is, as one pure function of the eight blocks read (the body's arithmetic
  threaded through its eight printed parts), runs the body once symbolically against that statement, and hands the result to
  the library's frame run: the program terminates, faults nowhere, and every buffer outside the region's output is as the
  region found it. With the host prefix writing no argument array, the argument arrays end as launched.
-/
import proofs.«160799_j86620900426153_2_alg».proof.Proof.KiMain
import proofs.«160799_j86620900426153_2_alg».proof.Proof.Gen.KernelIdeal.Skeleton
import proofs.«160799_j86620900426153_2_alg».proof.Proof.Gen.KernelIdeal.Points

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or kept from the point before. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or kept from the point before. -/
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or kept from the point before. -/
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, fetched there or kept from the point before. -/
theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, fetched there or kept from the point before. -/
theorem before_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, fetched there or kept from the point before. -/
theorem before_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, fetched there or kept from the point before. -/
theorem before_in_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, fetched there or kept from the point before. -/
theorem before_in_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- From a run to the library's frame post to the frame claim: the first argument array is the first window's array, which
    an input window never writes back; the other two are staged by no window and are read off the post's second clause. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's accesses: every load and the one store take a whole block -/

abbrev rX : Rect S2048x256 := Rect.unit (s := S2048x256) ![0, 0] S2048x256.size inb_S2048x256_S2048x256_0_0
abbrev rA : Rect S1x256 := Rect.unit (s := S1x256) ![0, 0] S1x256.size inb_S1x256_S1x256_0_0
abbrev rB : Rect S15x256 := Rect.unit (s := S15x256) ![0, 0] S15x256.size inb_S15x256_S15x256_0_0
abbrev rG : Rect S256x16 := Rect.unit (s := S256x16) ![0, 0] S256x16.size inb_S256x16_S256x16_0_0
abbrev rA0 : Rect S1x16 := Rect.unit (s := S1x16) ![0, 0] S1x16.size inb_S1x16_S1x16_0_0
abbrev rB0 : Rect S15x16 := Rect.unit (s := S15x16) ![0, 0] S15x16.size inb_S15x16_S15x16_0_0
abbrev rO : Rect S2048x1 := Rect.unit (s := S2048x1) ![0, 0] S2048x1.size inb_S2048x1_S2048x1_0_0

/-! ## What the body stores -/

/-- The stored value from the eight blocks read: the first level's per-lane contributions (the leaf term and fifteen
    rolled minimum and maximum terms), their sums by node (the product with the 0/1 grouping matrix), the same at the
    root level over the sixteen node values, and the sum over the sixteen lanes. The eight parts hand their values on by
    name exactly as the printed body does. -/
def bodyVal (x0 : Vec F S2048x256 .f32) (x1 : Vec F S1x256 .f32) (x2 : Vec F S15x256 .f32) (x3 : Vec F S15x256 .f32)
    (x4 : Vec F S256x16 .f32) (x5 : Vec F S1x16 .f32) (x6 : Vec F S15x16 .f32) (x7 : Vec F S15x16 .f32) : FVec F S2048x1 .f32 :=
  let v0 := View.ld x0 rX
  let v1 := View.ld x1 rA
  let v3 := View.ld x2 rB
  let v5 := View.ld x3 rB
  let v4 := k0_pay2 v3
  let v6 := k0_pay3 v5
  let v41 := k0_pay5 v0
  let v47 := k0_pay6 v0 v1 v3 v5
  let v98 := k0_pay7 v0 v4 v6 v41 v47
  let v100 := k0_pay9 v0
  let v101 := k0_pay10 v0
  let v103 := k0_pay11 v4
  let v158 := k0_pay12 v0 v4 v6 v98 v100 v101 v103
  let v159 := k0_pay13 v0
  let v206 := k0_pay15 v0
  let v212 := k0_pay16 v0 v4 v6 v158 v159
  let v216 := k0_pay17 v6
  let v234 := View.ld x4 rG
  let v236 := View.ld x5 rA0
  let v238 := View.ld x6 rB0
  let v240 := View.ld x7 rB0
  let v235 := k0_pay18 v0 v4 v6 v206 v212 v216 v234
  let v239 := k0_pay19 v238
  let v241 := k0_pay20 v240
  let v258 := k0_pay21 v0 v4 v6 v206 v212 v216 v234 v236 v238 v240
  let v260 := k0_pay23 v0 v4 v6 v206 v212 v216 v234
  let v261 := k0_pay24 v0 v4 v6 v206 v212 v216 v234
  let v264 := k0_pay25 v238
  let v318 := k0_pay26 v235 v239 v241 v258 v260 v261 v264
  let v319 := k0_pay27 v235
  let v320 := k0_pay28 v235
  let v372 := k0_pay30 v235 v239 v241 v318 v319 v320
  let v377 := k0_pay31 v235 v241
  let v426 := k0_pay33 v235
  let v432 := k0_pay34 v235 v239 v241 v372 v377
  let v433 := k0_pay35 v241
  k0_pay1 v235 v239 v241 v426 v432 v433

/-- The output window's staging buffer after the body: its one store, of the whole block. -/
def out0_8 (x0 : Vec F S2048x256 .f32) (x1 : Vec F S1x256 .f32) (x2 : Vec F S15x256 .f32) (x3 : Vec F S15x256 .f32)
    (x4 : Vec F S256x16 .f32) (x5 : Vec F S1x16 .f32) (x6 : Vec F S15x16 .f32) (x7 : Vec F S15x16 .f32) : Vec F S2048x1 .f32 :=
  View.canon [⟨rO, bodyVal x0 x1 x2 x3 x4 x5 x6 x7⟩]

/-- The one store covers the buffer. -/
theorem cover0_8 (p0 : Vec F S2048x1 .f32) (y : S2048x1.Idx) :
    ∃ pc ∈ ([⟨rO, p0⟩] : List (View.Piece (Elt F) S2048x1 .f32)), y ∈ pc.1.set :=
  View.cover_of_tiled [⟨rO, p0⟩] S2048x1.size (by rfl) y

/-! ## The body's triple -/

set_option maxHeartbeats 4000000 in
/-- The body on whole staging buffers — the inputs' holding `x0 … x7`, the output's anything — runs to a continuation that
    finds the inputs' as they were and the output's at `out0_8` of them. -/
theorem sound_kernel (c : Dev nD) (E : Set ℕ) (i : grid0.Coords)
    (arg1 : Memref sig .tc .vmem S2048x256 .f32) (harg1 : arg1.IsWhole) (arg2 : Memref sig .tc .vmem S1x256 .f32) (harg2 : arg2.IsWhole)
    (arg3 : Memref sig .tc .vmem S15x256 .f32) (harg3 : arg3.IsWhole) (arg4 : Memref sig .tc .vmem S15x256 .f32) (harg4 : arg4.IsWhole)
    (arg5 : Memref sig .tc .vmem S256x16 .f32) (harg5 : arg5.IsWhole) (arg6 : Memref sig .tc .vmem S1x16 .f32) (harg6 : arg6.IsWhole)
    (arg7 : Memref sig .tc .vmem S15x16 .f32) (harg7 : arg7.IsWhole) (arg8 : Memref sig .tc .vmem S15x16 .f32) (harg8 : arg8.IsWhole)
    (arg9 : Memref sig .tc .vmem S2048x1 .f32) (harg9 : arg9.IsWhole)
    (x0 : Vec F S2048x256 .f32) (x1 : Vec F S1x256 .f32) (x2 : Vec F S15x256 .f32) (x3 : Vec F S15x256 .f32)
    (x4 : Vec F S256x16 .f32) (x5 : Vec F S1x16 .f32) (x6 : Vec F S15x16 .f32) (x7 : Vec F S15x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9) K := by
  simp only [cc0__kernel_eq_skeleton]; unfold cc0__kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-! ## The pipeline's proof data -/

/-- The arrays as the region finds them; after the body each input's buffer at its block and the output's at the stored
    block; the region's own invariant (the scoped rest and the generator register) untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out0_8 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before_in_0 m (dats m 0 c) (A_eq m c 0) (after0_0 m c) t d
theorem before0_1 (c : Dev nD) (t : Fin cfg0.N) (d) : (dats m 0 c).before 1 t d = iblk m c 1 t :=
  before_in_1 m (dats m 0 c) (A_eq m c 1) (after0_1 m c) t d
theorem before0_2 (c : Dev nD) (t : Fin cfg0.N) (d) : (dats m 0 c).before 2 t d = iblk m c 2 t :=
  before_in_2 m (dats m 0 c) (A_eq m c 2) (after0_2 m c) t d
theorem before0_3 (c : Dev nD) (t : Fin cfg0.N) (d) : (dats m 0 c).before 3 t d = iblk m c 3 t :=
  before_in_3 m (dats m 0 c) (A_eq m c 3) (after0_3 m c) t d
theorem before0_4 (c : Dev nD) (t : Fin cfg0.N) (d) : (dats m 0 c).before 4 t d = iblk m c 4 t :=
  before_in_4 m (dats m 0 c) (A_eq m c 4) (after0_4 m c) t d
theorem before0_5 (c : Dev nD) (t : Fin cfg0.N) (d) : (dats m 0 c).before 5 t d = iblk m c 5 t :=
  before_in_5 m (dats m 0 c) (A_eq m c 5) (after0_5 m c) t d
theorem before0_6 (c : Dev nD) (t : Fin cfg0.N) (d) : (dats m 0 c).before 6 t d = iblk m c 6 t :=
  before_in_6 m (dats m 0 c) (A_eq m c 6) (after0_6 m c) t d
theorem before0_7 (c : Dev nD) (t : Fin cfg0.N) (d) : (dats m 0 c).before 7 t d = iblk m c 7 t :=
  before_in_7 m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the entry point terminates, and the final state has
    every array of the pipeline at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame run with the output array named: after the run the result buffer holds what the library computes from the
    proof data by writing back every point's stored block, and the arguments are as launched. -/
theorem run_blocks : θ_run defs (onTc (τ := τ) (main (F := F))) ⟨m, fun _ => 0, ρ⟩ fun r => ∀ c : Dev nD,
      r.2.mem ((c.tc : Thread nD τ).loc main_v215) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1 8,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Hand

end
-- ==== Proof.RefRun.lean ====
/-
  The reference program's run. The reference is a straight line of 75 host operations: the pair gathers, their minima and
  maxima, the concatenation into 256 features per node, the softmax of the weights, the weighted sums, and the same once
  more at the root. Every weakly fair execution terminates with each buffer at the fold of the operations over the launch
  memory; none of the operations writes an argument array, so the three arguments end as launched.
-/
import proofs.«160799_j86620900426153_2_alg».proof.Proof.RefOps

set_option maxRecDepth 16384

noncomputable section

namespace Cert.ReferenceIdeal.RefRun

open Cert.ReferenceIdeal Cert.ReferenceIdeal.Gen Cert.ReferenceIdeal.RefOps
open Idealize.ShloMosaic Idealize.ShloMosaic.TcCoe Idealize.SL.Sem Idealize.ShloMosaic.StableHlo

variable {F : FTy → Type} [FloatOps F]

/-- The entry point is the sequence of its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- No operation writes an argument array. -/
theorem keeps : ∀ op ∈ (ops : List (HloOp τ sig (Elt F))),
    Proc.devRef (τ := τ) .tc main_arg0 ∉ op.writes ∧ Proc.devRef (τ := τ) .tc main_arg1 ∉ op.writes ∧ Proc.devRef (τ := τ) .tc main_arg2 ∉ op.writes :=
  List.forall_iff_forall_mem.mp (by
    simp only [ops, List.Forall, nullary_writes, unary_writes, binary_writes, ternary_writes, quaternary_writes, reshape_writes,
      binaryIndexed_writes, nary_writes, unaryIndexed_writes, Finset.mem_singleton]
    repeat' apply And.intro
    all_goals exact devRef_ne_of_ne (by decide))

/-- What the result buffer holds after the run: the fold of the operations over the launch memory, read at the result. -/
def result (m : (ℓ : Loc nD τ sig) → Buf (Elt F) ℓ) (c : Dev nD) : Buf (Elt F) ((c.tc : Thread nD τ).loc main_v56) :=
  after ops (launchContents m c) (Proc.devRef .tc main_v56)

/-- Every weakly fair execution terminates, the result at `result`, the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨h c main_v56,
      (h c main_arg0).trans (after_of_forall_not_mem _ _ fun op hop => (keeps op hop).1),
      (h c main_arg1).trans (after_of_forall_not_mem _ _ fun op hop => (keeps op hop).2.1),
      (h c main_arg2).trans (after_of_forall_not_mem _ _ fun op hop => (keeps op hop).2.2)⟩)
    (run_seq scopedRefs_eq scopedSems_eq defs main (fun _ => ops) main_eq (fun _ => ops_sub) m ρ)

end Cert.ReferenceIdeal.RefRun

end
-- ==== Proof.Spec.lean ====
/-
  The mathematics of the two-additive Choquet aggregate, stated over plain index functions with values in the extended
  reals, in the two arrangements the two programs use.

  By pairs (the reference): a node with child values y_0 … y_15 and weights w_0 … w_255 has value
      Σ_i y_i · w_i  +  Σ_{i<j} min(y_i, y_j) · w_{16+q(i,j)}  +  Σ_{i<j} max(y_i, y_j) · w_{136+q(i,j)},
  the 120 pairs i < j numbered q(i, j) row by row; written as one sum over 256 features.

  By shifts (the kernel): lane j starts from y_j · w_j and, for each shift s = 1 … 15, adds min(y_j, z) · B and max(y_j, z) · C,
  where z is the value s lanes to the left (around the end of the row) and the weights B, C of a lane the shift wraps are
  zero; the lanes are then summed. Pair (i, j) is met once: at lane j under shift j - i.
-/
import Idealize.ShloMosaic.PureOps.Ideal
import Idealize.ShloMosaic.Lib.ValueIdx

noncomputable section

namespace Cert.Spec

open Idealize.ShloMosaic ValueIdx

/-- The smaller child of pair q (pairs i < j of sixteen children, numbered row by row). -/
def IU (q : Fin 120) : Fin 16 := ![0, 0, 0, 0, 0, 0, 0, 0, 0, 0, 0, 0, 0, 0, 0, 1, 1, 1, 1, 1, 1, 1, 1, 1, 1, 1, 1, 1, 1, 2, 2, 2, 2, 2, 2, 2, 2, 2, 2, 2, 2, 2, 3, 3, 3, 3, 3, 3, 3, 3, 3, 3, 3, 3, 4, 4, 4, 4, 4, 4, 4, 4, 4, 4, 4, 5, 5, 5, 5, 5, 5, 5, 5, 5, 5, 6, 6, 6, 6, 6, 6, 6, 6, 6, 7, 7, 7, 7, 7, 7, 7, 7, 8, 8, 8, 8, 8, 8, 8, 9, 9, 9, 9, 9, 9, 10, 10, 10, 10, 10, 11, 11, 11, 11, 12, 12, 12, 13, 13, 14] q
/-- The larger child of pair q. -/
def JU (q : Fin 120) : Fin 16 := ![1, 2, 3, 4, 5, 6, 7, 8, 9, 10, 11, 12, 13, 14, 15, 2, 3, 4, 5, 6, 7, 8, 9, 10, 11, 12, 13, 14, 15, 3, 4, 5, 6, 7, 8, 9, 10, 11, 12, 13, 14, 15, 4, 5, 6, 7, 8, 9, 10, 11, 12, 13, 14, 15, 5, 6, 7, 8, 9, 10, 11, 12, 13, 14, 15, 6, 7, 8, 9, 10, 11, 12, 13, 14, 15, 7, 8, 9, 10, 11, 12, 13, 14, 15, 8, 9, 10, 11, 12, 13, 14, 15, 9, 10, 11, 12, 13, 14, 15, 10, 11, 12, 13, 14, 15, 11, 12, 13, 14, 15, 12, 13, 14, 15, 13, 14, 15, 14, 15, 15] q
/-- The number of pair (j - (s+1), j), for lane j under shift s + 1; zero at the lanes the shift wraps. -/
def T (s : Fin 15) (j : Fin 16) : Fin 120 :=
  ![![0, 0, 15, 29, 42, 54, 65, 75, 84, 92, 99, 105, 110, 114, 117, 119],
    ![0, 0, 1, 16, 30, 43, 55, 66, 76, 85, 93, 100, 106, 111, 115, 118],
    ![0, 0, 0, 2, 17, 31, 44, 56, 67, 77, 86, 94, 101, 107, 112, 116],
    ![0, 0, 0, 0, 3, 18, 32, 45, 57, 68, 78, 87, 95, 102, 108, 113],
    ![0, 0, 0, 0, 0, 4, 19, 33, 46, 58, 69, 79, 88, 96, 103, 109],
    ![0, 0, 0, 0, 0, 0, 5, 20, 34, 47, 59, 70, 80, 89, 97, 104],
    ![0, 0, 0, 0, 0, 0, 0, 6, 21, 35, 48, 60, 71, 81, 90, 98],
    ![0, 0, 0, 0, 0, 0, 0, 0, 7, 22, 36, 49, 61, 72, 82, 91],
    ![0, 0, 0, 0, 0, 0, 0, 0, 0, 8, 23, 37, 50, 62, 73, 83],
    ![0, 0, 0, 0, 0, 0, 0, 0, 0, 0, 9, 24, 38, 51, 63, 74],
    ![0, 0, 0, 0, 0, 0, 0, 0, 0, 0, 0, 10, 25, 39, 52, 64],
    ![0, 0, 0, 0, 0, 0, 0, 0, 0, 0, 0, 0, 11, 26, 40, 53],
    ![0, 0, 0, 0, 0, 0, 0, 0, 0, 0, 0, 0, 0, 12, 27, 41],
    ![0, 0, 0, 0, 0, 0, 0, 0, 0, 0, 0, 0, 0, 0, 13, 28],
    ![0, 0, 0, 0, 0, 0, 0, 0, 0, 0, 0, 0, 0, 0, 0, 14]] s j

/-- The 256 features of a node by pairs: the sixteen children, the 120 pairwise minima, the 120 pairwise maxima. -/
def feat (y : Fin 16 → EReal) (q : Fin 256) : EReal :=
  if h : q.val < 16 then y ⟨q.val, h⟩
  else if h2 : q.val < 136 then min (y (IU ⟨q.val - 16, by omega⟩)) (y (JU ⟨q.val - 16, by omega⟩))
  else max (y (IU ⟨q.val - 136, by omega⟩)) (y (JU ⟨q.val - 136, by omega⟩))

/-- A node's value by pairs. -/
def ci (y : Fin 16 → EReal) (w : Fin 256 → EReal) : EReal := ∑ q : Fin 256, feat y q * w q

/-- One shift's two terms added to a lane's running sum. -/
def step (y acc z b c : EReal) : EReal := acc + min y z * b + max y z * c

/-- A lane's contribution by shifts: the child term, then the fifteen shifts in order. -/
def lane (y : EReal) (z b c : Fin 15 → EReal) (a : EReal) : EReal :=
  (step y (step y (step y (step y (step y (step y (step y (step y (step y (step y (step y (step y (step y (step y (step y (y * a) (z 0) (b 0) (c 0)) (z 1) (b 1) (c 1)) (z 2) (b 2) (c 2)) (z 3) (b 3) (c 3)) (z 4) (b 4) (c 4)) (z 5) (b 5) (c 5)) (z 6) (b 6) (c 6)) (z 7) (b 7) (c 7)) (z 8) (b 8) (c 8)) (z 9) (b 9) (c 9)) (z 10) (b 10) (c 10)) (z 11) (b 11) (c 11)) (z 12) (b 12) (c 12)) (z 13) (b 13) (c 13)) (z 14) (b 14) (c 14))

/-- Lane p's left neighbour under shift s + 1 in a row of n lanes, around the end. -/
def rot (n : Nat) [NeZero n] (s : Fin 15) (p : Fin n) : Fin n := ⟨(p.val + n - (s.val + 1) % n) % n, Nat.mod_lt _ (Nat.pos_of_ne_zero (NeZero.ne n))⟩

/-- The weight tables the kernel is handed, from the softmax weights: first level (256 lanes: node p / 16, child p % 16). -/
def a1 (wn1 : Fin 16 → Fin 256 → EReal) (p : Fin 256) : EReal := wn1 ⟨p.val / 16, by omega⟩ ⟨p.val % 16, by omega⟩
def b1 (wn1 : Fin 16 → Fin 256 → EReal) (s : Fin 15) (p : Fin 256) : EReal :=
  if s.val + 1 ≤ p.val % 16 then wn1 ⟨p.val / 16, by omega⟩ ⟨16 + (T s ⟨p.val % 16, by omega⟩).val, by omega⟩ else 0
def c1 (wn1 : Fin 16 → Fin 256 → EReal) (s : Fin 15) (p : Fin 256) : EReal :=
  if s.val + 1 ≤ p.val % 16 then wn1 ⟨p.val / 16, by omega⟩ ⟨136 + (T s ⟨p.val % 16, by omega⟩).val, by omega⟩ else 0
/-- The 0/1 matrix that sums each node's sixteen lanes. -/
def g (p : Fin 256) (k : Fin 16) : EReal := if p.val / 16 = k.val then 1 else 0
/-- Root level (16 lanes). -/
def a0 (wn0 : Fin 256 → EReal) (k : Fin 16) : EReal := wn0 ⟨k.val, by omega⟩
def b0 (wn0 : Fin 256 → EReal) (s : Fin 15) (k : Fin 16) : EReal :=
  if s.val + 1 ≤ k.val then wn0 ⟨16 + (T s k).val, by omega⟩ else 0
def c0 (wn0 : Fin 256 → EReal) (s : Fin 15) (k : Fin 16) : EReal :=
  if s.val + 1 ≤ k.val then wn0 ⟨136 + (T s k).val, by omega⟩ else 0

/-- A row's sixteen node values by shifts: the lanes' contributions, summed by node through the 0/1 matrix. -/
def kerMid (xr : Fin 256 → EReal) (A : Fin 256 → EReal) (B C : Fin 15 → Fin 256 → EReal) (G : Fin 256 → Fin 16 → EReal)
    (k : Fin 16) : EReal :=
  ∑ p : Fin 256, lane (xr p) (fun s => xr (rot 256 s p)) (fun s => B s p) (fun s => C s p) (A p) * G p k

/-- A row's root value by shifts over its sixteen node values. -/
def kerOut (mid : Fin 16 → EReal) (A : Fin 16 → EReal) (B C : Fin 15 → Fin 16 → EReal) : EReal :=
  ∑ k : Fin 16, lane (mid k) (fun s => mid (rot 16 s k)) (fun s => B s k) (fun s => C s k) (A k)

/-- A row's root value by pairs: the root over the sixteen nodes, each node over its sixteen leaves. -/
def refOut (xr : Fin 256 → EReal) (wn1 : Fin 16 → Fin 256 → EReal) (wn0 : Fin 256 → EReal) : EReal :=
  ci (fun k => ci (fun j => xr ⟨16 * k.val + j.val, by omega⟩) (wn1 k)) wn0

end Cert.Spec

end
-- ==== Proof.KiVal.lean ====
/-
  The kernel's stored block, read at an entry. Row r of the block of 2048 root values is, by the body's arithmetic: the 256
  lanes' first-level contributions (leaf term and fifteen rolled minimum and maximum terms against the rows of the two
  first-level shift tables), summed by node through the product with the 0/1 matrix, then the same over the sixteen node
  values against the root-level tables, then the sum over the sixteen lanes — the by-shifts arrangement of the aggregate.
  Every block the body reads is a restriction of one array of the host prefix, and the eight tiles of 2048 rows cover the
  16384 rows, so the result array after the run is that arrangement row by row.
-/
import proofs.«160799_j86620900426153_2_alg».proof.Proof.KiBody
import proofs.«160799_j86620900426153_2_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 16384

noncomputable section

namespace Cert.KernelIdeal.Val

open Idealize.ShloMosaic Idealize.ShloMosaic.TcCoe ValueIdx
open Cert.KernelIdeal Cert.KernelIdeal.Gen Cert.KernelIdeal.Hand

/-! ## The body's layout operations at an entry -/

/-- Lane p's left neighbour under a rotation by sh in a row of n lanes. -/
def rotIdx (n : Nat) [NeZero n] (sh : Nat) (p : Fin n) : Fin n :=
  ⟨(p.val + n - sh % n) % n, Nat.mod_lt _ (Nat.pos_of_ne_zero (NeZero.ne n))⟩

theorem rot_eq (n : Nat) [NeZero n] (s : Fin 15) (p : Fin n) : Cert.Spec.rot n s p = rotIdx n (s.val + 1) p := rfl

/-- A rotation of a tile of 256 lanes along the lanes, at an entry. -/
theorem rotate256 (sb : BitVec 32) (x : FVec Ideal S2048x256 .f32) (h : S2048x256.Rotates 1 none) (r : Fin 2048) (p : Fin 256) :
    dynamicRotate 1 sb none x h (ix2 r p) = x (ix2 r (rotIdx 256 sb.toNat p)) := by
  refine dynamicRotate_apply (1 : Fin 2) sb x h _ _ fun b => ?_
  match b with
  | ⟨0, _⟩ => rfl
  | ⟨1, _⟩ => rfl

/-- The same for a tile of 16 lanes. -/
theorem rotate16 (sb : BitVec 32) (x : FVec Ideal S2048x16 .f32) (h : S2048x16.Rotates 1 none) (r : Fin 2048) (k : Fin 16) :
    dynamicRotate 1 sb none x h (ix2 r k) = x (ix2 r (rotIdx 16 sb.toNat k)) := by
  refine dynamicRotate_apply (1 : Fin 2) sb x h _ _ fun b => ?_
  match b with
  | ⟨0, _⟩ => rfl
  | ⟨1, _⟩ => rfl

/-- Row s of a table of fifteen rows of 256, cut out, flattened, unflattened and spread over the 2048 rows of the tile. -/
theorem wrow256 (W : FVec Ideal S15x256 .f32) (s : Nat) (hs : s < 15) (h1 : S15x256.Slices ![s, 0] S1x256)
    (h2 : S1x256.ShapeCasts S256) (h3 : S256.ShapeCasts S1x256) (h4 : S1x256.Broadcasts S2048x256) (r : Fin 2048) (p : Fin 256) :
    broadcastTo S2048x256 (shapeCast S1x256 (shapeCast S256 (extractStridedSlice S1x256 ![s, 0] W h1) h2) h3) h4 (ix2 r p)
      = W (ix2 ⟨s, hs⟩ p) := by
  rw [broadcastTo_1b_ab_apply, shapeCast_a_1a_apply, shapeCast_1a_a_apply]
  refine extractStridedSlice_apply _ W h1 _ _ fun a => ?_
  match a with
  | ⟨0, _⟩ => rfl
  | ⟨1, _⟩ => show p.val = 0 + p.val; omega

/-- The same for a table of fifteen rows of 16. -/
theorem wrow16 (W : FVec Ideal S15x16 .f32) (s : Nat) (hs : s < 15) (h1 : S15x16.Slices ![s, 0] S1x16)
    (h2 : S1x16.ShapeCasts S16) (h3 : S16.ShapeCasts S1x16) (h4 : S1x16.Broadcasts S2048x16) (r : Fin 2048) (k : Fin 16) :
    broadcastTo S2048x16 (shapeCast S1x16 (shapeCast S16 (extractStridedSlice S1x16 ![s, 0] W h1) h2) h3) h4 (ix2 r k)
      = W (ix2 ⟨s, hs⟩ k) := by
  rw [broadcastTo_1b_ab_apply, shapeCast_a_1a_apply, shapeCast_1a_a_apply]
  refine extractStridedSlice_apply _ W h1 _ _ fun a => ?_
  match a with
  | ⟨0, _⟩ => rfl
  | ⟨1, _⟩ => show k.val = 0 + k.val; omega

/-! ## The root value of a row from its node values -/

theorem hz2 : (![0, 0] : Fin 2 → Nat) = fun _ => 0 := funext fun a => by fin_cases a <;> rfl

/-- A vector of 2048 entries set up as a column, at an entry. -/
theorem column_apply (v : FVec Ideal S2048 .f32) (h : S2048.ShapeCasts S2048x1) (r : Fin 2048) :
    shapeCast S2048x1 v h (ix2 r (0 : Fin 1)) = v (ix1 r) :=
  shapeCast_apply v h _ _ (by
    rw [Shape.rowMajor_val_two, Shape.rowMajor_val_one]
    show r.val = r.val * 1 + 0
    omega)

/-- The sum over the sixteen lanes of a tile, kept as a column, at an entry. -/
theorem lanesum16 (v : FVec Ideal S2048x16 .f32) (h : S2048x16.Reduces [1] S2048) (hφ : FKind.Formats .f32)
    (hacc : (0x00000000#32 : BitVec 32) = FKind.add.neutral .f32 hφ) (h2 : S2048.ShapeCasts S2048x1) (r : Fin 2048) :
    shapeCast S2048x1 (multiReduction .add [1] S2048 v 0x00000000#32 h hφ hacc) h2 (ix2 r (0 : Fin 1))
      = ∑ k : Fin 16, v (ix2 r k) := by
  rw [column_apply]
  refine (Ideal.multiReduction_add_single v 0x00000000#32 h hφ hacc (ix1 r)).trans ?_
  exact Finset.sum_congr rfl fun k _ => congrArg v (funext fun a => by
    match a with
    | ⟨0, _⟩ => rfl
    | ⟨1, _⟩ => rfl)

/-- A row of 16 weights spread over the 2048 rows of the tile. -/
theorem arow16 (a : FVec Ideal S1x16 .f32) (h1 : S1x16.ShapeCasts S1x16) (h2 : S1x16.Broadcasts S2048x16) (r : Fin 2048) (k : Fin 16) :
    broadcastTo S2048x16 (shapeCast S1x16 a h1) h2 (ix2 r k) = a (ix2 (0 : Fin 1) k) := by
  rw [broadcastTo_1b_ab_apply, shapeCast_self]

set_option maxHeartbeats 2000000 in
/-- The body's second half at row r: the root-level lanes' contributions from the node values, summed over the lanes. -/
theorem top_apply (a1 : FVec Ideal S2048x256 .f32) (a2 a3 : FVec Ideal S15x256 .f32) (a4 a5 a6 : FVec Ideal S2048x256 .f32)
    (v234 : FVec Ideal S256x16 .f32) (v236 : FVec Ideal S1x16 .f32) (v238 v240 : FVec Ideal S15x16 .f32) (r : Fin 2048) :
    (let v235 := k0_pay18 a1 a2 a3 a4 a5 a6 v234
     let v239 := k0_pay19 v238
     let v241 := k0_pay20 v240
     let v258 := k0_pay21 a1 a2 a3 a4 a5 a6 v234 v236 v238 v240
     let v260 := k0_pay23 a1 a2 a3 a4 a5 a6 v234
     let v261 := k0_pay24 a1 a2 a3 a4 a5 a6 v234
     let v264 := k0_pay25 v238
     let v318 := k0_pay26 v235 v239 v241 v258 v260 v261 v264
     let v319 := k0_pay27 v235
     let v320 := k0_pay28 v235
     let v372 := k0_pay30 v235 v239 v241 v318 v319 v320
     let v377 := k0_pay31 v235 v241
     let v426 := k0_pay33 v235
     let v432 := k0_pay34 v235 v239 v241 v372 v377
     let v433 := k0_pay35 v241
     k0_pay1 v235 v239 v241 v426 v432 v433) (ix2 r (0 : Fin 1))
      = Cert.Spec.kerOut (fun k => k0_pay18 a1 a2 a3 a4 a5 a6 v234 (ix2 r k)) (fun k => v236 (ix2 (0 : Fin 1) k))
          (fun s k => v238 (ix2 s k)) (fun s k => v240 (ix2 s k)) := by
  dsimp only
  simp only [k0_pay21, k0_pay22, k0_pay23, k0_pay24]
  generalize k0_pay18 a1 a2 a3 a4 a5 a6 v234 = M
  simp only [k0_pay1, k0_pay19, k0_pay20, k0_pay25, k0_pay26, k0_pay27, k0_pay28, k0_pay29, k0_pay30, k0_pay31, k0_pay32,
    k0_pay33, k0_pay34, k0_pay35]
  refine (lanesum16 _ _ _ _ _ r).trans ?_
  unfold Cert.Spec.kerOut
  refine Finset.sum_congr rfl fun k _ => ?_
  simp only [mulf_apply, addf_apply, minimumf_apply, maximumf_apply, shapeCast_self]
  rw [broadcastTo_1b_ab_apply]
  rw [rotate16 (1#32), rotate16 (2#32), rotate16 (3#32), rotate16 (4#32), rotate16 (5#32), rotate16 (6#32)]
  rw [rotate16 (7#32), rotate16 (8#32), rotate16 (9#32), rotate16 (10#32), rotate16 (11#32), rotate16 (12#32)]
  rw [rotate16 (13#32), rotate16 (14#32), rotate16 (15#32), wrow16 v238 0 (by decide), wrow16 v240 0 (by decide), wrow16 v238 1 (by decide)]
  rw [wrow16 v240 1 (by decide), wrow16 v238 2 (by decide), wrow16 v240 2 (by decide), wrow16 v238 3 (by decide), wrow16 v240 3 (by decide), wrow16 v238 4 (by decide)]
  rw [wrow16 v240 4 (by decide), wrow16 v238 5 (by decide), wrow16 v240 5 (by decide), wrow16 v238 6 (by decide), wrow16 v240 6 (by decide), wrow16 v238 7 (by decide)]
  rw [wrow16 v240 7 (by decide), wrow16 v238 8 (by decide), wrow16 v240 8 (by decide), wrow16 v238 9 (by decide), wrow16 v240 9 (by decide), wrow16 v238 10 (by decide)]
  rw [wrow16 v240 10 (by decide), wrow16 v238 11 (by decide), wrow16 v240 11 (by decide), wrow16 v238 12 (by decide), wrow16 v240 12 (by decide), wrow16 v238 13 (by decide)]
  rw [wrow16 v240 13 (by decide), wrow16 v238 14 (by decide), wrow16 v240 14 (by decide)]
  rfl

/-! ## The node values of a row -/

/-- The product of the tile of lane contributions with the 0/1 matrix into a zero accumulator, at an entry: a plain sum. -/
theorem matmul256 (prec : Option ContractPrecision) (A : FVec Ideal S2048x256 .f32) (B : FVec Ideal S256x16 .f32)
    (r : Fin 2048) (k : Fin 16) :
    matmul dot_S2048x256_S256x16_S2048x16_1_0_0_1_n_n prec A B (constant S2048x16 .f32 0x00000000#32) (ix2 r k)
      = ∑ c : Fin 256, A (ix2 r c) * B (ix2 c k) := by
  show FloatOps.matmul (DotDims.plain 2048 256 16) prec A B (constant (F := Ideal) ⟨2, ![2048, 16]⟩ .f32 0x00000000#32) (ix2 r k) = _
  rw [Ideal.matmul_constant_zero_apply, ← Equiv.sum_comp (contrEquiv1 (DotDims.plain 2048 256 16) 256 rfl rfl).symm]
  refine Finset.sum_congr rfl fun c _ => ?_
  have c2 := contrEquiv1_symm_val (DotDims.plain 2048 256 16) 256 rfl rfl c
  have l2 : (DotDims.plain 2048 256 16).lhsIdx (ix2 r k) ((contrEquiv1 _ 256 rfl rfl).symm c) = ix2 r c := by
    funext ax; apply Fin.ext
    match ax with
    | ⟨0, _⟩ => simp [DotDims.lhsIdx, DotDims.plain]; rfl
    | ⟨1, _⟩ => simp [DotDims.lhsIdx, DotDims.plain]; exact c2
  have r2 : (DotDims.plain 2048 256 16).rhsIdx (ix2 r k) ((contrEquiv1 _ 256 rfl rfl).symm c) = ix2 c k := by
    funext ax; apply Fin.ext
    match ax with
    | ⟨0, _⟩ => simp [DotDims.rhsIdx, DotDims.plain]; exact c2
    | ⟨1, _⟩ => simp [DotDims.rhsIdx, DotDims.plain]; rfl
  rw [l2, r2]

set_option maxHeartbeats 4000000 in
/-- The body's first half at row r and node k: the 256 lanes' first-level contributions, summed through the 0/1 matrix. -/
theorem mid_apply (v0 : FVec Ideal S2048x256 .f32) (v1 : FVec Ideal S1x256 .f32) (v3 v5 : FVec Ideal S15x256 .f32)
    (v234 : FVec Ideal S256x16 .f32) (r : Fin 2048) (k : Fin 16) :
    ((let v4 := k0_pay2 v3
     let v6 := k0_pay3 v5
     let v41 := k0_pay5 v0
     let v47 := k0_pay6 v0 v1 v3 v5
     let v98 := k0_pay7 v0 v4 v6 v41 v47
     let v100 := k0_pay9 v0
     let v101 := k0_pay10 v0
     let v103 := k0_pay11 v4
     let v158 := k0_pay12 v0 v4 v6 v98 v100 v101 v103
     let v159 := k0_pay13 v0
     let v206 := k0_pay15 v0
     let v212 := k0_pay16 v0 v4 v6 v158 v159
     let v216 := k0_pay17 v6
     k0_pay18 v0 v4 v6 v206 v212 v216 v234) : FVec Ideal S2048x16 .f32) (ix2 r k)
      = Cert.Spec.kerMid (fun p => v0 (ix2 r p)) (fun p => v1 (ix2 (0 : Fin 1) p)) (fun s p => v3 (ix2 s p))
          (fun s p => v5 (ix2 s p)) (fun p k => v234 (ix2 p k)) k := by
  dsimp only
  simp only [k0_pay2, k0_pay3, k0_pay4, k0_pay5, k0_pay6, k0_pay7, k0_pay8, k0_pay9, k0_pay10, k0_pay11, k0_pay12, k0_pay13,
    k0_pay14, k0_pay15, k0_pay16, k0_pay17, k0_pay18]
  refine (matmul256 _ _ _ r k).trans ?_
  unfold Cert.Spec.kerMid
  refine Finset.sum_congr rfl fun p _ => ?_
  congr 1
  simp only [mulf_apply, addf_apply, minimumf_apply, maximumf_apply, shapeCast_self]
  rw [broadcastTo_1b_ab_apply]
  rw [rotate256 (1#32), rotate256 (2#32), rotate256 (3#32), rotate256 (4#32), rotate256 (5#32), rotate256 (6#32)]
  rw [rotate256 (7#32), rotate256 (8#32), rotate256 (9#32), rotate256 (10#32), rotate256 (11#32), rotate256 (12#32)]
  rw [rotate256 (13#32), rotate256 (14#32), rotate256 (15#32), wrow256 v3 0 (by decide), wrow256 v5 0 (by decide), wrow256 v3 1 (by decide)]
  rw [wrow256 v5 1 (by decide), wrow256 v3 2 (by decide), wrow256 v5 2 (by decide), wrow256 v3 3 (by decide), wrow256 v5 3 (by decide), wrow256 v3 4 (by decide)]
  rw [wrow256 v5 4 (by decide), wrow256 v3 5 (by decide), wrow256 v5 5 (by decide), wrow256 v3 6 (by decide), wrow256 v5 6 (by decide), wrow256 v3 7 (by decide)]
  rw [wrow256 v5 7 (by decide), wrow256 v3 8 (by decide), wrow256 v5 8 (by decide), wrow256 v3 9 (by decide), wrow256 v5 9 (by decide), wrow256 v3 10 (by decide)]
  rw [wrow256 v5 10 (by decide), wrow256 v3 11 (by decide), wrow256 v5 11 (by decide), wrow256 v3 12 (by decide), wrow256 v5 12 (by decide), wrow256 v3 13 (by decide)]
  rw [wrow256 v5 13 (by decide), wrow256 v3 14 (by decide), wrow256 v5 14 (by decide)]
  rfl

/-! ## The stored block at a row, and the result array -/

/-- The body's stored value at row r, in the by-shifts arrangement over the entries of the eight blocks read. -/
theorem bodyVal_apply (x0 : FVec Ideal S2048x256 .f32) (x1 : FVec Ideal S1x256 .f32) (x2 x3 : FVec Ideal S15x256 .f32)
    (x4 : FVec Ideal S256x16 .f32) (x5 : FVec Ideal S1x16 .f32) (x6 x7 : FVec Ideal S15x16 .f32) (r : Fin 2048) :
    bodyVal (F := Ideal) x0 x1 x2 x3 x4 x5 x6 x7 (ix2 r (0 : Fin 1))
      = Cert.Spec.kerOut (fun k => Cert.Spec.kerMid (fun p => x0 (ix2 r p)) (fun p => x1 (ix2 (0 : Fin 1) p))
            (fun s p => x2 (ix2 s p)) (fun s p => x3 (ix2 s p)) (fun p k => x4 (ix2 p k)) k)
          (fun k => x5 (ix2 (0 : Fin 1) k)) (fun s k => x6 (ix2 s k)) (fun s k => x7 (ix2 s k)) := by
  unfold bodyVal
  simp only [View.ld_unit_zero (S := S2048x256) hz2, View.ld_unit_zero (S := S1x256) hz2, View.ld_unit_zero (S := S15x256) hz2,
    View.ld_unit_zero (S := S256x16) hz2, View.ld_unit_zero (S := S1x16) hz2, View.ld_unit_zero (S := S15x16) hz2]
  refine (top_apply _ _ _ _ _ _ _ _ _ _ r).trans ?_
  congr 1
  funext k
  exact mid_apply _ _ _ _ _ r k

variable (m : (ℓ : Loc nD τ sig) → Buf (Elt Ideal) ℓ) (c : Dev nD)

/-- Row i of the result, in the by-shifts arrangement over the arrays the region finds. -/
def GKrow (i : Fin 16384) : EReal :=
  Cert.Spec.kerOut (fun k => Cert.Spec.kerMid (fun p => (V m c main_arg0 : S16384x256.Idx → EReal) (ix2 i p))
        (fun p => (V m c main_v27 : S1x256.Idx → EReal) (ix2 (0 : Fin 1) p))
        (fun s p => (V m c main_v120 : S15x256.Idx → EReal) (ix2 s p)) (fun s p => (V m c main_v121 : S15x256.Idx → EReal) (ix2 s p))
        (fun p k => (V m c main_cst : S256x16.Idx → EReal) (ix2 p k)) k)
      (fun k => (V m c main_v122 : S1x16.Idx → EReal) (ix2 (0 : Fin 1) k))
      (fun s k => (V m c main_v198 : S15x16.Idx → EReal) (ix2 s k)) (fun s k => (V m c main_v214 : S15x16.Idx → EReal) (ix2 s k))

/-- The result array as one function of its index. -/
def GK : S16384x1.Idx → EReal := fun i => GKrow m c ⟨(i 0).val, (i 0).isLt⟩

/-- The printed index maps over the grid: the tile of leaf utilities and the output tile move together down the rows, one
    tile per point; the seven tables sit still. -/
theorem idx_facts : ∀ t : Fin cfg0.N, win0_0.index t (0 : Fin 2) = t.val ∧ win0_0.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The row of the arrays that row r of point t's tile is. -/
def rowOf (t : Fin cfg0.N) (r : Fin 2048) : Fin 16384 :=
  ⟨t.val * 2048 + r.val, by have := t.isLt; have hN : cfg0.N = 8 := N_0; omega⟩

/-- Point t's tile of an array of 16384 rows of 256 is its rows 2048 t … 2048 t + 2047. -/
theorem read_blk0 (X : S16384x256.Idx → Elt Ideal .f32) (t : Fin cfg0.N) (r : Fin 2048) (p : Fin 256) :
    ((cfg0.win 0).blk t).view.read (Elt Ideal) X (ix2 r p) = X (ix2 (rowOf t r) p) := by
  obtain ⟨e00, e01, _⟩ := idx_facts t
  show X (((cfg0.win 0).blk t).view.emb (ix2 r p)) = _
  refine congrArg X (funext fun ax => Fin.ext ?_)
  match ax with
  | ⟨0, _⟩ => show win0_0.index t (0 : Fin 2) * 2048 + 1 * r.val = t.val * 2048 + r.val; omega
  | ⟨1, _⟩ => show win0_0.index t (1 : Fin 2) * 256 + 1 * p.val = p.val; omega

theorem read_blk1 (X : S1x256.Idx → Elt Ideal .f32) (t : Fin cfg0.N) (a : Fin 1) (b : Fin 256) :
    ((cfg0.win 1).blk t).view.read (Elt Ideal) X (ix2 a b) = X (ix2 a b) := by
  obtain ⟨_, _, _, _, e10, e11, e20, e21, e30, e31, e40, e41, e50, e51, e60, e61, e70, e71⟩ := idx_facts t
  show X (((cfg0.win 1).blk t).view.emb (ix2 a b)) = _
  refine congrArg X (funext fun ax => Fin.ext ?_)
  match ax with
  | ⟨0, _⟩ => show win0_1.index t (0 : Fin 2) * 1 + 1 * a.val = a.val; omega
  | ⟨1, _⟩ => show win0_1.index t (1 : Fin 2) * 256 + 1 * b.val = b.val; omega

theorem read_blk2 (X : S15x256.Idx → Elt Ideal .f32) (t : Fin cfg0.N) (a : Fin 15) (b : Fin 256) :
    ((cfg0.win 2).blk t).view.read (Elt Ideal) X (ix2 a b) = X (ix2 a b) := by
  obtain ⟨_, _, _, _, e10, e11, e20, e21, e30, e31, e40, e41, e50, e51, e60, e61, e70, e71⟩ := idx_facts t
  show X (((cfg0.win 2).blk t).view.emb (ix2 a b)) = _
  refine congrArg X (funext fun ax => Fin.ext ?_)
  match ax with
  | ⟨0, _⟩ => show win0_2.index t (0 : Fin 2) * 15 + 1 * a.val = a.val; omega
  | ⟨1, _⟩ => show win0_2.index t (1 : Fin 2) * 256 + 1 * b.val = b.val; omega

theorem read_blk3 (X : S15x256.Idx → Elt Ideal .f32) (t : Fin cfg0.N) (a : Fin 15) (b : Fin 256) :
    ((cfg0.win 3).blk t).view.read (Elt Ideal) X (ix2 a b) = X (ix2 a b) := by
  obtain ⟨_, _, _, _, e10, e11, e20, e21, e30, e31, e40, e41, e50, e51, e60, e61, e70, e71⟩ := idx_facts t
  show X (((cfg0.win 3).blk t).view.emb (ix2 a b)) = _
  refine congrArg X (funext fun ax => Fin.ext ?_)
  match ax with
  | ⟨0, _⟩ => show win0_3.index t (0 : Fin 2) * 15 + 1 * a.val = a.val; omega
  | ⟨1, _⟩ => show win0_3.index t (1 : Fin 2) * 256 + 1 * b.val = b.val; omega

theorem read_blk4 (X : S256x16.Idx → Elt Ideal .f32) (t : Fin cfg0.N) (a : Fin 256) (b : Fin 16) :
    ((cfg0.win 4).blk t).view.read (Elt Ideal) X (ix2 a b) = X (ix2 a b) := by
  obtain ⟨_, _, _, _, e10, e11, e20, e21, e30, e31, e40, e41, e50, e51, e60, e61, e70, e71⟩ := idx_facts t
  show X (((cfg0.win 4).blk t).view.emb (ix2 a b)) = _
  refine congrArg X (funext fun ax => Fin.ext ?_)
  match ax with
  | ⟨0, _⟩ => show win0_4.index t (0 : Fin 2) * 256 + 1 * a.val = a.val; omega
  | ⟨1, _⟩ => show win0_4.index t (1 : Fin 2) * 16 + 1 * b.val = b.val; omega

theorem read_blk5 (X : S1x16.Idx → Elt Ideal .f32) (t : Fin cfg0.N) (a : Fin 1) (b : Fin 16) :
    ((cfg0.win 5).blk t).view.read (Elt Ideal) X (ix2 a b) = X (ix2 a b) := by
  obtain ⟨_, _, _, _, e10, e11, e20, e21, e30, e31, e40, e41, e50, e51, e60, e61, e70, e71⟩ := idx_facts t
  show X (((cfg0.win 5).blk t).view.emb (ix2 a b)) = _
  refine congrArg X (funext fun ax => Fin.ext ?_)
  match ax with
  | ⟨0, _⟩ => show win0_5.index t (0 : Fin 2) * 1 + 1 * a.val = a.val; omega
  | ⟨1, _⟩ => show win0_5.index t (1 : Fin 2) * 16 + 1 * b.val = b.val; omega

theorem read_blk6 (X : S15x16.Idx → Elt Ideal .f32) (t : Fin cfg0.N) (a : Fin 15) (b : Fin 16) :
    ((cfg0.win 6).blk t).view.read (Elt Ideal) X (ix2 a b) = X (ix2 a b) := by
  obtain ⟨_, _, _, _, e10, e11, e20, e21, e30, e31, e40, e41, e50, e51, e60, e61, e70, e71⟩ := idx_facts t
  show X (((cfg0.win 6).blk t).view.emb (ix2 a b)) = _
  refine congrArg X (funext fun ax => Fin.ext ?_)
  match ax with
  | ⟨0, _⟩ => show win0_6.index t (0 : Fin 2) * 15 + 1 * a.val = a.val; omega
  | ⟨1, _⟩ => show win0_6.index t (1 : Fin 2) * 16 + 1 * b.val = b.val; omega

theorem read_blk7 (X : S15x16.Idx → Elt Ideal .f32) (t : Fin cfg0.N) (a : Fin 15) (b : Fin 16) :
    ((cfg0.win 7).blk t).view.read (Elt Ideal) X (ix2 a b) = X (ix2 a b) := by
  obtain ⟨_, _, _, _, e10, e11, e20, e21, e30, e31, e40, e41, e50, e51, e60, e61, e70, e71⟩ := idx_facts t
  show X (((cfg0.win 7).blk t).view.emb (ix2 a b)) = _
  refine congrArg X (funext fun ax => Fin.ext ?_)
  match ax with
  | ⟨0, _⟩ => show win0_7.index t (0 : Fin 2) * 15 + 1 * a.val = a.val; omega
  | ⟨1, _⟩ => show win0_7.index t (1 : Fin 2) * 16 + 1 * b.val = b.val; omega

/-- The output tile's rows in the result array. -/
theorem emb8 (t : Fin cfg0.N) (r : Fin 2048) :
    ((((cfg0.win 8).blk t).view.emb (ix2 r (0 : Fin 1))) 0).val = t.val * 2048 + r.val := by
  obtain ⟨_, _, e80, e81, _⟩ := idx_facts t
  show win0_8.index t (0 : Fin 2) * 2048 + 1 * r.val = _
  omega

/-- Each block the body reads at point t, as entries of the arrays the region finds. -/
theorem blk0 (t : Fin cfg0.N) (r : Fin 2048) (p : Fin 256) :
    (iblk (F := Ideal) m c 0 t : S2048x256.Idx → EReal) (ix2 r p) = (V m c main_arg0 : S16384x256.Idx → EReal) (ix2 (rowOf t r) p) := by
  unfold iblk
  exact read_blk0 _ t r p

theorem blk1 (t : Fin cfg0.N) (a : Fin 1) (b : Fin 256) :
    (iblk (F := Ideal) m c 1 t : S1x256.Idx → EReal) (ix2 a b) = (V m c main_v27 : S1x256.Idx → EReal) (ix2 a b) := by
  unfold iblk
  exact read_blk1 _ t a b

theorem blk2 (t : Fin cfg0.N) (a : Fin 15) (b : Fin 256) :
    (iblk (F := Ideal) m c 2 t : S15x256.Idx → EReal) (ix2 a b) = (V m c main_v120 : S15x256.Idx → EReal) (ix2 a b) := by
  unfold iblk
  exact read_blk2 _ t a b

theorem blk3 (t : Fin cfg0.N) (a : Fin 15) (b : Fin 256) :
    (iblk (F := Ideal) m c 3 t : S15x256.Idx → EReal) (ix2 a b) = (V m c main_v121 : S15x256.Idx → EReal) (ix2 a b) := by
  unfold iblk
  exact read_blk3 _ t a b

theorem blk4 (t : Fin cfg0.N) (a : Fin 256) (b : Fin 16) :
    (iblk (F := Ideal) m c 4 t : S256x16.Idx → EReal) (ix2 a b) = (V m c main_cst : S256x16.Idx → EReal) (ix2 a b) := by
  unfold iblk
  exact read_blk4 _ t a b

theorem blk5 (t : Fin cfg0.N) (a : Fin 1) (b : Fin 16) :
    (iblk (F := Ideal) m c 5 t : S1x16.Idx → EReal) (ix2 a b) = (V m c main_v122 : S1x16.Idx → EReal) (ix2 a b) := by
  unfold iblk
  exact read_blk5 _ t a b

theorem blk6 (t : Fin cfg0.N) (a : Fin 15) (b : Fin 16) :
    (iblk (F := Ideal) m c 6 t : S15x16.Idx → EReal) (ix2 a b) = (V m c main_v198 : S15x16.Idx → EReal) (ix2 a b) := by
  unfold iblk
  exact read_blk6 _ t a b

theorem blk7 (t : Fin cfg0.N) (a : Fin 15) (b : Fin 16) :
    (iblk (F := Ideal) m c 7 t : S15x16.Idx → EReal) (ix2 a b) = (V m c main_v214 : S15x16.Idx → EReal) (ix2 a b) := by
  unfold iblk
  exact read_blk7 _ t a b

/-- What point t writes back is block t of the by-shifts arrangement. -/
theorem flushed_eq (t : Fin cfg0.N) :
    (dats (F := Ideal) m 0 c).flushed 8 t = ((cfg0.win 8).blk t).view.read (Elt Ideal) (GK m c) := by
  show (cfg0.win 8).cut (grid0.coords t) ((dats (F := Ideal) m 0 c).after 8 t) = _
  rw [after0_8]
  unfold out0_8
  rw [View.canon_unit_zero hz2]
  funext j
  obtain ⟨r, z, rfl⟩ : ∃ (r : Fin 2048) (z : Fin 1), j = ix2 r z := ⟨j 0, j 1, eq_ix2 j⟩
  have hz0 : z = 0 := Subsingleton.elim _ _
  subst hz0
  have hR : ((cfg0.win 8).blk t).view.read (Elt Ideal) (GK m c) (ix2 r (0 : Fin 1)) = GKrow m c (rowOf t r) := by
    show GKrow m c ⟨_, _⟩ = _
    exact congrArg (GKrow m c) (Fin.ext (emb8 t r))
  rw [hR]
  show bodyVal (F := Ideal) _ _ _ _ _ _ _ _ (ix2 r (0 : Fin 1)) = _
  rw [bodyVal_apply]
  simp only [blk0, blk1, blk2, blk3, blk4, blk5, blk6, blk7]
  rfl

/-- An index of the result array is in point t's tile iff each coordinate is in the tile's range on its axis. -/
theorem mem_blk (t : Fin cfg0.N) (i : S16384x1.Idx) :
    i ∈ ((cfg0.win 8).blk t).view.set ↔ ∀ a : Fin 2, win0_8.index t a * S2048x1.size a ≤ (i a).val
      ∧ (i a).val < win0_8.index t a * S2048x1.size a + S2048x1.size a := by
  show i ∈ ((View.whole main_v215).slice (win0_8.rect t)).set ↔ _
  rw [View.set_slice_whole, Rect.mem_set_unit]
  exact Iff.rfl

/-- The eight tiles cover the result array: row i is in the tile of point i / 2048. -/
theorem cover (i : S16384x1.Idx) : ∃ t : Fin cfg0.N, (cfg0.win 8).flush t = true ∧ i ∈ ((cfg0.win 8).blk t).view.set := by
  have hi0 : (i 0).val < 16384 := (i 0).isLt
  have hi1 : (i 1).val < 1 := (i 1).isLt
  have hN : cfg0.N = 8 := N_0
  let t : Fin cfg0.N := ⟨(i 0).val / 2048, by omega⟩
  obtain ⟨_, _, e80, e81, _⟩ := idx_facts t
  have ht : t.val = (i 0).val / 2048 := rfl
  refine ⟨t, flush0_8 t, ?_⟩
  rw [mem_blk]
  intro a
  match a with
  | ⟨0, _⟩ =>
    show win0_8.index t (0 : Fin 2) * 2048 ≤ (i 0).val ∧ (i 0).val < win0_8.index t (0 : Fin 2) * 2048 + 2048
    omega
  | ⟨1, _⟩ =>
    show win0_8.index t (1 : Fin 2) * 1 ≤ (i 1).val ∧ (i 1).val < win0_8.index t (1 : Fin 2) * 1 + 1
    omega

/-- The result array after the run, row by row in the by-shifts arrangement. -/
theorem final : (dats (F := Ideal) m 0 c).arrAt 8 cfg0.N = GK m c :=
  (dats (F := Ideal) m 0 c).arrAt_eq_of_cover 8 (GK m c) (fun t _ => flushed_eq m c t) (cover)

end Cert.KernelIdeal.Val

end
-- ==== Proof.SpecId.lean ====
/-
  The two arrangements of the two-additive Choquet aggregate agree on the extended reals, for any values and weights.
  Only commutativity and associativity of the sum, min(a, b) = min(b, a), and x · 0 = 0, x · 1 = x are used, so nothing has
  to be finite.
-/
import proofs.«160799_j86620900426153_2_alg».proof.Proof.Spec
import Mathlib.Algebra.BigOperators.Fin
import Mathlib.Data.Fintype.BigOperators

noncomputable section

namespace Cert.Spec

open Idealize.ShloMosaic

/-- A left fold that adds two terms per element is the start plus the sum of the pairs of terms. -/
theorem foldl_step_eq {α : Type} (f g : α → EReal) (l : List α) (init : EReal) :
    l.foldl (fun acc s => acc + f s + g s) init = init + (l.map fun s => f s + g s).sum := by
  induction l generalizing init with
  | nil => simp
  | cons x xs ih =>
    rw [List.foldl_cons, ih, List.map_cons, List.sum_cons]
    simp only [add_assoc]

/-- A lane's contribution is its child term plus the sum over the fifteen shifts of that shift's two terms. -/
theorem lane_eq (y : EReal) (z b c : Fin 15 → EReal) (a : EReal) :
    lane y z b c a = y * a + ∑ s : Fin 15, (min y (z s) * b s + max y (z s) * c s) := by
  have h : lane y z b c a
      = (List.finRange 15).foldl (fun acc s => acc + min y (z s) * b s + max y (z s) * c s) (y * a) := by
    unfold lane step
    rfl
  rw [h, foldl_step_eq, Fin.sum_univ_def]

/-- Lane 16 k + j of a row of 256. -/
def at16 (k j : Fin 16) : Fin 256 := ⟨16 * k.val + j.val, by omega⟩

/-- Summing 256 lanes against the 0/1 matrix's column k keeps the sixteen lanes of node k. -/
theorem sum_mul_g (L : Fin 256 → EReal) (k : Fin 16) : ∑ p : Fin 256, L p * g p k = ∑ j : Fin 16, L (at16 k j) := by
  have e : ∑ p : Fin 256, L p * g p k = ∑ kj : Fin 16 × Fin 16, L (at16 kj.1 kj.2) * g (at16 kj.1 kj.2) k := by
    refine (Fintype.sum_equiv (finProdFinEquiv (m := 16) (n := 16)) _ _ fun kj => ?_).symm
    have : (finProdFinEquiv (m := 16) (n := 16)) kj = at16 kj.1 kj.2 := by
      apply Fin.ext; simp [finProdFinEquiv, at16]; omega
    rw [this]
  rw [e, Fintype.sum_prod_type, Finset.sum_eq_single k]
  · refine Finset.sum_congr rfl fun j _ => ?_
    have : g (at16 k j) k = 1 := by
      unfold g at16; rw [if_pos]; show (16 * k.val + j.val) / 16 = k.val; omega
    rw [this, mul_one]
  · intro k' _ hk'
    refine Finset.sum_eq_zero fun j _ => ?_
    have : g (at16 k' j) k = 0 := by
      unfold g at16; rw [if_neg]; show ¬ (16 * k'.val + j.val) / 16 = k.val
      intro h; apply hk'; apply Fin.ext; omega
    rw [this, mul_zero]
  · intro h; exact absurd (Finset.mem_univ k) h

/-! ### Each pair is met once: at the lane of its larger child, under the shift by their distance -/

/-- The shift under which pair q is met. -/
def invS (q : Fin 120) : Fin 15 := ⟨(JU q).val - (IU q).val - 1, by have := (JU q).isLt; omega⟩

theorem T_pair : ∀ (s : Fin 15) (j : Fin 16), s.val + 1 ≤ j.val →
    JU (T s j) = j ∧ (IU (T s j)).val + (s.val + 1) = j.val := by decide

theorem pair_T : ∀ q : Fin 120, (IU q).val < (JU q).val ∧ T (invS q) (JU q) = q := by decide

/-- A sum over lanes and shifts of a function of the pair met there is the sum over the 120 pairs. -/
theorem pair_sum (F : Fin 120 → EReal) :
    ∑ j : Fin 16, ∑ s : Fin 15, (if s.val + 1 ≤ j.val then F (T s j) else 0) = ∑ q : Fin 120, F q := by
  rw [← Finset.sum_product' (f := fun (j : Fin 16) (s : Fin 15) => if s.val + 1 ≤ j.val then F (T s j) else 0)]
  rw [← Finset.sum_filter (s := Finset.univ ×ˢ Finset.univ) (p := fun x : Fin 16 × Fin 15 => x.2.val + 1 ≤ x.1.val)
    (f := fun x => F (T x.2 x.1))]
  refine Finset.sum_nbij' (fun x => T x.2 x.1) (fun q => (JU q, invS q)) ?_ ?_ ?_ ?_ ?_
  · intro x _; exact Finset.mem_univ _
  · intro q _
    have h := (pair_T q).1
    simp only [Finset.mem_filter, Finset.mem_product, Finset.mem_univ, true_and, invS]
    omega
  · rintro ⟨j, s⟩ hx
    have hv : s.val + 1 ≤ j.val := (Finset.mem_filter.mp hx).2
    obtain ⟨h1, h2⟩ := T_pair s j hv
    refine Prod.ext h1 (Fin.ext ?_)
    show (JU (T s j)).val - (IU (T s j)).val - 1 = s.val
    rw [h1]; omega
  · intro q _; exact (pair_T q).2
  · intro x _; rfl

/-! ### One node: by shifts is by pairs -/

/-- The sum of 256 features splits into the sixteen children, the 120 minima and the 120 maxima. -/
theorem ci_split (y : Fin 16 → EReal) (w : Fin 256 → EReal) :
    ci y w = ∑ j : Fin 16, y j * w ⟨j.val, by omega⟩
      + (∑ q : Fin 120, min (y (IU q)) (y (JU q)) * w ⟨16 + q.val, by omega⟩
        + ∑ q : Fin 120, max (y (IU q)) (y (JU q)) * w ⟨136 + q.val, by omega⟩) := by
  unfold ci
  show ∑ q : Fin (16 + (120 + 120)), feat y q * w q = _
  rw [Fin.sum_univ_add, Fin.sum_univ_add]
  congr 1

/-- A node's value by shifts is its value by pairs, for any left-neighbour values that are right where the shift does not
    wrap (where it wraps, the weights are zero and the neighbour's value does not matter). -/
theorem node_eq (y : Fin 16 → EReal) (w : Fin 256 → EReal) (z : Fin 15 → Fin 16 → EReal)
    (hz : ∀ (s : Fin 15) (j : Fin 16) (h : s.val + 1 ≤ j.val), z s j = y ⟨j.val - (s.val + 1), by omega⟩) :
    ∑ j : Fin 16, lane (y j) (fun s => z s j) (fun s => b0 w s j) (fun s => c0 w s j) (a0 w j) = ci y w := by
  have hmin : ∀ (j : Fin 16) (s : Fin 15), min (y j) (z s j) * b0 w s j
      = if s.val + 1 ≤ j.val then (fun q : Fin 120 => min (y (IU q)) (y (JU q)) * w ⟨16 + q.val, by omega⟩) (T s j) else 0 := by
    intro j s
    unfold b0
    by_cases hv : s.val + 1 ≤ j.val
    · obtain ⟨h1, h2⟩ := T_pair s j hv
      have e : (⟨j.val - (s.val + 1), by omega⟩ : Fin 16) = IU (T s j) :=
        Fin.ext (by show j.val - (s.val + 1) = (IU (T s j)).val; omega)
      rw [if_pos hv, if_pos hv, hz s j hv, e]
      show min (y j) (y (IU (T s j))) * _ = min (y (IU (T s j))) (y (JU (T s j))) * _
      rw [h1, min_comm]
    · rw [if_neg hv, if_neg hv, mul_zero]
  have hmax : ∀ (j : Fin 16) (s : Fin 15), max (y j) (z s j) * c0 w s j
      = if s.val + 1 ≤ j.val then (fun q : Fin 120 => max (y (IU q)) (y (JU q)) * w ⟨136 + q.val, by omega⟩) (T s j) else 0 := by
    intro j s
    unfold c0
    by_cases hv : s.val + 1 ≤ j.val
    · obtain ⟨h1, h2⟩ := T_pair s j hv
      have e : (⟨j.val - (s.val + 1), by omega⟩ : Fin 16) = IU (T s j) :=
        Fin.ext (by show j.val - (s.val + 1) = (IU (T s j)).val; omega)
      rw [if_pos hv, if_pos hv, hz s j hv, e]
      show max (y j) (y (IU (T s j))) * _ = max (y (IU (T s j))) (y (JU (T s j))) * _
      rw [h1, max_comm]
    · rw [if_neg hv, if_neg hv, mul_zero]
  have p1 := pair_sum (fun q : Fin 120 => min (y (IU q)) (y (JU q)) * w ⟨16 + q.val, by omega⟩)
  have p2 := pair_sum (fun q : Fin 120 => max (y (IU q)) (y (JU q)) * w ⟨136 + q.val, by omega⟩)
  simp only [lane_eq, hmin, hmax]
  rw [Finset.sum_add_distrib]
  simp only [Finset.sum_add_distrib]
  rw [p1, p2, ci_split]
  rfl

/-! ### The whole row -/

theorem at16_mod (k j : Fin 16) : (at16 k j).val % 16 = j.val := by show (16 * k.val + j.val) % 16 = j.val; omega
theorem at16_div (k j : Fin 16) : (at16 k j).val / 16 = k.val := by show (16 * k.val + j.val) / 16 = k.val; omega

/-- On node k's lanes the first-level tables are node k's own tables. -/
theorem a1_at16 (wn1 : Fin 16 → Fin 256 → EReal) (k j : Fin 16) : a1 wn1 (at16 k j) = a0 (wn1 k) j := by
  unfold a1 a0
  have e1 : (⟨(at16 k j).val / 16, by have := at16_div k j; omega⟩ : Fin 16) = k := Fin.ext (at16_div k j)
  have e2 : (⟨(at16 k j).val % 16, by omega⟩ : Fin 256) = ⟨j.val, by omega⟩ := Fin.ext (at16_mod k j)
  rw [e1, e2]

theorem b1_at16 (wn1 : Fin 16 → Fin 256 → EReal) (s : Fin 15) (k j : Fin 16) : b1 wn1 s (at16 k j) = b0 (wn1 k) s j := by
  unfold b1 b0
  have e1 : (⟨(at16 k j).val / 16, by have := at16_div k j; omega⟩ : Fin 16) = k := Fin.ext (at16_div k j)
  have e3 : (⟨(at16 k j).val % 16, by omega⟩ : Fin 16) = j := Fin.ext (at16_mod k j)
  by_cases hv : s.val + 1 ≤ j.val
  · rw [if_pos (by rw [at16_mod]; exact hv), if_pos hv, e1]
    exact congrArg (wn1 k) (Fin.ext (by show 16 + (T s ⟨(at16 k j).val % 16, _⟩).val = 16 + (T s j).val; rw [e3]))
  · rw [if_neg (by rw [at16_mod]; exact hv), if_neg hv]

theorem c1_at16 (wn1 : Fin 16 → Fin 256 → EReal) (s : Fin 15) (k j : Fin 16) : c1 wn1 s (at16 k j) = c0 (wn1 k) s j := by
  unfold c1 c0
  have e1 : (⟨(at16 k j).val / 16, by have := at16_div k j; omega⟩ : Fin 16) = k := Fin.ext (at16_div k j)
  have e3 : (⟨(at16 k j).val % 16, by omega⟩ : Fin 16) = j := Fin.ext (at16_mod k j)
  by_cases hv : s.val + 1 ≤ j.val
  · rw [if_pos (by rw [at16_mod]; exact hv), if_pos hv, e1]
    exact congrArg (wn1 k) (Fin.ext (by show 136 + (T s ⟨(at16 k j).val % 16, _⟩).val = 136 + (T s j).val; rw [e3]))
  · rw [if_neg (by rw [at16_mod]; exact hv), if_neg hv]

/-- A row's sixteen node values by shifts are its node values by pairs. -/
theorem kerMid_eq (xr : Fin 256 → EReal) (wn1 : Fin 16 → Fin 256 → EReal) (k : Fin 16) :
    kerMid xr (a1 wn1) (b1 wn1) (c1 wn1) g k = ci (fun j => xr (at16 k j)) (wn1 k) := by
  unfold kerMid
  rw [sum_mul_g]
  simp only [a1_at16, b1_at16, c1_at16]
  refine node_eq (fun j => xr (at16 k j)) (wn1 k) (fun s j => xr (rot 256 s (at16 k j))) fun s j h => ?_
  exact congrArg xr (Fin.ext (by
    show (16 * k.val + j.val + 256 - (s.val + 1) % 256) % 256 = 16 * k.val + (j.val - (s.val + 1))
    have := s.isLt; have := j.isLt; have := k.isLt; omega))

/-- The row's root value by shifts, through the node values by shifts, is its root value by pairs. -/
theorem ker_eq_ref (xr : Fin 256 → EReal) (wn1 : Fin 16 → Fin 256 → EReal) (wn0 : Fin 256 → EReal) :
    kerOut (fun k => kerMid xr (a1 wn1) (b1 wn1) (c1 wn1) g k) (a0 wn0) (b0 wn0) (c0 wn0) = refOut xr wn1 wn0 := by
  simp only [kerMid_eq]
  unfold kerOut refOut
  refine node_eq (fun k => ci (fun j => xr (at16 k j)) (wn1 k)) wn0 _ fun s k h => ?_
  exact congrArg (fun k => ci (fun j => xr (at16 k j)) (wn1 k)) (Fin.ext (by
    show (k.val + 16 - (s.val + 1) % 16) % 16 = k.val - (s.val + 1)
    have := s.isLt; have := k.isLt; omega))

end Cert.Spec

end
-- ==== Proof.KiTake.lean ====
/-
  The two calls the program makes once per lane shift, read at an index. `jnp.take` along the last axis prints as
  twenty-three operations: a negative index is wrapped by the row length, the indices become one column of start
  indices, an in-range mask is computed by two comparisons, a conjunction and a reduction, the row is gathered, and the
  fill is selected wherever the mask is off. With every index in range the mask is on everywhere and the call reads the
  operand's row at the index. `jnp.where` against a lane mask prints as four operations: the mask laid along the rows,
  the fill broadcast, and a select.
-/
import proofs.«160799_j86620900426153_2_alg».proof.Proof.KiMain
import Idealize.ShloMosaic.Lib.ValueIdx
import Idealize.ShloMosaic.Lib.ValueLayout
import Idealize.ShloMosaic.Lib.Pipeline.Value
import Idealize.ShloMosaic.Lib.ReduceAll

set_option maxRecDepth 16384

noncomputable section

namespace Cert.KernelIdeal.Take

open Idealize.ShloMosaic Idealize.ShloMosaic.TcCoe ValueIdx Cert.KernelIdeal Cert.KernelIdeal.Gen Cert.KernelIdeal.Hand
open Idealize.ShloMosaic.StableHlo

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, H => by
    rw [List.foldl_cons]
    exact foldl_andi_one f l _ (by rw [h, H a List.mem_cons_self]; decide) fun n hn => H n (List.mem_cons_of_mem _ hn)

/-- `jnp.take` along the last axis as the program spells it: a negative index wrapped by the row length, the start
    indices one column, the gathered row, and the fill wherever an index is out of range. -/
def takeVal (x : S16x120.Idx → EReal) (idx : S16.Idx → BitVec 32) : S16x16.Idx → EReal :=
  select
      (broadcastInDim S16x16 ![1] bcast_S16_S16x16_1
        (Host.reduce IntOp.andi
          (andi
            (cmpi CmpIPredicate.sge
              (broadcastInDim S16x1 ![0] bcast_S16_S16x1_0
                (select
                  (cmpi CmpIPredicate.slt idx
                    (broadcastInDim S16 ![] bcast_S_S16 (constantI S_ 32 0#32)))
                  (addi idx (broadcastInDim S16 ![] bcast_S_S16 (constantI S_ 32 120#32)))
                  idx))
              (broadcastInDim S16x1 ![] bcast_S_S16x1 (constantI S_ 32 0#32)))
            (cmpi CmpIPredicate.sle
              (broadcastInDim S16x1 ![0] bcast_S16_S16x1_0
                (select
                  (cmpi CmpIPredicate.slt idx
                    (broadcastInDim S16 ![] bcast_S_S16 (constantI S_ 32 0#32)))
                  (addi idx (broadcastInDim S16 ![] bcast_S_S16 (constantI S_ 32 120#32)))
                  idx))
              (broadcastInDim S16x1 ![0, 1] bcast_S1x1_S16x1_0_1
                (broadcastInDim S1x1 ![1] bcast_S1_S1x1_1 (constantI S1 32 119#32)))))
          (constantI S_ 1 1#1) reducesTo_S16x1_S16_d1 h_S_))
      (Host.gather gather_S16x120_S16x1_S16x16_0_1_n_n_1_1_161 x
        (broadcastInDim S16x1 ![0] bcast_S16_S16x1_0
          (select
            (cmpi CmpIPredicate.slt idx
              (broadcastInDim S16 ![] bcast_S_S16 (constantI S_ 32 0#32)))
            (addi idx (broadcastInDim S16 ![] bcast_S_S16 (constantI S_ 32 120#32)))
            idx)))
      (broadcastInDim S16x16 ![] bcast_S_S16x16 (constant (F := Ideal) S_ FTy.f32 2143289344#32))

/-- `jnp.where` against a lane mask as the program spells it: the mask laid along the rows, the fill broadcast. -/
def whereVal (mask : S16.Idx → BitVec 1) (a : S16x16.Idx → EReal) (z : S_.Idx → EReal) : S16x16.Idx → EReal :=
  select (broadcastInDim S16x16 ![1] bcast_S16_S16x16_1 mask) a (broadcastInDim S16x16 ![] bcast_S_S16x16 (id z))

/-- With every index in `[0, 119]` the call reads row `k` of the operand at lane `j`'s index. -/
theorem takeVal_apply (x : S16x120.Idx → EReal) (idx : S16.Idx → BitVec 32) (hlo : ∀ i, 0 ≤ (idx i).toInt) (hhi : ∀ i, (idx i).toInt ≤ 119)
    (k j : Fin 16) : takeVal x idx (ix2 k j) = x (ix2 k ⟨(idx (ix1 j)).toInt.toNat, by have := hlo (ix1 j); have := hhi (ix1 j); omega⟩) := by
  have hv4 : (select (cmpi CmpIPredicate.slt idx (broadcastInDim S16 ![] bcast_S_S16 (constantI S_ 32 0#32)))
      (addi idx (broadcastInDim S16 ![] bcast_S_S16 (constantI S_ 32 120#32))) idx) = idx := by
    funext i
    show Scalar.select (IntOp.cmpi .slt (idx i) 0#32) _ _ = _
    have hne : IntOp.cmpi .slt (idx i) 0#32 ≠ 1#1 := by
      rw [Ne, IntOp.cmpi_slt]; have := hlo i; simp only [BitVec.toInt_zero]; omega
    exact if_neg hne
  unfold takeVal
  rw [hv4, select_apply]
  have hm : ∀ jj : S16.Idx, Host.reduce IntOp.andi
          (andi
            (cmpi CmpIPredicate.sge (broadcastInDim S16x1 ![0] bcast_S16_S16x1_0 idx)
              (broadcastInDim S16x1 ![] bcast_S_S16x1 (constantI S_ 32 0#32)))
            (cmpi CmpIPredicate.sle (broadcastInDim S16x1 ![0] bcast_S16_S16x1_0 idx)
              (broadcastInDim S16x1 ![0, 1] bcast_S1x1_S16x1_0_1
                (broadcastInDim S1x1 ![1] bcast_S1_S1x1_1 (constantI S1 32 119#32)))))
          (constantI S_ 1 1#1) reducesTo_S16x1_S16_d1 h_S_ jj = 1#1 := by
    intro jj
    rw [Host.reduce_eq_foldl]
    refine foldl_andi_one _ _ _ rfl fun n _ => ?_
    show IntOp.andi (IntOp.cmpi .sge (idx _) 0#32) (IntOp.cmpi .sle (idx _) 119#32) = 1#1
    rw [IntOp.andi_eq_one, IntOp.cmpi_sge, IntOp.cmpi_sle]
    have h0 : (0#32).toInt = 0 := by decide
    have h119 : (119#32).toInt = 119 := by decide
    rw [h0, h119]
    exact ⟨hlo _, hhi _⟩
  refine (if_pos (hm _)).trans ?_
  unfold Host.gather
  congr 1
  funext a
  refine Fin.ext ?_
  rcases (by decide : ∀ a : Fin S16x120.rank, a = ⟨0, by decide⟩ ∨ a = ⟨1, by decide⟩) a with rfl | rfl
  · show gather_S16x120_S16x1_S16x16_0_1_n_n_1_1_161.start _ _ _ + gather_S16x120_S16x1_S16x16_0_1_n_n_1_1_161.batchCoord _ _
        + gather_S16x120_S16x1_S16x16_0_1_n_n_1_1_161.offCoord _ _ = k.val
    rw [GatherDims.batchCoord_eq_zero _ _ _ List.not_mem_nil]
    unfold GatherDims.start GatherDims.offCoord
    rw [dif_neg (by decide), dif_pos (by decide)]
    simp only [Nat.zero_add, Nat.add_zero]
    rfl
  · show gather_S16x120_S16x1_S16x16_0_1_n_n_1_1_161.start _ _ _ + gather_S16x120_S16x1_S16x16_0_1_n_n_1_1_161.batchCoord _ _
        + gather_S16x120_S16x1_S16x16_0_1_n_n_1_1_161.offCoord _ _ = (idx (ix1 j)).toInt.toNat
    rw [GatherDims.batchCoord_eq_zero _ _ _ List.not_mem_nil]
    unfold GatherDims.start GatherDims.offCoord
    rw [dif_pos (by decide), dif_neg (by decide)]
    simp only [Nat.add_zero]
    refine Eq.trans (congrArg₂ min (congrArg (fun b : BitVec 32 => b.toInt.toNat) (?_ : _ = idx (ix1 j))) (?_ : _ = 119)) ?_
    · refine congrArg idx (funext fun a => ?_)
      obtain rfl : a = 0 := Subsingleton.elim _ _
      rfl
    · rfl
    · have := hlo (ix1 j); have := hhi (ix1 j); omega

/-- The flat position of a rank-1 index is its coordinate. -/
theorem rowMajor_ix1 (j : Fin 16) : S16.rowMajor (ix1 j) = j := Fin.ext (by rw [Shape.rowMajor_val_one])

/-- The masked value at row `k`, lane `j`: the value where the lane's mask bit is on, the fill elsewhere. -/
theorem whereVal_apply (mask : S16.Idx → BitVec 1) (a : S16x16.Idx → EReal) (z : S_.Idx → EReal) (k j : Fin 16) :
    whereVal mask a z (ix2 k j) = if mask (ix1 j) = 1#1 then a (ix2 k j) else z ix0 := by
  unfold whereVal
  rw [select_apply]
  have h1 : broadcastInDim S16x16 ![1] bcast_S16_S16x16_1 mask (ix2 k j) = mask (ix1 j) := by
    refine congrArg mask (funext fun a => ?_)
    obtain rfl : a = 0 := Subsingleton.elim _ _
    rfl
  have h2 : broadcastInDim S16x16 ![] bcast_S_S16x16 (id z) (ix2 k j) = z ix0 :=
    congrArg z (funext fun a => a.elim0)
  rw [h1, h2]
  rfl

end Cert.KernelIdeal.Take

end
-- ==== Proof.KiCarry.lean ====
/-
  Carrying a buffer's contents across the stretches of host operations before the kernel region. The program's buffers
  are numbered in the order the operations write them and each is written once, so a stretch writes only buffers whose
  number is at least that of its first result; a buffer with a smaller number is left alone by that stretch and by every
  later one. This module states that bound for an operation, names the contents before stretch k, and shows a buffer
  keeps its contents from stretch i on once every stretch from i on writes only larger numbers.
-/
import proofs.«160799_j86620900426153_2_alg».proof.Proof.KiMain
import Idealize.ShloMosaic.Lib.StableHlo.RunLoop

set_option maxRecDepth 16384

noncomputable section

namespace Cert.KernelIdeal.Carry

open Idealize.ShloMosaic Idealize.ShloMosaic.TcCoe Cert.KernelIdeal Cert.KernelIdeal.Gen Cert.KernelIdeal.Hand
open Idealize.ShloMosaic.StableHlo

variable {F : FTy → Type} [FloatOps F]

/-- Every buffer the operation writes has number at least `n`. -/
def WritesGE (n : ℕ) (op : HloOp τ sig (Elt F)) : Prop :=
  ∀ r : Ref sig .tc, Proc.devRef (τ := τ) .tc r ∈ op.writes → n ≤ r.idx.val

theorem WritesGE.mono {n n' : ℕ} (h : n ≤ n') {op : HloOp τ sig (Elt F)} (H : WritesGE n' op) : WritesGE n op :=
  fun r hr => le_trans h (H r hr)

/-- An operation with one result buffer writes only numbers at least that buffer's. -/
theorem writesGE_of_eq {op : HloOp τ sig (Elt F)} {y : Ref sig .tc} (hw : op.writes = {Proc.devRef (τ := τ) .tc y}) {n : ℕ}
    (hn : n ≤ y.idx.val) : WritesGE n op := by
  intro r hr
  rw [hw, Finset.mem_singleton] at hr
  cases Proc.devRef_injective _ hr
  exact hn

theorem forall_mono {n n' : ℕ} (h : n ≤ n') {s : List (HloOp τ sig (Elt F))} (H : s.Forall (WritesGE n')) : s.Forall (WritesGE n) :=
  List.forall_iff_forall_mem.mpr fun op hop => (List.forall_iff_forall_mem.mp H op hop).mono h

/-- A stretch that writes only numbers at least `n` keeps a buffer of smaller number. -/
theorem after_keep {n : ℕ} {s : List (HloOp τ sig (Elt F))} (H : s.Forall (WritesGE n)) (X : Valuation τ sig (Elt F)) (r : Ref sig .tc)
    (hr : r.idx.val < n) : after s X (Proc.devRef .tc r) = X (Proc.devRef .tc r) :=
  after_of_forall_not_mem s X fun op hop hmem => absurd (List.forall_iff_forall_mem.mp H op hop r hmem) (Nat.not_le.mpr hr)

theorem afterL_append : ∀ (a b : List (List (HloOp τ sig (Elt F)))) (X : Valuation τ sig (Elt F)), afterL (a ++ b) X = afterL b (afterL a X)
  | [], _, _ => rfl
  | s :: a, b, X => by rw [List.cons_append, afterL_cons, afterL_cons, afterL_append a b]

/-- The contents before stretch `k`: the launch contents after the first `k` stretches. -/
def Wk (V0 : Valuation τ sig (Elt F)) (k : ℕ) : Valuation τ sig (Elt F) := afterL ((HostTab.opss (F := F)).take k) V0

theorem Wk_succ (V0 : Valuation τ sig (Elt F)) (k : ℕ) (s : List (HloOp τ sig (Elt F))) (h : (HostTab.opss (F := F))[k]? = some s) :
    Wk V0 (k + 1) = after s (Wk V0 k) := by
  unfold Wk
  rw [List.take_succ, h, afterL_append]
  rfl

theorem Wk_succ_none (V0 : Valuation τ sig (Elt F)) (k : ℕ) (h : (HostTab.opss (F := F))[k]? = none) : Wk V0 (k + 1) = Wk V0 k := by
  unfold Wk
  rw [List.take_succ, h, afterL_append]
  rfl

/-- What the region finds is the contents after all 183 stretches. -/
theorem V_eq_Wk (m : (ℓ : Loc nD τ sig) → Buf (Elt F) ℓ) (c : Dev nD) (b : Ref sig .tc) :
    V m c b = Wk (fun b => m (c, b)) 183 (Proc.devRef .tc b) := by
  unfold Wk
  rw [afterL_eq_after_flatten]
  rfl

/-- From stretch `k` on, every stretch writes only numbers at least `n`. -/
def LBfrom (F : FTy → Type) [FloatOps F] (k n : ℕ) : Prop :=
  ∀ j, k ≤ j → ∀ s, (HostTab.opss (F := F))[j]? = some s → s.Forall (WritesGE n)

theorem LBfrom.step {k n n' : ℕ} {s : List (HloOp τ sig (Elt F))} (hs : (HostTab.opss (F := F))[k]? = some s) (H : s.Forall (WritesGE n))
    (hn : n ≤ n') (T : LBfrom F (k + 1) n') : LBfrom F k n := by
  intro j hj s' hs'
  rcases Nat.eq_or_lt_of_le hj with rfl | hlt
  · rw [hs] at hs'; cases hs'; exact H
  · exact forall_mono hn (T j hlt s' hs')

theorem LBfrom.last (n : ℕ) : LBfrom F 183 n := by
  intro j hj s hs
  have : (HostTab.opss (F := F)).length ≤ j := hj
  rw [List.getElem?_eq_none this] at hs
  cases hs

/-- A buffer of number below `n` keeps, from stretch `i` on, the contents it has before stretch `i`. -/
theorem Wk_keep {i n : ℕ} (H : LBfrom F i n) (V0 : Valuation τ sig (Elt F)) (r : Ref sig .tc) (hr : r.idx.val < n) :
    ∀ d : ℕ, Wk V0 (i + d) (Proc.devRef .tc r) = Wk V0 i (Proc.devRef .tc r)
  | 0 => rfl
  | d + 1 => by
    rw [← Wk_keep H V0 r hr d]
    cases hs : (HostTab.opss (F := F))[i + d]? with
    | none => rw [show i + (d + 1) = (i + d) + 1 from rfl, Wk_succ_none V0 _ hs]
    | some s => rw [show i + (d + 1) = (i + d) + 1 from rfl, Wk_succ V0 _ s hs, after_keep (H (i + d) (Nat.le_add_right i d) s hs) _ r hr]

theorem Wk_keep' {i j n : ℕ} (H : LBfrom F i n) (V0 : Valuation τ sig (Elt F)) (r : Ref sig .tc) (hr : r.idx.val < n) (hij : i ≤ j) :
    Wk V0 j (Proc.devRef .tc r) = Wk V0 i (Proc.devRef .tc r) := by
  obtain ⟨d, rfl⟩ := Nat.exists_eq_add_of_le hij
  exact Wk_keep H V0 r hr d

end Cert.KernelIdeal.Carry

end
-- ==== Proof.KiStack.lean ====
/-
  The stack of the fifteen per-shift tables. The program broadcasts each (16, 16) table to (1, 16, 16), concatenates the
  fifteen along the leading axis and reshapes (15, 16, 16) to (15, 256): row s of the result is table s laid out flat, its
  lane p the table's entry (p / 16, p % 16).
-/
import proofs.«160799_j86620900426153_2_alg».proof.Proof.KiTake

set_option maxRecDepth 16384
set_option maxHeartbeats 8000000

noncomputable section

namespace Cert.KernelIdeal.Stack

open Idealize.ShloMosaic Idealize.ShloMosaic.TcCoe ValueIdx Cert.KernelIdeal Cert.KernelIdeal.Gen Cert.KernelIdeal.Hand
open Idealize.ShloMosaic.StableHlo

/-- Fifteen (16, 16) tables stacked along a new leading axis and flattened to fifteen rows of 256, as the program spells
    it: each table broadcast to (1, 16, 16), one concatenation, one reshape. -/
def stackVal (u : Fin 15 → (S16x16.Idx → EReal)) : S15x256.Idx → EReal :=
  fun i => shapeCast S15x256 (concatenate S15x16x16 0
    [ ⟨S1x16x16, broadcastInDim S1x16x16 ![1, 2] bcast_S16x16_S1x16x16_1_2 (u 0)⟩,
      ⟨S1x16x16, broadcastInDim S1x16x16 ![1, 2] bcast_S16x16_S1x16x16_1_2 (u 1)⟩,
      ⟨S1x16x16, broadcastInDim S1x16x16 ![1, 2] bcast_S16x16_S1x16x16_1_2 (u 2)⟩,
      ⟨S1x16x16, broadcastInDim S1x16x16 ![1, 2] bcast_S16x16_S1x16x16_1_2 (u 3)⟩,
      ⟨S1x16x16, broadcastInDim S1x16x16 ![1, 2] bcast_S16x16_S1x16x16_1_2 (u 4)⟩,
      ⟨S1x16x16, broadcastInDim S1x16x16 ![1, 2] bcast_S16x16_S1x16x16_1_2 (u 5)⟩,
      ⟨S1x16x16, broadcastInDim S1x16x16 ![1, 2] bcast_S16x16_S1x16x16_1_2 (u 6)⟩,
      ⟨S1x16x16, broadcastInDim S1x16x16 ![1, 2] bcast_S16x16_S1x16x16_1_2 (u 7)⟩,
      ⟨S1x16x16, broadcastInDim S1x16x16 ![1, 2] bcast_S16x16_S1x16x16_1_2 (u 8)⟩,
      ⟨S1x16x16, broadcastInDim S1x16x16 ![1, 2] bcast_S16x16_S1x16x16_1_2 (u 9)⟩,
      ⟨S1x16x16, broadcastInDim S1x16x16 ![1, 2] bcast_S16x16_S1x16x16_1_2 (u 10)⟩,
      ⟨S1x16x16, broadcastInDim S1x16x16 ![1, 2] bcast_S16x16_S1x16x16_1_2 (u 11)⟩,
      ⟨S1x16x16, broadcastInDim S1x16x16 ![1, 2] bcast_S16x16_S1x16x16_1_2 (u 12)⟩,
      ⟨S1x16x16, broadcastInDim S1x16x16 ![1, 2] bcast_S16x16_S1x16x16_1_2 (u 13)⟩,
      ⟨S1x16x16, broadcastInDim S1x16x16 ![1, 2] bcast_S16x16_S1x16x16_1_2 (u 14)⟩ ]
    concatenates_S1x16x16_S1x16x16_S1x16x16_S1x16x16_S1x16x16_S1x16x16_S1x16x16_S1x16x16_S1x16x16_S1x16x16_S1x16x16_S1x16x16_S1x16x16_S1x16x16_S1x16x16_S15x16x16_d0) shapeCasts_S15x16x16_S15x256 i

/-- What the stretch that stacks the tables leaves in the first stack, from the fifteen tables it finds. -/
theorem stack_b (W : Valuation τ sig (Elt Ideal)) : after (hostOps0_91 (F := Ideal)) W (Proc.devRef .tc main_v120)
    = stackVal ![W (Proc.devRef .tc main_v29), W (Proc.devRef .tc main_v33), W (Proc.devRef .tc main_v37), W (Proc.devRef .tc main_v41), W (Proc.devRef .tc main_v45), W (Proc.devRef .tc main_v49), W (Proc.devRef .tc main_v53), W (Proc.devRef .tc main_v57), W (Proc.devRef .tc main_v61), W (Proc.devRef .tc main_v65), W (Proc.devRef .tc main_v69), W (Proc.devRef .tc main_v73), W (Proc.devRef .tc main_v77), W (Proc.devRef .tc main_v81), W (Proc.devRef .tc main_v85)] := by
  have hsplit : (hostOps0_91 (F := Ideal)) = hostOps0_91.take 15 ++ hostOps0_91.drop 15 := (List.take_append_drop 15 _).symm
  rw [hsplit, StableHlo.after_append]
  generalize hW' : after (List.take 15 (hostOps0_91 (F := Ideal))) W = W'
  have h0 : W' (Proc.devRef .tc main_v88) = broadcastInDim S1x16x16 ![1, 2] bcast_S16x16_S1x16x16_1_2 (W (Proc.devRef .tc main_v29)) := by
    subst hW'; simp only [List.take_succ_cons, List.take_zero]; after_results_simp
  have h1 : W' (Proc.devRef .tc main_v89) = broadcastInDim S1x16x16 ![1, 2] bcast_S16x16_S1x16x16_1_2 (W (Proc.devRef .tc main_v33)) := by
    subst hW'; simp only [List.take_succ_cons, List.take_zero]; after_results_simp
  have h2 : W' (Proc.devRef .tc main_v90) = broadcastInDim S1x16x16 ![1, 2] bcast_S16x16_S1x16x16_1_2 (W (Proc.devRef .tc main_v37)) := by
    subst hW'; simp only [List.take_succ_cons, List.take_zero]; after_results_simp
  have h3 : W' (Proc.devRef .tc main_v91) = broadcastInDim S1x16x16 ![1, 2] bcast_S16x16_S1x16x16_1_2 (W (Proc.devRef .tc main_v41)) := by
    subst hW'; simp only [List.take_succ_cons, List.take_zero]; after_results_simp
  have h4 : W' (Proc.devRef .tc main_v92) = broadcastInDim S1x16x16 ![1, 2] bcast_S16x16_S1x16x16_1_2 (W (Proc.devRef .tc main_v45)) := by
    subst hW'; simp only [List.take_succ_cons, List.take_zero]; after_results_simp
  have h5 : W' (Proc.devRef .tc main_v93) = broadcastInDim S1x16x16 ![1, 2] bcast_S16x16_S1x16x16_1_2 (W (Proc.devRef .tc main_v49)) := by
    subst hW'; simp only [List.take_succ_cons, List.take_zero]; after_results_simp
  have h6 : W' (Proc.devRef .tc main_v94) = broadcastInDim S1x16x16 ![1, 2] bcast_S16x16_S1x16x16_1_2 (W (Proc.devRef .tc main_v53)) := by
    subst hW'; simp only [List.take_succ_cons, List.take_zero]; after_results_simp
  have h7 : W' (Proc.devRef .tc main_v95) = broadcastInDim S1x16x16 ![1, 2] bcast_S16x16_S1x16x16_1_2 (W (Proc.devRef .tc main_v57)) := by
    subst hW'; simp only [List.take_succ_cons, List.take_zero]; after_results_simp
  have h8 : W' (Proc.devRef .tc main_v96) = broadcastInDim S1x16x16 ![1, 2] bcast_S16x16_S1x16x16_1_2 (W (Proc.devRef .tc main_v61)) := by
    subst hW'; simp only [List.take_succ_cons, List.take_zero]; after_results_simp
  have h9 : W' (Proc.devRef .tc main_v97) = broadcastInDim S1x16x16 ![1, 2] bcast_S16x16_S1x16x16_1_2 (W (Proc.devRef .tc main_v65)) := by
    subst hW'; simp only [List.take_succ_cons, List.take_zero]; after_results_simp
  have h10 : W' (Proc.devRef .tc main_v98) = broadcastInDim S1x16x16 ![1, 2] bcast_S16x16_S1x16x16_1_2 (W (Proc.devRef .tc main_v69)) := by
    subst hW'; simp only [List.take_succ_cons, List.take_zero]; after_results_simp
  have h11 : W' (Proc.devRef .tc main_v99) = broadcastInDim S1x16x16 ![1, 2] bcast_S16x16_S1x16x16_1_2 (W (Proc.devRef .tc main_v73)) := by
    subst hW'; simp only [List.take_succ_cons, List.take_zero]; after_results_simp
  have h12 : W' (Proc.devRef .tc main_v100) = broadcastInDim S1x16x16 ![1, 2] bcast_S16x16_S1x16x16_1_2 (W (Proc.devRef .tc main_v77)) := by
    subst hW'; simp only [List.take_succ_cons, List.take_zero]; after_results_simp
  have h13 : W' (Proc.devRef .tc main_v101) = broadcastInDim S1x16x16 ![1, 2] bcast_S16x16_S1x16x16_1_2 (W (Proc.devRef .tc main_v81)) := by
    subst hW'; simp only [List.take_succ_cons, List.take_zero]; after_results_simp
  have h14 : W' (Proc.devRef .tc main_v102) = broadcastInDim S1x16x16 ![1, 2] bcast_S16x16_S1x16x16_1_2 (W (Proc.devRef .tc main_v85)) := by
    subst hW'; simp only [List.take_succ_cons, List.take_zero]; after_results_simp
  simp only [List.drop_succ_cons, List.drop_zero]
  after_results_simp
  simp only [Matrix.cons_val]
  rw [h0, h1, h2, h3, h4, h5, h6, h7, h8, h9, h10, h11, h12, h13, h14]
  rfl

/-- The same for the second stack. -/
theorem stack_c (W : Valuation τ sig (Elt Ideal)) : after (hostOps0_91 (F := Ideal)) W (Proc.devRef .tc main_v121)
    = stackVal ![W (Proc.devRef .tc main_v31), W (Proc.devRef .tc main_v35), W (Proc.devRef .tc main_v39), W (Proc.devRef .tc main_v43), W (Proc.devRef .tc main_v47), W (Proc.devRef .tc main_v51), W (Proc.devRef .tc main_v55), W (Proc.devRef .tc main_v59), W (Proc.devRef .tc main_v63), W (Proc.devRef .tc main_v67), W (Proc.devRef .tc main_v71), W (Proc.devRef .tc main_v75), W (Proc.devRef .tc main_v79), W (Proc.devRef .tc main_v83), W (Proc.devRef .tc main_v87)] := by
  have hsplit : (hostOps0_91 (F := Ideal)) = hostOps0_91.take 31 ++ hostOps0_91.drop 31 := (List.take_append_drop 31 _).symm
  rw [hsplit, StableHlo.after_append]
  generalize hW' : after (List.take 31 (hostOps0_91 (F := Ideal))) W = W'
  have h0 : W' (Proc.devRef .tc main_v104) = broadcastInDim S1x16x16 ![1, 2] bcast_S16x16_S1x16x16_1_2 (W (Proc.devRef .tc main_v31)) := by
    subst hW'; simp only [List.take_succ_cons, List.take_zero]; after_results_simp
  have h1 : W' (Proc.devRef .tc main_v105) = broadcastInDim S1x16x16 ![1, 2] bcast_S16x16_S1x16x16_1_2 (W (Proc.devRef .tc main_v35)) := by
    subst hW'; simp only [List.take_succ_cons, List.take_zero]; after_results_simp
  have h2 : W' (Proc.devRef .tc main_v106) = broadcastInDim S1x16x16 ![1, 2] bcast_S16x16_S1x16x16_1_2 (W (Proc.devRef .tc main_v39)) := by
    subst hW'; simp only [List.take_succ_cons, List.take_zero]; after_results_simp
  have h3 : W' (Proc.devRef .tc main_v107) = broadcastInDim S1x16x16 ![1, 2] bcast_S16x16_S1x16x16_1_2 (W (Proc.devRef .tc main_v43)) := by
    subst hW'; simp only [List.take_succ_cons, List.take_zero]; after_results_simp
  have h4 : W' (Proc.devRef .tc main_v108) = broadcastInDim S1x16x16 ![1, 2] bcast_S16x16_S1x16x16_1_2 (W (Proc.devRef .tc main_v47)) := by
    subst hW'; simp only [List.take_succ_cons, List.take_zero]; after_results_simp
  have h5 : W' (Proc.devRef .tc main_v109) = broadcastInDim S1x16x16 ![1, 2] bcast_S16x16_S1x16x16_1_2 (W (Proc.devRef .tc main_v51)) := by
    subst hW'; simp only [List.take_succ_cons, List.take_zero]; after_results_simp
  have h6 : W' (Proc.devRef .tc main_v110) = broadcastInDim S1x16x16 ![1, 2] bcast_S16x16_S1x16x16_1_2 (W (Proc.devRef .tc main_v55)) := by
    subst hW'; simp only [List.take_succ_cons, List.take_zero]; after_results_simp
  have h7 : W' (Proc.devRef .tc main_v111) = broadcastInDim S1x16x16 ![1, 2] bcast_S16x16_S1x16x16_1_2 (W (Proc.devRef .tc main_v59)) := by
    subst hW'; simp only [List.take_succ_cons, List.take_zero]; after_results_simp
  have h8 : W' (Proc.devRef .tc main_v112) = broadcastInDim S1x16x16 ![1, 2] bcast_S16x16_S1x16x16_1_2 (W (Proc.devRef .tc main_v63)) := by
    subst hW'; simp only [List.take_succ_cons, List.take_zero]; after_results_simp
  have h9 : W' (Proc.devRef .tc main_v113) = broadcastInDim S1x16x16 ![1, 2] bcast_S16x16_S1x16x16_1_2 (W (Proc.devRef .tc main_v67)) := by
    subst hW'; simp only [List.take_succ_cons, List.take_zero]; after_results_simp
  have h10 : W' (Proc.devRef .tc main_v114) = broadcastInDim S1x16x16 ![1, 2] bcast_S16x16_S1x16x16_1_2 (W (Proc.devRef .tc main_v71)) := by
    subst hW'; simp only [List.take_succ_cons, List.take_zero]; after_results_simp
  have h11 : W' (Proc.devRef .tc main_v115) = broadcastInDim S1x16x16 ![1, 2] bcast_S16x16_S1x16x16_1_2 (W (Proc.devRef .tc main_v75)) := by
    subst hW'; simp only [List.take_succ_cons, List.take_zero]; after_results_simp
  have h12 : W' (Proc.devRef .tc main_v116) = broadcastInDim S1x16x16 ![1, 2] bcast_S16x16_S1x16x16_1_2 (W (Proc.devRef .tc main_v79)) := by
    subst hW'; simp only [List.take_succ_cons, List.take_zero]; after_results_simp
  have h13 : W' (Proc.devRef .tc main_v117) = broadcastInDim S1x16x16 ![1, 2] bcast_S16x16_S1x16x16_1_2 (W (Proc.devRef .tc main_v83)) := by
    subst hW'; simp only [List.take_succ_cons, List.take_zero]; after_results_simp
  have h14 : W' (Proc.devRef .tc main_v118) = broadcastInDim S1x16x16 ![1, 2] bcast_S16x16_S1x16x16_1_2 (W (Proc.devRef .tc main_v87)) := by
    subst hW'; simp only [List.take_succ_cons, List.take_zero]; after_results_simp
  simp only [List.drop_succ_cons, List.drop_zero]
  after_results_simp
  simp only [Matrix.cons_val]
  rw [h0, h1, h2, h3, h4, h5, h6, h7, h8, h9, h10, h11, h12, h13, h14]
  rfl

/-- Row `s`, lane `p` of the stack is table `s` at `(p / 16, p % 16)`. -/
theorem stackVal_apply (u : Fin 15 → (S16x16.Idx → EReal)) (s : Fin 15) (p : Fin 256) :
    stackVal u (ix2 s p) = u s (ix2 (⟨p.val / 16, by omega⟩ : Fin 16) (⟨p.val % 16, by omega⟩ : Fin 16)) := by
  unfold stackVal
  refine (shapeCast_apply _ _ _ (ix3 s (⟨p.val / 16, by omega⟩ : Fin 16) (⟨p.val % 16, by omega⟩ : Fin 16)) ?_).trans ?_
  · rw [Shape.rowMajor_val_three, Shape.rowMajor_val_two]
    show (s.val * 16 + p.val / 16) * 16 + p.val % 16 = s.val * 256 + p.val
    omega
  · show concatenate S15x16x16 0 (List.ofFn fun n : Fin 15 =>
        (⟨S1x16x16, broadcastInDim S1x16x16 ![1, 2] bcast_S16x16_S1x16x16_1_2 (u n)⟩ : (s : Shape) × (s.Idx → EReal)))
        concatenates_S1x16x16_S1x16x16_S1x16x16_S1x16x16_S1x16x16_S1x16x16_S1x16x16_S1x16x16_S1x16x16_S1x16x16_S1x16x16_S1x16x16_S1x16x16_S1x16x16_S1x16x16_S15x16x16_d0 _ = _
    refine (concatenate_ofFn_unit_apply (0 : Fin S15x16x16.rank) (fun n : Fin 15 => broadcastInDim S1x16x16 ![1, 2] bcast_S16x16_S1x16x16_1_2 (u n))
      concatenates_S1x16x16_S1x16x16_S1x16x16_S1x16x16_S1x16x16_S1x16x16_S1x16x16_S1x16x16_S1x16x16_S1x16x16_S1x16x16_S1x16x16_S1x16x16_S1x16x16_S1x16x16_S15x16x16_d0 rfl rfl _ s rfl (ix3 (0 : Fin 1) (⟨p.val / 16, by omega⟩ : Fin 16) (⟨p.val % 16, by omega⟩ : Fin 16)) ?_).trans ?_
    · intro b hb
      rcases (by decide : ∀ a : Fin S1x16x16.rank, a = ⟨0, by decide⟩ ∨ a = ⟨1, by decide⟩ ∨ a = ⟨2, by decide⟩) b with rfl | rfl | rfl
      · exact absurd rfl hb
      · rfl
      · rfl
    · refine congrArg (u s) (funext fun d => ?_)
      rcases (by decide : ∀ a : Fin S16x16.rank, a = ⟨0, by decide⟩ ∨ a = ⟨1, by decide⟩) d with rfl | rfl
      · rfl
      · rfl

end Cert.KernelIdeal.Stack

end
-- ==== Proof.KiTab1.lean ====
/-
  The first-level weight tables the kernel region finds, index by index, from the softmax array. The host prefix cuts the
  softmax of the first-level weights into the child weights and the two blocks of 120 pair weights; for each lane shift
  it gathers, from each block, the weight of the pair (lane - shift, lane) at every lane through a literal index table,
  zeroes the lanes the shift wraps through a literal mask, stacks the fifteen results and flattens them. Read at an
  index, the stacks are the shift tables of the specification; the child weights flattened are its lane table; and the
  literal 0/1 matrix is its node-sum matrix.
-/
import proofs.«160799_j86620900426153_2_alg».proof.Proof.KiShiftTab
import proofs.«160799_j86620900426153_2_alg».proof.Proof.KiStack
import proofs.«160799_j86620900426153_2_alg».proof.Proof.Spec

set_option maxRecDepth 16384
set_option maxHeartbeats 8000000

noncomputable section

namespace Cert.KernelIdeal.Tab1

open Idealize.ShloMosaic Idealize.ShloMosaic.TcCoe ValueIdx Cert.KernelIdeal Cert.KernelIdeal.Gen Cert.KernelIdeal.Hand
open Idealize.ShloMosaic.StableHlo Cert.KernelIdeal.Carry Cert.KernelIdeal.Take Cert.KernelIdeal.Stack Cert.KernelIdeal.ShiftTab

/-! ## The literal tables against the specification's -/

/-- The fifteen literal index tables, by shift. -/
def idxTab : Fin 15 → Fin 16 → BitVec 32 := ![lit0, lit2, lit4, lit6, lit8, lit10, lit12, lit14, lit16, lit18, lit20, lit22, lit24, lit26, lit28]
/-- The fifteen literal lane masks, by shift. -/
def maskTab : Fin 15 → Fin 16 → BitVec 1 := ![lit1, lit3, lit5, lit7, lit9, lit11, lit13, lit15, lit17, lit19, lit21, lit23, lit25, lit27, lit29]

/-- Shift `s + 1`'s index table holds the pair numbers `T s`. -/
theorem idxTab_T : ∀ (s : Fin 15) (j : Fin 16), (idxTab s j).toInt = ((Cert.Spec.T s j).val : ℤ) := by decide
/-- Shift `s + 1`'s mask is on exactly at the lanes the shift does not wrap. -/
theorem maskTab_iff : ∀ (s : Fin 15) (j : Fin 16), maskTab s j = 1#1 ↔ s.val + 1 ≤ j.val := by decide

/-- The literal 256 by 16 matrix, row-major: entry `(p, k)` is the pattern of `1.0` where `p / 16 = k`, of `0.0` elsewhere. -/
theorem lit60_spec : ∀ i : Fin 4096, lit60 i = if i.val / 256 = i.val % 16 then 0x3F800000#32 else 0x00000000#32 := by decide

/-- The pattern of `1.0` denotes one. -/
theorem one_bits : Ideal.ofBits .f32 0x3F800000#32 = 1 := by
  simp [Ideal.ofBits, Ideal.ieee, -EReal.coe_mul]; norm_num
/-- The pattern of `0.0` denotes zero. -/
theorem zero_bits : Ideal.ofBits .f32 0x00000000#32 = 0 := by
  simp [Ideal.ofBits, Ideal.ieee]

/-- The fill `0.0` denotes zero. -/
theorem zero_apply : (constant (F := Ideal) S_ .f32 0x00000000#32 : S_.Idx → EReal) ix0 = 0 := by
  show Ideal.ofBits .f32 0#32 = 0
  simp [Ideal.ofBits, Ideal.ieee]

/-- One shift's table at row `k`, lane `j`, from a block `x` of 120 pair weights per row that sits at offset `o` of
    the weights `wn`: the weight of pair `T s j` where the lane is not wrapped, zero where it is. -/
theorem shift_apply (wn : Fin 16 → Fin 256 → EReal) (x : S16x120.Idx → EReal) (o : ℕ) (ho : o + 120 ≤ 256)
    (hx : ∀ (k : Fin 16) (q : Fin 120), x (ix2 k q) = wn k ⟨o + q.val, by omega⟩) (s : Fin 15) (k j : Fin 16) :
    whereVal (fun i => maskTab s (S16.rowMajor i)) (takeVal x (fun i => idxTab s (S16.rowMajor i)))
        (constant (F := Ideal) S_ .f32 0x00000000#32) (ix2 k j)
      = if s.val + 1 ≤ j.val then wn k ⟨o + (Cert.Spec.T s j).val, by have := (Cert.Spec.T s j).isLt; omega⟩ else 0 := by
  have hlo : ∀ i : S16.Idx, 0 ≤ (idxTab s (S16.rowMajor i)).toInt := fun i => by have h := idxTab_T s (S16.rowMajor i); omega
  have hhi : ∀ i : S16.Idx, (idxTab s (S16.rowMajor i)).toInt ≤ 119 := fun i => by
    have h := idxTab_T s (S16.rowMajor i); have h2 := (Cert.Spec.T s (S16.rowMajor i)).isLt; omega
  rw [whereVal_apply, takeVal_apply x _ hlo hhi, zero_apply, hx]
  by_cases hc : s.val + 1 ≤ j.val
  · rw [if_pos hc, if_pos (by rw [rowMajor_ix1]; exact (maskTab_iff s j).mpr hc)]
    congr 1
    refine Fin.ext ?_
    show o + (idxTab s (S16.rowMajor (ix1 j))).toInt.toNat = o + (Cert.Spec.T s j).val
    rw [rowMajor_ix1, idxTab_T, Int.toNat_natCast]
  · rw [if_neg hc, if_neg (by rw [rowMajor_ix1]; exact fun h => hc ((maskTab_iff s j).mp h))]

/-- A property of the fifteen shifts holds of each once it holds of the fifteen numerals. -/
theorem forall_fin15 {P : Fin 15 → Prop} (h0 : P 0) (h1 : P 1) (h2 : P 2) (h3 : P 3) (h4 : P 4) (h5 : P 5) (h6 : P 6) (h7 : P 7) (h8 : P 8) (h9 : P 9) (h10 : P 10) (h11 : P 11) (h12 : P 12) (h13 : P 13) (h14 : P 14) : ∀ s, P s := by
  intro s; fin_cases s
  exacts [h0, h1, h2, h3, h4, h5, h6, h7, h8, h9, h10, h11, h12, h13, h14]

/-! ## The host prefix -/

section
variable (V0 : Valuation τ sig (Elt Ideal))

/-- The three slices of the softmax array where the first stretch leaves them. -/
theorem W1_v11 : Wk V0 1 (Proc.devRef .tc main_v11) = extractStridedSlice S16x16 ![0, 0] (Wk V0 1 (Proc.devRef .tc main_v10)) slices_S16x256_S16x16_0_0 := by
  rw [Wk_succ V0 0 _ rfl]; after_results_simp
theorem W1_v12 : Wk V0 1 (Proc.devRef .tc main_v12) = extractStridedSlice S16x120 ![0, 16] (Wk V0 1 (Proc.devRef .tc main_v10)) slices_S16x256_S16x120_0_16 := by
  rw [Wk_succ V0 0 _ rfl]; after_results_simp
theorem W1_v13 : Wk V0 1 (Proc.devRef .tc main_v13) = extractStridedSlice S16x120 ![0, 136] (Wk V0 1 (Proc.devRef .tc main_v10)) slices_S16x256_S16x120_0_136 := by
  rw [Wk_succ V0 0 _ rfl]; after_results_simp

/-- The fifteen masked gathers of the first block, and of the second, where the stacking stretch finds them. -/
def bW : Fin 15 → (S16x16.Idx → EReal) := ![Wk V0 91 (Proc.devRef .tc main_v29), Wk V0 91 (Proc.devRef .tc main_v33), Wk V0 91 (Proc.devRef .tc main_v37), Wk V0 91 (Proc.devRef .tc main_v41), Wk V0 91 (Proc.devRef .tc main_v45), Wk V0 91 (Proc.devRef .tc main_v49), Wk V0 91 (Proc.devRef .tc main_v53), Wk V0 91 (Proc.devRef .tc main_v57), Wk V0 91 (Proc.devRef .tc main_v61), Wk V0 91 (Proc.devRef .tc main_v65), Wk V0 91 (Proc.devRef .tc main_v69), Wk V0 91 (Proc.devRef .tc main_v73), Wk V0 91 (Proc.devRef .tc main_v77), Wk V0 91 (Proc.devRef .tc main_v81), Wk V0 91 (Proc.devRef .tc main_v85)]
def cW : Fin 15 → (S16x16.Idx → EReal) := ![Wk V0 91 (Proc.devRef .tc main_v31), Wk V0 91 (Proc.devRef .tc main_v35), Wk V0 91 (Proc.devRef .tc main_v39), Wk V0 91 (Proc.devRef .tc main_v43), Wk V0 91 (Proc.devRef .tc main_v47), Wk V0 91 (Proc.devRef .tc main_v51), Wk V0 91 (Proc.devRef .tc main_v55), Wk V0 91 (Proc.devRef .tc main_v59), Wk V0 91 (Proc.devRef .tc main_v63), Wk V0 91 (Proc.devRef .tc main_v67), Wk V0 91 (Proc.devRef .tc main_v71), Wk V0 91 (Proc.devRef .tc main_v75), Wk V0 91 (Proc.devRef .tc main_v79), Wk V0 91 (Proc.devRef .tc main_v83), Wk V0 91 (Proc.devRef .tc main_v87)]

theorem bW_eq : ∀ s : Fin 15, bW V0 s = whereVal (fun i => maskTab s (S16.rowMajor i))
    (takeVal (Wk V0 1 (Proc.devRef .tc main_v12)) (fun i => idxTab s (S16.rowMajor i))) (constant (F := Ideal) S_ .f32 0x00000000#32) := by
  refine forall_fin15 ?_ ?_ ?_ ?_ ?_ ?_ ?_ ?_ ?_ ?_ ?_ ?_ ?_ ?_ ?_
  all_goals simp only [bW, maskTab, idxTab, Matrix.cons_val]
  exacts [shift_b0 V0, shift_b1 V0, shift_b2 V0, shift_b3 V0, shift_b4 V0, shift_b5 V0, shift_b6 V0, shift_b7 V0, shift_b8 V0, shift_b9 V0, shift_b10 V0, shift_b11 V0, shift_b12 V0, shift_b13 V0, shift_b14 V0]
theorem cW_eq : ∀ s : Fin 15, cW V0 s = whereVal (fun i => maskTab s (S16.rowMajor i))
    (takeVal (Wk V0 1 (Proc.devRef .tc main_v13)) (fun i => idxTab s (S16.rowMajor i))) (constant (F := Ideal) S_ .f32 0x00000000#32) := by
  refine forall_fin15 ?_ ?_ ?_ ?_ ?_ ?_ ?_ ?_ ?_ ?_ ?_ ?_ ?_ ?_ ?_
  all_goals simp only [cW, maskTab, idxTab, Matrix.cons_val]
  exacts [shift_c0 V0, shift_c1 V0, shift_c2 V0, shift_c3 V0, shift_c4 V0, shift_c5 V0, shift_c6 V0, shift_c7 V0, shift_c8 V0, shift_c9 V0, shift_c10 V0, shift_c11 V0, shift_c12 V0, shift_c13 V0, shift_c14 V0]

theorem W_v120 : Wk V0 183 (Proc.devRef .tc main_v120) = stackVal (bW V0) := by
  rw [Wk_keep' WrTab.from_92 V0 main_v120 (by decide) (by decide : 92 ≤ 183), Wk_succ V0 91 _ rfl, stack_b]; unfold bW; rfl
theorem W_v121 : Wk V0 183 (Proc.devRef .tc main_v121) = stackVal (cW V0) := by
  rw [Wk_keep' WrTab.from_92 V0 main_v121 (by decide) (by decide : 92 ≤ 183), Wk_succ V0 91 _ rfl, stack_c]; unfold cW; rfl

/-- The child weights flattened, and the literal matrix, where the first stretch leaves them. -/
theorem W1_v27 : Wk V0 1 (Proc.devRef .tc main_v27) = fun i => shapeCast S1x256 (Wk V0 1 (Proc.devRef .tc main_v11)) shapeCasts_S16x16_S1x256 i := by
  rw [Wk_succ V0 0 _ rfl]; after_results_simp; try rfl
theorem W_v27 : Wk V0 183 (Proc.devRef .tc main_v27) = Wk V0 1 (Proc.devRef .tc main_v27) :=
  Wk_keep' WrTab.from_1 V0 main_v27 (by decide) (by decide)
theorem W1_cst : Wk V0 1 (Proc.devRef .tc main_cst) = (fun i => FloatOps.ofBits (F := Ideal) .f32 (lit60 (S256x16.rowMajor i)) : S256x16.Idx → EReal) := by
  rw [Wk_succ V0 0 _ rfl]; after_results_simp; try rfl
theorem W_cst : Wk V0 183 (Proc.devRef .tc main_cst) = Wk V0 1 (Proc.devRef .tc main_cst) :=
  Wk_keep' WrTab.from_1 V0 main_cst (by decide) (by decide)
theorem W_v10 : Wk V0 183 (Proc.devRef .tc main_v10) = Wk V0 1 (Proc.devRef .tc main_v10) :=
  Wk_keep' WrTab.from_1 V0 main_v10 (by decide) (by decide)

end

/-! ## The statements -/

variable (m : (ℓ : Loc nD τ sig) → Buf (Elt Ideal) ℓ) (c : Dev nD)

/-- The softmax of the first-level weights as the region finds it, as an index function. -/
def wn1 : Fin 16 → Fin 256 → EReal := fun k q => (V (F := Ideal) m c main_v10 : S16x256.Idx → EReal) (ix2 k q)

/-- The launch contents of core `c`. -/
abbrev L : Valuation τ sig (Elt Ideal) := fun b => m (c, b)

theorem wn1_eq (k : Fin 16) (q : Fin 256) : wn1 m c k q = (Wk (L m c) 1 (Proc.devRef .tc main_v10) : S16x256.Idx → EReal) (ix2 k q) := by
  unfold wn1; rw [V_eq_Wk, W_v10]

/-- A block of 120 columns of the softmax array at column offset `o`, at an index. -/
theorem slice_apply (o : ℕ) (h : S16x256.Slices ![0, o] S16x120) (k : Fin 16) (q : Fin 120) (ho : o + 120 ≤ 256) :
    extractStridedSlice S16x120 ![0, o] (Wk (L m c) 1 (Proc.devRef .tc main_v10) : S16x256.Idx → EReal) h (ix2 k q) = wn1 m c k ⟨o + q.val, by omega⟩ := by
  rw [wn1_eq]
  refine extractStridedSlice_apply _ _ _ _ (ix2 k (⟨o + q.val, by omega⟩ : Fin 256)) fun a => ?_
  rcases (by decide : ∀ a : Fin S16x256.rank, a = ⟨0, by decide⟩ ∨ a = ⟨1, by decide⟩) a with rfl | rfl
  · exact (Nat.zero_add _).symm
  · rfl

theorem V_bmat1 (s : Fin 15) (p : Fin 256) :
    (V (F := Ideal) m c main_v120 : S15x256.Idx → EReal) (ix2 s p) = Cert.Spec.b1 (wn1 m c) s p := by
  rw [V_eq_Wk, W_v120, stackVal_apply, bW_eq, W1_v12,
    shift_apply (wn1 m c) _ 16 (by decide) (fun k q => slice_apply m c 16 _ k q (by decide))]
  rfl

theorem V_cmat1 (s : Fin 15) (p : Fin 256) :
    (V (F := Ideal) m c main_v121 : S15x256.Idx → EReal) (ix2 s p) = Cert.Spec.c1 (wn1 m c) s p := by
  rw [V_eq_Wk, W_v121, stackVal_apply, cW_eq, W1_v13,
    shift_apply (wn1 m c) _ 136 (by decide) (fun k q => slice_apply m c 136 _ k q (by decide))]
  rfl

theorem V_aflat (p : Fin 256) :
    (V (F := Ideal) m c main_v27 : S1x256.Idx → EReal) (ix2 (0 : Fin 1) p) = Cert.Spec.a1 (wn1 m c) p := by
  rw [V_eq_Wk, W_v27, W1_v27, W1_v11]
  refine (shapeCast_apply _ _ _ (ix2 (⟨p.val / 16, by omega⟩ : Fin 16) (⟨p.val % 16, by omega⟩ : Fin 16)) ?_).trans ?_
  · rw [Shape.rowMajor_val_two, Shape.rowMajor_val_two]
    show p.val / 16 * 16 + p.val % 16 = 0 * 256 + p.val
    omega
  · unfold Cert.Spec.a1
    rw [wn1_eq]
    refine extractStridedSlice_apply _ _ _ _ (ix2 (⟨p.val / 16, by omega⟩ : Fin 16) (⟨p.val % 16, by omega⟩ : Fin 256)) fun a => ?_
    rcases (by decide : ∀ a : Fin S16x256.rank, a = ⟨0, by decide⟩ ∨ a = ⟨1, by decide⟩) a with rfl | rfl
    · exact (Nat.zero_add _).symm
    · exact (Nat.zero_add _).symm

theorem V_gmat (p : Fin 256) (k : Fin 16) :
    (V (F := Ideal) m c main_cst : S256x16.Idx → EReal) (ix2 p k) = Cert.Spec.g p k := by
  rw [V_eq_Wk, W_cst, W1_cst]
  show Ideal.ofBits .f32 (lit60 (S256x16.rowMajor (ix2 p k))) = _
  have hv : (S256x16.rowMajor (ix2 p k)).val = p.val * 16 + k.val := by rw [Shape.rowMajor_val_two]; rfl
  have hl := lit60_spec (S256x16.rowMajor (ix2 p k))
  rw [hv] at hl
  have e1 : (p.val * 16 + k.val) / 256 = p.val / 16 := by omega
  have e2 : (p.val * 16 + k.val) % 16 = k.val := by omega
  rw [e1, e2] at hl
  rw [hl]
  unfold Cert.Spec.g
  by_cases h : p.val / 16 = k.val
  · rw [if_pos h, if_pos h, one_bits]
  · rw [if_neg h, if_neg h, zero_bits]

end Cert.KernelIdeal.Tab1

end
-- ==== Proof.KiTab0Core.lean ====
/-
  Reading the kernel program's host prefix one stretch at a time. The prefix is 183 stretches of host operations run in
  order from the launch memory. A buffer is written by one operation only, and the program numbers its buffers in the
  order it defines them, so every stretch after the one that writes a buffer writes only higher-numbered buffers and
  leaves it alone. This module names the contents before each stretch, carries a buffer's contents from the stretch that
  writes it to any later point, and states the two recurring computations of the root-level weight tables as functions
  of arrays: the lookup of sixteen entries of a 120-entry slice at a literal index vector, and the masking of the
  result by a literal validity vector.
-/
import proofs.«160799_j86620900426153_2_alg».proof.Proof.KiMain
import Idealize.ShloMosaic.Lib.ValueIdx

set_option maxRecDepth 16384

noncomputable section

namespace Cert.KernelIdeal.Tab0

open Idealize.ShloMosaic Idealize.ShloMosaic.TcCoe ValueIdx Cert.KernelIdeal Cert.KernelIdeal.Gen Cert.KernelIdeal.Hand

variable {F : FTy → Type} [FloatOps F]

/-! ## The fold, stretch by stretch -/

/-- Running two lines of operations in turn is running their concatenation. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => simp only [List.cons_append, StableHlo.after_cons, ih]

variable (m : (ℓ : Loc nD τ sig) → Buf (Elt F) ℓ) (c : Dev nD)

/-- Core `c`'s buffers before stretch `k`: the launch memory after the first `k` stretches. -/
def A (k : ℕ) : Valuation τ sig (Elt F) :=
  StableHlo.after ((HostTab.opss (F := F)).take k).flatten (fun b => m (c, b))

/-- What the region finds is what all 183 stretches leave. -/
theorem V_eq_A (b : Ref sig .tc) : V m c b = A m c 183 (Proc.devRef .tc b) := by
  have e : List.take 183 (HostTab.opss (F := F)) = HostTab.opss := List.take_of_length_le (Nat.le_of_eq rfl)
  unfold A V
  rw [e]

/-- One more stretch. -/
theorem A_succ (k k' : ℕ) (l : List (HloOp τ sig (Elt F))) (hk : (HostTab.opss (F := F))[k]? = some l) (hk' : k' = k + 1) :
    A m c k' = StableHlo.after l (A m c k) := by
  subst hk'
  unfold A
  rw [List.take_succ, hk, List.flatten_append, after_append]
  simp only [Option.toList, List.flatten_cons, List.flatten_nil, List.append_nil]

/-- An operation writes only buffers numbered `n` or higher. -/
def WOp (n : ℕ) (op : HloOp τ sig (Elt F)) : Prop :=
  ∀ r : Ref sig .tc, Proc.devRef (τ := τ) .tc r ∈ op.writes → n ≤ r.idx.val

/-- Every operation of every stretch of the list writes only buffers numbered `n` or higher. -/
def WLo (n : ℕ) (L : List (List (HloOp τ sig (Elt F)))) : Prop :=
  ∀ ops ∈ L, ∀ op ∈ ops, WOp n op

theorem WLo.nil (n : ℕ) : WLo (F := F) n [] := fun _ h => absurd h List.not_mem_nil

theorem WLo.cons {n n' : ℕ} {ops : List (HloOp τ sig (Elt F))} {L : List (List (HloOp τ sig (Elt F)))}
    (h1 : ops.Forall (WOp n)) (h2 : WLo n' L) (hle : n ≤ n') : WLo n (ops :: L) := by
  intro ops' hops' op hop r hr
  rcases List.mem_cons.mp hops' with rfl | h
  · exact List.forall_iff_forall_mem.mp h1 op hop r hr
  · exact le_trans hle (h2 ops' h op hop r hr)

/-- A buffer numbered below everything the stretches from `j` on write is, at any later point, as stretch `j` finds it. -/
theorem A_keep {j k n : ℕ} (hjk : j ≤ k) (h : WLo n ((HostTab.opss (F := F)).drop j)) (b : Ref sig .tc)
    (hb : b.idx.val < n) : A m c k (Proc.devRef .tc b) = A m c j (Proc.devRef .tc b) := by
  unfold A
  have e : (HostTab.opss (F := F)).take k = (HostTab.opss (F := F)).take j ++ ((HostTab.opss (F := F)).take k).drop j := by
    conv_lhs => rw [← List.take_append_drop j (List.take k HostTab.opss)]
    rw [List.take_take, min_eq_left hjk]
  rw [e, List.flatten_append, after_append]
  refine StableHlo.after_of_forall_not_mem _ _ fun op hop hw => ?_
  obtain ⟨ops, hops, hop⟩ := List.mem_flatten.mp hop
  have hmem : ops ∈ (HostTab.opss (F := F)).drop j := ((List.take_sublist k _).drop j).subset hops
  exact absurd (h ops hmem op hop b hw) (by omega)

/-! ## The recurring computations, as functions of arrays -/

/-- A lookup's index vector as a column, its negative entries first wrapped by the slice's length, 120. -/
def idxCol (i : IVec S16 32) : IVec S16x1 32 :=
  broadcastInDim S16x1 ![0] Facts₀.bcast_S16_S16x1_0
    (select (cmpi .slt i (broadcastInDim S16 ![] Facts₀.bcast_S_S16 (constantI S_ 32 0#32)))
      (addi i (broadcastInDim S16 ![] Facts₀.bcast_S_S16 (constantI S_ 32 120#32))) i)

/-- Which entries of the column lie inside the slice, `0 ≤ · ≤ 119`. -/
def inRange (j : IVec S16x1 32) : IVec S16 1 :=
  Host.reduce IntOp.andi
    (andi (cmpi .sge j (broadcastInDim S16x1 ![] Facts₀.bcast_S_S16x1 (constantI S_ 32 0#32)))
      (cmpi .sle j (broadcastInDim S16x1 ![0, 1] Facts₀.bcast_S1x1_S16x1_0_1
        (broadcastInDim S1x1 ![1] Facts₀.bcast_S1_S1x1_1 (constantI S1 32 119#32)))))
    (constantI S_ 1 1#1) Facts₀.reducesTo_S16x1_S16_d1 Facts₀.h_S_

/-- The lookup: the slice's entries at the column's indices where those lie inside the slice, a NaN elsewhere. -/
def takeVal (x : FVec F S120 .f32) (i : IVec S16 32) : FVec F S16 .f32 :=
  select (inRange (idxCol i)) (Host.gather gather_S120_S16x1_S16_n_0_n_n_0_1_1 x (idxCol i))
    (broadcastInDim S16 ![] Facts₀.bcast_S_S16 (constant S_ .f32 0x7FC00000#32))

/-- The masking: the looked-up vector on the valid lanes, the fill value on the others. -/
def whereVal (mk : IVec S16 1) (x : FVec F S16 .f32) (z : FVec F S_ .f32) : FVec F S16 .f32 :=
  select mk x (broadcastInDim S16 ![] Facts₀.bcast_S_S16 (id z))

/-- Fifteen vectors of sixteen lanes stacked as the rows of a table. -/
def stackVal (u : Fin 15 → FVec F S16 .f32) : FVec F S15x16 .f32 :=
  concatenate S15x16 0
    (List.ofFn fun n : Fin 15 => (⟨S1x16, broadcastInDim S1x16 ![1] Facts₀.bcast_S16_S1x16_1 (u n)⟩ : (s : Shape) × (s.Idx → F .f32)))
    Facts₀.concatenates_S1x16_S1x16_S1x16_S1x16_S1x16_S1x16_S1x16_S1x16_S1x16_S1x16_S1x16_S1x16_S1x16_S1x16_S1x16_S15x16_d0

end Cert.KernelIdeal.Tab0

end
-- ==== Proof.KiTab0Defs.lean ====
/-
  The rows of the root-level weight tables as one function of a shift's two literal vectors: row `s` of a table is the
  masking, by the shift's validity vector, of the lookup of a 120-entry slice at the shift's index vector.
-/
import proofs.«160799_j86620900426153_2_alg».proof.Proof.KiTab0Core

set_option maxRecDepth 16384

noncomputable section

namespace Cert.KernelIdeal.Tab0

open Idealize.ShloMosaic Idealize.ShloMosaic.TcCoe ValueIdx Cert.KernelIdeal Cert.KernelIdeal.Gen Cert.KernelIdeal.Hand

variable {F : FTy → Type} [FloatOps F]

/-- The index vectors of the fifteen root-level lookups as the program writes them, by shift. -/
def idxLit : Fin 15 → Fin 16 → BitVec 32 :=
  ![lit30, lit32, lit34, lit36, lit38, lit40, lit42, lit44, lit46, lit48, lit50, lit52, lit54, lit56, lit58]

/-- The validity vectors of the fifteen shifts as the program writes them. -/
def maskLit : Fin 15 → Fin 16 → BitVec 1 :=
  ![lit31, lit33, lit35, lit37, lit39, lit41, lit43, lit45, lit47, lit49, lit51, lit53, lit55, lit57, lit59]

/-- One row of a table: the slice looked up at the index vector, masked by the validity vector, zero elsewhere. -/
def rowVal (mk : Fin 16 → BitVec 1) (ix : Fin 16 → BitVec 32) (x : FVec F S120 .f32) : FVec F S16 .f32 :=
  whereVal (fun i => mk (S16.rowMajor i)) (takeVal x (fun i => ix (S16.rowMajor i))) (constant S_ .f32 0x00000000#32)

end Cert.KernelIdeal.Tab0

end
-- ==== Proof.KiTab0Lit.lean ====
/-
  The program's literal vectors against the pair numbering: for shift `s + 1`, every entry of the index vector lies in the
  120-entry slice (so the lookup's in-range test passes on every lane) and is the number `T s k` of lane `k`'s pair,
  and the validity vector marks exactly the lanes `k ≥ s + 1`. Facts about 15 × 16 literals, decided.
-/
import proofs.«160799_j86620900426153_2_alg».proof.Proof.KiTab0Defs
import proofs.«160799_j86620900426153_2_alg».proof.Proof.Spec

set_option maxRecDepth 16384

noncomputable section

namespace Cert.KernelIdeal.Tab0

open Idealize.ShloMosaic Idealize.ShloMosaic.TcCoe ValueIdx Cert.KernelIdeal Cert.KernelIdeal.Gen Cert.KernelIdeal.Hand

set_option maxHeartbeats 40000000 in
/-- Every lane of every shift's index vector passes the lookup's in-range test. -/
theorem idx_inRange : ∀ (s : Fin 15) (k : Fin 16),
    inRange (idxCol (fun i => idxLit s (S16.rowMajor i))) (ix1 k) = 1#1 := by decide

set_option maxHeartbeats 40000000 in
/-- Lane `k` of shift `s + 1`'s index column, read as the lookup reads it, is the pair number `T s k`. -/
theorem idx_val : ∀ (s : Fin 15) (k : Fin 16),
    (idxCol (fun i => idxLit s (S16.rowMajor i)) (ix2 k (0 : Fin 1))).toInt.toNat = (Cert.Spec.T s k).val := by decide

set_option maxHeartbeats 40000000 in
/-- Shift `s + 1`'s validity vector marks the lanes from `s + 1` on. -/
theorem mask_val : ∀ (s : Fin 15) (k : Fin 16),
    maskLit s (S16.rowMajor (ix1 k)) = if s.val + 1 ≤ k.val then 1#1 else 0#1 := by decide

end Cert.KernelIdeal.Tab0

end
-- ==== Proof.KiTab0.lean ====
/-
  The root-level weight tables of the kernel program's host prefix, index by index, in terms of the softmax of the root
  weights. The softmax array of 256 entries is cut into the child weights (16), the pair weights of the minima (120) and of
  the maxima (120). The first table is the child weights as one row. Row `s` of the second (third) table is built for shift
  `s + 1`: lane `k` looks the minima (maxima) slice up at a literal index, which is the number `T s k` of the pair
  `(k - (s + 1), k)`; the lookup guards against indices outside the slice, and none is; the lanes `k < s + 1`, which the
  shift wraps, are then set to zero by a literal validity vector; the fifteen rows are stacked. So entry `(s, k)` is the
  softmax at `16 + T s k` (`136 + T s k`) when `s + 1 ≤ k`, and zero otherwise.
-/
import proofs.«160799_j86620900426153_2_alg».proof.Proof.KiTab0Rows
import proofs.«160799_j86620900426153_2_alg».proof.Proof.KiTab0Lit
import Idealize.ShloMosaic.Lib.Pipeline.Value
import Idealize.ShloMosaic.Lib.ValueLayout
import Idealize.ShloMosaic.PureOps.Ideal.Laws

set_option maxRecDepth 16384

noncomputable section

namespace Cert.KernelIdeal.Tab0

open Idealize.ShloMosaic Idealize.ShloMosaic.TcCoe ValueIdx Cert.KernelIdeal Cert.KernelIdeal.Gen Cert.KernelIdeal.Hand

/-! ## Layout operations read at an index -/

section Reads

variable {α : Type}

/-- A vector as a one-row table reads, at `(u, i)`, the vector at `i`. -/
theorem bcast_row_apply (x : S16.Idx → α) (u : Fin 1) (i : Fin 16) :
    broadcastInDim S1x16 ![1] Facts₀.bcast_S16_S1x16_1 x (ix2 u i) = x (ix1 i) := by
  unfold broadcastInDim
  congr 1
  funext d
  obtain rfl : d = 0 := Subsingleton.elim _ _
  rfl

/-- A scalar spread over sixteen lanes reads the scalar at every lane. -/
theorem bcast_scalar_apply (z : S_.Idx → α) (i : S16.Idx) :
    broadcastInDim S16 ![] Facts₀.bcast_S_S16 z i = z ix0 := by
  unfold broadcastInDim
  congr 1
  funext a
  exact a.elim0

/-- A cut of a vector from `o` reads, at `q`, the vector at `o + q`. -/
theorem slice1_apply (n m o : ℕ) (X : (⟨1, ![n]⟩ : Shape).Idx → α) (h : (⟨1, ![n]⟩ : Shape).Slices ![o] ⟨1, ![m]⟩)
    (q : Fin m) (p : Fin n) (hp : p.val = o + q.val) :
    extractStridedSlice ⟨1, ![m]⟩ ![o] X h (ix1 q) = X (ix1 p) :=
  extractStridedSlice_apply _ _ _ _ _ (fun ax => by
    match ax with
    | ⟨0, _⟩ => exact hp)

local notation "G" => gather_S120_S16x1_S16_n_0_n_n_0_1_1

/-- The lookup's gather at lane `k`: the slice at the index column's entry `(k, 0)`, read signed and clamped into the
    slice. -/
theorem gather_col_apply (x : S120.Idx → α) (j : IVec S16x1 32) (k : Fin 16) :
    Host.gather G x j (ix1 k) = x (ix1 ⟨min (j (ix2 k (0 : Fin 1))).toInt.toNat 119, by omega⟩) := by
  unfold Host.gather
  congr 1
  funext a
  obtain rfl : a = 0 := Subsingleton.elim _ _
  refine Fin.ext ?_
  show GatherDims.start G (ix1 k) j 0 + GatherDims.batchCoord G (ix1 k) 0 + GatherDims.offCoord G (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ GatherDims.startIndexMap G from List.mem_singleton.mpr rfl)]
  have hsi : GatherDims.siIdx G (ix1 k) ⟨List.idxOf (0 : Fin 1) (GatherDims.startIndexMap G),
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

end Reads

/-- The stack of fifteen vectors reads, at `(s, k)`, vector `s` at lane `k`. -/
theorem stackVal_apply {F : FTy → Type} [FloatOps F] (u : Fin 15 → FVec F S16 .f32) (s : Fin 15) (k : Fin 16) :
    stackVal u (ix2 s k) = u s (ix1 k) := by
  unfold stackVal
  refine (concatenate_ofFn_unit_apply (t := S15x16) (s₁ := S1x16) (0 : Fin 2)
    (fun n : Fin 15 => broadcastInDim S1x16 ![1] Facts₀.bcast_S16_S1x16_1 (u n)) _ rfl rfl (ix2 s k) s rfl
    (ix2 (0 : Fin 1) k) ?_).trans (bcast_row_apply _ _ _)
  intro b hb
  match b with
  | ⟨0, _⟩ => exact absurd rfl hb
  | ⟨1, _⟩ => rfl

/-- Row `s` at lane `k`, over the extended reals: the slice at the pair number `T s k` on the lanes the shift does not
    wrap, zero on the others. -/
theorem rowVal_apply (s : Fin 15) (k : Fin 16) (x : FVec Ideal S120 .f32) :
    rowVal (F := Ideal) (maskLit s) (idxLit s) x (ix1 k)
      = if s.val + 1 ≤ k.val then x (ix1 ⟨(Cert.Spec.T s k).val, (Cert.Spec.T s k).isLt⟩) else 0 := by
  unfold rowVal whereVal takeVal
  simp only [select_apply]
  rw [mask_val s k]
  by_cases h : s.val + 1 ≤ k.val
  · rw [if_pos h, if_pos h, select_one, idx_inRange s k, select_one, gather_col_apply]
    congr 2
    refine Fin.ext ?_
    show min _ 119 = (Cert.Spec.T s k).val
    rw [idx_val s k]
    have := (Cert.Spec.T s k).isLt
    omega
  · rw [if_neg h, if_neg h, select_zero, bcast_scalar_apply]
    exact Ideal.ofBits_zero_f32

variable (m : (ℓ : Loc nD τ sig) → Buf (Elt Ideal) ℓ) (c : Dev nD)

/-- The softmax of the root weights as the region finds it, as an index function. -/
def wn0 : Fin 256 → EReal := fun q => (V (F := Ideal) m c main_v23 : S256.Idx → EReal) (ix1 q)

theorem wn0_eq (q : Fin 256) : wn0 m c q = A m c 1 (Proc.devRef .tc main_v23) (ix1 q) := by
  unfold wn0
  rw [V_eq_A, softmax_kept]

theorem V_aflat0 (k : Fin 16) :
    (V (F := Ideal) m c main_v122 : S1x16.Idx → EReal) (ix2 (0 : Fin 1) k) = Cert.Spec.a0 (wn0 m c) k := by
  unfold Cert.Spec.a0
  rw [V_eq_A, row_a, shapeCast_a_1a_apply, slice1_apply 256 16 0 _ _ k ⟨k.val, by omega⟩ (Nat.zero_add _).symm, wn0_eq]

theorem V_bmat0 (s : Fin 15) (k : Fin 16) :
    (V (F := Ideal) m c main_v198 : S15x16.Idx → EReal) (ix2 s k) = Cert.Spec.b0 (wn0 m c) s k := by
  unfold Cert.Spec.b0
  rw [V_eq_A, A_succ m c 182 183 hostOps0_182 rfl rfl, stack_b, stackVal_apply, rows_b, rowVal_apply]
  by_cases h : s.val + 1 ≤ k.val
  · rw [if_pos h, if_pos h, slice1_apply 256 120 16 _ _ _ ⟨16 + (Cert.Spec.T s k).val, by omega⟩ rfl, wn0_eq]
  · rw [if_neg h, if_neg h]

theorem V_cmat0 (s : Fin 15) (k : Fin 16) :
    (V (F := Ideal) m c main_v214 : S15x16.Idx → EReal) (ix2 s k) = Cert.Spec.c0 (wn0 m c) s k := by
  unfold Cert.Spec.c0
  rw [V_eq_A, A_succ m c 182 183 hostOps0_182 rfl rfl, stack_c, stackVal_apply, rows_c, rowVal_apply]
  by_cases h : s.val + 1 ≤ k.val
  · rw [if_pos h, if_pos h, slice1_apply 256 120 136 _ _ _ ⟨136 + (Cert.Spec.T s k).val, by omega⟩ rfl, wn0_eq]
  · rw [if_neg h, if_neg h]

end Cert.KernelIdeal.Tab0

end
-- ==== Proof.KiKeepSm.lean ====
/-
  The two softmax arrays of the kernel's host prefix are written in its first stretch of host operations and by nothing
  after it, so the region finds them as that first stretch leaves them.
-/
import proofs.«160799_j86620900426153_2_alg».proof.Proof.KiKeepSmTab
import proofs.«160799_j86620900426153_2_alg».proof.Proof.KiMain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host prefix is its first stretch followed by the rest. -/
theorem opss_split : (HostTab.opss (F := F)).flatten = hostOps0 ++ (KeepSm.rest (F := F)).flatten := rfl

theorem V_v10 (c : Dev nD) :
    V m c main_v10 = StableHlo.after (hostOps0 (F := F)) (fun b => m (c, b)) (Proc.devRef .tc main_v10) := by
  show StableHlo.after (HostTab.opss (F := F)).flatten (fun b => m (c, b)) (Proc.devRef .tc main_v10) = _
  rw [opss_split, StableHlo.after_append]
  exact StableHlo.after_of_forall_not_mem _ _ fun op hop => (KeepSm.keeps_flat op hop).1

theorem V_v23 (c : Dev nD) :
    V m c main_v23 = StableHlo.after (hostOps0 (F := F)) (fun b => m (c, b)) (Proc.devRef .tc main_v23) := by
  show StableHlo.after (HostTab.opss (F := F)).flatten (fun b => m (c, b)) (Proc.devRef .tc main_v23) = _
  rw [opss_split, StableHlo.after_append]
  exact StableHlo.after_of_forall_not_mem _ _ fun op hop => (KeepSm.keeps_flat op hop).2

end Cert.KernelIdeal.Hand

end
-- ==== Proof.RefStages.lean ====
/-
  The reference's operations as terms, stage by stage: the two pair-index columns, the two softmax chains, the reshape
  of a row into nodes, the 256 features of a node (children, pairwise minima, pairwise maxima), the weighted sums.
  Stated once over any float instance, so that the run's buffers are these terms by unfolding.
-/
import proofs.«160799_j86620900426153_2_alg».proof.Proof.Gen.ReferenceIdeal

noncomputable section

namespace Cert.ReferenceIdeal.RefVal

open Idealize.ShloMosaic Cert.ReferenceIdeal Cert.ReferenceIdeal.Gen

/-! ## The operations' terms, stage by stage -/

/-- The column of start indices a gather of the smaller children reads: the literal pair table, through the
    negative-index normalisation (add sixteen where the mask says so; the mask is all false). -/
def idxI : IVec S120x1 32 :=
  broadcastInDim S120x1 ![0] bcast_S120_S120x1_0
    (select (constantI S120 1 0#1)
      (addi (fun i => lit0 (S120.rowMajor i)) (broadcastInDim S120 ![] bcast_S_S120 (constantI S_ 32 16#32)))
      (fun i => lit0 (S120.rowMajor i)))

/-- The same for the larger children. -/
def idxJ : IVec S120x1 32 :=
  broadcastInDim S120x1 ![0] bcast_S120_S120x1_0
    (select (constantI S120 1 0#1)
      (addi (fun i => lit1 (S120.rowMajor i)) (broadcastInDim S120 ![] bcast_S_S120 (constantI S_ 32 16#32)))
      (fun i => lit1 (S120.rowMajor i)))

section Stages
variable {F : FTy → Type} [FloatOps F]

/-- The first-level weights with a leading unit axis. -/
def lift1 (w1 : (⟨S16x256, .f32⟩ : BufTy).Contents (Elt F)) : (⟨S1x16x256, .f32⟩ : BufTy).Contents (Elt F) :=
  broadcastInDim S1x16x256 ![1, 2] bcast_S16x256_S1x16x256_1_2 w1

/-- Each node's largest weight (never below -∞). -/
def top1 (v : (⟨S1x16x256, .f32⟩ : BufTy).Contents (Elt F)) : (⟨S1x16, .f32⟩ : BufTy).Contents (Elt F) :=
  maximumf (broadcastInDim S1x16 ![] bcast_S_S1x16 (constant S_ .f32 0xFF800000#32))
    (Host.reduce FloatOps.maximumf v (constant S_ .f32 0xFF800000#32) reducesTo_S1x16x256_S1x16_d2 h_S_)

/-- The exponentials of the weights less their node's largest. -/
def exps1 (v : (⟨S1x16x256, .f32⟩ : BufTy).Contents (Elt F)) : (⟨S1x16x256, .f32⟩ : BufTy).Contents (Elt F) :=
  Host.exp (subf v (broadcastInDim S1x16x256 ![0, 1, 2] bcast_S1x16x1_S1x16x256_0_1_2
    (broadcastInDim S1x16x1 ![0, 1] bcast_S1x16_S1x16x1_0_1 (top1 v))))

/-- The first-level softmax: the exponentials over their node's sum. -/
def soft1 (v : (⟨S1x16x256, .f32⟩ : BufTy).Contents (Elt F)) : (⟨S1x16x256, .f32⟩ : BufTy).Contents (Elt F) :=
  Host.divf (exps1 v) (broadcastInDim S1x16x256 ![0, 1, 2] bcast_S1x16x1_S1x16x256_0_1_2
    (broadcastInDim S1x16x1 ![0, 1] bcast_S1x16_S1x16x1_0_1
      (Host.reduceAdd (exps1 v) (constant S_ .f32 0x00000000#32) reducesTo_S1x16x256_S1x16_d2 h_S_)))

/-- The largest root weight. -/
def top0 (w0 : (⟨S256, .f32⟩ : BufTy).Contents (Elt F)) : (⟨S_, .f32⟩ : BufTy).Contents (Elt F) :=
  maximumf (constant S_ .f32 0xFF800000#32)
    (Host.reduce FloatOps.maximumf w0 (constant S_ .f32 0xFF800000#32) reducesTo_S256_S_d0 h_S_)

def exps0 (w0 : (⟨S256, .f32⟩ : BufTy).Contents (Elt F)) : (⟨S256, .f32⟩ : BufTy).Contents (Elt F) :=
  Host.exp (subf w0 (broadcastInDim S256 ![0] bcast_S1_S256_0 (broadcastInDim S1 ![] bcast_S_S1 (top0 w0))))

/-- The root softmax. -/
def soft0 (w0 : (⟨S256, .f32⟩ : BufTy).Contents (Elt F)) : (⟨S256, .f32⟩ : BufTy).Contents (Elt F) :=
  Host.divf (exps0 w0) (broadcastInDim S256 ![0] bcast_S1_S256_0 (broadcastInDim S1 ![] bcast_S_S1
    (Host.reduceAdd (exps0 w0) (constant S_ .f32 0x00000000#32) reducesTo_S256_S_d0 h_S_)))

/-- A row's leaves as sixteen nodes of sixteen. -/
def nodes (x : (⟨S16384x256, .f32⟩ : BufTy).Contents (Elt F)) : (⟨S16384x16x16, .f32⟩ : BufTy).Contents (Elt F) :=
  shapeCast S16384x16x16 x shapeCasts_S16384x256_S16384x16x16

/-- The 256 features of every node: its children, the pairs' minima, the pairs' maxima. -/
def feats1 (y : (⟨S16384x16x16, .f32⟩ : BufTy).Contents (Elt F)) : (⟨S16384x16x256, .f32⟩ : BufTy).Contents (Elt F) :=
  concatenate S16384x16x256 2
    [⟨S16384x16x16, y⟩,
     ⟨S16384x16x120, minimumf (Host.gather gather_S16384x16x16_S120x1_S16384x16x120_01_2_n_n_2_1_16384161 y idxI)
        (Host.gather gather_S16384x16x16_S120x1_S16384x16x120_01_2_n_n_2_1_16384161 y idxJ)⟩,
     ⟨S16384x16x120, maximumf (Host.gather gather_S16384x16x16_S120x1_S16384x16x120_01_2_n_n_2_1_16384161 y idxI)
        (Host.gather gather_S16384x16x16_S120x1_S16384x16x120_01_2_n_n_2_1_16384161 y idxJ)⟩]
    concatenates_S16384x16x16_S16384x16x120_S16384x16x120_S16384x16x256_d2

/-- The node values: the features times the first-level softmax, summed. -/
def mids (y : (⟨S16384x16x16, .f32⟩ : BufTy).Contents (Elt F)) (A : (⟨S1x16x256, .f32⟩ : BufTy).Contents (Elt F)) :
    (⟨S16384x16, .f32⟩ : BufTy).Contents (Elt F) :=
  Host.reduceAdd (mulf (feats1 y) (broadcastInDim S16384x16x256 ![0, 1, 2] bcast_S1x16x256_S16384x16x256_0_1_2 A))
    (constant S_ .f32 0x00000000#32) reducesTo_S16384x16x256_S16384x16_d2 h_S_

/-- The 256 features of the root over a row's node values. -/
def feats0 (z : (⟨S16384x16, .f32⟩ : BufTy).Contents (Elt F)) : (⟨S16384x256, .f32⟩ : BufTy).Contents (Elt F) :=
  concatenate S16384x256 1
    [⟨S16384x16, z⟩,
     ⟨S16384x120, minimumf (Host.gather gather_S16384x16_S120x1_S16384x120_0_1_n_n_1_1_163841 z idxI)
        (Host.gather gather_S16384x16_S120x1_S16384x120_0_1_n_n_1_1_163841 z idxJ)⟩,
     ⟨S16384x120, maximumf (Host.gather gather_S16384x16_S120x1_S16384x120_0_1_n_n_1_1_163841 z idxI)
        (Host.gather gather_S16384x16_S120x1_S16384x120_0_1_n_n_1_1_163841 z idxJ)⟩]
    concatenates_S16384x16_S16384x120_S16384x120_S16384x256_d1

/-- The rows' results: the root's features times the root softmax, summed, as a column. -/
def outs (z : (⟨S16384x16, .f32⟩ : BufTy).Contents (Elt F)) (B : (⟨S256, .f32⟩ : BufTy).Contents (Elt F)) :
    (⟨S16384x1, .f32⟩ : BufTy).Contents (Elt F) :=
  broadcastInDim S16384x1 ![0] bcast_S16384_S16384x1_0
    (Host.reduceAdd (mulf (feats0 z) (broadcastInDim S16384x256 ![0, 1] bcast_S1x256_S16384x256_0_1
        (broadcastInDim S1x256 ![1] bcast_S256_S1x256_1 B)))
      (constant S_ .f32 0x00000000#32) reducesTo_S16384x256_S16384_d1 h_S_)

end Stages

end Cert.ReferenceIdeal.RefVal

end
-- ==== Proof.RefRead.lean ====
/-
  The reference's stages read at an index. A gather at a pair table reads the child the table names (the tables as
  numbers are the specification's IU and JU; the negative-index normalisation adds nothing, its mask being all false);
  the reshape puts leaf 16 k + j of a row at leaf j of node k; the concatenation of children, minima and maxima is the
  specification's 256 features; a sum over the last axis from the zero initial value is the plain sum. Together: a
  row's result is the two-level aggregate by pairs of the row, over whatever two weight arrays multiply the features.
-/
import proofs.«160799_j86620900426153_2_alg».proof.Proof.RefStages
import proofs.«160799_j86620900426153_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefVal

open Idealize.ShloMosaic ValueIdx Cert.ReferenceIdeal Cert.ReferenceIdeal.Gen

/-! ## The pair tables -/

/-- The first literal table, read as a signed number, is the smaller child of the pair. -/
theorem lit0_nat : ∀ p : Fin 120, (lit0 p).toInt.toNat = (Cert.Spec.IU p).val := by decide
/-- The second is the larger child. -/
theorem lit1_nat : ∀ p : Fin 120, (lit1 p).toInt.toNat = (Cert.Spec.JU p).val := by decide

/-- The start index the first column holds for pair p: the normalisation's mask is false everywhere, so the table's
    own entry. -/
theorem idxI_nat (p : Fin 120) : (idxI (ix2 p (0 : Fin 1))).toInt.toNat = (Cert.Spec.IU p).val := by
  unfold idxI
  rw [broadcastInDim_apply _ bcast_S120_S120x1_0 _ (ix2 p (0 : Fin 1)) (ix1 p)
    (fun a => match a with | ⟨0, _⟩ => by show p.val = if (120 : Nat) = 1 then 0 else p.val; rw [if_neg (by decide)])]
  rw [select_apply, constantI_apply, select_zero]
  have e : S120.rowMajor (ix1 p) = p := Fin.ext (Shape.rowMajor_val_one _)
  rw [e]
  exact lit0_nat p

theorem idxJ_nat (p : Fin 120) : (idxJ (ix2 p (0 : Fin 1))).toInt.toNat = (Cert.Spec.JU p).val := by
  unfold idxJ
  rw [broadcastInDim_apply _ bcast_S120_S120x1_0 _ (ix2 p (0 : Fin 1)) (ix1 p)
    (fun a => match a with | ⟨0, _⟩ => by show p.val = if (120 : Nat) = 1 then 0 else p.val; rw [if_neg (by decide)])]
  rw [select_apply, constantI_apply, select_zero]
  have e : S120.rowMajor (ix1 p) = p := Fin.ext (Shape.rowMajor_val_one _)
  rw [e]
  exact lit1_nat p

/-! ## The gathers: along the last axis, at a column of start indices -/

abbrev G3 := gather_S16384x16x16_S120x1_S16384x16x120_01_2_n_n_2_1_16384161
abbrev G2 := gather_S16384x16_S120x1_S16384x120_0_1_n_n_1_1_163841

theorem gather3_apply {α : Type} (y : S16384x16x16.Idx → α) (idx : IVec S120x1 32) (r : Fin 16384) (k : Fin 16) (p : Fin 120) (q : Fin 16)
    (hq : (idx (ix2 p (0 : Fin 1))).toInt.toNat = q.val) :
    Host.gather G3 y idx (ix3 r k p) = y (ix3 r k q) := by
  unfold Host.gather
  refine congrArg y (funext fun a => Fin.ext ?_)
  show G3.start (ix3 r k p) idx a + G3.batchCoord (ix3 r k p) a + G3.offCoord (ix3 r k p) a = (ix3 r k q a).val
  match a with
  | ⟨0, _⟩ =>
    show (0 : Nat) + 0 + r.val = r.val
    omega
  | ⟨1, _⟩ =>
    show (0 : Nat) + 0 + k.val = k.val
    omega
  | ⟨2, _⟩ =>
    have hsi : G3.siIdx (ix3 r k p) ⟨0, by decide⟩ = ix2 p (0 : Fin 1) := by
      funext b; refine Fin.ext ?_
      match b with
      | ⟨0, _⟩ => rfl
      | ⟨1, _⟩ => rfl
    show min (idx (G3.siIdx (ix3 r k p) ⟨0, by decide⟩)).toInt.toNat (16 - 1) + 0 + 0 = q.val
    rw [hsi, hq]
    have := q.isLt
    omega

theorem gather2_apply {α : Type} (z : S16384x16.Idx → α) (idx : IVec S120x1 32) (r : Fin 16384) (p : Fin 120) (q : Fin 16)
    (hq : (idx (ix2 p (0 : Fin 1))).toInt.toNat = q.val) :
    Host.gather G2 z idx (ix2 r p) = z (ix2 r q) := by
  unfold Host.gather
  refine congrArg z (funext fun a => Fin.ext ?_)
  show G2.start (ix2 r p) idx a + G2.batchCoord (ix2 r p) a + G2.offCoord (ix2 r p) a = (ix2 r q a).val
  match a with
  | ⟨0, _⟩ =>
    show (0 : Nat) + 0 + r.val = r.val
    omega
  | ⟨1, _⟩ =>
    have hsi : G2.siIdx (ix2 r p) ⟨0, by decide⟩ = ix2 p (0 : Fin 1) := by
      funext b; refine Fin.ext ?_
      match b with
      | ⟨0, _⟩ => rfl
      | ⟨1, _⟩ => rfl
    show min (idx (G2.siIdx (ix2 r p) ⟨0, by decide⟩)).toInt.toNat (16 - 1) + 0 + 0 = q.val
    rw [hsi, hq]
    have := q.isLt
    omega

/-! ## The reshape -/

/-- A row's leaves as nodes: leaf j of node k is leaf 16 k + j of the row. -/
theorem nodes_apply (x : (⟨S16384x256, .f32⟩ : BufTy).Contents (Elt Ideal)) (r : Fin 16384) (k j : Fin 16) :
    nodes (F := Ideal) x (ix3 r k j) = x (ix2 r ⟨16 * k.val + j.val, by omega⟩) := by
  unfold nodes
  refine shapeCast_apply x _ (ix3 r k j) (ix2 r ⟨16 * k.val + j.val, by omega⟩) ?_
  rw [Shape.rowMajor_val_two, Shape.rowMajor_val_three]
  show r.val * 256 + (16 * k.val + j.val) = (r.val * 16 + k.val) * 16 + j.val
  omega

/-! ## The features -/

/-- A node's 256 features are the specification's: children, pairwise minima, pairwise maxima of the node's leaves. -/
theorem feats1_apply (y : (⟨S16384x16x16, .f32⟩ : BufTy).Contents (Elt Ideal)) (r : Fin 16384) (k : Fin 16) (q : Fin 256) :
    feats1 (F := Ideal) y (ix3 r k q) = Cert.Spec.feat (fun j => y (ix3 r k j)) q := by
  unfold feats1 Cert.Spec.feat
  by_cases h1 : q.val < 16
  · rw [dif_pos h1]
    exact concatenate_apply_piece (2 : Fin 3) _ _ (ix3 r k q) 0 (by show (0 : Nat) < 3; omega) S16384x16x16 y rfl rfl 0 rfl (ix3 r k ⟨q.val, h1⟩)
      (fun b hb => match b with | ⟨0, _⟩ => rfl | ⟨1, _⟩ => rfl | ⟨2, _⟩ => absurd rfl hb) (by show 0 + q.val = q.val; omega)
  · rw [dif_neg h1]
    by_cases h2 : q.val < 136
    · rw [dif_pos h2]
      refine (concatenate_apply_piece (2 : Fin 3) _ _ (ix3 r k q) 1 (by show (1 : Nat) < 3; omega) S16384x16x120 _ rfl rfl 16 rfl
        (ix3 r k (⟨q.val - 16, by omega⟩ : Fin 120))
        (fun b hb => match b with | ⟨0, _⟩ => rfl | ⟨1, _⟩ => rfl | ⟨2, _⟩ => absurd rfl hb) (by show 16 + (q.val - 16) = q.val; omega)).trans ?_
      rw [minimumf_apply, gather3_apply y idxI r k _ _ (idxI_nat _), gather3_apply y idxJ r k _ _ (idxJ_nat _)]
    · rw [dif_neg h2]
      refine (concatenate_apply_piece (2 : Fin 3) _ _ (ix3 r k q) 2 (by show (2 : Nat) < 3; omega) S16384x16x120 _ rfl rfl 136 rfl
        (ix3 r k (⟨q.val - 136, by omega⟩ : Fin 120))
        (fun b hb => match b with | ⟨0, _⟩ => rfl | ⟨1, _⟩ => rfl | ⟨2, _⟩ => absurd rfl hb) (by show 136 + (q.val - 136) = q.val; omega)).trans ?_
      rw [maximumf_apply, gather3_apply y idxI r k _ _ (idxI_nat _), gather3_apply y idxJ r k _ _ (idxJ_nat _)]

/-- The root's 256 features over a row's node values, likewise. -/
theorem feats0_apply (z : (⟨S16384x16, .f32⟩ : BufTy).Contents (Elt Ideal)) (r : Fin 16384) (q : Fin 256) :
    feats0 (F := Ideal) z (ix2 r q) = Cert.Spec.feat (fun k => z (ix2 r k)) q := by
  unfold feats0 Cert.Spec.feat
  by_cases h1 : q.val < 16
  · rw [dif_pos h1]
    exact concatenate_apply_piece (1 : Fin 2) _ _ (ix2 r q) 0 (by show (0 : Nat) < 3; omega) S16384x16 z rfl rfl 0 rfl (ix2 r ⟨q.val, h1⟩)
      (fun b hb => match b with | ⟨0, _⟩ => rfl | ⟨1, _⟩ => absurd rfl hb) (by show 0 + q.val = q.val; omega)
  · rw [dif_neg h1]
    by_cases h2 : q.val < 136
    · rw [dif_pos h2]
      refine (concatenate_apply_piece (1 : Fin 2) _ _ (ix2 r q) 1 (by show (1 : Nat) < 3; omega) S16384x120 _ rfl rfl 16 rfl
        (ix2 r (⟨q.val - 16, by omega⟩ : Fin 120))
        (fun b hb => match b with | ⟨0, _⟩ => rfl | ⟨1, _⟩ => absurd rfl hb) (by show 16 + (q.val - 16) = q.val; omega)).trans ?_
      rw [minimumf_apply, gather2_apply z idxI r _ _ (idxI_nat _), gather2_apply z idxJ r _ _ (idxJ_nat _)]
    · rw [dif_neg h2]
      refine (concatenate_apply_piece (1 : Fin 2) _ _ (ix2 r q) 2 (by show (2 : Nat) < 3; omega) S16384x120 _ rfl rfl 136 rfl
        (ix2 r (⟨q.val - 136, by omega⟩ : Fin 120))
        (fun b hb => match b with | ⟨0, _⟩ => rfl | ⟨1, _⟩ => absurd rfl hb) (by show 136 + (q.val - 136) = q.val; omega)).trans ?_
      rw [maximumf_apply, gather2_apply z idxI r _ _ (idxI_nat _), gather2_apply z idxJ r _ _ (idxJ_nat _)]

/-! ## The weighted sums -/

/-- A node's value: the sum over its 256 features of feature times weight (the sum starts from zero). -/
theorem mids_apply (y : (⟨S16384x16x16, .f32⟩ : BufTy).Contents (Elt Ideal)) (A : (⟨S1x16x256, .f32⟩ : BufTy).Contents (Elt Ideal))
    (r : Fin 16384) (k : Fin 16) :
    mids (F := Ideal) y A (ix2 r k) = ∑ q : Fin 256, feats1 (F := Ideal) y (ix3 r k q) * A (ix3 (0 : Fin 1) k q) := by
  unfold mids
  simp only [Host.reduceAdd, Ideal.hostReduceAdd_def]
  rw [Ideal.hostReduceAdd_single reducesTo_S16384x16x256_S16384x16_d2 (by decide)]
  rw [constant_apply, Ideal.ofBits_zero_f32, zero_add]
  refine Finset.sum_congr rfl fun q _ => ?_
  rw [mulf_apply]
  refine congrArg₂ (· * ·) (congrArg _ (funext fun a => Fin.ext (by match a with | ⟨0, _⟩ => rfl | ⟨1, _⟩ => rfl | ⟨2, _⟩ => rfl))) ?_
  refine broadcastInDim_apply _ bcast_S1x16x256_S16384x16x256_0_1_2 A _ (ix3 (0 : Fin 1) k q) (fun a => ?_)
  match a with
  | ⟨0, _⟩ => show (0 : Nat) = if (1 : Nat) = 1 then 0 else _; rw [if_pos rfl]
  | ⟨1, _⟩ => show k.val = if (16 : Nat) = 1 then 0 else k.val; rw [if_neg (by decide)]
  | ⟨2, _⟩ => show q.val = if (256 : Nat) = 1 then 0 else q.val; rw [if_neg (by decide)]

/-- A row's result: the sum over the root's 256 features of feature times weight. -/
theorem outs_apply (z : (⟨S16384x16, .f32⟩ : BufTy).Contents (Elt Ideal)) (B : (⟨S256, .f32⟩ : BufTy).Contents (Elt Ideal))
    (r : Fin 16384) :
    outs (F := Ideal) z B (ix2 r (0 : Fin 1)) = ∑ q : Fin 256, feats0 (F := Ideal) z (ix2 r q) * B (ix1 q) := by
  unfold outs
  rw [broadcastInDim_apply _ bcast_S16384_S16384x1_0 _ (ix2 r (0 : Fin 1)) (ix1 r)
    (fun a => match a with | ⟨0, _⟩ => by show r.val = if (16384 : Nat) = 1 then 0 else r.val; rw [if_neg (by decide)])]
  simp only [Host.reduceAdd, Ideal.hostReduceAdd_def]
  rw [Ideal.hostReduceAdd_single reducesTo_S16384x256_S16384_d1 (by decide)]
  rw [constant_apply, Ideal.ofBits_zero_f32, zero_add]
  refine Finset.sum_congr rfl fun q _ => ?_
  rw [mulf_apply]
  refine congrArg₂ (· * ·) (congrArg _ (funext fun a => Fin.ext (by match a with | ⟨0, _⟩ => rfl | ⟨1, _⟩ => rfl))) ?_
  refine (broadcastInDim_apply _ bcast_S1x256_S16384x256_0_1 _ _ (ix2 (0 : Fin 1) q) (fun a => ?_)).trans
    (broadcastInDim_apply _ bcast_S256_S1x256_1 B _ (ix1 q) (fun a => ?_))
  · match a with
    | ⟨0, _⟩ => show (0 : Nat) = if (1 : Nat) = 1 then 0 else _; rw [if_pos rfl]
    | ⟨1, _⟩ => show q.val = if (256 : Nat) = 1 then 0 else q.val; rw [if_neg (by decide)]
  · match a with
    | ⟨0, _⟩ => show q.val = if (256 : Nat) = 1 then 0 else q.val; rw [if_neg (by decide)]

/-! ## The whole reference at a row -/

/-- Row r of the result is the two-level aggregate by pairs of row r of x, over the weight arrays A (first level) and
    B (root) that multiply the features. -/
theorem outs_mids_nodes_apply (x : (⟨S16384x256, .f32⟩ : BufTy).Contents (Elt Ideal))
    (A : (⟨S1x16x256, .f32⟩ : BufTy).Contents (Elt Ideal)) (B : (⟨S256, .f32⟩ : BufTy).Contents (Elt Ideal)) (r : Fin 16384) :
    outs (F := Ideal) (mids (nodes x) A) B (ix2 r (0 : Fin 1))
      = Cert.Spec.refOut (fun p => x (ix2 r p)) (fun k q => A (ix3 (0 : Fin 1) k q)) (fun q => B (ix1 q)) := by
  rw [outs_apply]
  unfold Cert.Spec.refOut Cert.Spec.ci
  refine Finset.sum_congr rfl fun q _ => ?_
  rw [feats0_apply]
  refine congrArg (fun y => Cert.Spec.feat y q * B (ix1 q)) (funext fun k => ?_)
  rw [mids_apply]
  refine Finset.sum_congr rfl fun q' _ => ?_
  rw [feats1_apply]
  refine congrArg (fun y => Cert.Spec.feat y q' * A (ix3 (0 : Fin 1) k q')) (funext fun j => ?_)
  exact nodes_apply x r k j

end Cert.ReferenceIdeal.RefVal

end
-- ==== Proof.RefVal.lean ====
/-
  What the reference computes, index by index. The reference reshapes each row of x into sixteen nodes of sixteen
  leaves, gathers the 120 pairs of leaves of every node at the two literal pair tables, takes their minima and maxima,
  lays children, minima and maxima side by side as 256 features per node, multiplies by the softmax of the first-level
  weights and sums: the sixteen node values of the row. The same once more over the node values with the softmax of
  the root weights gives the row's result. The run's buffers are the stage terms by unfolding the fold of the 75
  operations; read at an index, the row's result is the two-level aggregate by pairs of the specification, over the two
  softmax arrays as the run leaves them.
-/
import proofs.«160799_j86620900426153_2_alg».proof.Proof.RefRun
import proofs.«160799_j86620900426153_2_alg».proof.Proof.RefRead

set_option maxRecDepth 16384

noncomputable section

namespace Cert.ReferenceIdeal.RefVal

open Idealize.ShloMosaic Idealize.ShloMosaic.TcCoe Idealize.SL.Sem Idealize.ShloMosaic.StableHlo ValueIdx Cert.ReferenceIdeal Cert.ReferenceIdeal.Gen Cert.ReferenceIdeal.RefOps Cert.ReferenceIdeal.RefRun

variable (m : (ℓ : Loc nD τ sig) → Buf (Elt Ideal) ℓ) (c : Dev nD)

/-- The reference's two softmax arrays after its run. -/
def W1 : S1x16x256.Idx → EReal := after (ops (F := Ideal)) (launchContents m c) (Proc.devRef .tc main_v25)
def W0 : S256.Idx → EReal := after (ops (F := Ideal)) (launchContents m c) (Proc.devRef .tc main_v51)

/-! ## The run's buffers are the stage terms -/

theorem W1_eq : W1 m c = soft1 (F := Ideal) (lift1 (m ((c.tc : Thread nD τ).loc main_arg1))) := by
  unfold W1
  after_results_simp <;> rfl

theorem W0_eq : W0 m c = soft0 (F := Ideal) (m ((c.tc : Thread nD τ).loc main_arg2)) := by
  unfold W0
  after_results_simp <;> rfl

set_option maxHeartbeats 8000000 in
theorem result_eq : (RefRun.result (F := Ideal) m c : S16384x1.Idx → EReal)
    = outs (F := Ideal) (mids (nodes (m ((c.tc : Thread nD τ).loc main_arg0))) (soft1 (lift1 (m ((c.tc : Thread nD τ).loc main_arg1)))))
        (soft0 (m ((c.tc : Thread nD τ).loc main_arg2))) := by
  unfold RefRun.result
  after_results_simp <;> rfl

/-! ## The result at a row -/

/-- Row i of the reference's result is the two-level aggregate by pairs of row i of x, over the two softmax arrays. -/
theorem result_apply (i : S16384x1.Idx) :
    (RefRun.result (F := Ideal) m c : S16384x1.Idx → EReal) i
      = Cert.Spec.refOut (fun p => (m ((c.tc : Thread nD τ).loc main_arg0) : S16384x256.Idx → EReal) (ix2 (i 0) p))
          (fun k q => W1 m c (ix3 (0 : Fin 1) k q)) (fun q => W0 m c (ix1 q)) := by
  have hi : i = ix2 (i 0) (0 : Fin 1) := (eq_ix2 i).trans (congrArg (ix2 (i 0)) (Fin.ext (Nat.lt_one_iff.mp (i 1).isLt)))
  rw [result_eq, ← W1_eq, ← W0_eq]
  refine Eq.trans (congrArg _ hi) ?_
  exact outs_mids_nodes_apply _ (W1 m c) (W0 m c) (i 0)

end Cert.ReferenceIdeal.RefVal

end
-- ==== Proof.SmRows.lean ====
/-
  The two programs' first-level softmax arrays, row by row. The reference takes the softmax of the 16 by 256 weights
  under a leading unit axis, the kernel's host prefix takes it of the 16 by 256 array itself; both subtract the row's
  largest entry (the maximum with -∞ of a max-reduction started at -∞), exponentiate, and divide by the row's sum
  (started at zero). Read at an index, each is the same function of the row's 256 weights.
-/
import proofs.«160799_j86620900426153_2_alg».proof.Proof.RefStages
import proofs.«160799_j86620900426153_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Softmax

open Idealize.ShloMosaic ValueIdx

/-- Minus infinity as the programs spell it. -/
abbrev NI : EReal := Ideal.ofBits .f32 0xFF800000#32

/-- The softmax of a row of 256 weights as both programs compute it: each weight less the row's largest (never below
    -∞), exponentiated, over the sum of the row's exponentials. -/
def rowSoftmax (u : Fin 256 → EReal) (q : Fin 256) : EReal :=
  Ideal.div (Ideal.exp (u q - max NI (Finset.univ.fold max NI u)))
    (∑ q' : Fin 256, Ideal.exp (u q' - max NI (Finset.univ.fold max NI u)))

/-! ## The reference's, under its leading unit axis -/

section Reference
open Cert.ReferenceIdeal Cert.ReferenceIdeal.Gen Cert.ReferenceIdeal.RefVal

theorem lift1_apply (w : (⟨S16x256, .f32⟩ : BufTy).Contents (Elt Ideal)) (k : Fin 16) (q : Fin 256) :
    lift1 (F := Ideal) w (ix3 (0 : Fin 1) k q) = w (ix2 k q) := by
  unfold lift1
  refine broadcastInDim_apply _ bcast_S16x256_S1x16x256_1_2 w _ (ix2 k q) (fun a => ?_)
  match a with
  | ⟨0, _⟩ => show k.val = if (16 : Nat) = 1 then 0 else k.val; rw [if_neg (by decide)]
  | ⟨1, _⟩ => show q.val = if (256 : Nat) = 1 then 0 else q.val; rw [if_neg (by decide)]

/-- Node k's largest weight. -/
theorem top1_apply (v : (⟨S1x16x256, .f32⟩ : BufTy).Contents (Elt Ideal)) (k : Fin 16) :
    top1 (F := Ideal) v (ix2 (0 : Fin 1) k) = max NI (Finset.univ.fold max NI (fun q' : Fin 256 => v (ix3 (0 : Fin 1) k q'))) := by
  unfold top1
  rw [maximumf_apply]
  refine congrArg₂ max ?_ ?_
  · exact (broadcastInDim_apply _ bcast_S_S1x16 _ _ ix0 (fun a => a.elim0)).trans (constant_apply _ _)
  · refine (Host.reduce_eq_fold_single (max : EReal → EReal → EReal) v _ reducesTo_S1x16x256_S1x16_d2 (by decide) h_S_ _).trans ?_
    refine congrArg₂ (Finset.univ.fold max) (constant_apply _ _) (funext fun q' => ?_)
    exact congrArg v (funext fun a => Fin.ext (by match a with | ⟨0, _⟩ => rfl | ⟨1, _⟩ => rfl | ⟨2, _⟩ => rfl))

/-- A column vector of node values spread back along the 256 weights of each node. -/
theorem spread1_apply (t : (⟨S1x16, .f32⟩ : BufTy).Contents (Elt Ideal)) (k : Fin 16) (q : Fin 256) :
    broadcastInDim S1x16x256 ![0, 1, 2] bcast_S1x16x1_S1x16x256_0_1_2
      (broadcastInDim S1x16x1 ![0, 1] bcast_S1x16_S1x16x1_0_1 t) (ix3 (0 : Fin 1) k q) = t (ix2 (0 : Fin 1) k) := by
  refine (broadcastInDim_apply _ bcast_S1x16x1_S1x16x256_0_1_2 _ _ (ix3 (0 : Fin 1) k (0 : Fin 1)) (fun a => ?_)).trans
    (broadcastInDim_apply _ bcast_S1x16_S1x16x1_0_1 t _ (ix2 (0 : Fin 1) k) (fun a => ?_))
  · match a with
    | ⟨0, _⟩ => show (0 : Nat) = if (1 : Nat) = 1 then 0 else _; rw [if_pos rfl]
    | ⟨1, _⟩ => show k.val = if (16 : Nat) = 1 then 0 else k.val; rw [if_neg (by decide)]
    | ⟨2, _⟩ => show (0 : Nat) = if (1 : Nat) = 1 then 0 else _; rw [if_pos rfl]
  · match a with
    | ⟨0, _⟩ => show (0 : Nat) = if (1 : Nat) = 1 then 0 else _; rw [if_pos rfl]
    | ⟨1, _⟩ => show k.val = if (16 : Nat) = 1 then 0 else k.val; rw [if_neg (by decide)]

theorem exps1_apply (v : (⟨S1x16x256, .f32⟩ : BufTy).Contents (Elt Ideal)) (k : Fin 16) (q : Fin 256) :
    exps1 (F := Ideal) v (ix3 (0 : Fin 1) k q)
      = Ideal.exp (v (ix3 (0 : Fin 1) k q) - max NI (Finset.univ.fold max NI (fun q' : Fin 256 => v (ix3 (0 : Fin 1) k q')))) := by
  unfold exps1
  show Ideal.exp (subf (F := Ideal) (φ := .f32) v _ (ix3 (0 : Fin 1) k q)) = _
  rw [subf_apply, spread1_apply, top1_apply]

/-- The reference's first-level softmax at node k, weight q: the softmax of node k's row. -/
theorem soft1_apply (v : (⟨S1x16x256, .f32⟩ : BufTy).Contents (Elt Ideal)) (k : Fin 16) (q : Fin 256) :
    soft1 (F := Ideal) v (ix3 (0 : Fin 1) k q) = rowSoftmax (fun q' => v (ix3 (0 : Fin 1) k q')) q := by
  unfold soft1 rowSoftmax
  show Ideal.div (exps1 (F := Ideal) v (ix3 (0 : Fin 1) k q)) _ = _
  rw [exps1_apply, spread1_apply]
  refine congrArg (Ideal.div _) ?_
  simp only [Host.reduceAdd, Ideal.hostReduceAdd_def]
  rw [Ideal.hostReduceAdd_single reducesTo_S1x16x256_S1x16_d2 (by decide)]
  rw [constant_apply, Ideal.ofBits_zero_f32, zero_add]
  refine Finset.sum_congr rfl fun q' _ => ?_
  refine Eq.trans (congrArg (exps1 (F := Ideal) v) (?_ : _ = ix3 (0 : Fin 1) k q')) (exps1_apply v k q')
  exact funext fun a => Fin.ext (by match a with | ⟨0, _⟩ => rfl | ⟨1, _⟩ => rfl | ⟨2, _⟩ => rfl)

end Reference

/-! ## The kernel's, on the 16 by 256 array -/

section Kernel
open Cert.KernelIdeal Cert.KernelIdeal.Gen

section Stages
variable {F : FTy → Type} [FloatOps F]

/-- Each node's largest weight (never below -∞). -/
def ktop1 (w : (⟨S16x256, .f32⟩ : BufTy).Contents (Elt F)) : (⟨S16, .f32⟩ : BufTy).Contents (Elt F) :=
  maximumf (broadcastInDim S16 ![] bcast_S_S16 (constant S_ .f32 0xFF800000#32))
    (Host.reduce FloatOps.maximumf w (constant S_ .f32 0xFF800000#32) reducesTo_S16x256_S16_d1 h_S_)

/-- The exponentials of the weights less their node's largest. -/
def kexps1 (w : (⟨S16x256, .f32⟩ : BufTy).Contents (Elt F)) : (⟨S16x256, .f32⟩ : BufTy).Contents (Elt F) :=
  Host.exp (subf w (broadcastInDim S16x256 ![0, 1] bcast_S16x1_S16x256_0_1 (broadcastInDim S16x1 ![0] bcast_S16_S16x1_0 (ktop1 w))))

/-- The kernel's first-level softmax table. -/
def ksoft1 (w : (⟨S16x256, .f32⟩ : BufTy).Contents (Elt F)) : (⟨S16x256, .f32⟩ : BufTy).Contents (Elt F) :=
  Host.divf (kexps1 w) (broadcastInDim S16x256 ![0, 1] bcast_S16x1_S16x256_0_1 (broadcastInDim S16x1 ![0] bcast_S16_S16x1_0
    (Host.reduceAdd (kexps1 w) (constant S_ .f32 0x00000000#32) reducesTo_S16x256_S16_d1 h_S_)))

end Stages

theorem ktop1_apply (w : (⟨S16x256, .f32⟩ : BufTy).Contents (Elt Ideal)) (k : Fin 16) :
    ktop1 (F := Ideal) w (ix1 k) = max NI (Finset.univ.fold max NI (fun q' : Fin 256 => w (ix2 k q'))) := by
  unfold ktop1
  rw [maximumf_apply]
  refine congrArg₂ max ?_ ?_
  · exact (broadcastInDim_apply _ bcast_S_S16 _ _ ix0 (fun a => a.elim0)).trans (constant_apply _ _)
  · refine (Host.reduce_eq_fold_single (max : EReal → EReal → EReal) w _ reducesTo_S16x256_S16_d1 (by decide) h_S_ _).trans ?_
    refine congrArg₂ (Finset.univ.fold max) (constant_apply _ _) (funext fun q' => ?_)
    exact congrArg w (funext fun a => Fin.ext (by match a with | ⟨0, _⟩ => rfl | ⟨1, _⟩ => rfl))

/-- A vector of node values spread back along the 256 weights of each node. -/
theorem kspread1_apply (t : (⟨S16, .f32⟩ : BufTy).Contents (Elt Ideal)) (k : Fin 16) (q : Fin 256) :
    broadcastInDim S16x256 ![0, 1] bcast_S16x1_S16x256_0_1 (broadcastInDim S16x1 ![0] bcast_S16_S16x1_0 t) (ix2 k q) = t (ix1 k) := by
  refine (broadcastInDim_apply _ bcast_S16x1_S16x256_0_1 _ _ (ix2 k (0 : Fin 1)) (fun a => ?_)).trans
    (broadcastInDim_apply _ bcast_S16_S16x1_0 t _ (ix1 k) (fun a => ?_))
  · match a with
    | ⟨0, _⟩ => show k.val = if (16 : Nat) = 1 then 0 else k.val; rw [if_neg (by decide)]
    | ⟨1, _⟩ => show (0 : Nat) = if (1 : Nat) = 1 then 0 else _; rw [if_pos rfl]
  · match a with
    | ⟨0, _⟩ => show k.val = if (16 : Nat) = 1 then 0 else k.val; rw [if_neg (by decide)]

theorem kexps1_apply (w : (⟨S16x256, .f32⟩ : BufTy).Contents (Elt Ideal)) (k : Fin 16) (q : Fin 256) :
    kexps1 (F := Ideal) w (ix2 k q) = Ideal.exp (w (ix2 k q) - max NI (Finset.univ.fold max NI (fun q' : Fin 256 => w (ix2 k q')))) := by
  unfold kexps1
  show Ideal.exp (subf (F := Ideal) (φ := .f32) w _ (ix2 k q)) = _
  rw [subf_apply, kspread1_apply, ktop1_apply]

/-- The kernel's first-level softmax table at node k, weight q: the softmax of node k's row. -/
theorem ksoft1_apply (w : (⟨S16x256, .f32⟩ : BufTy).Contents (Elt Ideal)) (k : Fin 16) (q : Fin 256) :
    ksoft1 (F := Ideal) w (ix2 k q) = rowSoftmax (fun q' => w (ix2 k q')) q := by
  unfold ksoft1 rowSoftmax
  show Ideal.div (kexps1 (F := Ideal) w (ix2 k q)) _ = _
  rw [kexps1_apply, kspread1_apply]
  refine congrArg (Ideal.div _) ?_
  simp only [Host.reduceAdd, Ideal.hostReduceAdd_def]
  rw [Ideal.hostReduceAdd_single reducesTo_S16x256_S16_d1 (by decide)]
  rw [constant_apply, Ideal.ofBits_zero_f32, zero_add]
  refine Finset.sum_congr rfl fun q' _ => ?_
  refine Eq.trans (congrArg (kexps1 (F := Ideal) w) (?_ : _ = ix2 k q')) (kexps1_apply w k q')
  exact funext fun a => Fin.ext (by match a with | ⟨0, _⟩ => rfl | ⟨1, _⟩ => rfl)

end Kernel

/-! ## The two agree -/

/-- Over the same 16 by 256 weights the reference's array under its unit axis and the kernel's table hold the same
    numbers. -/
theorem soft1_lift1_eq_ksoft1 (w : (⟨Cert.KernelIdeal.S16x256, .f32⟩ : BufTy).Contents (Elt Ideal)) (k : Fin 16) (q : Fin 256) :
    Cert.ReferenceIdeal.RefVal.soft1 (F := Ideal) (Cert.ReferenceIdeal.RefVal.lift1 w) (ix3 (0 : Fin 1) k q) = ksoft1 (F := Ideal) w (ix2 k q) := by
  rw [soft1_apply, ksoft1_apply]
  exact congrArg (rowSoftmax · q) (funext fun q' => lift1_apply w k q')

end Cert.Softmax

end
-- ==== Proof.Softmax.lean ====
/-
  The two softmax arrays of the two programs hold the same numbers. The kernel's host prefix computes the root softmax
  by the very chain of operations the reference uses, over the same shape, so the two arrays are one term of the root
  weights; the first-level softmax the kernel takes of the 16 by 256 weights and the reference of the same weights under
  a leading unit axis, and row by row both are the softmax of the row.
-/
import proofs.«160799_j86620900426153_2_alg».proof.Proof.KiKeepSm
import proofs.«160799_j86620900426153_2_alg».proof.Proof.RefVal
import proofs.«160799_j86620900426153_2_alg».proof.Proof.SmRows

set_option maxRecDepth 16384

noncomputable section

namespace Cert.Softmax

open Idealize.ShloMosaic Idealize.ShloMosaic.TcCoe ValueIdx

/-! ## The kernel's two arrays as terms of the weights -/

section Kernel
open Cert.KernelIdeal Cert.KernelIdeal.Gen Idealize.ShloMosaic.StableHlo

variable (m : (ℓ : Loc nD τ sig) → Buf (Elt Ideal) ℓ) (c : Dev nD)

set_option maxHeartbeats 4000000 in
/-- The kernel's root softmax array is the reference's chain of operations applied to the root weights. -/
theorem kernel_root : (Cert.KernelIdeal.Hand.V (F := Ideal) m c main_v23 : S256.Idx → EReal)
    = Cert.ReferenceIdeal.RefVal.soft0 (F := Ideal) (m ((c.tc : Thread nD τ).loc main_arg2)) := by
  refine (Cert.KernelIdeal.Hand.V_v23 m c).trans ?_
  dsimp only [hostOps0]
  after_results_simp <;> rfl

set_option maxHeartbeats 4000000 in
/-- The kernel's first-level softmax table is the softmax chain over the 16 by 256 weights. -/
theorem kernel_level1 : (Cert.KernelIdeal.Hand.V (F := Ideal) m c main_v10 : S16x256.Idx → EReal)
    = ksoft1 (F := Ideal) (m ((c.tc : Thread nD τ).loc main_arg1)) := by
  refine (Cert.KernelIdeal.Hand.V_v10 m c).trans ?_
  dsimp only [hostOps0]
  after_results_simp <;> rfl

end Kernel

/-! ## The two programs' arrays agree -/

theorem sm0_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (q : Fin 256) :
    Cert.ReferenceIdeal.RefVal.W0 m' c (ix1 q) = (Cert.KernelIdeal.Hand.V (F := Ideal) m c Cert.KernelIdeal.main_v23 : Cert.KernelIdeal.S256.Idx → EReal) (ix1 q) := by
  rw [Cert.ReferenceIdeal.RefVal.W0_eq, kernel_root, h]

theorem sm1_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (k : Fin 16) (q : Fin 256) :
    Cert.ReferenceIdeal.RefVal.W1 m' c (ix3 (0 : Fin 1) k q) = (Cert.KernelIdeal.Hand.V (F := Ideal) m c Cert.KernelIdeal.main_v10 : Cert.KernelIdeal.S16x256.Idx → EReal) (ix2 k q) := by
  rw [Cert.ReferenceIdeal.RefVal.W1_eq, kernel_level1, h]
  exact soft1_lift1_eq_ksoft1 _ k q

end Cert.Softmax

end
-- ==== Proof.Bridge.lean ====
/-
  The value equation between the two idealized programs: the root values the reference computes from its 256 features per
  node — the sixteen child values, the 120 pairwise minima and the 120 pairwise maxima, weighted by a softmax — are the root
  values the kernel computes lane by lane from rolled copies of each row against weight tables laid out by shift. Each
  unordered pair (i, j) with i < j of a node's sixteen children is met exactly once on the kernel's side: at lane j under
  shift j - i; the lanes a shift wraps across a node boundary carry weight zero. The pieces: the kernel's result array row by
  row in the by-shifts arrangement over the arrays its region finds; those arrays as entries of the two softmax arrays;
  the identity between the two arrangements; the reference's result row by row in the by-pairs arrangement over its own two
  softmax arrays; and the two programs' softmax arrays entry by entry.
-/
import proofs.«160799_j86620900426153_2_alg».proof.Defs
import proofs.«160799_j86620900426153_2_alg».proof.Proof.KiVal
import proofs.«160799_j86620900426153_2_alg».proof.Proof.SpecId
import proofs.«160799_j86620900426153_2_alg».proof.Proof.RefRun
import proofs.«160799_j86620900426153_2_alg».proof.Proof.KiTab1
import proofs.«160799_j86620900426153_2_alg».proof.Proof.KiTab0
import proofs.«160799_j86620900426153_2_alg».proof.Proof.Softmax
import proofs.«160799_j86620900426153_2_alg».proof.Proof.Gen.KernelIdeal
import proofs.«160799_j86620900426153_2_alg».proof.Proof.Gen.ReferenceIdeal
import proofs.«160799_j86620900426153_2_alg».proof.Proof.Gen.Pre_finite_inputs

set_option maxRecDepth 16384

noncomputable section

namespace Cert.Bridge

open Idealize.ShloMosaic Idealize.ShloMosaic.TcCoe Idealize.SL.Sem ValueIdx

/-- The value equation from its pieces: the seven table arrays entry by entry in terms of two softmax index functions, the
    reference's result row by row in terms of two others, and the two pairs equal. -/
theorem result_eq_of (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (wn1 : Fin 16 → Fin 256 → EReal) (wn0 : Fin 256 → EReal)
    (hx : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (hA1 : ∀ p : Fin 256, (Cert.KernelIdeal.Hand.V (F := Ideal) m c Cert.KernelIdeal.main_v27 : Cert.KernelIdeal.S1x256.Idx → EReal) (ix2 (0 : Fin 1) p) = Cert.Spec.a1 wn1 p)
    (hB1 : ∀ (s : Fin 15) (p : Fin 256), (Cert.KernelIdeal.Hand.V (F := Ideal) m c Cert.KernelIdeal.main_v120 : Cert.KernelIdeal.S15x256.Idx → EReal) (ix2 s p) = Cert.Spec.b1 wn1 s p)
    (hC1 : ∀ (s : Fin 15) (p : Fin 256), (Cert.KernelIdeal.Hand.V (F := Ideal) m c Cert.KernelIdeal.main_v121 : Cert.KernelIdeal.S15x256.Idx → EReal) (ix2 s p) = Cert.Spec.c1 wn1 s p)
    (hG : ∀ (p : Fin 256) (k : Fin 16), (Cert.KernelIdeal.Hand.V (F := Ideal) m c Cert.KernelIdeal.main_cst : Cert.KernelIdeal.S256x16.Idx → EReal) (ix2 p k) = Cert.Spec.g p k)
    (hA0 : ∀ k : Fin 16, (Cert.KernelIdeal.Hand.V (F := Ideal) m c Cert.KernelIdeal.main_v122 : Cert.KernelIdeal.S1x16.Idx → EReal) (ix2 (0 : Fin 1) k) = Cert.Spec.a0 wn0 k)
    (hB0 : ∀ (s : Fin 15) (k : Fin 16), (Cert.KernelIdeal.Hand.V (F := Ideal) m c Cert.KernelIdeal.main_v198 : Cert.KernelIdeal.S15x16.Idx → EReal) (ix2 s k) = Cert.Spec.b0 wn0 s k)
    (hC0 : ∀ (s : Fin 15) (k : Fin 16), (Cert.KernelIdeal.Hand.V (F := Ideal) m c Cert.KernelIdeal.main_v214 : Cert.KernelIdeal.S15x16.Idx → EReal) (ix2 s k) = Cert.Spec.c0 wn0 s k)
    (hR : ∀ i : Cert.ReferenceIdeal.S16384x1.Idx, (Cert.ReferenceIdeal.RefRun.result (F := Ideal) m' c : Cert.ReferenceIdeal.S16384x1.Idx → EReal) i
      = Cert.Spec.refOut (fun p => (m' ((c.tc : Thread Cert.ReferenceIdeal.nD Cert.ReferenceIdeal.τ).loc Cert.ReferenceIdeal.main_arg0) : Cert.ReferenceIdeal.S16384x256.Idx → EReal) (ix2 (i 0) p)) wn1 wn0) :
    Cert.ReferenceIdeal.RefRun.result (F := Ideal) m' c = (Cert.KernelIdeal.Hand.dats (F := Ideal) m 0 c).arrAt 8 Cert.KernelIdeal.cfg0.N := by
  rw [Cert.KernelIdeal.Val.final]
  funext i
  rw [hR i]
  show _ = Cert.KernelIdeal.Val.GKrow m c ⟨(i 0).val, (i 0).isLt⟩
  unfold Cert.KernelIdeal.Val.GKrow
  simp only [hA1, hB1, hC1, hG, hA0, hB0, hC0]
  rw [Cert.KernelIdeal.Hand.V_main_arg0, ← hx]
  exact (Cert.Spec.ker_eq_ref _ wn1 wn0).symm

/-- The reference's result array is the kernel's, from memories that agree on the three arguments. -/
theorem result_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev Cert.KernelIdeal.nD) :
    Cert.ReferenceIdeal.RefRun.result (F := Ideal) m' c = (Cert.KernelIdeal.Hand.dats (F := Ideal) m 0 c).arrAt 8 Cert.KernelIdeal.cfg0.N :=
  result_eq_of m m' c (Cert.KernelIdeal.Tab1.wn1 m c) (Cert.KernelIdeal.Tab0.wn0 m c) (hagree c).1
    (Cert.KernelIdeal.Tab1.V_aflat m c) (Cert.KernelIdeal.Tab1.V_bmat1 m c) (Cert.KernelIdeal.Tab1.V_cmat1 m c) (Cert.KernelIdeal.Tab1.V_gmat m c)
    (Cert.KernelIdeal.Tab0.V_aflat0 m c) (Cert.KernelIdeal.Tab0.V_bmat0 m c) (Cert.KernelIdeal.Tab0.V_cmat0 m c)
    (fun i => by
      rw [Cert.ReferenceIdeal.RefVal.result_apply m' c i]
      have h1 : (fun (k : Fin 16) (q : Fin 256) => Cert.ReferenceIdeal.RefVal.W1 m' c (ix3 (0 : Fin 1) k q)) = Cert.KernelIdeal.Tab1.wn1 m c :=
        funext fun k => funext fun q => Cert.Softmax.sm1_eq m m' c (hagree c).2.1 k q
      have h0 : (fun (q : Fin 256) => Cert.ReferenceIdeal.RefVal.W0 m' c (ix1 q)) = Cert.KernelIdeal.Tab0.wn0 m c :=
        funext fun q => Cert.Softmax.sm0_eq m m' c (hagree c).2.2 q
      rw [h1, h0])

end Cert.Bridge

end
-- ==== Proof.lean ====
/-
  The certificate of the two-level Choquet aggregation kernel against its reference. The kernel streams the 16384 rows of
  leaf utilities through a grid of eight tiles of 2048 rows; per row it forms, for each of the 256 leaves, the leaf term
  and fifteen rolled minimum and maximum terms against weight tables prepared on the host, sums each node's sixteen lanes by
  a product with a 0/1 matrix, repeats the construction over the sixteen node values, and sums to the root. The reference
  computes the same two-level aggregate from explicit pair gathers. The three frames say each program terminates, faults
  nowhere and leaves its three arguments as launched; the idealization rewrote nothing; the value claim is the bridge.
-/
import proofs.«160799_j86620900426153_2_alg».proof.Defs
import proofs.«160799_j86620900426153_2_alg».proof.Proof.Gen.Kernel
import proofs.«160799_j86620900426153_2_alg».proof.Proof.Gen.KernelIdeal
import proofs.«160799_j86620900426153_2_alg».proof.Proof.Gen.ReferenceIdeal
import proofs.«160799_j86620900426153_2_alg».proof.Proof.Gen.Pre_finite_inputs
import proofs.«160799_j86620900426153_2_alg».proof.Proof.KbBody
import proofs.«160799_j86620900426153_2_alg».proof.Proof.KiBody
import proofs.«160799_j86620900426153_2_alg».proof.Proof.RefRun
import proofs.«160799_j86620900426153_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation: nothing to preserve. -/
theorem preserves : Cert.preserves_Kernel_KernelIdeal := trivial

/-- Both idealized programs run; the kernel's result array is named by its frame run, and the reference's result is that
    array by the value equation. -/
theorem algebraic : Cert.algebraic_KernelIdeal_ReferenceIdeal := by
  intro m ρ m' ρ' hpre hagree
  refine ⟨fun c => (Cert.KernelIdeal.Hand.dats (F := Ideal) m 0 c).arrAt 8 Cert.KernelIdeal.cfg0.N,
    Cert.KernelIdeal.Hand.run_blocks m ρ, ?_⟩
  exact (θ_run Cert.ReferenceIdeal.defs _ _).mono
    (fun _ h c => ⟨(h c).1.trans (Cert.Bridge.result_eq m m' hpre hagree c), (h c).2⟩)
    (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
